-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  main_v3
-- ==== Kernel.lean ====
abbrev S4096x4096 : Shape := ⟨2, ![4096, 4096]⟩
abbrev S4x4096 : Shape := ⟨2, ![4, 4096]⟩
abbrev S_ : Shape := ⟨0, ![]⟩
abbrev S1x16 : Shape := ⟨2, ![1, 16]⟩
abbrev S16 : Shape := ⟨1, ![16]⟩

abbrev nBuf : Table → Nat
  | .hbm => 2
  | .local .scVector .vmem => 6
  | _ => 0

abbrev bufTy : (tb : Table) → Fin (nBuf tb) → BufTy
  | .hbm, ⟨0, _⟩ => ⟨S4096x4096, .f32⟩
  | .hbm, ⟨1, _⟩ => ⟨S4096x4096, .f32⟩
  | .local .scVector .vmem, ⟨0, _⟩ => ⟨S4x4096, .f32⟩
  | .local .scVector .vmem, ⟨1, _⟩ => ⟨S4x4096, .f32⟩
  | .local .scVector .vmem, ⟨2, _⟩ => ⟨S4x4096, .f32⟩
  | .local .scVector .vmem, ⟨3, _⟩ => ⟨S4x4096, .f32⟩
  | .local .scVector .vmem, ⟨4, _⟩ => ⟨S4x4096, .f32⟩
  | .local .scVector .vmem, ⟨5, _⟩ => ⟨S4x4096, .f32⟩
  | _, _ => ⟨S4096x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c0_i32_0 : BitVec 32 := 0#32
  ![v3.toNat, 0]
@[reducible] def k0_t1_loop : Scf.Loop 32 :=
  let c0_i32_9 : BitVec 32 := 0#32
  let c256_i32 : BitVec 32 := 256#32
  let v14 : BitVec 32 := Scalar.addi c0_i32_9 c256_i32
  let c1_i32 : BitVec 32 := 1#32
  ⟨c0_i32_9, v14, c1_i32⟩
def k0_off2 (k0_t1 : Fin k0_t1_loop.trips) : Fin 2 → Nat :=
  let c0_i32_447 : BitVec 32 := 0#32
  let v356 : Index := Scalar.indexCast c0_i32_447
  let c0_i32_9 : BitVec 32 := 0#32
  let c1_i32 : BitVec 32 := 1#32
  let arg16 : BitVec 32 := Scf.iv c0_i32_9 c1_i32 k0_t1
  let c16_i32_446 : BitVec 32 := 16#32
  let v355 : BitVec 32 := Scalar.muli arg16 c16_i32_446
  let v357 : Index := Scalar.indexCast v355
  ![0, v357.toNat]
def k0_off3 (k0_t1 : Fin k0_t1_loop.trips) : Fin 2 → Nat :=
  let c1_i32_450 : BitVec 32 := 1#32
  let v369 : Index := Scalar.indexCast c1_i32_450
  let c0_i32_9 : BitVec 32 := 0#32
  let c1_i32 : BitVec 32 := 1#32
  let arg16 : BitVec 32 := Scf.iv c0_i32_9 c1_i32 k0_t1
  let c16_i32_446 : BitVec 32 := 16#32
  let v355 : BitVec 32 := Scalar.muli arg16 c16_i32_446
  let v370 : Index := Scalar.indexCast v355
  ![1, v370.toNat]
def k0_off4 (k0_t1 : Fin k0_t1_loop.trips) : Fin 2 → Nat :=
  let c2_i32_454 : BitVec 32 := 2#32
  let v382 : Index := Scalar.indexCast c2_i32_454
  let c0_i32_9 : BitVec 32 := 0#32
  let c1_i32 : BitVec 32 := 1#32
  let arg16 : BitVec 32 := Scf.iv c0_i32_9 c1_i32 k0_t1
  let c16_i32_446 : BitVec 32 := 16#32
  let v355 : BitVec 32 := Scalar.muli arg16 c16_i32_446
  let v383 : Index := Scalar.indexCast v355
  ![2, v383.toNat]
def k0_off5 (k0_t1 : Fin k0_t1_loop.trips) : Fin 2 → Nat :=
  let c3_i32 : BitVec 32 := 3#32
  let v395 : Index := Scalar.indexCast c3_i32
  let c0_i32_9 : BitVec 32 := 0#32
  let c1_i32 : BitVec 32 := 1#32
  let arg16 : BitVec 32 := Scf.iv c0_i32_9 c1_i32 k0_t1
  let c16_i32_446 : BitVec 32 := 16#32
  let v355 : BitVec 32 := Scalar.muli arg16 c16_i32_446
  let v396 : Index := Scalar.indexCast v355
  ![3, v396.toNat]
@[reducible] def k0_t2_loop : Scf.Loop 32 :=
  let c0_i32_19 : BitVec 32 := 0#32
  let c256_i32_20 : BitVec 32 := 256#32
  let v23 : BitVec 32 := Scalar.addi c0_i32_19 c256_i32_20
  let c1_i32_21 : BitVec 32 := 1#32
  ⟨c0_i32_19, v23, c1_i32_21⟩
def k0_off6 (k0_t2 : Fin k0_t2_loop.trips) : Fin 2 → Nat :=
  let c0_i32_447 : BitVec 32 := 0#32
  let v356 : Index := Scalar.indexCast c0_i32_447
  let c0_i32_19 : BitVec 32 := 0#32
  let c1_i32_21 : BitVec 32 := 1#32
  let arg16 : BitVec 32 := Scf.iv c0_i32_19 c1_i32_21 k0_t2
  let c16_i32_446 : BitVec 32 := 16#32
  let v355 : BitVec 32 := Scalar.muli arg16 c16_i32_446
  let v357 : Index := Scalar.indexCast v355
  ![0, v357.toNat]
def k0_off7 (k0_t2 : Fin k0_t2_loop.trips) : Fin 2 → Nat :=
  let c1_i32_450 : BitVec 32 := 1#32
  let v369 : Index := Scalar.indexCast c1_i32_450
  let c0_i32_19 : BitVec 32 := 0#32
  let c1_i32_21 : BitVec 32 := 1#32
  let arg16 : BitVec 32 := Scf.iv c0_i32_19 c1_i32_21 k0_t2
  let c16_i32_446 : BitVec 32 := 16#32
  let v355 : BitVec 32 := Scalar.muli arg16 c16_i32_446
  let v370 : Index := Scalar.indexCast v355
  ![1, v370.toNat]
def k0_off8 (k0_t2 : Fin k0_t2_loop.trips) : Fin 2 → Nat :=
  let c2_i32_454 : BitVec 32 := 2#32
  let v382 : Index := Scalar.indexCast c2_i32_454
  let c0_i32_19 : BitVec 32 := 0#32
  let c1_i32_21 : BitVec 32 := 1#32
  let arg16 : BitVec 32 := Scf.iv c0_i32_19 c1_i32_21 k0_t2
  let c16_i32_446 : BitVec 32 := 16#32
  let v355 : BitVec 32 := Scalar.muli arg16 c16_i32_446
  let v383 : Index := Scalar.indexCast v355
  ![2, v383.toNat]
def k0_off9 (k0_t2 : Fin k0_t2_loop.trips) : Fin 2 → Nat :=
  let c3_i32 : BitVec 32 := 3#32
  let v395 : Index := Scalar.indexCast c3_i32
  let c0_i32_19 : BitVec 32 := 0#32
  let c1_i32_21 : BitVec 32 := 1#32
  let arg16 : BitVec 32 := Scf.iv c0_i32_19 c1_i32_21 k0_t2
  let c16_i32_446 : BitVec 32 := 16#32
  let v355 : BitVec 32 := Scalar.muli arg16 c16_i32_446
  let v396 : Index := Scalar.indexCast v355
  ![3, v396.toNat]
@[reducible] def k0_t3_loop : Scf.Loop 32 :=
  let c0_i32_31 : BitVec 32 := 0#32
  let c256_i32_32 : BitVec 32 := 256#32
  let v32 : BitVec 32 := Scalar.addi c0_i32_31 c256_i32_32
  let c1_i32_33 : BitVec 32 := 1#32
  ⟨c0_i32_31, v32, c1_i32_33⟩
def k0_off10 (k0_t3 : Fin k0_t3_loop.trips) : Fin 2 → Nat :=
  let c0_i32_447 : BitVec 32 := 0#32
  let v356 : Index := Scalar.indexCast c0_i32_447
  let c0_i32_31 : BitVec 32 := 0#32
  let c1_i32_33 : BitVec 32 := 1#32
  let arg16 : BitVec 32 := Scf.iv c0_i32_31 c1_i32_33 k0_t3
  let c16_i32_446 : BitVec 32 := 16#32
  let v355 : BitVec 32 := Scalar.muli arg16 c16_i32_446
  let v357 : Index := Scalar.indexCast v355
  ![0, v357.toNat]
def k0_off11 (k0_t3 : Fin k0_t3_loop.trips) : Fin 2 → Nat :=
  let c1_i32_450 : BitVec 32 := 1#32
  let v369 : Index := Scalar.indexCast c1_i32_450
  let c0_i32_31 : BitVec 32 := 0#32
  let c1_i32_33 : BitVec 32 := 1#32
  let arg16 : BitVec 32 := Scf.iv c0_i32_31 c1_i32_33 k0_t3
  let c16_i32_446 : BitVec 32 := 16#32
  let v355 : BitVec 32 := Scalar.muli arg16 c16_i32_446
  let v370 : Index := Scalar.indexCast v355
  ![1, v370.toNat]
def k0_off12 (k0_t3 : Fin k0_t3_loop.trips) : Fin 2 → Nat :=
  let c2_i32_454 : BitVec 32 := 2#32
  let v382 : Index := Scalar.indexCast c2_i32_454
  let c0_i32_31 : BitVec 32 := 0#32
  let c1_i32_33 : BitVec 32 := 1#32
  let arg16 : BitVec 32 := Scf.iv c0_i32_31 c1_i32_33 k0_t3
  let c16_i32_446 : BitVec 32 := 16#32
  let v355 : BitVec 32 := Scalar.muli arg16 c16_i32_446
  let v383 : Index := Scalar.indexCast v355
  ![2, v383.toNat]
def k0_off13 (k0_t3 : Fin k0_t3_loop.trips) : Fin 2 → Nat :=
  let c3_i32 : BitVec 32 := 3#32
  let v395 : Index := Scalar.indexCast c3_i32
  let c0_i32_31 : BitVec 32 := 0#32
  let c1_i32_33 : BitVec 32 := 1#32
  let arg16 : BitVec 32 := Scf.iv c0_i32_31 c1_i32_33 k0_t3
  let c16_i32_446 : BitVec 32 := 16#32
  let v355 : BitVec 32 := Scalar.muli arg16 c16_i32_446
  let v396 : Index := Scalar.indexCast v355
  ![3, v396.toNat]
@[reducible] def k0_t4_loop : Scf.Loop 32 :=
  let c0_i32_45 : BitVec 32 := 0#32
  let c256_i32_46 : BitVec 32 := 256#32
  let v43 : BitVec 32 := Scalar.addi c0_i32_45 c256_i32_46
  let c1_i32_47 : BitVec 32 := 1#32
  ⟨c0_i32_45, v43, c1_i32_47⟩
def k0_off14 (k0_t4 : Fin k0_t4_loop.trips) : Fin 2 → Nat :=
  let c0_i32_447 : BitVec 32 := 0#32
  let v356 : Index := Scalar.indexCast c0_i32_447
  let c0_i32_45 : BitVec 32 := 0#32
  let c1_i32_47 : BitVec 32 := 1#32
  let arg16 : BitVec 32 := Scf.iv c0_i32_45 c1_i32_47 k0_t4
  let c16_i32_446 : BitVec 32 := 16#32
  let v355 : BitVec 32 := Scalar.muli arg16 c16_i32_446
  let v357 : Index := Scalar.indexCast v355
  ![0, v357.toNat]
def k0_off15 (k0_t4 : Fin k0_t4_loop.trips) : Fin 2 → Nat :=
  let c1_i32_450 : BitVec 32 := 1#32
  let v369 : Index := Scalar.indexCast c1_i32_450
  let c0_i32_45 : BitVec 32 := 0#32
  let c1_i32_47 : BitVec 32 := 1#32
  let arg16 : BitVec 32 := Scf.iv c0_i32_45 c1_i32_47 k0_t4
  let c16_i32_446 : BitVec 32 := 16#32
  let v355 : BitVec 32 := Scalar.muli arg16 c16_i32_446
  let v370 : Index := Scalar.indexCast v355
  ![1, v370.toNat]
def k0_off16 (k0_t4 : Fin k0_t4_loop.trips) : Fin 2 → Nat :=
  let c2_i32_454 : BitVec 32 := 2#32
  let v382 : Index := Scalar.indexCast c2_i32_454
  let c0_i32_45 : BitVec 32 := 0#32
  let c1_i32_47 : BitVec 32 := 1#32
  let arg16 : BitVec 32 := Scf.iv c0_i32_45 c1_i32_47 k0_t4
  let c16_i32_446 : BitVec 32 := 16#32
  let v355 : BitVec 32 := Scalar.muli arg16 c16_i32_446
  let v383 : Index := Scalar.indexCast v355
  ![2, v383.toNat]
def k0_off17 (k0_t4 : Fin k0_t4_loop.trips) : Fin 2 → Nat :=
  let c3_i32 : BitVec 32 := 3#32
  let v395 : Index := Scalar.indexCast c3_i32
  let c0_i32_45 : BitVec 32 := 0#32
  let c1_i32_47 : BitVec 32 := 1#32
  let arg16 : BitVec 32 := Scf.iv c0_i32_45 c1_i32_47 k0_t4
  let c16_i32_446 : BitVec 32 := 16#32
  let v355 : BitVec 32 := Scalar.muli arg16 c16_i32_446
  let v396 : Index := Scalar.indexCast v355
  ![3, v396.toNat]
@[reducible] def k0_t5_loop : Scf.Loop 32 :=
  let c0_i32_59 : BitVec 32 := 0#32
  let c256_i32_60 : BitVec 32 := 256#32
  let v54 : BitVec 32 := Scalar.addi c0_i32_59 c256_i32_60
  let c1_i32_61 : BitVec 32 := 1#32
  ⟨c0_i32_59, v54, c1_i32_61⟩
def k0_off18 (k0_t5 : Fin k0_t5_loop.trips) : Fin 2 → Nat :=
  let c0_i32_447 : BitVec 32 := 0#32
  let v356 : Index := Scalar.indexCast c0_i32_447
  let c0_i32_59 : BitVec 32 := 0#32
  let c1_i32_61 : BitVec 32 := 1#32
  let arg16 : BitVec 32 := Scf.iv c0_i32_59 c1_i32_61 k0_t5
  let c16_i32_446 : BitVec 32 := 16#32
  let v355 : BitVec 32 := Scalar.muli arg16 c16_i32_446
  let v357 : Index := Scalar.indexCast v355
  ![0, v357.toNat]
def k0_off19 (k0_t5 : Fin k0_t5_loop.trips) : Fin 2 → Nat :=
  let c1_i32_450 : BitVec 32 := 1#32
  let v369 : Index := Scalar.indexCast c1_i32_450
  let c0_i32_59 : BitVec 32 := 0#32
  let c1_i32_61 : BitVec 32 := 1#32
  let arg16 : BitVec 32 := Scf.iv c0_i32_59 c1_i32_61 k0_t5
  let c16_i32_446 : BitVec 32 := 16#32
  let v355 : BitVec 32 := Scalar.muli arg16 c16_i32_446
  let v370 : Index := Scalar.indexCast v355
  ![1, v370.toNat]
def k0_off20 (k0_t5 : Fin k0_t5_loop.trips) : Fin 2 → Nat :=
  let c2_i32_454 : BitVec 32 := 2#32
  let v382 : Index := Scalar.indexCast c2_i32_454
  let c0_i32_59 : BitVec 32 := 0#32
  let c1_i32_61 : BitVec 32 := 1#32
  let arg16 : BitVec 32 := Scf.iv c0_i32_59 c1_i32_61 k0_t5
  let c16_i32_446 : BitVec 32 := 16#32
  let v355 : BitVec 32 := Scalar.muli arg16 c16_i32_446
  let v383 : Index := Scalar.indexCast v355
  ![2, v383.toNat]
def k0_off21 (k0_t5 : Fin k0_t5_loop.trips) : Fin 2 → Nat :=
  let c3_i32 : BitVec 32 := 3#32
  let v395 : Index := Scalar.indexCast c3_i32
  let c0_i32_59 : BitVec 32 := 0#32
  let c1_i32_61 : BitVec 32 := 1#32
  let arg16 : BitVec 32 := Scf.iv c0_i32_59 c1_i32_61 k0_t5
  let c16_i32_446 : BitVec 32 := 16#32
  let v355 : BitVec 32 := Scalar.muli arg16 c16_i32_446
  let v396 : Index := Scalar.indexCast v355
  ![3, v396.toNat]
@[reducible] def k0_t6_loop : Scf.Loop 32 :=
  let c0_i32_73 : BitVec 32 := 0#32
  let c256_i32_74 : BitVec 32 := 256#32
  let v65 : BitVec 32 := Scalar.addi c0_i32_73 c256_i32_74
  let c1_i32_75 : BitVec 32 := 1#32
  ⟨c0_i32_73, v65, c1_i32_75⟩
def k0_off22 (k0_t6 : Fin k0_t6_loop.trips) : Fin 2 → Nat :=
  let c0_i32_447 : BitVec 32 := 0#32
  let v356 : Index := Scalar.indexCast c0_i32_447
  let c0_i32_73 : BitVec 32 := 0#32
  let c1_i32_75 : BitVec 32 := 1#32
  let arg16 : BitVec 32 := Scf.iv c0_i32_73 c1_i32_75 k0_t6
  let c16_i32_446 : BitVec 32 := 16#32
  let v355 : BitVec 32 := Scalar.muli arg16 c16_i32_446
  let v357 : Index := Scalar.indexCast v355
  ![0, v357.toNat]
def k0_off23 (k0_t6 : Fin k0_t6_loop.trips) : Fin 2 → Nat :=
  let c1_i32_450 : BitVec 32 := 1#32
  let v369 : Index := Scalar.indexCast c1_i32_450
  let c0_i32_73 : BitVec 32 := 0#32
  let c1_i32_75 : BitVec 32 := 1#32
  let arg16 : BitVec 32 := Scf.iv c0_i32_73 c1_i32_75 k0_t6
  let c16_i32_446 : BitVec 32 := 16#32
  let v355 : BitVec 32 := Scalar.muli arg16 c16_i32_446
  let v370 : Index := Scalar.indexCast v355
  ![1, v370.toNat]
def k0_off24 (k0_t6 : Fin k0_t6_loop.trips) : Fin 2 → Nat :=
  let c2_i32_454 : BitVec 32 := 2#32
  let v382 : Index := Scalar.indexCast c2_i32_454
  let c0_i32_73 : BitVec 32 := 0#32
  let c1_i32_75 : BitVec 32 := 1#32
  let arg16 : BitVec 32 := Scf.iv c0_i32_73 c1_i32_75 k0_t6
  let c16_i32_446 : BitVec 32 := 16#32
  let v355 : BitVec 32 := Scalar.muli arg16 c16_i32_446
  let v383 : Index := Scalar.indexCast v355
  ![2, v383.toNat]
def k0_off25 (k0_t6 : Fin k0_t6_loop.trips) : Fin 2 → Nat :=
  let c3_i32 : BitVec 32 := 3#32
  let v395 : Index := Scalar.indexCast c3_i32
  let c0_i32_73 : BitVec 32 := 0#32
  let c1_i32_75 : BitVec 32 := 1#32
  let arg16 : BitVec 32 := Scf.iv c0_i32_73 c1_i32_75 k0_t6
  let c16_i32_446 : BitVec 32 := 16#32
  let v355 : BitVec 32 := Scalar.muli arg16 c16_i32_446
  let v396 : Index := Scalar.indexCast v355
  ![3, v396.toNat]
@[reducible] def k0_t7_loop : Scf.Loop 32 :=
  let c0_i32_87 : BitVec 32 := 0#32
  let c256_i32_88 : BitVec 32 := 256#32
  let v76 : BitVec 32 := Scalar.addi c0_i32_87 c256_i32_88
  let c1_i32_89 : BitVec 32 := 1#32
  ⟨c0_i32_87, v76, c1_i32_89⟩
def k0_off26 (k0_t7 : Fin k0_t7_loop.trips) : Fin 2 → Nat :=
  let c0_i32_447 : BitVec 32 := 0#32
  let v356 : Index := Scalar.indexCast c0_i32_447
  let c0_i32_87 : BitVec 32 := 0#32
  let c1_i32_89 : BitVec 32 := 1#32
  let arg16 : BitVec 32 := Scf.iv c0_i32_87 c1_i32_89 k0_t7
  let c16_i32_446 : BitVec 32 := 16#32
  let v355 : BitVec 32 := Scalar.muli arg16 c16_i32_446
  let v357 : Index := Scalar.indexCast v355
  ![0, v357.toNat]
def k0_off27 (k0_t7 : Fin k0_t7_loop.trips) : Fin 2 → Nat :=
  let c1_i32_450 : BitVec 32 := 1#32
  let v369 : Index := Scalar.indexCast c1_i32_450
  let c0_i32_87 : BitVec 32 := 0#32
  let c1_i32_89 : BitVec 32 := 1#32
  let arg16 : BitVec 32 := Scf.iv c0_i32_87 c1_i32_89 k0_t7
  let c16_i32_446 : BitVec 32 := 16#32
  let v355 : BitVec 32 := Scalar.muli arg16 c16_i32_446
  let v370 : Index := Scalar.indexCast v355
  ![1, v370.toNat]
def k0_off28 (k0_t7 : Fin k0_t7_loop.trips) : Fin 2 → Nat :=
  let c2_i32_454 : BitVec 32 := 2#32
  let v382 : Index := Scalar.indexCast c2_i32_454
  let c0_i32_87 : BitVec 32 := 0#32
  let c1_i32_89 : BitVec 32 := 1#32
  let arg16 : BitVec 32 := Scf.iv c0_i32_87 c1_i32_89 k0_t7
  let c16_i32_446 : BitVec 32 := 16#32
  let v355 : BitVec 32 := Scalar.muli arg16 c16_i32_446
  let v383 : Index := Scalar.indexCast v355
  ![2, v383.toNat]
def k0_off29 (k0_t7 : Fin k0_t7_loop.trips) : Fin 2 → Nat :=
  let c3_i32 : BitVec 32 := 3#32
  let v395 : Index := Scalar.indexCast c3_i32
  let c0_i32_87 : BitVec 32 := 0#32
  let c1_i32_89 : BitVec 32 := 1#32
  let arg16 : BitVec 32 := Scf.iv c0_i32_87 c1_i32_89 k0_t7
  let c16_i32_446 : BitVec 32 := 16#32
  let v355 : BitVec 32 := Scalar.muli arg16 c16_i32_446
  let v396 : Index := Scalar.indexCast v355
  ![3, v396.toNat]
@[reducible] def k0_t8_loop : Scf.Loop 32 :=
  let c0_i32_101 : BitVec 32 := 0#32
  let c256_i32_102 : BitVec 32 := 256#32
  let v87 : BitVec 32 := Scalar.addi c0_i32_101 c256_i32_102
  let c1_i32_103 : BitVec 32 := 1#32
  ⟨c0_i32_101, v87, c1_i32_103⟩
def k0_off30 (k0_t8 : Fin k0_t8_loop.trips) : Fin 2 → Nat :=
  let c0_i32_447 : BitVec 32 := 0#32
  let v356 : Index := Scalar.indexCast c0_i32_447
  let c0_i32_101 : BitVec 32 := 0#32
  let c1_i32_103 : BitVec 32 := 1#32
  let arg16 : BitVec 32 := Scf.iv c0_i32_101 c1_i32_103 k0_t8
  let c16_i32_446 : BitVec 32 := 16#32
  let v355 : BitVec 32 := Scalar.muli arg16 c16_i32_446
  let v357 : Index := Scalar.indexCast v355
  ![0, v357.toNat]
def k0_off31 (k0_t8 : Fin k0_t8_loop.trips) : Fin 2 → Nat :=
  let c1_i32_450 : BitVec 32 := 1#32
  let v369 : Index := Scalar.indexCast c1_i32_450
  let c0_i32_101 : BitVec 32 := 0#32
  let c1_i32_103 : BitVec 32 := 1#32
  let arg16 : BitVec 32 := Scf.iv c0_i32_101 c1_i32_103 k0_t8
  let c16_i32_446 : BitVec 32 := 16#32
  let v355 : BitVec 32 := Scalar.muli arg16 c16_i32_446
  let v370 : Index := Scalar.indexCast v355
  ![1, v370.toNat]
def k0_off32 (k0_t8 : Fin k0_t8_loop.trips) : Fin 2 → Nat :=
  let c2_i32_454 : BitVec 32 := 2#32
  let v382 : Index := Scalar.indexCast c2_i32_454
  let c0_i32_101 : BitVec 32 := 0#32
  let c1_i32_103 : BitVec 32 := 1#32
  let arg16 : BitVec 32 := Scf.iv c0_i32_101 c1_i32_103 k0_t8
  let c16_i32_446 : BitVec 32 := 16#32
  let v355 : BitVec 32 := Scalar.muli arg16 c16_i32_446
  let v383 : Index := Scalar.indexCast v355
  ![2, v383.toNat]
def k0_off33 (k0_t8 : Fin k0_t8_loop.trips) : Fin 2 → Nat :=
  let c3_i32 : BitVec 32 := 3#32
  let v395 : Index := Scalar.indexCast c3_i32
  let c0_i32_101 : BitVec 32 := 0#32
  let c1_i32_103 : BitVec 32 := 1#32
  let arg16 : BitVec 32 := Scf.iv c0_i32_101 c1_i32_103 k0_t8
  let c16_i32_446 : BitVec 32 := 16#32
  let v355 : BitVec 32 := Scalar.muli arg16 c16_i32_446
  let v396 : Index := Scalar.indexCast v355
  ![3, v396.toNat]
@[reducible] def k0_t9_loop : Scf.Loop 32 :=
  let c0_i32_115 : BitVec 32 := 0#32
  let c256_i32_116 : BitVec 32 := 256#32
  let v98 : BitVec 32 := Scalar.addi c0_i32_115 c256_i32_116
  let c1_i32_117 : BitVec 32 := 1#32
  ⟨c0_i32_115, v98, c1_i32_117⟩
def k0_off34 (k0_t9 : Fin k0_t9_loop.trips) : Fin 2 → Nat :=
  let c0_i32_447 : BitVec 32 := 0#32
  let v356 : Index := Scalar.indexCast c0_i32_447
  let c0_i32_115 : BitVec 32 := 0#32
  let c1_i32_117 : BitVec 32 := 1#32
  let arg16 : BitVec 32 := Scf.iv c0_i32_115 c1_i32_117 k0_t9
  let c16_i32_446 : BitVec 32 := 16#32
  let v355 : BitVec 32 := Scalar.muli arg16 c16_i32_446
  let v357 : Index := Scalar.indexCast v355
  ![0, v357.toNat]
def k0_off35 (k0_t9 : Fin k0_t9_loop.trips) : Fin 2 → Nat :=
  let c1_i32_450 : BitVec 32 := 1#32
  let v369 : Index := Scalar.indexCast c1_i32_450
  let c0_i32_115 : BitVec 32 := 0#32
  let c1_i32_117 : BitVec 32 := 1#32
  let arg16 : BitVec 32 := Scf.iv c0_i32_115 c1_i32_117 k0_t9
  let c16_i32_446 : BitVec 32 := 16#32
  let v355 : BitVec 32 := Scalar.muli arg16 c16_i32_446
  let v370 : Index := Scalar.indexCast v355
  ![1, v370.toNat]
def k0_off36 (k0_t9 : Fin k0_t9_loop.trips) : Fin 2 → Nat :=
  let c2_i32_454 : BitVec 32 := 2#32
  let v382 : Index := Scalar.indexCast c2_i32_454
  let c0_i32_115 : BitVec 32 := 0#32
  let c1_i32_117 : BitVec 32 := 1#32
  let arg16 : BitVec 32 := Scf.iv c0_i32_115 c1_i32_117 k0_t9
  let c16_i32_446 : BitVec 32 := 16#32
  let v355 : BitVec 32 := Scalar.muli arg16 c16_i32_446
  let v383 : Index := Scalar.indexCast v355
  ![2, v383.toNat]
def k0_off37 (k0_t9 : Fin k0_t9_loop.trips) : Fin 2 → Nat :=
  let c3_i32 : BitVec 32 := 3#32
  let v395 : Index := Scalar.indexCast c3_i32
  let c0_i32_115 : BitVec 32 := 0#32
  let c1_i32_117 : BitVec 32 := 1#32
  let arg16 : BitVec 32 := Scf.iv c0_i32_115 c1_i32_117 k0_t9
  let c16_i32_446 : BitVec 32 := 16#32
  let v355 : BitVec 32 := Scalar.muli arg16 c16_i32_446
  let v396 : Index := Scalar.indexCast v355
  ![3, v396.toNat]
@[reducible] def k0_t10_loop : Scf.Loop 32 :=
  let c0_i32_129 : BitVec 32 := 0#32
  let c256_i32_130 : BitVec 32 := 256#32
  let v109 : BitVec 32 := Scalar.addi c0_i32_129 c256_i32_130
  let c1_i32_131 : BitVec 32 := 1#32
  ⟨c0_i32_129, v109, c1_i32_131⟩
def k0_off38 (k0_t10 : Fin k0_t10_loop.trips) : Fin 2 → Nat :=
  let c0_i32_447 : BitVec 32 := 0#32
  let v356 : Index := Scalar.indexCast c0_i32_447
  let c0_i32_129 : BitVec 32 := 0#32
  let c1_i32_131 : BitVec 32 := 1#32
  let arg16 : BitVec 32 := Scf.iv c0_i32_129 c1_i32_131 k0_t10
  let c16_i32_446 : BitVec 32 := 16#32
  let v355 : BitVec 32 := Scalar.muli arg16 c16_i32_446
  let v357 : Index := Scalar.indexCast v355
  ![0, v357.toNat]
def k0_off39 (k0_t10 : Fin k0_t10_loop.trips) : Fin 2 → Nat :=
  let c1_i32_450 : BitVec 32 := 1#32
  let v369 : Index := Scalar.indexCast c1_i32_450
  let c0_i32_129 : BitVec 32 := 0#32
  let c1_i32_131 : BitVec 32 := 1#32
  let arg16 : BitVec 32 := Scf.iv c0_i32_129 c1_i32_131 k0_t10
  let c16_i32_446 : BitVec 32 := 16#32
  let v355 : BitVec 32 := Scalar.muli arg16 c16_i32_446
  let v370 : Index := Scalar.indexCast v355
  ![1, v370.toNat]
def k0_off40 (k0_t10 : Fin k0_t10_loop.trips) : Fin 2 → Nat :=
  let c2_i32_454 : BitVec 32 := 2#32
  let v382 : Index := Scalar.indexCast c2_i32_454
  let c0_i32_129 : BitVec 32 := 0#32
  let c1_i32_131 : BitVec 32 := 1#32
  let arg16 : BitVec 32 := Scf.iv c0_i32_129 c1_i32_131 k0_t10
  let c16_i32_446 : BitVec 32 := 16#32
  let v355 : BitVec 32 := Scalar.muli arg16 c16_i32_446
  let v383 : Index := Scalar.indexCast v355
  ![2, v383.toNat]
def k0_off41 (k0_t10 : Fin k0_t10_loop.trips) : Fin 2 → Nat :=
  let c3_i32 : BitVec 32 := 3#32
  let v395 : Index := Scalar.indexCast c3_i32
  let c0_i32_129 : BitVec 32 := 0#32
  let c1_i32_131 : BitVec 32 := 1#32
  let arg16 : BitVec 32 := Scf.iv c0_i32_129 c1_i32_131 k0_t10
  let c16_i32_446 : BitVec 32 := 16#32
  let v355 : BitVec 32 := Scalar.muli arg16 c16_i32_446
  let v396 : Index := Scalar.indexCast v355
  ![3, v396.toNat]
@[reducible] def k0_t11_loop : Scf.Loop 32 :=
  let c0_i32_143 : BitVec 32 := 0#32
  let c256_i32_144 : BitVec 32 := 256#32
  let v120 : BitVec 32 := Scalar.addi c0_i32_143 c256_i32_144
  let c1_i32_145 : BitVec 32 := 1#32
  ⟨c0_i32_143, v120, c1_i32_145⟩
def k0_off42 (k0_t11 : Fin k0_t11_loop.trips) : Fin 2 → Nat :=
  let c0_i32_447 : BitVec 32 := 0#32
  let v356 : Index := Scalar.indexCast c0_i32_447
  let c0_i32_143 : BitVec 32 := 0#32
  let c1_i32_145 : BitVec 32 := 1#32
  let arg16 : BitVec 32 := Scf.iv c0_i32_143 c1_i32_145 k0_t11
  let c16_i32_446 : BitVec 32 := 16#32
  let v355 : BitVec 32 := Scalar.muli arg16 c16_i32_446
  let v357 : Index := Scalar.indexCast v355
  ![0, v357.toNat]
def k0_off43 (k0_t11 : Fin k0_t11_loop.trips) : Fin 2 → Nat :=
  let c1_i32_450 : BitVec 32 := 1#32
  let v369 : Index := Scalar.indexCast c1_i32_450
  let c0_i32_143 : BitVec 32 := 0#32
  let c1_i32_145 : BitVec 32 := 1#32
  let arg16 : BitVec 32 := Scf.iv c0_i32_143 c1_i32_145 k0_t11
  let c16_i32_446 : BitVec 32 := 16#32
  let v355 : BitVec 32 := Scalar.muli arg16 c16_i32_446
  let v370 : Index := Scalar.indexCast v355
  ![1, v370.toNat]
def k0_off44 (k0_t11 : Fin k0_t11_loop.trips) : Fin 2 → Nat :=
  let c2_i32_454 : BitVec 32 := 2#32
  let v382 : Index := Scalar.indexCast c2_i32_454
  let c0_i32_143 : BitVec 32 := 0#32
  let c1_i32_145 : BitVec 32 := 1#32
  let arg16 : BitVec 32 := Scf.iv c0_i32_143 c1_i32_145 k0_t11
  let c16_i32_446 : BitVec 32 := 16#32
  let v355 : BitVec 32 := Scalar.muli arg16 c16_i32_446
  let v383 : Index := Scalar.indexCast v355
  ![2, v383.toNat]
def k0_off45 (k0_t11 : Fin k0_t11_loop.trips) : Fin 2 → Nat :=
  let c3_i32 : BitVec 32 := 3#32
  let v395 : Index := Scalar.indexCast c3_i32
  let c0_i32_143 : BitVec 32 := 0#32
  let c1_i32_145 : BitVec 32 := 1#32
  let arg16 : BitVec 32 := Scf.iv c0_i32_143 c1_i32_145 k0_t11
  let c16_i32_446 : BitVec 32 := 16#32
  let v355 : BitVec 32 := Scalar.muli arg16 c16_i32_446
  let v396 : Index := Scalar.indexCast v355
  ![3, v396.toNat]
@[reducible] def k0_t12_loop : Scf.Loop 32 :=
  let c0_i32_157 : BitVec 32 := 0#32
  let c256_i32_158 : BitVec 32 := 256#32
  let v131 : BitVec 32 := Scalar.addi c0_i32_157 c256_i32_158
  let c1_i32_159 : BitVec 32 := 1#32
  ⟨c0_i32_157, v131, c1_i32_159⟩
def k0_off46 (k0_t12 : Fin k0_t12_loop.trips) : Fin 2 → Nat :=
  let c0_i32_447 : BitVec 32 := 0#32
  let v356 : Index := Scalar.indexCast c0_i32_447
  let c0_i32_157 : BitVec 32 := 0#32
  let c1_i32_159 : BitVec 32 := 1#32
  let arg16 : BitVec 32 := Scf.iv c0_i32_157 c1_i32_159 k0_t12
  let c16_i32_446 : BitVec 32 := 16#32
  let v355 : BitVec 32 := Scalar.muli arg16 c16_i32_446
  let v357 : Index := Scalar.indexCast v355
  ![0, v357.toNat]
def k0_off47 (k0_t12 : Fin k0_t12_loop.trips) : Fin 2 → Nat :=
  let c1_i32_450 : BitVec 32 := 1#32
  let v369 : Index := Scalar.indexCast c1_i32_450
  let c0_i32_157 : BitVec 32 := 0#32
  let c1_i32_159 : BitVec 32 := 1#32
  let arg16 : BitVec 32 := Scf.iv c0_i32_157 c1_i32_159 k0_t12
  let c16_i32_446 : BitVec 32 := 16#32
  let v355 : BitVec 32 := Scalar.muli arg16 c16_i32_446
  let v370 : Index := Scalar.indexCast v355
  ![1, v370.toNat]
def k0_off48 (k0_t12 : Fin k0_t12_loop.trips) : Fin 2 → Nat :=
  let c2_i32_454 : BitVec 32 := 2#32
  let v382 : Index := Scalar.indexCast c2_i32_454
  let c0_i32_157 : BitVec 32 := 0#32
  let c1_i32_159 : BitVec 32 := 1#32
  let arg16 : BitVec 32 := Scf.iv c0_i32_157 c1_i32_159 k0_t12
  let c16_i32_446 : BitVec 32 := 16#32
  let v355 : BitVec 32 := Scalar.muli arg16 c16_i32_446
  let v383 : Index := Scalar.indexCast v355
  ![2, v383.toNat]
def k0_off49 (k0_t12 : Fin k0_t12_loop.trips) : Fin 2 → Nat :=
  let c3_i32 : BitVec 32 := 3#32
  let v395 : Index := Scalar.indexCast c3_i32
  let c0_i32_157 : BitVec 32 := 0#32
  let c1_i32_159 : BitVec 32 := 1#32
  let arg16 : BitVec 32 := Scf.iv c0_i32_157 c1_i32_159 k0_t12
  let c16_i32_446 : BitVec 32 := 16#32
  let v355 : BitVec 32 := Scalar.muli arg16 c16_i32_446
  let v396 : Index := Scalar.indexCast v355
  ![3, v396.toNat]
@[reducible] def k0_t13_loop : Scf.Loop 32 :=
  let c0_i32_171 : BitVec 32 := 0#32
  let c256_i32_172 : BitVec 32 := 256#32
  let v142 : BitVec 32 := Scalar.addi c0_i32_171 c256_i32_172
  let c1_i32_173 : BitVec 32 := 1#32
  ⟨c0_i32_171, v142, c1_i32_173⟩
def k0_off50 (k0_t13 : Fin k0_t13_loop.trips) : Fin 2 → Nat :=
  let c0_i32_447 : BitVec 32 := 0#32
  let v356 : Index := Scalar.indexCast c0_i32_447
  let c0_i32_171 : BitVec 32 := 0#32
  let c1_i32_173 : BitVec 32 := 1#32
  let arg16 : BitVec 32 := Scf.iv c0_i32_171 c1_i32_173 k0_t13
  let c16_i32_446 : BitVec 32 := 16#32
  let v355 : BitVec 32 := Scalar.muli arg16 c16_i32_446
  let v357 : Index := Scalar.indexCast v355
  ![0, v357.toNat]
def k0_off51 (k0_t13 : Fin k0_t13_loop.trips) : Fin 2 → Nat :=
  let c1_i32_450 : BitVec 32 := 1#32
  let v369 : Index := Scalar.indexCast c1_i32_450
  let c0_i32_171 : BitVec 32 := 0#32
  let c1_i32_173 : BitVec 32 := 1#32
  let arg16 : BitVec 32 := Scf.iv c0_i32_171 c1_i32_173 k0_t13
  let c16_i32_446 : BitVec 32 := 16#32
  let v355 : BitVec 32 := Scalar.muli arg16 c16_i32_446
  let v370 : Index := Scalar.indexCast v355
  ![1, v370.toNat]
def k0_off52 (k0_t13 : Fin k0_t13_loop.trips) : Fin 2 → Nat :=
  let c2_i32_454 : BitVec 32 := 2#32
  let v382 : Index := Scalar.indexCast c2_i32_454
  let c0_i32_171 : BitVec 32 := 0#32
  let c1_i32_173 : BitVec 32 := 1#32
  let arg16 : BitVec 32 := Scf.iv c0_i32_171 c1_i32_173 k0_t13
  let c16_i32_446 : BitVec 32 := 16#32
  let v355 : BitVec 32 := Scalar.muli arg16 c16_i32_446
  let v383 : Index := Scalar.indexCast v355
  ![2, v383.toNat]
def k0_off53 (k0_t13 : Fin k0_t13_loop.trips) : Fin 2 → Nat :=
  let c3_i32 : BitVec 32 := 3#32
  let v395 : Index := Scalar.indexCast c3_i32
  let c0_i32_171 : BitVec 32 := 0#32
  let c1_i32_173 : BitVec 32 := 1#32
  let arg16 : BitVec 32 := Scf.iv c0_i32_171 c1_i32_173 k0_t13
  let c16_i32_446 : BitVec 32 := 16#32
  let v355 : BitVec 32 := Scalar.muli arg16 c16_i32_446
  let v396 : Index := Scalar.indexCast v355
  ![3, v396.toNat]
@[reducible] def k0_t14_loop : Scf.Loop 32 :=
  let c0_i32_185 : BitVec 32 := 0#32
  let c256_i32_186 : BitVec 32 := 256#32
  let v153 : BitVec 32 := Scalar.addi c0_i32_185 c256_i32_186
  let c1_i32_187 : BitVec 32 := 1#32
  ⟨c0_i32_185, v153, c1_i32_187⟩
def k0_off54 (k0_t14 : Fin k0_t14_loop.trips) : Fin 2 → Nat :=
  let c0_i32_447 : BitVec 32 := 0#32
  let v356 : Index := Scalar.indexCast c0_i32_447
  let c0_i32_185 : BitVec 32 := 0#32
  let c1_i32_187 : BitVec 32 := 1#32
  let arg16 : BitVec 32 := Scf.iv c0_i32_185 c1_i32_187 k0_t14
  let c16_i32_446 : BitVec 32 := 16#32
  let v355 : BitVec 32 := Scalar.muli arg16 c16_i32_446
  let v357 : Index := Scalar.indexCast v355
  ![0, v357.toNat]
def k0_off55 (k0_t14 : Fin k0_t14_loop.trips) : Fin 2 → Nat :=
  let c1_i32_450 : BitVec 32 := 1#32
  let v369 : Index := Scalar.indexCast c1_i32_450
  let c0_i32_185 : BitVec 32 := 0#32
  let c1_i32_187 : BitVec 32 := 1#32
  let arg16 : BitVec 32 := Scf.iv c0_i32_185 c1_i32_187 k0_t14
  let c16_i32_446 : BitVec 32 := 16#32
  let v355 : BitVec 32 := Scalar.muli arg16 c16_i32_446
  let v370 : Index := Scalar.indexCast v355
  ![1, v370.toNat]
def k0_off56 (k0_t14 : Fin k0_t14_loop.trips) : Fin 2 → Nat :=
  let c2_i32_454 : BitVec 32 := 2#32
  let v382 : Index := Scalar.indexCast c2_i32_454
  let c0_i32_185 : BitVec 32 := 0#32
  let c1_i32_187 : BitVec 32 := 1#32
  let arg16 : BitVec 32 := Scf.iv c0_i32_185 c1_i32_187 k0_t14
  let c16_i32_446 : BitVec 32 := 16#32
  let v355 : BitVec 32 := Scalar.muli arg16 c16_i32_446
  let v383 : Index := Scalar.indexCast v355
  ![2, v383.toNat]
def k0_off57 (k0_t14 : Fin k0_t14_loop.trips) : Fin 2 → Nat :=
  let c3_i32 : BitVec 32 := 3#32
  let v395 : Index := Scalar.indexCast c3_i32
  let c0_i32_185 : BitVec 32 := 0#32
  let c1_i32_187 : BitVec 32 := 1#32
  let arg16 : BitVec 32 := Scf.iv c0_i32_185 c1_i32_187 k0_t14
  let c16_i32_446 : BitVec 32 := 16#32
  let v355 : BitVec 32 := Scalar.muli arg16 c16_i32_446
  let v396 : Index := Scalar.indexCast v355
  ![3, v396.toNat]
@[reducible] def k0_t15_loop : Scf.Loop 32 :=
  let c0_i32_199 : BitVec 32 := 0#32
  let c256_i32_200 : BitVec 32 := 256#32
  let v164 : BitVec 32 := Scalar.addi c0_i32_199 c256_i32_200
  let c1_i32_201 : BitVec 32 := 1#32
  ⟨c0_i32_199, v164, c1_i32_201⟩
def k0_off58 (k0_t15 : Fin k0_t15_loop.trips) : Fin 2 → Nat :=
  let c0_i32_447 : BitVec 32 := 0#32
  let v356 : Index := Scalar.indexCast c0_i32_447
  let c0_i32_199 : BitVec 32 := 0#32
  let c1_i32_201 : BitVec 32 := 1#32
  let arg16 : BitVec 32 := Scf.iv c0_i32_199 c1_i32_201 k0_t15
  let c16_i32_446 : BitVec 32 := 16#32
  let v355 : BitVec 32 := Scalar.muli arg16 c16_i32_446
  let v357 : Index := Scalar.indexCast v355
  ![0, v357.toNat]
def k0_off59 (k0_t15 : Fin k0_t15_loop.trips) : Fin 2 → Nat :=
  let c1_i32_450 : BitVec 32 := 1#32
  let v369 : Index := Scalar.indexCast c1_i32_450
  let c0_i32_199 : BitVec 32 := 0#32
  let c1_i32_201 : BitVec 32 := 1#32
  let arg16 : BitVec 32 := Scf.iv c0_i32_199 c1_i32_201 k0_t15
  let c16_i32_446 : BitVec 32 := 16#32
  let v355 : BitVec 32 := Scalar.muli arg16 c16_i32_446
  let v370 : Index := Scalar.indexCast v355
  ![1, v370.toNat]
def k0_off60 (k0_t15 : Fin k0_t15_loop.trips) : Fin 2 → Nat :=
  let c2_i32_454 : BitVec 32 := 2#32
  let v382 : Index := Scalar.indexCast c2_i32_454
  let c0_i32_199 : BitVec 32 := 0#32
  let c1_i32_201 : BitVec 32 := 1#32
  let arg16 : BitVec 32 := Scf.iv c0_i32_199 c1_i32_201 k0_t15
  let c16_i32_446 : BitVec 32 := 16#32
  let v355 : BitVec 32 := Scalar.muli arg16 c16_i32_446
  let v383 : Index := Scalar.indexCast v355
  ![2, v383.toNat]
def k0_off61 (k0_t15 : Fin k0_t15_loop.trips) : Fin 2 → Nat :=
  let c3_i32 : BitVec 32 := 3#32
  let v395 : Index := Scalar.indexCast c3_i32
  let c0_i32_199 : BitVec 32 := 0#32
  let c1_i32_201 : BitVec 32 := 1#32
  let arg16 : BitVec 32 := Scf.iv c0_i32_199 c1_i32_201 k0_t15
  let c16_i32_446 : BitVec 32 := 16#32
  let v355 : BitVec 32 := Scalar.muli arg16 c16_i32_446
  let v396 : Index := Scalar.indexCast v355
  ![3, v396.toNat]
@[reducible] def k0_t16_loop : Scf.Loop 32 :=
  let c0_i32_213 : BitVec 32 := 0#32
  let c256_i32_214 : BitVec 32 := 256#32
  let v175 : BitVec 32 := Scalar.addi c0_i32_213 c256_i32_214
  let c1_i32_215 : BitVec 32 := 1#32
  ⟨c0_i32_213, v175, c1_i32_215⟩
def k0_off62 (k0_t16 : Fin k0_t16_loop.trips) : Fin 2 → Nat :=
  let c0_i32_447 : BitVec 32 := 0#32
  let v356 : Index := Scalar.indexCast c0_i32_447
  let c0_i32_213 : BitVec 32 := 0#32
  let c1_i32_215 : BitVec 32 := 1#32
  let arg16 : BitVec 32 := Scf.iv c0_i32_213 c1_i32_215 k0_t16
  let c16_i32_446 : BitVec 32 := 16#32
  let v355 : BitVec 32 := Scalar.muli arg16 c16_i32_446
  let v357 : Index := Scalar.indexCast v355
  ![0, v357.toNat]
def k0_off63 (k0_t16 : Fin k0_t16_loop.trips) : Fin 2 → Nat :=
  let c1_i32_450 : BitVec 32 := 1#32
  let v369 : Index := Scalar.indexCast c1_i32_450
  let c0_i32_213 : BitVec 32 := 0#32
  let c1_i32_215 : BitVec 32 := 1#32
  let arg16 : BitVec 32 := Scf.iv c0_i32_213 c1_i32_215 k0_t16
  let c16_i32_446 : BitVec 32 := 16#32
  let v355 : BitVec 32 := Scalar.muli arg16 c16_i32_446
  let v370 : Index := Scalar.indexCast v355
  ![1, v370.toNat]
def k0_off64 (k0_t16 : Fin k0_t16_loop.trips) : Fin 2 → Nat :=
  let c2_i32_454 : BitVec 32 := 2#32
  let v382 : Index := Scalar.indexCast c2_i32_454
  let c0_i32_213 : BitVec 32 := 0#32
  let c1_i32_215 : BitVec 32 := 1#32
  let arg16 : BitVec 32 := Scf.iv c0_i32_213 c1_i32_215 k0_t16
  let c16_i32_446 : BitVec 32 := 16#32
  let v355 : BitVec 32 := Scalar.muli arg16 c16_i32_446
  let v383 : Index := Scalar.indexCast v355
  ![2, v383.toNat]
def k0_off65 (k0_t16 : Fin k0_t16_loop.trips) : Fin 2 → Nat :=
  let c3_i32 : BitVec 32 := 3#32
  let v395 : Index := Scalar.indexCast c3_i32
  let c0_i32_213 : BitVec 32 := 0#32
  let c1_i32_215 : BitVec 32 := 1#32
  let arg16 : BitVec 32 := Scf.iv c0_i32_213 c1_i32_215 k0_t16
  let c16_i32_446 : BitVec 32 := 16#32
  let v355 : BitVec 32 := Scalar.muli arg16 c16_i32_446
  let v396 : Index := Scalar.indexCast v355
  ![3, v396.toNat]
@[reducible] def k0_t17_loop : Scf.Loop 32 :=
  let c0_i32_227 : BitVec 32 := 0#32
  let c256_i32_228 : BitVec 32 := 256#32
  let v186 : BitVec 32 := Scalar.addi c0_i32_227 c256_i32_228
  let c1_i32_229 : BitVec 32 := 1#32
  ⟨c0_i32_227, v186, c1_i32_229⟩
def k0_off66 (k0_t17 : Fin k0_t17_loop.trips) : Fin 2 → Nat :=
  let c0_i32_447 : BitVec 32 := 0#32
  let v356 : Index := Scalar.indexCast c0_i32_447
  let c0_i32_227 : BitVec 32 := 0#32
  let c1_i32_229 : BitVec 32 := 1#32
  let arg16 : BitVec 32 := Scf.iv c0_i32_227 c1_i32_229 k0_t17
  let c16_i32_446 : BitVec 32 := 16#32
  let v355 : BitVec 32 := Scalar.muli arg16 c16_i32_446
  let v357 : Index := Scalar.indexCast v355
  ![0, v357.toNat]
def k0_off67 (k0_t17 : Fin k0_t17_loop.trips) : Fin 2 → Nat :=
  let c1_i32_450 : BitVec 32 := 1#32
  let v369 : Index := Scalar.indexCast c1_i32_450
  let c0_i32_227 : BitVec 32 := 0#32
  let c1_i32_229 : BitVec 32 := 1#32
  let arg16 : BitVec 32 := Scf.iv c0_i32_227 c1_i32_229 k0_t17
  let c16_i32_446 : BitVec 32 := 16#32
  let v355 : BitVec 32 := Scalar.muli arg16 c16_i32_446
  let v370 : Index := Scalar.indexCast v355
  ![1, v370.toNat]
def k0_off68 (k0_t17 : Fin k0_t17_loop.trips) : Fin 2 → Nat :=
  let c2_i32_454 : BitVec 32 := 2#32
  let v382 : Index := Scalar.indexCast c2_i32_454
  let c0_i32_227 : BitVec 32 := 0#32
  let c1_i32_229 : BitVec 32 := 1#32
  let arg16 : BitVec 32 := Scf.iv c0_i32_227 c1_i32_229 k0_t17
  let c16_i32_446 : BitVec 32 := 16#32
  let v355 : BitVec 32 := Scalar.muli arg16 c16_i32_446
  let v383 : Index := Scalar.indexCast v355
  ![2, v383.toNat]
def k0_off69 (k0_t17 : Fin k0_t17_loop.trips) : Fin 2 → Nat :=
  let c3_i32 : BitVec 32 := 3#32
  let v395 : Index := Scalar.indexCast c3_i32
  let c0_i32_227 : BitVec 32 := 0#32
  let c1_i32_229 : BitVec 32 := 1#32
  let arg16 : BitVec 32 := Scf.iv c0_i32_227 c1_i32_229 k0_t17
  let c16_i32_446 : BitVec 32 := 16#32
  let v355 : BitVec 32 := Scalar.muli arg16 c16_i32_446
  let v396 : Index := Scalar.indexCast v355
  ![3, v396.toNat]
@[reducible] def k0_t18_loop : Scf.Loop 32 :=
  let c0_i32_241 : BitVec 32 := 0#32
  let c256_i32_242 : BitVec 32 := 256#32
  let v197 : BitVec 32 := Scalar.addi c0_i32_241 c256_i32_242
  let c1_i32_243 : BitVec 32 := 1#32
  ⟨c0_i32_241, v197, c1_i32_243⟩
def k0_off70 (k0_t18 : Fin k0_t18_loop.trips) : Fin 2 → Nat :=
  let c0_i32_447 : BitVec 32 := 0#32
  let v356 : Index := Scalar.indexCast c0_i32_447
  let c0_i32_241 : BitVec 32 := 0#32
  let c1_i32_243 : BitVec 32 := 1#32
  let arg16 : BitVec 32 := Scf.iv c0_i32_241 c1_i32_243 k0_t18
  let c16_i32_446 : BitVec 32 := 16#32
  let v355 : BitVec 32 := Scalar.muli arg16 c16_i32_446
  let v357 : Index := Scalar.indexCast v355
  ![0, v357.toNat]
def k0_off71 (k0_t18 : Fin k0_t18_loop.trips) : Fin 2 → Nat :=
  let c1_i32_450 : BitVec 32 := 1#32
  let v369 : Index := Scalar.indexCast c1_i32_450
  let c0_i32_241 : BitVec 32 := 0#32
  let c1_i32_243 : BitVec 32 := 1#32
  let arg16 : BitVec 32 := Scf.iv c0_i32_241 c1_i32_243 k0_t18
  let c16_i32_446 : BitVec 32 := 16#32
  let v355 : BitVec 32 := Scalar.muli arg16 c16_i32_446
  let v370 : Index := Scalar.indexCast v355
  ![1, v370.toNat]
def k0_off72 (k0_t18 : Fin k0_t18_loop.trips) : Fin 2 → Nat :=
  let c2_i32_454 : BitVec 32 := 2#32
  let v382 : Index := Scalar.indexCast c2_i32_454
  let c0_i32_241 : BitVec 32 := 0#32
  let c1_i32_243 : BitVec 32 := 1#32
  let arg16 : BitVec 32 := Scf.iv c0_i32_241 c1_i32_243 k0_t18
  let c16_i32_446 : BitVec 32 := 16#32
  let v355 : BitVec 32 := Scalar.muli arg16 c16_i32_446
  let v383 : Index := Scalar.indexCast v355
  ![2, v383.toNat]
def k0_off73 (k0_t18 : Fin k0_t18_loop.trips) : Fin 2 → Nat :=
  let c3_i32 : BitVec 32 := 3#32
  let v395 : Index := Scalar.indexCast c3_i32
  let c0_i32_241 : BitVec 32 := 0#32
  let c1_i32_243 : BitVec 32 := 1#32
  let arg16 : BitVec 32 := Scf.iv c0_i32_241 c1_i32_243 k0_t18
  let c16_i32_446 : BitVec 32 := 16#32
  let v355 : BitVec 32 := Scalar.muli arg16 c16_i32_446
  let v396 : Index := Scalar.indexCast v355
  ![3, v396.toNat]
@[reducible] def k0_t19_loop : Scf.Loop 32 :=
  let c0_i32_255 : BitVec 32 := 0#32
  let c256_i32_256 : BitVec 32 := 256#32
  let v208 : BitVec 32 := Scalar.addi c0_i32_255 c256_i32_256
  let c1_i32_257 : BitVec 32 := 1#32
  ⟨c0_i32_255, v208, c1_i32_257⟩
def k0_off74 (k0_t19 : Fin k0_t19_loop.trips) : Fin 2 → Nat :=
  let c0_i32_447 : BitVec 32 := 0#32
  let v356 : Index := Scalar.indexCast c0_i32_447
  let c0_i32_255 : BitVec 32 := 0#32
  let c1_i32_257 : BitVec 32 := 1#32
  let arg16 : BitVec 32 := Scf.iv c0_i32_255 c1_i32_257 k0_t19
  let c16_i32_446 : BitVec 32 := 16#32
  let v355 : BitVec 32 := Scalar.muli arg16 c16_i32_446
  let v357 : Index := Scalar.indexCast v355
  ![0, v357.toNat]
def k0_off75 (k0_t19 : Fin k0_t19_loop.trips) : Fin 2 → Nat :=
  let c1_i32_450 : BitVec 32 := 1#32
  let v369 : Index := Scalar.indexCast c1_i32_450
  let c0_i32_255 : BitVec 32 := 0#32
  let c1_i32_257 : BitVec 32 := 1#32
  let arg16 : BitVec 32 := Scf.iv c0_i32_255 c1_i32_257 k0_t19
  let c16_i32_446 : BitVec 32 := 16#32
  let v355 : BitVec 32 := Scalar.muli arg16 c16_i32_446
  let v370 : Index := Scalar.indexCast v355
  ![1, v370.toNat]
def k0_off76 (k0_t19 : Fin k0_t19_loop.trips) : Fin 2 → Nat :=
  let c2_i32_454 : BitVec 32 := 2#32
  let v382 : Index := Scalar.indexCast c2_i32_454
  let c0_i32_255 : BitVec 32 := 0#32
  let c1_i32_257 : BitVec 32 := 1#32
  let arg16 : BitVec 32 := Scf.iv c0_i32_255 c1_i32_257 k0_t19
  let c16_i32_446 : BitVec 32 := 16#32
  let v355 : BitVec 32 := Scalar.muli arg16 c16_i32_446
  let v383 : Index := Scalar.indexCast v355
  ![2, v383.toNat]
def k0_off77 (k0_t19 : Fin k0_t19_loop.trips) : Fin 2 → Nat :=
  let c3_i32 : BitVec 32 := 3#32
  let v395 : Index := Scalar.indexCast c3_i32
  let c0_i32_255 : BitVec 32 := 0#32
  let c1_i32_257 : BitVec 32 := 1#32
  let arg16 : BitVec 32 := Scf.iv c0_i32_255 c1_i32_257 k0_t19
  let c16_i32_446 : BitVec 32 := 16#32
  let v355 : BitVec 32 := Scalar.muli arg16 c16_i32_446
  let v396 : Index := Scalar.indexCast v355
  ![3, v396.toNat]
@[reducible] def k0_t20_loop : Scf.Loop 32 :=
  let c0_i32_269 : BitVec 32 := 0#32
  let c256_i32_270 : BitVec 32 := 256#32
  let v219 : BitVec 32 := Scalar.addi c0_i32_269 c256_i32_270
  let c1_i32_271 : BitVec 32 := 1#32
  ⟨c0_i32_269, v219, c1_i32_271⟩
def k0_off78 (k0_t20 : Fin k0_t20_loop.trips) : Fin 2 → Nat :=
  let c0_i32_447 : BitVec 32 := 0#32
  let v356 : Index := Scalar.indexCast c0_i32_447
  let c0_i32_269 : BitVec 32 := 0#32
  let c1_i32_271 : BitVec 32 := 1#32
  let arg16 : BitVec 32 := Scf.iv c0_i32_269 c1_i32_271 k0_t20
  let c16_i32_446 : BitVec 32 := 16#32
  let v355 : BitVec 32 := Scalar.muli arg16 c16_i32_446
  let v357 : Index := Scalar.indexCast v355
  ![0, v357.toNat]
def k0_off79 (k0_t20 : Fin k0_t20_loop.trips) : Fin 2 → Nat :=
  let c1_i32_450 : BitVec 32 := 1#32
  let v369 : Index := Scalar.indexCast c1_i32_450
  let c0_i32_269 : BitVec 32 := 0#32
  let c1_i32_271 : BitVec 32 := 1#32
  let arg16 : BitVec 32 := Scf.iv c0_i32_269 c1_i32_271 k0_t20
  let c16_i32_446 : BitVec 32 := 16#32
  let v355 : BitVec 32 := Scalar.muli arg16 c16_i32_446
  let v370 : Index := Scalar.indexCast v355
  ![1, v370.toNat]
def k0_off80 (k0_t20 : Fin k0_t20_loop.trips) : Fin 2 → Nat :=
  let c2_i32_454 : BitVec 32 := 2#32
  let v382 : Index := Scalar.indexCast c2_i32_454
  let c0_i32_269 : BitVec 32 := 0#32
  let c1_i32_271 : BitVec 32 := 1#32
  let arg16 : BitVec 32 := Scf.iv c0_i32_269 c1_i32_271 k0_t20
  let c16_i32_446 : BitVec 32 := 16#32
  let v355 : BitVec 32 := Scalar.muli arg16 c16_i32_446
  let v383 : Index := Scalar.indexCast v355
  ![2, v383.toNat]
def k0_off81 (k0_t20 : Fin k0_t20_loop.trips) : Fin 2 → Nat :=
  let c3_i32 : BitVec 32 := 3#32
  let v395 : Index := Scalar.indexCast c3_i32
  let c0_i32_269 : BitVec 32 := 0#32
  let c1_i32_271 : BitVec 32 := 1#32
  let arg16 : BitVec 32 := Scf.iv c0_i32_269 c1_i32_271 k0_t20
  let c16_i32_446 : BitVec 32 := 16#32
  let v355 : BitVec 32 := Scalar.muli arg16 c16_i32_446
  let v396 : Index := Scalar.indexCast v355
  ![3, v396.toNat]
@[reducible] def k0_t21_loop : Scf.Loop 32 :=
  let c0_i32_283 : BitVec 32 := 0#32
  let c256_i32_284 : BitVec 32 := 256#32
  let v230 : BitVec 32 := Scalar.addi c0_i32_283 c256_i32_284
  let c1_i32_285 : BitVec 32 := 1#32
  ⟨c0_i32_283, v230, c1_i32_285⟩
def k0_off82 (k0_t21 : Fin k0_t21_loop.trips) : Fin 2 → Nat :=
  let c0_i32_447 : BitVec 32 := 0#32
  let v356 : Index := Scalar.indexCast c0_i32_447
  let c0_i32_283 : BitVec 32 := 0#32
  let c1_i32_285 : BitVec 32 := 1#32
  let arg16 : BitVec 32 := Scf.iv c0_i32_283 c1_i32_285 k0_t21
  let c16_i32_446 : BitVec 32 := 16#32
  let v355 : BitVec 32 := Scalar.muli arg16 c16_i32_446
  let v357 : Index := Scalar.indexCast v355
  ![0, v357.toNat]
def k0_off83 (k0_t21 : Fin k0_t21_loop.trips) : Fin 2 → Nat :=
  let c1_i32_450 : BitVec 32 := 1#32
  let v369 : Index := Scalar.indexCast c1_i32_450
  let c0_i32_283 : BitVec 32 := 0#32
  let c1_i32_285 : BitVec 32 := 1#32
  let arg16 : BitVec 32 := Scf.iv c0_i32_283 c1_i32_285 k0_t21
  let c16_i32_446 : BitVec 32 := 16#32
  let v355 : BitVec 32 := Scalar.muli arg16 c16_i32_446
  let v370 : Index := Scalar.indexCast v355
  ![1, v370.toNat]
def k0_off84 (k0_t21 : Fin k0_t21_loop.trips) : Fin 2 → Nat :=
  let c2_i32_454 : BitVec 32 := 2#32
  let v382 : Index := Scalar.indexCast c2_i32_454
  let c0_i32_283 : BitVec 32 := 0#32
  let c1_i32_285 : BitVec 32 := 1#32
  let arg16 : BitVec 32 := Scf.iv c0_i32_283 c1_i32_285 k0_t21
  let c16_i32_446 : BitVec 32 := 16#32
  let v355 : BitVec 32 := Scalar.muli arg16 c16_i32_446
  let v383 : Index := Scalar.indexCast v355
  ![2, v383.toNat]
def k0_off85 (k0_t21 : Fin k0_t21_loop.trips) : Fin 2 → Nat :=
  let c3_i32 : BitVec 32 := 3#32
  let v395 : Index := Scalar.indexCast c3_i32
  let c0_i32_283 : BitVec 32 := 0#32
  let c1_i32_285 : BitVec 32 := 1#32
  let arg16 : BitVec 32 := Scf.iv c0_i32_283 c1_i32_285 k0_t21
  let c16_i32_446 : BitVec 32 := 16#32
  let v355 : BitVec 32 := Scalar.muli arg16 c16_i32_446
  let v396 : Index := Scalar.indexCast v355
  ![3, v396.toNat]
@[reducible] def k0_t22_loop : Scf.Loop 32 :=
  let c0_i32_297 : BitVec 32 := 0#32
  let c256_i32_298 : BitVec 32 := 256#32
  let v241 : BitVec 32 := Scalar.addi c0_i32_297 c256_i32_298
  let c1_i32_299 : BitVec 32 := 1#32
  ⟨c0_i32_297, v241, c1_i32_299⟩
def k0_off86 (k0_t22 : Fin k0_t22_loop.trips) : Fin 2 → Nat :=
  let c0_i32_447 : BitVec 32 := 0#32
  let v356 : Index := Scalar.indexCast c0_i32_447
  let c0_i32_297 : BitVec 32 := 0#32
  let c1_i32_299 : BitVec 32 := 1#32
  let arg16 : BitVec 32 := Scf.iv c0_i32_297 c1_i32_299 k0_t22
  let c16_i32_446 : BitVec 32 := 16#32
  let v355 : BitVec 32 := Scalar.muli arg16 c16_i32_446
  let v357 : Index := Scalar.indexCast v355
  ![0, v357.toNat]
def k0_off87 (k0_t22 : Fin k0_t22_loop.trips) : Fin 2 → Nat :=
  let c1_i32_450 : BitVec 32 := 1#32
  let v369 : Index := Scalar.indexCast c1_i32_450
  let c0_i32_297 : BitVec 32 := 0#32
  let c1_i32_299 : BitVec 32 := 1#32
  let arg16 : BitVec 32 := Scf.iv c0_i32_297 c1_i32_299 k0_t22
  let c16_i32_446 : BitVec 32 := 16#32
  let v355 : BitVec 32 := Scalar.muli arg16 c16_i32_446
  let v370 : Index := Scalar.indexCast v355
  ![1, v370.toNat]
def k0_off88 (k0_t22 : Fin k0_t22_loop.trips) : Fin 2 → Nat :=
  let c2_i32_454 : BitVec 32 := 2#32
  let v382 : Index := Scalar.indexCast c2_i32_454
  let c0_i32_297 : BitVec 32 := 0#32
  let c1_i32_299 : BitVec 32 := 1#32
  let arg16 : BitVec 32 := Scf.iv c0_i32_297 c1_i32_299 k0_t22
  let c16_i32_446 : BitVec 32 := 16#32
  let v355 : BitVec 32 := Scalar.muli arg16 c16_i32_446
  let v383 : Index := Scalar.indexCast v355
  ![2, v383.toNat]
def k0_off89 (k0_t22 : Fin k0_t22_loop.trips) : Fin 2 → Nat :=
  let c3_i32 : BitVec 32 := 3#32
  let v395 : Index := Scalar.indexCast c3_i32
  let c0_i32_297 : BitVec 32 := 0#32
  let c1_i32_299 : BitVec 32 := 1#32
  let arg16 : BitVec 32 := Scf.iv c0_i32_297 c1_i32_299 k0_t22
  let c16_i32_446 : BitVec 32 := 16#32
  let v355 : BitVec 32 := Scalar.muli arg16 c16_i32_446
  let v396 : Index := Scalar.indexCast v355
  ![3, v396.toNat]
@[reducible] def k0_t23_loop : Scf.Loop 32 :=
  let c0_i32_311 : BitVec 32 := 0#32
  let c256_i32_312 : BitVec 32 := 256#32
  let v252 : BitVec 32 := Scalar.addi c0_i32_311 c256_i32_312
  let c1_i32_313 : BitVec 32 := 1#32
  ⟨c0_i32_311, v252, c1_i32_313⟩
def k0_off90 (k0_t23 : Fin k0_t23_loop.trips) : Fin 2 → Nat :=
  let c0_i32_447 : BitVec 32 := 0#32
  let v356 : Index := Scalar.indexCast c0_i32_447
  let c0_i32_311 : BitVec 32 := 0#32
  let c1_i32_313 : BitVec 32 := 1#32
  let arg16 : BitVec 32 := Scf.iv c0_i32_311 c1_i32_313 k0_t23
  let c16_i32_446 : BitVec 32 := 16#32
  let v355 : BitVec 32 := Scalar.muli arg16 c16_i32_446
  let v357 : Index := Scalar.indexCast v355
  ![0, v357.toNat]
def k0_off91 (k0_t23 : Fin k0_t23_loop.trips) : Fin 2 → Nat :=
  let c1_i32_450 : BitVec 32 := 1#32
  let v369 : Index := Scalar.indexCast c1_i32_450
  let c0_i32_311 : BitVec 32 := 0#32
  let c1_i32_313 : BitVec 32 := 1#32
  let arg16 : BitVec 32 := Scf.iv c0_i32_311 c1_i32_313 k0_t23
  let c16_i32_446 : BitVec 32 := 16#32
  let v355 : BitVec 32 := Scalar.muli arg16 c16_i32_446
  let v370 : Index := Scalar.indexCast v355
  ![1, v370.toNat]
def k0_off92 (k0_t23 : Fin k0_t23_loop.trips) : Fin 2 → Nat :=
  let c2_i32_454 : BitVec 32 := 2#32
  let v382 : Index := Scalar.indexCast c2_i32_454
  let c0_i32_311 : BitVec 32 := 0#32
  let c1_i32_313 : BitVec 32 := 1#32
  let arg16 : BitVec 32 := Scf.iv c0_i32_311 c1_i32_313 k0_t23
  let c16_i32_446 : BitVec 32 := 16#32
  let v355 : BitVec 32 := Scalar.muli arg16 c16_i32_446
  let v383 : Index := Scalar.indexCast v355
  ![2, v383.toNat]
def k0_off93 (k0_t23 : Fin k0_t23_loop.trips) : Fin 2 → Nat :=
  let c3_i32 : BitVec 32 := 3#32
  let v395 : Index := Scalar.indexCast c3_i32
  let c0_i32_311 : BitVec 32 := 0#32
  let c1_i32_313 : BitVec 32 := 1#32
  let arg16 : BitVec 32 := Scf.iv c0_i32_311 c1_i32_313 k0_t23
  let c16_i32_446 : BitVec 32 := 16#32
  let v355 : BitVec 32 := Scalar.muli arg16 c16_i32_446
  let v396 : Index := Scalar.indexCast v355
  ![3, v396.toNat]
@[reducible] def k0_t24_loop : Scf.Loop 32 :=
  let c0_i32_325 : BitVec 32 := 0#32
  let c256_i32_326 : BitVec 32 := 256#32
  let v263 : BitVec 32 := Scalar.addi c0_i32_325 c256_i32_326
  let c1_i32_327 : BitVec 32 := 1#32
  ⟨c0_i32_325, v263, c1_i32_327⟩
def k0_off94 (k0_t24 : Fin k0_t24_loop.trips) : Fin 2 → Nat :=
  let c0_i32_447 : BitVec 32 := 0#32
  let v356 : Index := Scalar.indexCast c0_i32_447
  let c0_i32_325 : BitVec 32 := 0#32
  let c1_i32_327 : BitVec 32 := 1#32
  let arg16 : BitVec 32 := Scf.iv c0_i32_325 c1_i32_327 k0_t24
  let c16_i32_446 : BitVec 32 := 16#32
  let v355 : BitVec 32 := Scalar.muli arg16 c16_i32_446
  let v357 : Index := Scalar.indexCast v355
  ![0, v357.toNat]
def k0_off95 (k0_t24 : Fin k0_t24_loop.trips) : Fin 2 → Nat :=
  let c1_i32_450 : BitVec 32 := 1#32
  let v369 : Index := Scalar.indexCast c1_i32_450
  let c0_i32_325 : BitVec 32 := 0#32
  let c1_i32_327 : BitVec 32 := 1#32
  let arg16 : BitVec 32 := Scf.iv c0_i32_325 c1_i32_327 k0_t24
  let c16_i32_446 : BitVec 32 := 16#32
  let v355 : BitVec 32 := Scalar.muli arg16 c16_i32_446
  let v370 : Index := Scalar.indexCast v355
  ![1, v370.toNat]
def k0_off96 (k0_t24 : Fin k0_t24_loop.trips) : Fin 2 → Nat :=
  let c2_i32_454 : BitVec 32 := 2#32
  let v382 : Index := Scalar.indexCast c2_i32_454
  let c0_i32_325 : BitVec 32 := 0#32
  let c1_i32_327 : BitVec 32 := 1#32
  let arg16 : BitVec 32 := Scf.iv c0_i32_325 c1_i32_327 k0_t24
  let c16_i32_446 : BitVec 32 := 16#32
  let v355 : BitVec 32 := Scalar.muli arg16 c16_i32_446
  let v383 : Index := Scalar.indexCast v355
  ![2, v383.toNat]
def k0_off97 (k0_t24 : Fin k0_t24_loop.trips) : Fin 2 → Nat :=
  let c3_i32 : BitVec 32 := 3#32
  let v395 : Index := Scalar.indexCast c3_i32
  let c0_i32_325 : BitVec 32 := 0#32
  let c1_i32_327 : BitVec 32 := 1#32
  let arg16 : BitVec 32 := Scf.iv c0_i32_325 c1_i32_327 k0_t24
  let c16_i32_446 : BitVec 32 := 16#32
  let v355 : BitVec 32 := Scalar.muli arg16 c16_i32_446
  let v396 : Index := Scalar.indexCast v355
  ![3, v396.toNat]
@[reducible] def k0_t25_loop : Scf.Loop 32 :=
  let c0_i32_339 : BitVec 32 := 0#32
  let c256_i32_340 : BitVec 32 := 256#32
  let v274 : BitVec 32 := Scalar.addi c0_i32_339 c256_i32_340
  let c1_i32_341 : BitVec 32 := 1#32
  ⟨c0_i32_339, v274, c1_i32_341⟩
def k0_off98 (k0_t25 : Fin k0_t25_loop.trips) : Fin 2 → Nat :=
  let c0_i32_447 : BitVec 32 := 0#32
  let v356 : Index := Scalar.indexCast c0_i32_447
  let c0_i32_339 : BitVec 32 := 0#32
  let c1_i32_341 : BitVec 32 := 1#32
  let arg16 : BitVec 32 := Scf.iv c0_i32_339 c1_i32_341 k0_t25
  let c16_i32_446 : BitVec 32 := 16#32
  let v355 : BitVec 32 := Scalar.muli arg16 c16_i32_446
  let v357 : Index := Scalar.indexCast v355
  ![0, v357.toNat]
def k0_off99 (k0_t25 : Fin k0_t25_loop.trips) : Fin 2 → Nat :=
  let c1_i32_450 : BitVec 32 := 1#32
  let v369 : Index := Scalar.indexCast c1_i32_450
  let c0_i32_339 : BitVec 32 := 0#32
  let c1_i32_341 : BitVec 32 := 1#32
  let arg16 : BitVec 32 := Scf.iv c0_i32_339 c1_i32_341 k0_t25
  let c16_i32_446 : BitVec 32 := 16#32
  let v355 : BitVec 32 := Scalar.muli arg16 c16_i32_446
  let v370 : Index := Scalar.indexCast v355
  ![1, v370.toNat]
def k0_off100 (k0_t25 : Fin k0_t25_loop.trips) : Fin 2 → Nat :=
  let c2_i32_454 : BitVec 32 := 2#32
  let v382 : Index := Scalar.indexCast c2_i32_454
  let c0_i32_339 : BitVec 32 := 0#32
  let c1_i32_341 : BitVec 32 := 1#32
  let arg16 : BitVec 32 := Scf.iv c0_i32_339 c1_i32_341 k0_t25
  let c16_i32_446 : BitVec 32 := 16#32
  let v355 : BitVec 32 := Scalar.muli arg16 c16_i32_446
  let v383 : Index := Scalar.indexCast v355
  ![2, v383.toNat]
def k0_off101 (k0_t25 : Fin k0_t25_loop.trips) : Fin 2 → Nat :=
  let c3_i32 : BitVec 32 := 3#32
  let v395 : Index := Scalar.indexCast c3_i32
  let c0_i32_339 : BitVec 32 := 0#32
  let c1_i32_341 : BitVec 32 := 1#32
  let arg16 : BitVec 32 := Scf.iv c0_i32_339 c1_i32_341 k0_t25
  let c16_i32_446 : BitVec 32 := 16#32
  let v355 : BitVec 32 := Scalar.muli arg16 c16_i32_446
  let v396 : Index := Scalar.indexCast v355
  ![3, v396.toNat]
@[reducible] def k0_t26_loop : Scf.Loop 32 :=
  let c0_i32_353 : BitVec 32 := 0#32
  let c256_i32_354 : BitVec 32 := 256#32
  let v285 : BitVec 32 := Scalar.addi c0_i32_353 c256_i32_354
  let c1_i32_355 : BitVec 32 := 1#32
  ⟨c0_i32_353, v285, c1_i32_355⟩
def k0_off102 (k0_t26 : Fin k0_t26_loop.trips) : Fin 2 → Nat :=
  let c0_i32_447 : BitVec 32 := 0#32
  let v356 : Index := Scalar.indexCast c0_i32_447
  let c0_i32_353 : BitVec 32 := 0#32
  let c1_i32_355 : BitVec 32 := 1#32
  let arg16 : BitVec 32 := Scf.iv c0_i32_353 c1_i32_355 k0_t26
  let c16_i32_446 : BitVec 32 := 16#32
  let v355 : BitVec 32 := Scalar.muli arg16 c16_i32_446
  let v357 : Index := Scalar.indexCast v355
  ![0, v357.toNat]
def k0_off103 (k0_t26 : Fin k0_t26_loop.trips) : Fin 2 → Nat :=
  let c1_i32_450 : BitVec 32 := 1#32
  let v369 : Index := Scalar.indexCast c1_i32_450
  let c0_i32_353 : BitVec 32 := 0#32
  let c1_i32_355 : BitVec 32 := 1#32
  let arg16 : BitVec 32 := Scf.iv c0_i32_353 c1_i32_355 k0_t26
  let c16_i32_446 : BitVec 32 := 16#32
  let v355 : BitVec 32 := Scalar.muli arg16 c16_i32_446
  let v370 : Index := Scalar.indexCast v355
  ![1, v370.toNat]
def k0_off104 (k0_t26 : Fin k0_t26_loop.trips) : Fin 2 → Nat :=
  let c2_i32_454 : BitVec 32 := 2#32
  let v382 : Index := Scalar.indexCast c2_i32_454
  let c0_i32_353 : BitVec 32 := 0#32
  let c1_i32_355 : BitVec 32 := 1#32
  let arg16 : BitVec 32 := Scf.iv c0_i32_353 c1_i32_355 k0_t26
  let c16_i32_446 : BitVec 32 := 16#32
  let v355 : BitVec 32 := Scalar.muli arg16 c16_i32_446
  let v383 : Index := Scalar.indexCast v355
  ![2, v383.toNat]
def k0_off105 (k0_t26 : Fin k0_t26_loop.trips) : Fin 2 → Nat :=
  let c3_i32 : BitVec 32 := 3#32
  let v395 : Index := Scalar.indexCast c3_i32
  let c0_i32_353 : BitVec 32 := 0#32
  let c1_i32_355 : BitVec 32 := 1#32
  let arg16 : BitVec 32 := Scf.iv c0_i32_353 c1_i32_355 k0_t26
  let c16_i32_446 : BitVec 32 := 16#32
  let v355 : BitVec 32 := Scalar.muli arg16 c16_i32_446
  let v396 : Index := Scalar.indexCast v355
  ![3, v396.toNat]
@[reducible] def k0_t27_loop : Scf.Loop 32 :=
  let c0_i32_367 : BitVec 32 := 0#32
  let c256_i32_368 : BitVec 32 := 256#32
  let v296 : BitVec 32 := Scalar.addi c0_i32_367 c256_i32_368
  let c1_i32_369 : BitVec 32 := 1#32
  ⟨c0_i32_367, v296, c1_i32_369⟩
def k0_off106 (k0_t27 : Fin k0_t27_loop.trips) : Fin 2 → Nat :=
  let c0_i32_447 : BitVec 32 := 0#32
  let v356 : Index := Scalar.indexCast c0_i32_447
  let c0_i32_367 : BitVec 32 := 0#32
  let c1_i32_369 : BitVec 32 := 1#32
  let arg16 : BitVec 32 := Scf.iv c0_i32_367 c1_i32_369 k0_t27
  let c16_i32_446 : BitVec 32 := 16#32
  let v355 : BitVec 32 := Scalar.muli arg16 c16_i32_446
  let v357 : Index := Scalar.indexCast v355
  ![0, v357.toNat]
def k0_off107 (k0_t27 : Fin k0_t27_loop.trips) : Fin 2 → Nat :=
  let c1_i32_450 : BitVec 32 := 1#32
  let v369 : Index := Scalar.indexCast c1_i32_450
  let c0_i32_367 : BitVec 32 := 0#32
  let c1_i32_369 : BitVec 32 := 1#32
  let arg16 : BitVec 32 := Scf.iv c0_i32_367 c1_i32_369 k0_t27
  let c16_i32_446 : BitVec 32 := 16#32
  let v355 : BitVec 32 := Scalar.muli arg16 c16_i32_446
  let v370 : Index := Scalar.indexCast v355
  ![1, v370.toNat]
def k0_off108 (k0_t27 : Fin k0_t27_loop.trips) : Fin 2 → Nat :=
  let c2_i32_454 : BitVec 32 := 2#32
  let v382 : Index := Scalar.indexCast c2_i32_454
  let c0_i32_367 : BitVec 32 := 0#32
  let c1_i32_369 : BitVec 32 := 1#32
  let arg16 : BitVec 32 := Scf.iv c0_i32_367 c1_i32_369 k0_t27
  let c16_i32_446 : BitVec 32 := 16#32
  let v355 : BitVec 32 := Scalar.muli arg16 c16_i32_446
  let v383 : Index := Scalar.indexCast v355
  ![2, v383.toNat]
def k0_off109 (k0_t27 : Fin k0_t27_loop.trips) : Fin 2 → Nat :=
  let c3_i32 : BitVec 32 := 3#32
  let v395 : Index := Scalar.indexCast c3_i32
  let c0_i32_367 : BitVec 32 := 0#32
  let c1_i32_369 : BitVec 32 := 1#32
  let arg16 : BitVec 32 := Scf.iv c0_i32_367 c1_i32_369 k0_t27
  let c16_i32_446 : BitVec 32 := 16#32
  let v355 : BitVec 32 := Scalar.muli arg16 c16_i32_446
  let v396 : Index := Scalar.indexCast v355
  ![3, v396.toNat]
@[reducible] def k0_t28_loop : Scf.Loop 32 :=
  let c0_i32_381 : BitVec 32 := 0#32
  let c256_i32_382 : BitVec 32 := 256#32
  let v307 : BitVec 32 := Scalar.addi c0_i32_381 c256_i32_382
  let c1_i32_383 : BitVec 32 := 1#32
  ⟨c0_i32_381, v307, c1_i32_383⟩
def k0_off110 (k0_t28 : Fin k0_t28_loop.trips) : Fin 2 → Nat :=
  let c0_i32_447 : BitVec 32 := 0#32
  let v356 : Index := Scalar.indexCast c0_i32_447
  let c0_i32_381 : BitVec 32 := 0#32
  let c1_i32_383 : BitVec 32 := 1#32
  let arg16 : BitVec 32 := Scf.iv c0_i32_381 c1_i32_383 k0_t28
  let c16_i32_446 : BitVec 32 := 16#32
  let v355 : BitVec 32 := Scalar.muli arg16 c16_i32_446
  let v357 : Index := Scalar.indexCast v355
  ![0, v357.toNat]
def k0_off111 (k0_t28 : Fin k0_t28_loop.trips) : Fin 2 → Nat :=
  let c1_i32_450 : BitVec 32 := 1#32
  let v369 : Index := Scalar.indexCast c1_i32_450
  let c0_i32_381 : BitVec 32 := 0#32
  let c1_i32_383 : BitVec 32 := 1#32
  let arg16 : BitVec 32 := Scf.iv c0_i32_381 c1_i32_383 k0_t28
  let c16_i32_446 : BitVec 32 := 16#32
  let v355 : BitVec 32 := Scalar.muli arg16 c16_i32_446
  let v370 : Index := Scalar.indexCast v355
  ![1, v370.toNat]
def k0_off112 (k0_t28 : Fin k0_t28_loop.trips) : Fin 2 → Nat :=
  let c2_i32_454 : BitVec 32 := 2#32
  let v382 : Index := Scalar.indexCast c2_i32_454
  let c0_i32_381 : BitVec 32 := 0#32
  let c1_i32_383 : BitVec 32 := 1#32
  let arg16 : BitVec 32 := Scf.iv c0_i32_381 c1_i32_383 k0_t28
  let c16_i32_446 : BitVec 32 := 16#32
  let v355 : BitVec 32 := Scalar.muli arg16 c16_i32_446
  let v383 : Index := Scalar.indexCast v355
  ![2, v383.toNat]
def k0_off113 (k0_t28 : Fin k0_t28_loop.trips) : Fin 2 → Nat :=
  let c3_i32 : BitVec 32 := 3#32
  let v395 : Index := Scalar.indexCast c3_i32
  let c0_i32_381 : BitVec 32 := 0#32
  let c1_i32_383 : BitVec 32 := 1#32
  let arg16 : BitVec 32 := Scf.iv c0_i32_381 c1_i32_383 k0_t28
  let c16_i32_446 : BitVec 32 := 16#32
  let v355 : BitVec 32 := Scalar.muli arg16 c16_i32_446
  let v396 : Index := Scalar.indexCast v355
  ![3, v396.toNat]
@[reducible] def k0_t29_loop : Scf.Loop 32 :=
  let c0_i32_395 : BitVec 32 := 0#32
  let c256_i32_396 : BitVec 32 := 256#32
  let v318 : BitVec 32 := Scalar.addi c0_i32_395 c256_i32_396
  let c1_i32_397 : BitVec 32 := 1#32
  ⟨c0_i32_395, v318, c1_i32_397⟩
def k0_off114 (k0_t29 : Fin k0_t29_loop.trips) : Fin 2 → Nat :=
  let c0_i32_447 : BitVec 32 := 0#32
  let v356 : Index := Scalar.indexCast c0_i32_447
  let c0_i32_395 : BitVec 32 := 0#32
  let c1_i32_397 : BitVec 32 := 1#32
  let arg16 : BitVec 32 := Scf.iv c0_i32_395 c1_i32_397 k0_t29
  let c16_i32_446 : BitVec 32 := 16#32
  let v355 : BitVec 32 := Scalar.muli arg16 c16_i32_446
  let v357 : Index := Scalar.indexCast v355
  ![0, v357.toNat]
def k0_off115 (k0_t29 : Fin k0_t29_loop.trips) : Fin 2 → Nat :=
  let c1_i32_450 : BitVec 32 := 1#32
  let v369 : Index := Scalar.indexCast c1_i32_450
  let c0_i32_395 : BitVec 32 := 0#32
  let c1_i32_397 : BitVec 32 := 1#32
  let arg16 : BitVec 32 := Scf.iv c0_i32_395 c1_i32_397 k0_t29
  let c16_i32_446 : BitVec 32 := 16#32
  let v355 : BitVec 32 := Scalar.muli arg16 c16_i32_446
  let v370 : Index := Scalar.indexCast v355
  ![1, v370.toNat]
def k0_off116 (k0_t29 : Fin k0_t29_loop.trips) : Fin 2 → Nat :=
  let c2_i32_454 : BitVec 32 := 2#32
  let v382 : Index := Scalar.indexCast c2_i32_454
  let c0_i32_395 : BitVec 32 := 0#32
  let c1_i32_397 : BitVec 32 := 1#32
  let arg16 : BitVec 32 := Scf.iv c0_i32_395 c1_i32_397 k0_t29
  let c16_i32_446 : BitVec 32 := 16#32
  let v355 : BitVec 32 := Scalar.muli arg16 c16_i32_446
  let v383 : Index := Scalar.indexCast v355
  ![2, v383.toNat]
def k0_off117 (k0_t29 : Fin k0_t29_loop.trips) : Fin 2 → Nat :=
  let c3_i32 : BitVec 32 := 3#32
  let v395 : Index := Scalar.indexCast c3_i32
  let c0_i32_395 : BitVec 32 := 0#32
  let c1_i32_397 : BitVec 32 := 1#32
  let arg16 : BitVec 32 := Scf.iv c0_i32_395 c1_i32_397 k0_t29
  let c16_i32_446 : BitVec 32 := 16#32
  let v355 : BitVec 32 := Scalar.muli arg16 c16_i32_446
  let v396 : Index := Scalar.indexCast v355
  ![3, v396.toNat]
@[reducible] def k0_t30_loop : Scf.Loop 32 :=
  let c0_i32_409 : BitVec 32 := 0#32
  let c256_i32_410 : BitVec 32 := 256#32
  let v329 : BitVec 32 := Scalar.addi c0_i32_409 c256_i32_410
  let c1_i32_411 : BitVec 32 := 1#32
  ⟨c0_i32_409, v329, c1_i32_411⟩
def k0_off118 (k0_t30 : Fin k0_t30_loop.trips) : Fin 2 → Nat :=
  let c0_i32_447 : BitVec 32 := 0#32
  let v356 : Index := Scalar.indexCast c0_i32_447
  let c0_i32_409 : BitVec 32 := 0#32
  let c1_i32_411 : BitVec 32 := 1#32
  let arg16 : BitVec 32 := Scf.iv c0_i32_409 c1_i32_411 k0_t30
  let c16_i32_446 : BitVec 32 := 16#32
  let v355 : BitVec 32 := Scalar.muli arg16 c16_i32_446
  let v357 : Index := Scalar.indexCast v355
  ![0, v357.toNat]
def k0_off119 (k0_t30 : Fin k0_t30_loop.trips) : Fin 2 → Nat :=
  let c1_i32_450 : BitVec 32 := 1#32
  let v369 : Index := Scalar.indexCast c1_i32_450
  let c0_i32_409 : BitVec 32 := 0#32
  let c1_i32_411 : BitVec 32 := 1#32
  let arg16 : BitVec 32 := Scf.iv c0_i32_409 c1_i32_411 k0_t30
  let c16_i32_446 : BitVec 32 := 16#32
  let v355 : BitVec 32 := Scalar.muli arg16 c16_i32_446
  let v370 : Index := Scalar.indexCast v355
  ![1, v370.toNat]
def k0_off120 (k0_t30 : Fin k0_t30_loop.trips) : Fin 2 → Nat :=
  let c2_i32_454 : BitVec 32 := 2#32
  let v382 : Index := Scalar.indexCast c2_i32_454
  let c0_i32_409 : BitVec 32 := 0#32
  let c1_i32_411 : BitVec 32 := 1#32
  let arg16 : BitVec 32 := Scf.iv c0_i32_409 c1_i32_411 k0_t30
  let c16_i32_446 : BitVec 32 := 16#32
  let v355 : BitVec 32 := Scalar.muli arg16 c16_i32_446
  let v383 : Index := Scalar.indexCast v355
  ![2, v383.toNat]
def k0_off121 (k0_t30 : Fin k0_t30_loop.trips) : Fin 2 → Nat :=
  let c3_i32 : BitVec 32 := 3#32
  let v395 : Index := Scalar.indexCast c3_i32
  let c0_i32_409 : BitVec 32 := 0#32
  let c1_i32_411 : BitVec 32 := 1#32
  let arg16 : BitVec 32 := Scf.iv c0_i32_409 c1_i32_411 k0_t30
  let c16_i32_446 : BitVec 32 := 16#32
  let v355 : BitVec 32 := Scalar.muli arg16 c16_i32_446
  let v396 : Index := Scalar.indexCast v355
  ![3, v396.toNat]
@[reducible] def k0_t31_loop : Scf.Loop 32 :=
  let c0_i32_421 : BitVec 32 := 0#32
  let c256_i32_422 : BitVec 32 := 256#32
  let v337 : BitVec 32 := Scalar.addi c0_i32_421 c256_i32_422
  let c1_i32_423 : BitVec 32 := 1#32
  ⟨c0_i32_421, v337, c1_i32_423⟩
def k0_off122 (k0_t31 : Fin k0_t31_loop.trips) : Fin 2 → Nat :=
  let c0_i32_447 : BitVec 32 := 0#32
  let v356 : Index := Scalar.indexCast c0_i32_447
  let c0_i32_421 : BitVec 32 := 0#32
  let c1_i32_423 : BitVec 32 := 1#32
  let arg16 : BitVec 32 := Scf.iv c0_i32_421 c1_i32_423 k0_t31
  let c16_i32_446 : BitVec 32 := 16#32
  let v355 : BitVec 32 := Scalar.muli arg16 c16_i32_446
  let v357 : Index := Scalar.indexCast v355
  ![0, v357.toNat]
def k0_off123 (k0_t31 : Fin k0_t31_loop.trips) : Fin 2 → Nat :=
  let c1_i32_450 : BitVec 32 := 1#32
  let v369 : Index := Scalar.indexCast c1_i32_450
  let c0_i32_421 : BitVec 32 := 0#32
  let c1_i32_423 : BitVec 32 := 1#32
  let arg16 : BitVec 32 := Scf.iv c0_i32_421 c1_i32_423 k0_t31
  let c16_i32_446 : BitVec 32 := 16#32
  let v355 : BitVec 32 := Scalar.muli arg16 c16_i32_446
  let v370 : Index := Scalar.indexCast v355
  ![1, v370.toNat]
def k0_off124 (k0_t31 : Fin k0_t31_loop.trips) : Fin 2 → Nat :=
  let c2_i32_454 : BitVec 32 := 2#32
  let v382 : Index := Scalar.indexCast c2_i32_454
  let c0_i32_421 : BitVec 32 := 0#32
  let c1_i32_423 : BitVec 32 := 1#32
  let arg16 : BitVec 32 := Scf.iv c0_i32_421 c1_i32_423 k0_t31
  let c16_i32_446 : BitVec 32 := 16#32
  let v355 : BitVec 32 := Scalar.muli arg16 c16_i32_446
  let v383 : Index := Scalar.indexCast v355
  ![2, v383.toNat]
def k0_off125 (k0_t31 : Fin k0_t31_loop.trips) : Fin 2 → Nat :=
  let c3_i32 : BitVec 32 := 3#32
  let v395 : Index := Scalar.indexCast c3_i32
  let c0_i32_421 : BitVec 32 := 0#32
  let c1_i32_423 : BitVec 32 := 1#32
  let arg16 : BitVec 32 := Scf.iv c0_i32_421 c1_i32_423 k0_t31
  let c16_i32_446 : BitVec 32 := 16#32
  let v355 : BitVec 32 := Scalar.muli arg16 c16_i32_446
  let v396 : Index := Scalar.indexCast v355
  ![3, v396.toNat]
@[reducible] def k0_t32_loop : Scf.Loop 32 :=
  let c0_i32_433 : BitVec 32 := 0#32
  let c256_i32_434 : BitVec 32 := 256#32
  let v345 : BitVec 32 := Scalar.addi c0_i32_433 c256_i32_434
  let c1_i32_435 : BitVec 32 := 1#32
  ⟨c0_i32_433, v345, c1_i32_435⟩
def k0_off126 (k0_t32 : Fin k0_t32_loop.trips) : Fin 2 → Nat :=
  let c0_i32_447 : BitVec 32 := 0#32
  let v356 : Index := Scalar.indexCast c0_i32_447
  let c0_i32_433 : BitVec 32 := 0#32
  let c1_i32_435 : BitVec 32 := 1#32
  let arg16 : BitVec 32 := Scf.iv c0_i32_433 c1_i32_435 k0_t32
  let c16_i32_446 : BitVec 32 := 16#32
  let v355 : BitVec 32 := Scalar.muli arg16 c16_i32_446
  let v357 : Index := Scalar.indexCast v355
  ![0, v357.toNat]
def k0_off127 (k0_t32 : Fin k0_t32_loop.trips) : Fin 2 → Nat :=
  let c1_i32_450 : BitVec 32 := 1#32
  let v369 : Index := Scalar.indexCast c1_i32_450
  let c0_i32_433 : BitVec 32 := 0#32
  let c1_i32_435 : BitVec 32 := 1#32
  let arg16 : BitVec 32 := Scf.iv c0_i32_433 c1_i32_435 k0_t32
  let c16_i32_446 : BitVec 32 := 16#32
  let v355 : BitVec 32 := Scalar.muli arg16 c16_i32_446
  let v370 : Index := Scalar.indexCast v355
  ![1, v370.toNat]
def k0_off128 (k0_t32 : Fin k0_t32_loop.trips) : Fin 2 → Nat :=
  let c2_i32_454 : BitVec 32 := 2#32
  let v382 : Index := Scalar.indexCast c2_i32_454
  let c0_i32_433 : BitVec 32 := 0#32
  let c1_i32_435 : BitVec 32 := 1#32
  let arg16 : BitVec 32 := Scf.iv c0_i32_433 c1_i32_435 k0_t32
  let c16_i32_446 : BitVec 32 := 16#32
  let v355 : BitVec 32 := Scalar.muli arg16 c16_i32_446
  let v383 : Index := Scalar.indexCast v355
  ![2, v383.toNat]
def k0_off129 (k0_t32 : Fin k0_t32_loop.trips) : Fin 2 → Nat :=
  let c3_i32 : BitVec 32 := 3#32
  let v395 : Index := Scalar.indexCast c3_i32
  let c0_i32_433 : BitVec 32 := 0#32
  let c1_i32_435 : BitVec 32 := 1#32
  let arg16 : BitVec 32 := Scf.iv c0_i32_433 c1_i32_435 k0_t32
  let c16_i32_446 : BitVec 32 := 16#32
  let v355 : BitVec 32 := Scalar.muli arg16 c16_i32_446
  let v396 : Index := Scalar.indexCast v355
  ![3, v396.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  h_S1x16 : 0 < S1x16.numel
  shapeCasts_S1x16_S16 : S1x16.ShapeCasts S16
  shapeCasts_S16_S1x16 : S16.ShapeCasts S1x16
  hcc0_scratch6 : 0 + S_.numel ≤ 6
  hcc0_scratch7 : 1 + S_.numel ≤ 6
  hcc0_scratch8 : 2 + S_.numel ≤ 6
  hcc0_scratch9 : 3 + S_.numel ≤ 6
  hcc0_scratch10 : 4 + S_.numel ≤ 6
  hcc0_scratch11 : 5 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 32), ∀ a, (k0_off1 i (BitVec.ofNat 32 (4 * r.val))) a + S4x4096.size a ≤ S4096x4096.size a
  k0_t1_ok : k0_t1_loop.OK
  k0_off2_inb : ∀ k0_t1 : Fin k0_t1_loop.trips, ∀ a, (k0_off2 k0_t1) a + S1x16.size a ≤ S4x4096.size a
  k0_off3_inb : ∀ k0_t1 : Fin k0_t1_loop.trips, ∀ a, (k0_off3 k0_t1) a + S1x16.size a ≤ S4x4096.size a
  k0_off4_inb : ∀ k0_t1 : Fin k0_t1_loop.trips, ∀ a, (k0_off4 k0_t1) a + S1x16.size a ≤ S4x4096.size a
  k0_off5_inb : ∀ k0_t1 : Fin k0_t1_loop.trips, ∀ a, (k0_off5 k0_t1) a + S1x16.size a ≤ S4x4096.size a
  k0_t2_ok : k0_t2_loop.OK
  k0_off6_inb : ∀ k0_t2 : Fin k0_t2_loop.trips, ∀ a, (k0_off6 k0_t2) a + S1x16.size a ≤ S4x4096.size a
  k0_off7_inb : ∀ k0_t2 : Fin k0_t2_loop.trips, ∀ a, (k0_off7 k0_t2) a + S1x16.size a ≤ S4x4096.size a
  k0_off8_inb : ∀ k0_t2 : Fin k0_t2_loop.trips, ∀ a, (k0_off8 k0_t2) a + S1x16.size a ≤ S4x4096.size a
  k0_off9_inb : ∀ k0_t2 : Fin k0_t2_loop.trips, ∀ a, (k0_off9 k0_t2) a + S1x16.size a ≤ S4x4096.size a
  k0_t3_ok : k0_t3_loop.OK
  k0_off10_inb : ∀ k0_t3 : Fin k0_t3_loop.trips, ∀ a, (k0_off10 k0_t3) a + S1x16.size a ≤ S4x4096.size a
  k0_off11_inb : ∀ k0_t3 : Fin k0_t3_loop.trips, ∀ a, (k0_off11 k0_t3) a + S1x16.size a ≤ S4x4096.size a
  k0_off12_inb : ∀ k0_t3 : Fin k0_t3_loop.trips, ∀ a, (k0_off12 k0_t3) a + S1x16.size a ≤ S4x4096.size a
  k0_off13_inb : ∀ k0_t3 : Fin k0_t3_loop.trips, ∀ a, (k0_off13 k0_t3) a + S1x16.size a ≤ S4x4096.size a
  k0_t4_ok : k0_t4_loop.OK
  k0_off14_inb : ∀ k0_t4 : Fin k0_t4_loop.trips, ∀ a, (k0_off14 k0_t4) a + S1x16.size a ≤ S4x4096.size a
  k0_off15_inb : ∀ k0_t4 : Fin k0_t4_loop.trips, ∀ a, (k0_off15 k0_t4) a + S1x16.size a ≤ S4x4096.size a
  k0_off16_inb : ∀ k0_t4 : Fin k0_t4_loop.trips, ∀ a, (k0_off16 k0_t4) a + S1x16.size a ≤ S4x4096.size a
  k0_off17_inb : ∀ k0_t4 : Fin k0_t4_loop.trips, ∀ a, (k0_off17 k0_t4) a + S1x16.size a ≤ S4x4096.size a
  k0_t5_ok : k0_t5_loop.OK
  k0_off18_inb : ∀ k0_t5 : Fin k0_t5_loop.trips, ∀ a, (k0_off18 k0_t5) a + S1x16.size a ≤ S4x4096.size a
  k0_off19_inb : ∀ k0_t5 : Fin k0_t5_loop.trips, ∀ a, (k0_off19 k0_t5) a + S1x16.size a ≤ S4x4096.size a
  k0_off20_inb : ∀ k0_t5 : Fin k0_t5_loop.trips, ∀ a, (k0_off20 k0_t5) a + S1x16.size a ≤ S4x4096.size a
  k0_off21_inb : ∀ k0_t5 : Fin k0_t5_loop.trips, ∀ a, (k0_off21 k0_t5) a + S1x16.size a ≤ S4x4096.size a
  k0_t6_ok : k0_t6_loop.OK
  k0_off22_inb : ∀ k0_t6 : Fin k0_t6_loop.trips, ∀ a, (k0_off22 k0_t6) a + S1x16.size a ≤ S4x4096.size a
  k0_off23_inb : ∀ k0_t6 : Fin k0_t6_loop.trips, ∀ a, (k0_off23 k0_t6) a + S1x16.size a ≤ S4x4096.size a
  k0_off24_inb : ∀ k0_t6 : Fin k0_t6_loop.trips, ∀ a, (k0_off24 k0_t6) a + S1x16.size a ≤ S4x4096.size a
  k0_off25_inb : ∀ k0_t6 : Fin k0_t6_loop.trips, ∀ a, (k0_off25 k0_t6) a + S1x16.size a ≤ S4x4096.size a
  k0_t7_ok : k0_t7_loop.OK
  k0_off26_inb : ∀ k0_t7 : Fin k0_t7_loop.trips, ∀ a, (k0_off26 k0_t7) a + S1x16.size a ≤ S4x4096.size a
  k0_off27_inb : ∀ k0_t7 : Fin k0_t7_loop.trips, ∀ a, (k0_off27 k0_t7) a + S1x16.size a ≤ S4x4096.size a
  k0_off28_inb : ∀ k0_t7 : Fin k0_t7_loop.trips, ∀ a, (k0_off28 k0_t7) a + S1x16.size a ≤ S4x4096.size a
  k0_off29_inb : ∀ k0_t7 : Fin k0_t7_loop.trips, ∀ a, (k0_off29 k0_t7) a + S1x16.size a ≤ S4x4096.size a
  k0_t8_ok : k0_t8_loop.OK
  k0_off30_inb : ∀ k0_t8 : Fin k0_t8_loop.trips, ∀ a, (k0_off30 k0_t8) a + S1x16.size a ≤ S4x4096.size a
  k0_off31_inb : ∀ k0_t8 : Fin k0_t8_loop.trips, ∀ a, (k0_off31 k0_t8) a + S1x16.size a ≤ S4x4096.size a
  k0_off32_inb : ∀ k0_t8 : Fin k0_t8_loop.trips, ∀ a, (k0_off32 k0_t8) a + S1x16.size a ≤ S4x4096.size a
  k0_off33_inb : ∀ k0_t8 : Fin k0_t8_loop.trips, ∀ a, (k0_off33 k0_t8) a + S1x16.size a ≤ S4x4096.size a
  k0_t9_ok : k0_t9_loop.OK
  k0_off34_inb : ∀ k0_t9 : Fin k0_t9_loop.trips, ∀ a, (k0_off34 k0_t9) a + S1x16.size a ≤ S4x4096.size a
  k0_off35_inb : ∀ k0_t9 : Fin k0_t9_loop.trips, ∀ a, (k0_off35 k0_t9) a + S1x16.size a ≤ S4x4096.size a
  k0_off36_inb : ∀ k0_t9 : Fin k0_t9_loop.trips, ∀ a, (k0_off36 k0_t9) a + S1x16.size a ≤ S4x4096.size a
  k0_off37_inb : ∀ k0_t9 : Fin k0_t9_loop.trips, ∀ a, (k0_off37 k0_t9) a + S1x16.size a ≤ S4x4096.size a
  k0_t10_ok : k0_t10_loop.OK
  k0_off38_inb : ∀ k0_t10 : Fin k0_t10_loop.trips, ∀ a, (k0_off38 k0_t10) a + S1x16.size a ≤ S4x4096.size a
  k0_off39_inb : ∀ k0_t10 : Fin k0_t10_loop.trips, ∀ a, (k0_off39 k0_t10) a + S1x16.size a ≤ S4x4096.size a
  k0_off40_inb : ∀ k0_t10 : Fin k0_t10_loop.trips, ∀ a, (k0_off40 k0_t10) a + S1x16.size a ≤ S4x4096.size a
  k0_off41_inb : ∀ k0_t10 : Fin k0_t10_loop.trips, ∀ a, (k0_off41 k0_t10) a + S1x16.size a ≤ S4x4096.size a
  k0_t11_ok : k0_t11_loop.OK
  k0_off42_inb : ∀ k0_t11 : Fin k0_t11_loop.trips, ∀ a, (k0_off42 k0_t11) a + S1x16.size a ≤ S4x4096.size a
  k0_off43_inb : ∀ k0_t11 : Fin k0_t11_loop.trips, ∀ a, (k0_off43 k0_t11) a + S1x16.size a ≤ S4x4096.size a
  k0_off44_inb : ∀ k0_t11 : Fin k0_t11_loop.trips, ∀ a, (k0_off44 k0_t11) a + S1x16.size a ≤ S4x4096.size a
  k0_off45_inb : ∀ k0_t11 : Fin k0_t11_loop.trips, ∀ a, (k0_off45 k0_t11) a + S1x16.size a ≤ S4x4096.size a
  k0_t12_ok : k0_t12_loop.OK
  k0_off46_inb : ∀ k0_t12 : Fin k0_t12_loop.trips, ∀ a, (k0_off46 k0_t12) a + S1x16.size a ≤ S4x4096.size a
  k0_off47_inb : ∀ k0_t12 : Fin k0_t12_loop.trips, ∀ a, (k0_off47 k0_t12) a + S1x16.size a ≤ S4x4096.size a
  k0_off48_inb : ∀ k0_t12 : Fin k0_t12_loop.trips, ∀ a, (k0_off48 k0_t12) a + S1x16.size a ≤ S4x4096.size a
  k0_off49_inb : ∀ k0_t12 : Fin k0_t12_loop.trips, ∀ a, (k0_off49 k0_t12) a + S1x16.size a ≤ S4x4096.size a
  k0_t13_ok : k0_t13_loop.OK
  k0_off50_inb : ∀ k0_t13 : Fin k0_t13_loop.trips, ∀ a, (k0_off50 k0_t13) a + S1x16.size a ≤ S4x4096.size a
  k0_off51_inb : ∀ k0_t13 : Fin k0_t13_loop.trips, ∀ a, (k0_off51 k0_t13) a + S1x16.size a ≤ S4x4096.size a
  k0_off52_inb : ∀ k0_t13 : Fin k0_t13_loop.trips, ∀ a, (k0_off52 k0_t13) a + S1x16.size a ≤ S4x4096.size a
  k0_off53_inb : ∀ k0_t13 : Fin k0_t13_loop.trips, ∀ a, (k0_off53 k0_t13) a + S1x16.size a ≤ S4x4096.size a
  k0_t14_ok : k0_t14_loop.OK
  k0_off54_inb : ∀ k0_t14 : Fin k0_t14_loop.trips, ∀ a, (k0_off54 k0_t14) a + S1x16.size a ≤ S4x4096.size a
  k0_off55_inb : ∀ k0_t14 : Fin k0_t14_loop.trips, ∀ a, (k0_off55 k0_t14) a + S1x16.size a ≤ S4x4096.size a
  k0_off56_inb : ∀ k0_t14 : Fin k0_t14_loop.trips, ∀ a, (k0_off56 k0_t14) a + S1x16.size a ≤ S4x4096.size a
  k0_off57_inb : ∀ k0_t14 : Fin k0_t14_loop.trips, ∀ a, (k0_off57 k0_t14) a + S1x16.size a ≤ S4x4096.size a
  k0_t15_ok : k0_t15_loop.OK
  k0_off58_inb : ∀ k0_t15 : Fin k0_t15_loop.trips, ∀ a, (k0_off58 k0_t15) a + S1x16.size a ≤ S4x4096.size a
  k0_off59_inb : ∀ k0_t15 : Fin k0_t15_loop.trips, ∀ a, (k0_off59 k0_t15) a + S1x16.size a ≤ S4x4096.size a
  k0_off60_inb : ∀ k0_t15 : Fin k0_t15_loop.trips, ∀ a, (k0_off60 k0_t15) a + S1x16.size a ≤ S4x4096.size a
  k0_off61_inb : ∀ k0_t15 : Fin k0_t15_loop.trips, ∀ a, (k0_off61 k0_t15) a + S1x16.size a ≤ S4x4096.size a
  k0_t16_ok : k0_t16_loop.OK
  k0_off62_inb : ∀ k0_t16 : Fin k0_t16_loop.trips, ∀ a, (k0_off62 k0_t16) a + S1x16.size a ≤ S4x4096.size a
  k0_off63_inb : ∀ k0_t16 : Fin k0_t16_loop.trips, ∀ a, (k0_off63 k0_t16) a + S1x16.size a ≤ S4x4096.size a
  k0_off64_inb : ∀ k0_t16 : Fin k0_t16_loop.trips, ∀ a, (k0_off64 k0_t16) a + S1x16.size a ≤ S4x4096.size a
  k0_off65_inb : ∀ k0_t16 : Fin k0_t16_loop.trips, ∀ a, (k0_off65 k0_t16) a + S1x16.size a ≤ S4x4096.size a
  k0_t17_ok : k0_t17_loop.OK
  k0_off66_inb : ∀ k0_t17 : Fin k0_t17_loop.trips, ∀ a, (k0_off66 k0_t17) a + S1x16.size a ≤ S4x4096.size a
  k0_off67_inb : ∀ k0_t17 : Fin k0_t17_loop.trips, ∀ a, (k0_off67 k0_t17) a + S1x16.size a ≤ S4x4096.size a
  k0_off68_inb : ∀ k0_t17 : Fin k0_t17_loop.trips, ∀ a, (k0_off68 k0_t17) a + S1x16.size a ≤ S4x4096.size a
  k0_off69_inb : ∀ k0_t17 : Fin k0_t17_loop.trips, ∀ a, (k0_off69 k0_t17) a + S1x16.size a ≤ S4x4096.size a
  k0_t18_ok : k0_t18_loop.OK
  k0_off70_inb : ∀ k0_t18 : Fin k0_t18_loop.trips, ∀ a, (k0_off70 k0_t18) a + S1x16.size a ≤ S4x4096.size a
  k0_off71_inb : ∀ k0_t18 : Fin k0_t18_loop.trips, ∀ a, (k0_off71 k0_t18) a + S1x16.size a ≤ S4x4096.size a
  k0_off72_inb : ∀ k0_t18 : Fin k0_t18_loop.trips, ∀ a, (k0_off72 k0_t18) a + S1x16.size a ≤ S4x4096.size a
  k0_off73_inb : ∀ k0_t18 : Fin k0_t18_loop.trips, ∀ a, (k0_off73 k0_t18) a + S1x16.size a ≤ S4x4096.size a
  k0_t19_ok : k0_t19_loop.OK
  k0_off74_inb : ∀ k0_t19 : Fin k0_t19_loop.trips, ∀ a, (k0_off74 k0_t19) a + S1x16.size a ≤ S4x4096.size a
  k0_off75_inb : ∀ k0_t19 : Fin k0_t19_loop.trips, ∀ a, (k0_off75 k0_t19) a + S1x16.size a ≤ S4x4096.size a
  k0_off76_inb : ∀ k0_t19 : Fin k0_t19_loop.trips, ∀ a, (k0_off76 k0_t19) a + S1x16.size a ≤ S4x4096.size a
  k0_off77_inb : ∀ k0_t19 : Fin k0_t19_loop.trips, ∀ a, (k0_off77 k0_t19) a + S1x16.size a ≤ S4x4096.size a
  k0_t20_ok : k0_t20_loop.OK
  k0_off78_inb : ∀ k0_t20 : Fin k0_t20_loop.trips, ∀ a, (k0_off78 k0_t20) a + S1x16.size a ≤ S4x4096.size a
  k0_off79_inb : ∀ k0_t20 : Fin k0_t20_loop.trips, ∀ a, (k0_off79 k0_t20) a + S1x16.size a ≤ S4x4096.size a
  k0_off80_inb : ∀ k0_t20 : Fin k0_t20_loop.trips, ∀ a, (k0_off80 k0_t20) a + S1x16.size a ≤ S4x4096.size a
  k0_off81_inb : ∀ k0_t20 : Fin k0_t20_loop.trips, ∀ a, (k0_off81 k0_t20) a + S1x16.size a ≤ S4x4096.size a
  k0_t21_ok : k0_t21_loop.OK
  k0_off82_inb : ∀ k0_t21 : Fin k0_t21_loop.trips, ∀ a, (k0_off82 k0_t21) a + S1x16.size a ≤ S4x4096.size a
  k0_off83_inb : ∀ k0_t21 : Fin k0_t21_loop.trips, ∀ a, (k0_off83 k0_t21) a + S1x16.size a ≤ S4x4096.size a
  k0_off84_inb : ∀ k0_t21 : Fin k0_t21_loop.trips, ∀ a, (k0_off84 k0_t21) a + S1x16.size a ≤ S4x4096.size a
  k0_off85_inb : ∀ k0_t21 : Fin k0_t21_loop.trips, ∀ a, (k0_off85 k0_t21) a + S1x16.size a ≤ S4x4096.size a
  k0_t22_ok : k0_t22_loop.OK
  k0_off86_inb : ∀ k0_t22 : Fin k0_t22_loop.trips, ∀ a, (k0_off86 k0_t22) a + S1x16.size a ≤ S4x4096.size a
  k0_off87_inb : ∀ k0_t22 : Fin k0_t22_loop.trips, ∀ a, (k0_off87 k0_t22) a + S1x16.size a ≤ S4x4096.size a
  k0_off88_inb : ∀ k0_t22 : Fin k0_t22_loop.trips, ∀ a, (k0_off88 k0_t22) a + S1x16.size a ≤ S4x4096.size a
  k0_off89_inb : ∀ k0_t22 : Fin k0_t22_loop.trips, ∀ a, (k0_off89 k0_t22) a + S1x16.size a ≤ S4x4096.size a
  k0_t23_ok : k0_t23_loop.OK
  k0_off90_inb : ∀ k0_t23 : Fin k0_t23_loop.trips, ∀ a, (k0_off90 k0_t23) a + S1x16.size a ≤ S4x4096.size a
  k0_off91_inb : ∀ k0_t23 : Fin k0_t23_loop.trips, ∀ a, (k0_off91 k0_t23) a + S1x16.size a ≤ S4x4096.size a
  k0_off92_inb : ∀ k0_t23 : Fin k0_t23_loop.trips, ∀ a, (k0_off92 k0_t23) a + S1x16.size a ≤ S4x4096.size a
  k0_off93_inb : ∀ k0_t23 : Fin k0_t23_loop.trips, ∀ a, (k0_off93 k0_t23) a + S1x16.size a ≤ S4x4096.size a
  k0_t24_ok : k0_t24_loop.OK
  k0_off94_inb : ∀ k0_t24 : Fin k0_t24_loop.trips, ∀ a, (k0_off94 k0_t24) a + S1x16.size a ≤ S4x4096.size a
  k0_off95_inb : ∀ k0_t24 : Fin k0_t24_loop.trips, ∀ a, (k0_off95 k0_t24) a + S1x16.size a ≤ S4x4096.size a
  k0_off96_inb : ∀ k0_t24 : Fin k0_t24_loop.trips, ∀ a, (k0_off96 k0_t24) a + S1x16.size a ≤ S4x4096.size a
  k0_off97_inb : ∀ k0_t24 : Fin k0_t24_loop.trips, ∀ a, (k0_off97 k0_t24) a + S1x16.size a ≤ S4x4096.size a
  k0_t25_ok : k0_t25_loop.OK
  k0_off98_inb : ∀ k0_t25 : Fin k0_t25_loop.trips, ∀ a, (k0_off98 k0_t25) a + S1x16.size a ≤ S4x4096.size a
  k0_off99_inb : ∀ k0_t25 : Fin k0_t25_loop.trips, ∀ a, (k0_off99 k0_t25) a + S1x16.size a ≤ S4x4096.size a
  k0_off100_inb : ∀ k0_t25 : Fin k0_t25_loop.trips, ∀ a, (k0_off100 k0_t25) a + S1x16.size a ≤ S4x4096.size a
  k0_off101_inb : ∀ k0_t25 : Fin k0_t25_loop.trips, ∀ a, (k0_off101 k0_t25) a + S1x16.size a ≤ S4x4096.size a
  k0_t26_ok : k0_t26_loop.OK
  k0_off102_inb : ∀ k0_t26 : Fin k0_t26_loop.trips, ∀ a, (k0_off102 k0_t26) a + S1x16.size a ≤ S4x4096.size a
  k0_off103_inb : ∀ k0_t26 : Fin k0_t26_loop.trips, ∀ a, (k0_off103 k0_t26) a + S1x16.size a ≤ S4x4096.size a
  k0_off104_inb : ∀ k0_t26 : Fin k0_t26_loop.trips, ∀ a, (k0_off104 k0_t26) a + S1x16.size a ≤ S4x4096.size a
  k0_off105_inb : ∀ k0_t26 : Fin k0_t26_loop.trips, ∀ a, (k0_off105 k0_t26) a + S1x16.size a ≤ S4x4096.size a
  k0_t27_ok : k0_t27_loop.OK
  k0_off106_inb : ∀ k0_t27 : Fin k0_t27_loop.trips, ∀ a, (k0_off106 k0_t27) a + S1x16.size a ≤ S4x4096.size a
  k0_off107_inb : ∀ k0_t27 : Fin k0_t27_loop.trips, ∀ a, (k0_off107 k0_t27) a + S1x16.size a ≤ S4x4096.size a
  k0_off108_inb : ∀ k0_t27 : Fin k0_t27_loop.trips, ∀ a, (k0_off108 k0_t27) a + S1x16.size a ≤ S4x4096.size a
  k0_off109_inb : ∀ k0_t27 : Fin k0_t27_loop.trips, ∀ a, (k0_off109 k0_t27) a + S1x16.size a ≤ S4x4096.size a
  k0_t28_ok : k0_t28_loop.OK
  k0_off110_inb : ∀ k0_t28 : Fin k0_t28_loop.trips, ∀ a, (k0_off110 k0_t28) a + S1x16.size a ≤ S4x4096.size a
  k0_off111_inb : ∀ k0_t28 : Fin k0_t28_loop.trips, ∀ a, (k0_off111 k0_t28) a + S1x16.size a ≤ S4x4096.size a
  k0_off112_inb : ∀ k0_t28 : Fin k0_t28_loop.trips, ∀ a, (k0_off112 k0_t28) a + S1x16.size a ≤ S4x4096.size a
  k0_off113_inb : ∀ k0_t28 : Fin k0_t28_loop.trips, ∀ a, (k0_off113 k0_t28) a + S1x16.size a ≤ S4x4096.size a
  k0_t29_ok : k0_t29_loop.OK
  k0_off114_inb : ∀ k0_t29 : Fin k0_t29_loop.trips, ∀ a, (k0_off114 k0_t29) a + S1x16.size a ≤ S4x4096.size a
  k0_off115_inb : ∀ k0_t29 : Fin k0_t29_loop.trips, ∀ a, (k0_off115 k0_t29) a + S1x16.size a ≤ S4x4096.size a
  k0_off116_inb : ∀ k0_t29 : Fin k0_t29_loop.trips, ∀ a, (k0_off116 k0_t29) a + S1x16.size a ≤ S4x4096.size a
  k0_off117_inb : ∀ k0_t29 : Fin k0_t29_loop.trips, ∀ a, (k0_off117 k0_t29) a + S1x16.size a ≤ S4x4096.size a
  k0_t30_ok : k0_t30_loop.OK
  k0_off118_inb : ∀ k0_t30 : Fin k0_t30_loop.trips, ∀ a, (k0_off118 k0_t30) a + S1x16.size a ≤ S4x4096.size a
  k0_off119_inb : ∀ k0_t30 : Fin k0_t30_loop.trips, ∀ a, (k0_off119 k0_t30) a + S1x16.size a ≤ S4x4096.size a
  k0_off120_inb : ∀ k0_t30 : Fin k0_t30_loop.trips, ∀ a, (k0_off120 k0_t30) a + S1x16.size a ≤ S4x4096.size a
  k0_off121_inb : ∀ k0_t30 : Fin k0_t30_loop.trips, ∀ a, (k0_off121 k0_t30) a + S1x16.size a ≤ S4x4096.size a
  k0_t31_ok : k0_t31_loop.OK
  k0_off122_inb : ∀ k0_t31 : Fin k0_t31_loop.trips, ∀ a, (k0_off122 k0_t31) a + S1x16.size a ≤ S4x4096.size a
  k0_off123_inb : ∀ k0_t31 : Fin k0_t31_loop.trips, ∀ a, (k0_off123 k0_t31) a + S1x16.size a ≤ S4x4096.size a
  k0_off124_inb : ∀ k0_t31 : Fin k0_t31_loop.trips, ∀ a, (k0_off124 k0_t31) a + S1x16.size a ≤ S4x4096.size a
  k0_off125_inb : ∀ k0_t31 : Fin k0_t31_loop.trips, ∀ a, (k0_off125 k0_t31) a + S1x16.size a ≤ S4x4096.size a
  k0_t32_ok : k0_t32_loop.OK
  k0_off126_inb : ∀ k0_t32 : Fin k0_t32_loop.trips, ∀ a, (k0_off126 k0_t32) a + S1x16.size a ≤ S4x4096.size a
  k0_off127_inb : ∀ k0_t32 : Fin k0_t32_loop.trips, ∀ a, (k0_off127 k0_t32) a + S1x16.size a ≤ S4x4096.size a
  k0_off128_inb : ∀ k0_t32 : Fin k0_t32_loop.trips, ∀ a, (k0_off128 k0_t32) a + S1x16.size a ≤ S4x4096.size a
  k0_off129_inb : ∀ k0_t32 : Fin k0_t32_loop.trips, ∀ a, (k0_off129 k0_t32) a + S1x16.size a ≤ S4x4096.size a

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scratch10 : DmaSems sig S_ := SemArray.consecutive 4 S_ hcc0_scratch10
abbrev cc0_scratch11 : DmaSems sig S_ := SemArray.consecutive 5 S_ hcc0_scratch11

class Facts : Prop extends Facts₀ where

variable [Facts]
-- ==== ReferenceIdeal.lean ====
abbrev S4096x4096 : Shape := ⟨2, ![4096, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S_, .f32⟩
  | .hbm, ⟨2, _⟩ => ⟨S4096x4096, .f32⟩
  | .hbm, ⟨3, _⟩ => ⟨S4096x4096, .i1⟩
  | .hbm, ⟨4, _⟩ => ⟨S4096x4096, .f32⟩
  | .hbm, ⟨5, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)

variable [Facts₀]

class Facts : Prop extends Facts₀ where

variable [Facts]
-- ==== Proof.Spec.lean ====
/-
  The function both programs compute, element by element: an entry above one half is kept, any other entry becomes zero.
  The kernel spells it as a selection on the comparison's bit; the reference as the product of the entry with that bit read as
  a number. On the extended reals the two agree at every entry: x · 1 = x and x · 0 = 0 hold for every extended real, the
  infinities included, so the law needs no finiteness.
-/
import Idealize.ShloMosaic.PureOps
import Idealize.ShloMosaic.PureOps.Ideal
import Idealize.ShloMosaic.PureOps.Ideal.Laws

noncomputable section

namespace Cert.Spec

open Idealize.ShloMosaic

variable {F : FTy → Type} [FloatOps F]

/-- An entry above one half is kept; any other entry is replaced by zero. -/
def keep (x : F .f32) : F .f32 :=
  Scalar.select (FloatOps.cmpf .ogt x (Scalar.ofBits .f32 0x3F000000#32)) x (Scalar.ofBits .f32 0x00000000#32)

/-- The reference's spelling of the same entry: the entry times the comparison's bit read as a number. -/
def keepMul (x : F .f32) : F .f32 :=
  FloatOps.mulf x (FloatOps.uitofp .f32 (FloatOps.cmpf .ogt x (FloatOps.ofBits .f32 0x3F000000#32)))

/-- On the extended reals the product with the comparison's bit is the selection: the bit is one exactly when the entry is
    above one half, and then x · 1 = x; otherwise the bit is zero and x · 0 = 0, whatever x is. -/
theorem keepMul_eq_keep (x : Ideal .f32) : keepMul (F := Ideal) x = keep (F := Ideal) x := by
  unfold keepMul keep Scalar.select
  show x * (((Ideal.cmp .ogt x (Ideal.ofBits .f32 0x3F000000#32)).toNat : ℝ) : EReal) = _
  show _ = if Ideal.cmp .ogt x (Ideal.ofBits .f32 0x3F000000#32) = 1 then x else Ideal.ofBits .f32 0x00000000#32
  unfold Ideal.cmp
  by_cases h : Ideal.ofBits .f32 0x3F000000#32 < x
  · simp [h]
  · simp [h, Ideal.ofBits_zero_f32]

end Cert.Spec

end
-- ==== Proof.TileLemI.lean ====
/-
  One vector subcore's task, at a symbolic place: the subcore with coordinates (c, s) owns the 128 rows from row
  128 · (2 s + c) on, cut into 32 chunks of four rows. Chunk k is copied into one of three input scratches (k mod 3), every
  entry of it above one half is copied and every other entry replaced by zero into the matching output scratch, sixteen
  lanes of the four rows per trip of a counted loop of 256 trips, and the output scratch is copied out to chunk k of the
  result. Each of the six copies' semaphores carries one copy at a time, and a scratch is touched only between the wait
  for the copy that filled it and the issue of the copy that empties it, so no copy races with a load or a store.
  What the task leaves: its rows of the argument unchanged, and its rows of the result equal to the argument's rows with
  every entry at most one half replaced by zero.
-/
import proofs.«207063_g69217692942512_cont_9to1_m_457_27_alg».proof.Defs
import Idealize.ShloMosaic.Lib.SparseCore.Launch
import Idealize.ShloMosaic.Lib.StableHlo.Run
import Idealize.ShloMosaic.Lib.Pipeline.Kit
import Idealize.ShloMosaic.Lib.Pipeline.Value
import Idealize.ShloMosaic.Lib.Tactic
import proofs.«207063_g69217692942512_cont_9to1_m_457_27_alg».proof.Proof.Gen.KernelIdeal
import proofs.«207063_g69217692942512_cont_9to1_m_457_27_alg».proof.Proof.Gen.KernelIdeal.Skeleton
import proofs.«207063_g69217692942512_cont_9to1_m_457_27_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch handshakes' rounds beside the copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

local notation "aW" => (Memref.whole Cert.KernelIdeal.main_arg0_scv : Memref Cert.KernelIdeal.sig Kind.scVector Space.hbm Cert.KernelIdeal.S4096x4096 EltTy.f32)
local notation "oW" => (Memref.whole Cert.KernelIdeal.main_v0_scv : Memref Cert.KernelIdeal.sig Kind.scVector Space.hbm Cert.KernelIdeal.S4096x4096 EltTy.f32)
local notation "s0W" => (Memref.whole Cert.KernelIdeal.cc0_scratch0 : Memref Cert.KernelIdeal.sig Kind.scVector Space.vmem Cert.KernelIdeal.S4x4096 EltTy.f32)
local notation "s1W" => (Memref.whole Cert.KernelIdeal.cc0_scratch1 : Memref Cert.KernelIdeal.sig Kind.scVector Space.vmem Cert.KernelIdeal.S4x4096 EltTy.f32)
local notation "s2W" => (Memref.whole Cert.KernelIdeal.cc0_scratch2 : Memref Cert.KernelIdeal.sig Kind.scVector Space.vmem Cert.KernelIdeal.S4x4096 EltTy.f32)
local notation "s3W" => (Memref.whole Cert.KernelIdeal.cc0_scratch3 : Memref Cert.KernelIdeal.sig Kind.scVector Space.vmem Cert.KernelIdeal.S4x4096 EltTy.f32)
local notation "s4W" => (Memref.whole Cert.KernelIdeal.cc0_scratch4 : Memref Cert.KernelIdeal.sig Kind.scVector Space.vmem Cert.KernelIdeal.S4x4096 EltTy.f32)
local notation "s5W" => (Memref.whole Cert.KernelIdeal.cc0_scratch5 : Memref Cert.KernelIdeal.sig Kind.scVector Space.vmem Cert.KernelIdeal.S4x4096 EltTy.f32)

/-- The argument and the result, as locations of device `d`. -/
abbrev aLoc (d : Dev nD) : Loc nD τ sig := (SparseCore.T d).loc main_arg0
abbrev oLoc (d : Dev nD) : Loc nD τ sig := (SparseCore.T d).loc main_v0

variable [FloatOps F]

/-- What the result array holds at the end: the argument with every entry at most one half replaced by zero. -/
def Gm (d : Dev nD) : Buf (Elt F) (oLoc d) := fun i => Cert.Spec.keep (m (aLoc d) i)

/-! ## The rows, cut into chunks of four -/

theorem h1024 : 1024 ∣ S4096x4096.size 0 := ⟨4, rfl⟩
/-- Chunk `j` of the 1024 chunks of four rows. -/
abbrev chRect (j : Fin 1024) : Rect S4096x4096 := Rect.part (s := S4096x4096) (a₀ := 0) h1024 j
abbrev chSet (j : Fin 1024) : Finset S4096x4096.Idx := ((aW).view.slice (chRect j)).set

/-- The chunk that subcore (c, s) handles at step k: the subcore's rows start at 128 · (2 s + c). -/
def chIx (L : grid0.Coords) (k : Fin 32) : Fin 1024 := ⟨64 * (L 1).val + 32 * (L 0).val + k.val, by
  have h0 : (L 0).val < 2 := (L 0).isLt
  have h1 : (L 1).val < 16 := (L 1).isLt
  have hk := k.isLt
  omega⟩

abbrev cV (L : grid0.Coords) : Fin τ.nSC := (L 0).castLE hcore0
abbrev jV (L : grid0.Coords) : Fin τ.nSub := (L 1).castLE hsub0

/-- A chunk of the argument and of the result as the task slices them. -/
abbrev aCh (L : grid0.Coords) (c0 : BitVec 32) (h : ∀ a, (k0_off1 L c0) a + S4x4096.size a ≤ S4096x4096.size a) : Memref sig .scVector .hbm S4x4096 .f32 :=
  (aW).slice (Rect.unit (s := S4096x4096) (k0_off1 L c0) S4x4096.size h) (fun _ => rfl)
abbrev oCh (L : grid0.Coords) (c0 : BitVec 32) (h : ∀ a, (k0_off1 L c0) a + S4x4096.size a ≤ S4096x4096.size a) : Memref sig .scVector .hbm S4x4096 .f32 :=
  (oW).slice (Rect.unit (s := S4096x4096) (k0_off1 L c0) S4x4096.size h) (fun _ => rfl)

omit [FloatOps F] in
/-- The rectangle the task slices at step `k` is chunk `chIx L k`. -/
theorem unit_eq_chRect (L : grid0.Coords) (k : Fin 32) :
    Rect.unit (s := S4096x4096) (k0_off1 L (BitVec.ofNat 32 (4 * k.val))) S4x4096.size (k0_off1_inb L k) = chRect (chIx L k) := by
  unfold chRect Rect.part Rect.block
  congr 1 <;> funext a
  · rw [k0_off1_eq]
    match a with
    | 0 => simp [Shape.partIx, Shape.partSize, chIx]; omega
    | 1 => simp [Shape.partIx, Shape.partSize]
  · match a with
    | 0 => simp [Shape.partSize]
    | 1 => simp [Shape.partSize]

/-! ## What a task holds of the two arrays: its 32 chunks, each under the memref the task slices it with -/

section Tile

variable (d : Dev nD) (L : grid0.Coords)

def aPieces (f : Buf (Elt F) (aLoc d)) : sProp 𝕄 :=
  iprop(((aCh L 0#32 (k0_off1_inb L 0)).view.loc (V d (cV L) (jV L)) ↦[(aCh L 0#32 (k0_off1_inb L 0)).view.set]{fullShare} f)
    ∗ ((aCh L 4#32 (k0_off1_inb L 1)).view.loc (V d (cV L) (jV L)) ↦[(aCh L 4#32 (k0_off1_inb L 1)).view.set]{fullShare} f)
    ∗ ((aCh L 8#32 (k0_off1_inb L 2)).view.loc (V d (cV L) (jV L)) ↦[(aCh L 8#32 (k0_off1_inb L 2)).view.set]{fullShare} f)
    ∗ ((aCh L 12#32 (k0_off1_inb L 3)).view.loc (V d (cV L) (jV L)) ↦[(aCh L 12#32 (k0_off1_inb L 3)).view.set]{fullShare} f)
    ∗ ((aCh L 16#32 (k0_off1_inb L 4)).view.loc (V d (cV L) (jV L)) ↦[(aCh L 16#32 (k0_off1_inb L 4)).view.set]{fullShare} f)
    ∗ ((aCh L 20#32 (k0_off1_inb L 5)).view.loc (V d (cV L) (jV L)) ↦[(aCh L 20#32 (k0_off1_inb L 5)).view.set]{fullShare} f)
    ∗ ((aCh L 24#32 (k0_off1_inb L 6)).view.loc (V d (cV L) (jV L)) ↦[(aCh L 24#32 (k0_off1_inb L 6)).view.set]{fullShare} f)
    ∗ ((aCh L 28#32 (k0_off1_inb L 7)).view.loc (V d (cV L) (jV L)) ↦[(aCh L 28#32 (k0_off1_inb L 7)).view.set]{fullShare} f)
    ∗ ((aCh L 32#32 (k0_off1_inb L 8)).view.loc (V d (cV L) (jV L)) ↦[(aCh L 32#32 (k0_off1_inb L 8)).view.set]{fullShare} f)
    ∗ ((aCh L 36#32 (k0_off1_inb L 9)).view.loc (V d (cV L) (jV L)) ↦[(aCh L 36#32 (k0_off1_inb L 9)).view.set]{fullShare} f)
    ∗ ((aCh L 40#32 (k0_off1_inb L 10)).view.loc (V d (cV L) (jV L)) ↦[(aCh L 40#32 (k0_off1_inb L 10)).view.set]{fullShare} f)
    ∗ ((aCh L 44#32 (k0_off1_inb L 11)).view.loc (V d (cV L) (jV L)) ↦[(aCh L 44#32 (k0_off1_inb L 11)).view.set]{fullShare} f)
    ∗ ((aCh L 48#32 (k0_off1_inb L 12)).view.loc (V d (cV L) (jV L)) ↦[(aCh L 48#32 (k0_off1_inb L 12)).view.set]{fullShare} f)
    ∗ ((aCh L 52#32 (k0_off1_inb L 13)).view.loc (V d (cV L) (jV L)) ↦[(aCh L 52#32 (k0_off1_inb L 13)).view.set]{fullShare} f)
    ∗ ((aCh L 56#32 (k0_off1_inb L 14)).view.loc (V d (cV L) (jV L)) ↦[(aCh L 56#32 (k0_off1_inb L 14)).view.set]{fullShare} f)
    ∗ ((aCh L 60#32 (k0_off1_inb L 15)).view.loc (V d (cV L) (jV L)) ↦[(aCh L 60#32 (k0_off1_inb L 15)).view.set]{fullShare} f)
    ∗ ((aCh L 64#32 (k0_off1_inb L 16)).view.loc (V d (cV L) (jV L)) ↦[(aCh L 64#32 (k0_off1_inb L 16)).view.set]{fullShare} f)
    ∗ ((aCh L 68#32 (k0_off1_inb L 17)).view.loc (V d (cV L) (jV L)) ↦[(aCh L 68#32 (k0_off1_inb L 17)).view.set]{fullShare} f)
    ∗ ((aCh L 72#32 (k0_off1_inb L 18)).view.loc (V d (cV L) (jV L)) ↦[(aCh L 72#32 (k0_off1_inb L 18)).view.set]{fullShare} f)
    ∗ ((aCh L 76#32 (k0_off1_inb L 19)).view.loc (V d (cV L) (jV L)) ↦[(aCh L 76#32 (k0_off1_inb L 19)).view.set]{fullShare} f)
    ∗ ((aCh L 80#32 (k0_off1_inb L 20)).view.loc (V d (cV L) (jV L)) ↦[(aCh L 80#32 (k0_off1_inb L 20)).view.set]{fullShare} f)
    ∗ ((aCh L 84#32 (k0_off1_inb L 21)).view.loc (V d (cV L) (jV L)) ↦[(aCh L 84#32 (k0_off1_inb L 21)).view.set]{fullShare} f)
    ∗ ((aCh L 88#32 (k0_off1_inb L 22)).view.loc (V d (cV L) (jV L)) ↦[(aCh L 88#32 (k0_off1_inb L 22)).view.set]{fullShare} f)
    ∗ ((aCh L 92#32 (k0_off1_inb L 23)).view.loc (V d (cV L) (jV L)) ↦[(aCh L 92#32 (k0_off1_inb L 23)).view.set]{fullShare} f)
    ∗ ((aCh L 96#32 (k0_off1_inb L 24)).view.loc (V d (cV L) (jV L)) ↦[(aCh L 96#32 (k0_off1_inb L 24)).view.set]{fullShare} f)
    ∗ ((aCh L 100#32 (k0_off1_inb L 25)).view.loc (V d (cV L) (jV L)) ↦[(aCh L 100#32 (k0_off1_inb L 25)).view.set]{fullShare} f)
    ∗ ((aCh L 104#32 (k0_off1_inb L 26)).view.loc (V d (cV L) (jV L)) ↦[(aCh L 104#32 (k0_off1_inb L 26)).view.set]{fullShare} f)
    ∗ ((aCh L 108#32 (k0_off1_inb L 27)).view.loc (V d (cV L) (jV L)) ↦[(aCh L 108#32 (k0_off1_inb L 27)).view.set]{fullShare} f)
    ∗ ((aCh L 112#32 (k0_off1_inb L 28)).view.loc (V d (cV L) (jV L)) ↦[(aCh L 112#32 (k0_off1_inb L 28)).view.set]{fullShare} f)
    ∗ ((aCh L 116#32 (k0_off1_inb L 29)).view.loc (V d (cV L) (jV L)) ↦[(aCh L 116#32 (k0_off1_inb L 29)).view.set]{fullShare} f)
    ∗ ((aCh L 120#32 (k0_off1_inb L 30)).view.loc (V d (cV L) (jV L)) ↦[(aCh L 120#32 (k0_off1_inb L 30)).view.set]{fullShare} f)
    ∗ ((aCh L 124#32 (k0_off1_inb L 31)).view.loc (V d (cV L) (jV L)) ↦[(aCh L 124#32 (k0_off1_inb L 31)).view.set]{fullShare} f))

def oPieces (f : Buf (Elt F) (oLoc d)) : sProp 𝕄 :=
  iprop(((oCh L 0#32 (k0_off1_inb L 0)).view.loc (V d (cV L) (jV L)) ↦[(oCh L 0#32 (k0_off1_inb L 0)).view.set]{fullShare} f)
    ∗ ((oCh L 4#32 (k0_off1_inb L 1)).view.loc (V d (cV L) (jV L)) ↦[(oCh L 4#32 (k0_off1_inb L 1)).view.set]{fullShare} f)
    ∗ ((oCh L 8#32 (k0_off1_inb L 2)).view.loc (V d (cV L) (jV L)) ↦[(oCh L 8#32 (k0_off1_inb L 2)).view.set]{fullShare} f)
    ∗ ((oCh L 12#32 (k0_off1_inb L 3)).view.loc (V d (cV L) (jV L)) ↦[(oCh L 12#32 (k0_off1_inb L 3)).view.set]{fullShare} f)
    ∗ ((oCh L 16#32 (k0_off1_inb L 4)).view.loc (V d (cV L) (jV L)) ↦[(oCh L 16#32 (k0_off1_inb L 4)).view.set]{fullShare} f)
    ∗ ((oCh L 20#32 (k0_off1_inb L 5)).view.loc (V d (cV L) (jV L)) ↦[(oCh L 20#32 (k0_off1_inb L 5)).view.set]{fullShare} f)
    ∗ ((oCh L 24#32 (k0_off1_inb L 6)).view.loc (V d (cV L) (jV L)) ↦[(oCh L 24#32 (k0_off1_inb L 6)).view.set]{fullShare} f)
    ∗ ((oCh L 28#32 (k0_off1_inb L 7)).view.loc (V d (cV L) (jV L)) ↦[(oCh L 28#32 (k0_off1_inb L 7)).view.set]{fullShare} f)
    ∗ ((oCh L 32#32 (k0_off1_inb L 8)).view.loc (V d (cV L) (jV L)) ↦[(oCh L 32#32 (k0_off1_inb L 8)).view.set]{fullShare} f)
    ∗ ((oCh L 36#32 (k0_off1_inb L 9)).view.loc (V d (cV L) (jV L)) ↦[(oCh L 36#32 (k0_off1_inb L 9)).view.set]{fullShare} f)
    ∗ ((oCh L 40#32 (k0_off1_inb L 10)).view.loc (V d (cV L) (jV L)) ↦[(oCh L 40#32 (k0_off1_inb L 10)).view.set]{fullShare} f)
    ∗ ((oCh L 44#32 (k0_off1_inb L 11)).view.loc (V d (cV L) (jV L)) ↦[(oCh L 44#32 (k0_off1_inb L 11)).view.set]{fullShare} f)
    ∗ ((oCh L 48#32 (k0_off1_inb L 12)).view.loc (V d (cV L) (jV L)) ↦[(oCh L 48#32 (k0_off1_inb L 12)).view.set]{fullShare} f)
    ∗ ((oCh L 52#32 (k0_off1_inb L 13)).view.loc (V d (cV L) (jV L)) ↦[(oCh L 52#32 (k0_off1_inb L 13)).view.set]{fullShare} f)
    ∗ ((oCh L 56#32 (k0_off1_inb L 14)).view.loc (V d (cV L) (jV L)) ↦[(oCh L 56#32 (k0_off1_inb L 14)).view.set]{fullShare} f)
    ∗ ((oCh L 60#32 (k0_off1_inb L 15)).view.loc (V d (cV L) (jV L)) ↦[(oCh L 60#32 (k0_off1_inb L 15)).view.set]{fullShare} f)
    ∗ ((oCh L 64#32 (k0_off1_inb L 16)).view.loc (V d (cV L) (jV L)) ↦[(oCh L 64#32 (k0_off1_inb L 16)).view.set]{fullShare} f)
    ∗ ((oCh L 68#32 (k0_off1_inb L 17)).view.loc (V d (cV L) (jV L)) ↦[(oCh L 68#32 (k0_off1_inb L 17)).view.set]{fullShare} f)
    ∗ ((oCh L 72#32 (k0_off1_inb L 18)).view.loc (V d (cV L) (jV L)) ↦[(oCh L 72#32 (k0_off1_inb L 18)).view.set]{fullShare} f)
    ∗ ((oCh L 76#32 (k0_off1_inb L 19)).view.loc (V d (cV L) (jV L)) ↦[(oCh L 76#32 (k0_off1_inb L 19)).view.set]{fullShare} f)
    ∗ ((oCh L 80#32 (k0_off1_inb L 20)).view.loc (V d (cV L) (jV L)) ↦[(oCh L 80#32 (k0_off1_inb L 20)).view.set]{fullShare} f)
    ∗ ((oCh L 84#32 (k0_off1_inb L 21)).view.loc (V d (cV L) (jV L)) ↦[(oCh L 84#32 (k0_off1_inb L 21)).view.set]{fullShare} f)
    ∗ ((oCh L 88#32 (k0_off1_inb L 22)).view.loc (V d (cV L) (jV L)) ↦[(oCh L 88#32 (k0_off1_inb L 22)).view.set]{fullShare} f)
    ∗ ((oCh L 92#32 (k0_off1_inb L 23)).view.loc (V d (cV L) (jV L)) ↦[(oCh L 92#32 (k0_off1_inb L 23)).view.set]{fullShare} f)
    ∗ ((oCh L 96#32 (k0_off1_inb L 24)).view.loc (V d (cV L) (jV L)) ↦[(oCh L 96#32 (k0_off1_inb L 24)).view.set]{fullShare} f)
    ∗ ((oCh L 100#32 (k0_off1_inb L 25)).view.loc (V d (cV L) (jV L)) ↦[(oCh L 100#32 (k0_off1_inb L 25)).view.set]{fullShare} f)
    ∗ ((oCh L 104#32 (k0_off1_inb L 26)).view.loc (V d (cV L) (jV L)) ↦[(oCh L 104#32 (k0_off1_inb L 26)).view.set]{fullShare} f)
    ∗ ((oCh L 108#32 (k0_off1_inb L 27)).view.loc (V d (cV L) (jV L)) ↦[(oCh L 108#32 (k0_off1_inb L 27)).view.set]{fullShare} f)
    ∗ ((oCh L 112#32 (k0_off1_inb L 28)).view.loc (V d (cV L) (jV L)) ↦[(oCh L 112#32 (k0_off1_inb L 28)).view.set]{fullShare} f)
    ∗ ((oCh L 116#32 (k0_off1_inb L 29)).view.loc (V d (cV L) (jV L)) ↦[(oCh L 116#32 (k0_off1_inb L 29)).view.set]{fullShare} f)
    ∗ ((oCh L 120#32 (k0_off1_inb L 30)).view.loc (V d (cV L) (jV L)) ↦[(oCh L 120#32 (k0_off1_inb L 30)).view.set]{fullShare} f)
    ∗ ((oCh L 124#32 (k0_off1_inb L 31)).view.loc (V d (cV L) (jV L)) ↦[(oCh L 124#32 (k0_off1_inb L 31)).view.set]{fullShare} f))

omit [FloatOps F] in
theorem cell_ne {a b : DmaSem sig} (h : a ≠ b) : (((V d (cV L) (jV L)), SemLoc.dma a) : GSem nD τ sig) ≠ ((V d (cV L) (jV L)), SemLoc.dma b) :=
  fun e => h (SemLoc.dma.inj (Prod.mk.inj e).2)

/-- The subcore's other semaphores, beside the six the copies use. -/
def restCells : Finset (GSem nD τ sig) := (((((((ownCells (V d (cV L) (jV L))).erase ((V d (cV L) (jV L)), SemLoc.dma cc0_scratch6.sem)).erase ((V d (cV L) (jV L)), SemLoc.dma cc0_scratch7.sem)).erase ((V d (cV L) (jV L)), SemLoc.dma cc0_scratch8.sem)).erase ((V d (cV L) (jV L)), SemLoc.dma cc0_scratch9.sem)).erase ((V d (cV L) (jV L)), SemLoc.dma cc0_scratch10.sem)).erase ((V d (cV L) (jV L)), SemLoc.dma cc0_scratch11.sem))

omit [FloatOps F] in
theorem ownSems0_V :
    (ownSems0 (V d (cV L) (jV L)) : sProp 𝕄)
      = iprop(semVal ((V d (cV L) (jV L)), SemLoc.dma cc0_scratch6.sem) 0 ∗ semVal ((V d (cV L) (jV L)), SemLoc.dma cc0_scratch7.sem) 0 ∗ semVal ((V d (cV L) (jV L)), SemLoc.dma cc0_scratch8.sem) 0 ∗ semVal ((V d (cV L) (jV L)), SemLoc.dma cc0_scratch9.sem) 0 ∗ semVal ((V d (cV L) (jV L)), SemLoc.dma cc0_scratch10.sem) 0 ∗ semVal ((V d (cV L) (jV L)), SemLoc.dma cc0_scratch11.sem) 0
          ∗ bigSep (restCells d L) fun g => semVal g 0) := by
  unfold SparseCore.Cfg.ownSems0 restCells
  rw [SparseCore.bigSep_erase' ((mem_ownCells (g := ((V d (cV L) (jV L)), SemLoc.dma cc0_scratch6.sem))).mpr ⟨rfl, by show (SemLoc.dma cc0_scratch6.sem : SemLoc sig).isScoped .scVector = true; decide⟩),
    SparseCore.bigSep_erase' (Finset.mem_erase.mpr ⟨cell_ne d L (by decide : (cc0_scratch7.sem : DmaSem sig) ≠ cc0_scratch6.sem), (mem_ownCells (g := ((V d (cV L) (jV L)), SemLoc.dma cc0_scratch7.sem))).mpr ⟨rfl, by show (SemLoc.dma cc0_scratch7.sem : SemLoc sig).isScoped .scVector = true; decide⟩⟩),
    SparseCore.bigSep_erase' (Finset.mem_erase.mpr ⟨cell_ne d L (by decide : (cc0_scratch8.sem : DmaSem sig) ≠ cc0_scratch7.sem), Finset.mem_erase.mpr ⟨cell_ne d L (by decide : (cc0_scratch8.sem : DmaSem sig) ≠ cc0_scratch6.sem), (mem_ownCells (g := ((V d (cV L) (jV L)), SemLoc.dma cc0_scratch8.sem))).mpr ⟨rfl, by show (SemLoc.dma cc0_scratch8.sem : SemLoc sig).isScoped .scVector = true; decide⟩⟩⟩),
    SparseCore.bigSep_erase' (Finset.mem_erase.mpr ⟨cell_ne d L (by decide : (cc0_scratch9.sem : DmaSem sig) ≠ cc0_scratch8.sem), Finset.mem_erase.mpr ⟨cell_ne d L (by decide : (cc0_scratch9.sem : DmaSem sig) ≠ cc0_scratch7.sem), Finset.mem_erase.mpr ⟨cell_ne d L (by decide : (cc0_scratch9.sem : DmaSem sig) ≠ cc0_scratch6.sem), (mem_ownCells (g := ((V d (cV L) (jV L)), SemLoc.dma cc0_scratch9.sem))).mpr ⟨rfl, by show (SemLoc.dma cc0_scratch9.sem : SemLoc sig).isScoped .scVector = true; decide⟩⟩⟩⟩),
    SparseCore.bigSep_erase' (Finset.mem_erase.mpr ⟨cell_ne d L (by decide : (cc0_scratch10.sem : DmaSem sig) ≠ cc0_scratch9.sem), Finset.mem_erase.mpr ⟨cell_ne d L (by decide : (cc0_scratch10.sem : DmaSem sig) ≠ cc0_scratch8.sem), Finset.mem_erase.mpr ⟨cell_ne d L (by decide : (cc0_scratch10.sem : DmaSem sig) ≠ cc0_scratch7.sem), Finset.mem_erase.mpr ⟨cell_ne d L (by decide : (cc0_scratch10.sem : DmaSem sig) ≠ cc0_scratch6.sem), (mem_ownCells (g := ((V d (cV L) (jV L)), SemLoc.dma cc0_scratch10.sem))).mpr ⟨rfl, by show (SemLoc.dma cc0_scratch10.sem : SemLoc sig).isScoped .scVector = true; decide⟩⟩⟩⟩⟩),
    SparseCore.bigSep_erase' (Finset.mem_erase.mpr ⟨cell_ne d L (by decide : (cc0_scratch11.sem : DmaSem sig) ≠ cc0_scratch10.sem), Finset.mem_erase.mpr ⟨cell_ne d L (by decide : (cc0_scratch11.sem : DmaSem sig) ≠ cc0_scratch9.sem), Finset.mem_erase.mpr ⟨cell_ne d L (by decide : (cc0_scratch11.sem : DmaSem sig) ≠ cc0_scratch8.sem), Finset.mem_erase.mpr ⟨cell_ne d L (by decide : (cc0_scratch11.sem : DmaSem sig) ≠ cc0_scratch7.sem), Finset.mem_erase.mpr ⟨cell_ne d L (by decide : (cc0_scratch11.sem : DmaSem sig) ≠ cc0_scratch6.sem), (mem_ownCells (g := ((V d (cV L) (jV L)), SemLoc.dma cc0_scratch11.sem))).mpr ⟨rfl, by show (SemLoc.dma cc0_scratch11.sem : SemLoc sig).isScoped .scVector = true; decide⟩⟩⟩⟩⟩⟩)]

/-- The subcore's other buffers, beside the six scratches. -/
def restRefs : Finset (DevRef τ sig) := (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f)
          ∗ bigSep (restRefs L) fun b => iprop(∃ f, ((d, b) : Loc nD τ sig) ↦{fullShare} f)) := by
  unfold SparseCore.Cfg.ownBufs restRefs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩)]

/-! ## The arithmetic of one store: sixteen lanes of a row, each kept or zeroed -/

/-- What a trip stores for a row is the loaded sixteen lanes, each kept if above one half and zeroed otherwise. -/
theorem pay_eq (v : Vec F S1x16 .f32) : k0_pay1 v = fun j => Cert.Spec.keep (v j) := by
  have h : k0_pay1 v = shapeCast S1x16 (shapeCast S16 (fun j => Cert.Spec.keep (v j)) shapeCasts_S1x16_S16) shapeCasts_S16_S1x16 := rfl
  rw [h, shapeCast_shapeCast]

/-! ## The recorded waits only grow by waits of the kernel's own -/

omit [FloatOps F] in
theorem okw_base (W : Waits sig (HIx 1)) : ∀ p ∈ W, p ∈ W ∨ p.2 = none := fun _ hp => .inl hp
omit [FloatOps F] in
theorem okw_insert {W W' : Waits sig (HIx 1)} (sm : SemLoc sig) (h : ∀ p ∈ W', p ∈ W ∨ p.2 = none) :
    ∀ p ∈ insert (sm, (none : HIx 1)) W', p ∈ W ∨ p.2 = none := fun p hp => by
  rcases Finset.mem_insert.mp hp with rfl | hp
  · exact .inr rfl
  · exact h p hp

omit [FloatOps F] in
theorem pts_s0 (f : Buf (Elt F) ((V d (cV L) (jV L)).loc cc0_scratch0)) :
    ((s0W).view.loc (V d (cV L) (jV L)) ↦{fullShare} f : sProp 𝕄) = (V d (cV L) (jV L)).loc cc0_scratch0 ↦{fullShare} f := rfl
omit [FloatOps F] in
theorem pts_s1 (f : Buf (Elt F) ((V d (cV L) (jV L)).loc cc0_scratch1)) :
    ((s1W).view.loc (V d (cV L) (jV L)) ↦{fullShare} f : sProp 𝕄) = (V d (cV L) (jV L)).loc cc0_scratch1 ↦{fullShare} f := rfl
omit [FloatOps F] in
theorem pts_s2 (f : Buf (Elt F) ((V d (cV L) (jV L)).loc cc0_scratch2)) :
    ((s2W).view.loc (V d (cV L) (jV L)) ↦{fullShare} f : sProp 𝕄) = (V d (cV L) (jV L)).loc cc0_scratch2 ↦{fullShare} f := rfl
omit [FloatOps F] in
theorem pts_s3 (f : Buf (Elt F) ((V d (cV L) (jV L)).loc cc0_scratch3)) :
    ((s3W).view.loc (V d (cV L) (jV L)) ↦{fullShare} f : sProp 𝕄) = (V d (cV L) (jV L)).loc cc0_scratch3 ↦{fullShare} f := rfl
omit [FloatOps F] in
theorem pts_s4 (f : Buf (Elt F) ((V d (cV L) (jV L)).loc cc0_scratch4)) :
    ((s4W).view.loc (V d (cV L) (jV L)) ↦{fullShare} f : sProp 𝕄) = (V d (cV L) (jV L)).loc cc0_scratch4 ↦{fullShare} f := rfl
omit [FloatOps F] in
theorem pts_s5 (f : Buf (Elt F) ((V d (cV L) (jV L)).loc cc0_scratch5)) :
    ((s5W).view.loc (V d (cV L) (jV L)) ↦{fullShare} f : sProp 𝕄) = (V d (cV L) (jV L)).loc cc0_scratch5 ↦{fullShare} f := rfl

/-! ## What the scratches hold around a chunk's loop -/

/-- The input scratch holds the chunk of the argument sliced at `(c0, h)`. -/
def InOK (c0 : BitVec 32) (h : ∀ a, (k0_off1 L c0) a + S4x4096.size a ≤ S4096x4096.size a) (fi : S4x4096.Idx → F .f32) : Prop :=
  ∀ j, fi j = m (aLoc d) ((aCh L c0 h).view.emb j)
/-- Before trip `t` the first 16·t columns of the output scratch are the input scratch's, each entry kept or zeroed. -/
def OutOK (fi fo : S4x4096.Idx → F .f32) (t : Nat) : Prop :=
  ∀ j : S4x4096.Idx, (j 1).val < 16 * t → fo j = Cert.Spec.keep (fi j)

def linv0 (c0 : BitVec 32) (h : ∀ a, (k0_off1 L c0) a + S4x4096.size a ≤ S4096x4096.size a) (t : Nat) (_ : PUnit) : sProp 𝕄 :=
  iprop(∃ fi, ⌜InOK m d L c0 h fi⌝ ∗ ((s0W).view.loc (V d (cV L) (jV L)) ↦{fullShare} fi)
    ∗ ∃ fo, ⌜OutOK fi fo t⌝ ∗ (s3W).view.loc (V d (cV L) (jV L)) ↦{fullShare} fo)
def linv1 (c0 : BitVec 32) (h : ∀ a, (k0_off1 L c0) a + S4x4096.size a ≤ S4096x4096.size a) (t : Nat) (_ : PUnit) : sProp 𝕄 :=
  iprop(∃ fi, ⌜InOK m d L c0 h fi⌝ ∗ ((s1W).view.loc (V d (cV L) (jV L)) ↦{fullShare} fi)
    ∗ ∃ fo, ⌜OutOK fi fo t⌝ ∗ (s4W).view.loc (V d (cV L) (jV L)) ↦{fullShare} fo)
def linv2 (c0 : BitVec 32) (h : ∀ a, (k0_off1 L c0) a + S4x4096.size a ≤ S4096x4096.size a) (t : Nat) (_ : PUnit) : sProp 𝕄 :=
  iprop(∃ fi, ⌜InOK m d L c0 h fi⌝ ∗ ((s2W).view.loc (V d (cV L) (jV L)) ↦{fullShare} fi)
    ∗ ∃ fo, ⌜OutOK fi fo t⌝ ∗ (s5W).view.loc (V d (cV L) (jV L)) ↦{fullShare} fo)

/-! ## One trip of a chunk's loop, and a chunk's entry and exit -/

omit [FloatOps F] in
/-- Reading the whole scratch through its own view is reading its contents. -/
theorem read_s3 (g : S4x4096.Idx → F .f32) (y : S4x4096.Idx) : (s3W).view.read (Elt F) g y = g y := by
  simp only [Memref.view_whole, View.read_whole]
omit [FloatOps F] in
/-- Reading the whole scratch through its own view is reading its contents. -/
theorem read_s4 (g : S4x4096.Idx → F .f32) (y : S4x4096.Idx) : (s4W).view.read (Elt F) g y = g y := by
  simp only [Memref.view_whole, View.read_whole]
omit [FloatOps F] in
/-- Reading the whole scratch through its own view is reading its contents. -/
theorem read_s5 (g : S4x4096.Idx → F .f32) (y : S4x4096.Idx) : (s5W).view.read (Elt F) g y = g y := by
  simp only [Memref.view_whole, View.read_whole]

omit [FloatOps F] in
theorem trips_eq : Scf.trips k0_t1_loop.lb k0_t1_loop.ub k0_t1_loop.st = 256 := by decide

/-- What a trip stores for one row: the sixteen lanes it loaded from the input scratch, each kept or zeroed. -/
theorem pay_at0 (o : Fin 2 → Nat) (i : ∀ a, o a + S1x16.size a ≤ S4x4096.size a) (fi : S4x4096.Idx → F .f32) (x : S1x16.Idx) :
    k0_pay1 (View.readAt (Elt F) (s0W).view (Rect.unit (s := S4x4096) o S1x16.size i).toLoadRect fi) x
      = Cert.Spec.keep (fi ((Rect.unit (s := S4x4096) o S1x16.size i).emb x)) := by
  rw [pay_eq]; rfl

/-- A trip writes columns 16 t … 16 t + 15 of the four rows: the columns done grow from 16 t to 16 (t + 1). -/
theorem out_step0 {fi fo : S4x4096.Idx → F .f32} {t : Nat}
    {o0 o1 o2 o3 : Fin 2 → Nat} {i0 : ∀ a, o0 a + S1x16.size a ≤ S4x4096.size a} {i1 : ∀ a, o1 a + S1x16.size a ≤ S4x4096.size a}
    {i2 : ∀ a, o2 a + S1x16.size a ≤ S4x4096.size a} {i3 : ∀ a, o3 a + S1x16.size a ≤ S4x4096.size a}
    {w0 w1 w2 w3 : S1x16.Idx → F .f32}
    (e0 : o0 = ![0, 16 * t]) (e1 : o1 = ![1, 16 * t]) (e2 : o2 = ![2, 16 * t]) (e3 : o3 = ![3, 16 * t])
    (hw0 : ∀ x, w0 x = Cert.Spec.keep (fi ((Rect.unit (s := S4x4096) o0 S1x16.size i0).emb x)))
    (hw1 : ∀ x, w1 x = Cert.Spec.keep (fi ((Rect.unit (s := S4x4096) o1 S1x16.size i1).emb x)))
    (hw2 : ∀ x, w2 x = Cert.Spec.keep (fi ((Rect.unit (s := S4x4096) o2 S1x16.size i2).emb x)))
    (hw3 : ∀ x, w3 x = Cert.Spec.keep (fi ((Rect.unit (s := S4x4096) o3 S1x16.size i3).emb x)))
    (hfo : OutOK fi fo t) :
    OutOK fi ((s3W).view.writes (Elt F) fo
      [⟨Rect.unit (s := S4x4096) o3 S1x16.size i3, w3⟩, ⟨Rect.unit (s := S4x4096) o2 S1x16.size i2, w2⟩,
       ⟨Rect.unit (s := S4x4096) o1 S1x16.size i1, w1⟩, ⟨Rect.unit (s := S4x4096) o0 S1x16.size i0, w0⟩]) (t + 1) := by
  subst e0 e1 e2 e3
  intro j hj
  have hrow : (j 0).val < 4 := (j 0).isLt
  by_cases hc : (j 1).val < 16 * t
  · refine (read_s3 _ j).symm.trans ((View.read_writes_apply_of_forall_not_mem (Val := Elt F) (s3W).view fo j _ ?_).trans (hfo j hc))
    · intro p hp
      rcases List.mem_cons.mp hp with rfl | hp
      · intro h
        have h' : j ∈ (Rect.unit (s := S4x4096) ![3, 16 * t] S1x16.size i3).set := h
        have h1 : 16 * t ≤ (j 1).val := ((Rect.mem_set_unit.mp h') (1 : Fin 2)).1
        omega
      rcases List.mem_cons.mp hp with rfl | hp
      · intro h
        have h' : j ∈ (Rect.unit (s := S4x4096) ![2, 16 * t] S1x16.size i2).set := h
        have h1 : 16 * t ≤ (j 1).val := ((Rect.mem_set_unit.mp h') (1 : Fin 2)).1
        omega
      rcases List.mem_cons.mp hp with rfl | hp
      · intro h
        have h' : j ∈ (Rect.unit (s := S4x4096) ![1, 16 * t] S1x16.size i1).set := h
        have h1 : 16 * t ≤ (j 1).val := ((Rect.mem_set_unit.mp h') (1 : Fin 2)).1
        omega
      rcases List.mem_cons.mp hp with rfl | hp
      · intro h
        have h' : j ∈ (Rect.unit (s := S4x4096) ![0, 16 * t] S1x16.size i0).set := h
        have h1 : 16 * t ≤ (j 1).val := ((Rect.mem_set_unit.mp h') (1 : Fin 2)).1
        omega
      exact absurd hp List.not_mem_nil
  · have h1 : 16 * t ≤ (j 1).val := by omega
    have h2 : (j 1).val < 16 * t + 16 := by omega
    refine (read_s3 _ j).symm.trans (View.read_writes_apply_of_pieces (Val := Elt F) (s3W).view fo (fun y => Cert.Spec.keep (fi y)) _ ?_ j ?_)
    · intro p hp x
      rcases List.mem_cons.mp hp with rfl | hp
      · exact hw3 x
      rcases List.mem_cons.mp hp with rfl | hp
      · exact hw2 x
      rcases List.mem_cons.mp hp with rfl | hp
      · exact hw1 x
      rcases List.mem_cons.mp hp with rfl | hp
      · exact hw0 x
      exact absurd hp List.not_mem_nil
    · rcases (show (j 0).val = 0 ∨ (j 0).val = 1 ∨ (j 0).val = 2 ∨ (j 0).val = 3 by omega) with h | h | h | h
      · refine ⟨⟨Rect.unit (s := S4x4096) ![0, 16 * t] S1x16.size i0, w0⟩, List.mem_cons_of_mem _ (List.mem_cons_of_mem _ (List.mem_cons_of_mem _ List.mem_cons_self)), ?_⟩
        show j ∈ (Rect.unit (s := S4x4096) ![0, 16 * t] S1x16.size i0).set
        refine Rect.mem_set_unit.mpr (Fin.forall_fin_two.mpr ?_)
        show (0 ≤ (j 0).val ∧ (j 0).val < 0 + 1) ∧ (16 * t ≤ (j 1).val ∧ (j 1).val < 16 * t + 16)
        omega
      · refine ⟨⟨Rect.unit (s := S4x4096) ![1, 16 * t] S1x16.size i1, w1⟩, List.mem_cons_of_mem _ (List.mem_cons_of_mem _ List.mem_cons_self), ?_⟩
        show j ∈ (Rect.unit (s := S4x4096) ![1, 16 * t] S1x16.size i1).set
        refine Rect.mem_set_unit.mpr (Fin.forall_fin_two.mpr ?_)
        show (1 ≤ (j 0).val ∧ (j 0).val < 1 + 1) ∧ (16 * t ≤ (j 1).val ∧ (j 1).val < 16 * t + 16)
        omega
      · refine ⟨⟨Rect.unit (s := S4x4096) ![2, 16 * t] S1x16.size i2, w2⟩, List.mem_cons_of_mem _ List.mem_cons_self, ?_⟩
        show j ∈ (Rect.unit (s := S4x4096) ![2, 16 * t] S1x16.size i2).set
        refine Rect.mem_set_unit.mpr (Fin.forall_fin_two.mpr ?_)
        show (2 ≤ (j 0).val ∧ (j 0).val < 2 + 1) ∧ (16 * t ≤ (j 1).val ∧ (j 1).val < 16 * t + 16)
        omega
      · refine ⟨⟨Rect.unit (s := S4x4096) ![3, 16 * t] S1x16.size i3, w3⟩, List.mem_cons_self, ?_⟩
        show j ∈ (Rect.unit (s := S4x4096) ![3, 16 * t] S1x16.size i3).set
        refine Rect.mem_set_unit.mpr (Fin.forall_fin_two.mpr ?_)
        show (3 ≤ (j 0).val ∧ (j 0).val < 3 + 1) ∧ (16 * t ≤ (j 1).val ∧ (j 1).val < 16 * t + 16)
        omega

/-- The input scratch after a chunk's copy has landed holds that chunk of the argument. -/
theorem in_ok0 (c0 : BitVec 32) (h : ∀ a, (k0_off1 L c0) a + S4x4096.size a ≤ S4096x4096.size a)
    (f0 : S4x4096.Idx → F .f32) (pay : S4x4096.Idx → F .f32) (hp : ∀ j, pay j = m (aLoc d) ((aCh L c0 h).view.emb j)) :
    InOK m d L c0 h (View.write (Elt F) (s0W).view f0 pay Finset.univ) := by
  intro j
  simp only [Memref.view_whole, View.write_whole_univ]
  exact hp j

/-- What a trip stores for one row: the sixteen lanes it loaded from the input scratch, each kept or zeroed. -/
theorem pay_at1 (o : Fin 2 → Nat) (i : ∀ a, o a + S1x16.size a ≤ S4x4096.size a) (fi : S4x4096.Idx → F .f32) (x : S1x16.Idx) :
    k0_pay1 (View.readAt (Elt F) (s1W).view (Rect.unit (s := S4x4096) o S1x16.size i).toLoadRect fi) x
      = Cert.Spec.keep (fi ((Rect.unit (s := S4x4096) o S1x16.size i).emb x)) := by
  rw [pay_eq]; rfl

/-- A trip writes columns 16 t … 16 t + 15 of the four rows: the columns done grow from 16 t to 16 (t + 1). -/
theorem out_step1 {fi fo : S4x4096.Idx → F .f32} {t : Nat}
    {o0 o1 o2 o3 : Fin 2 → Nat} {i0 : ∀ a, o0 a + S1x16.size a ≤ S4x4096.size a} {i1 : ∀ a, o1 a + S1x16.size a ≤ S4x4096.size a}
    {i2 : ∀ a, o2 a + S1x16.size a ≤ S4x4096.size a} {i3 : ∀ a, o3 a + S1x16.size a ≤ S4x4096.size a}
    {w0 w1 w2 w3 : S1x16.Idx → F .f32}
    (e0 : o0 = ![0, 16 * t]) (e1 : o1 = ![1, 16 * t]) (e2 : o2 = ![2, 16 * t]) (e3 : o3 = ![3, 16 * t])
    (hw0 : ∀ x, w0 x = Cert.Spec.keep (fi ((Rect.unit (s := S4x4096) o0 S1x16.size i0).emb x)))
    (hw1 : ∀ x, w1 x = Cert.Spec.keep (fi ((Rect.unit (s := S4x4096) o1 S1x16.size i1).emb x)))
    (hw2 : ∀ x, w2 x = Cert.Spec.keep (fi ((Rect.unit (s := S4x4096) o2 S1x16.size i2).emb x)))
    (hw3 : ∀ x, w3 x = Cert.Spec.keep (fi ((Rect.unit (s := S4x4096) o3 S1x16.size i3).emb x)))
    (hfo : OutOK fi fo t) :
    OutOK fi ((s4W).view.writes (Elt F) fo
      [⟨Rect.unit (s := S4x4096) o3 S1x16.size i3, w3⟩, ⟨Rect.unit (s := S4x4096) o2 S1x16.size i2, w2⟩,
       ⟨Rect.unit (s := S4x4096) o1 S1x16.size i1, w1⟩, ⟨Rect.unit (s := S4x4096) o0 S1x16.size i0, w0⟩]) (t + 1) := by
  subst e0 e1 e2 e3
  intro j hj
  have hrow : (j 0).val < 4 := (j 0).isLt
  by_cases hc : (j 1).val < 16 * t
  · refine (read_s4 _ j).symm.trans ((View.read_writes_apply_of_forall_not_mem (Val := Elt F) (s4W).view fo j _ ?_).trans (hfo j hc))
    · intro p hp
      rcases List.mem_cons.mp hp with rfl | hp
      · intro h
        have h' : j ∈ (Rect.unit (s := S4x4096) ![3, 16 * t] S1x16.size i3).set := h
        have h1 : 16 * t ≤ (j 1).val := ((Rect.mem_set_unit.mp h') (1 : Fin 2)).1
        omega
      rcases List.mem_cons.mp hp with rfl | hp
      · intro h
        have h' : j ∈ (Rect.unit (s := S4x4096) ![2, 16 * t] S1x16.size i2).set := h
        have h1 : 16 * t ≤ (j 1).val := ((Rect.mem_set_unit.mp h') (1 : Fin 2)).1
        omega
      rcases List.mem_cons.mp hp with rfl | hp
      · intro h
        have h' : j ∈ (Rect.unit (s := S4x4096) ![1, 16 * t] S1x16.size i1).set := h
        have h1 : 16 * t ≤ (j 1).val := ((Rect.mem_set_unit.mp h') (1 : Fin 2)).1
        omega
      rcases List.mem_cons.mp hp with rfl | hp
      · intro h
        have h' : j ∈ (Rect.unit (s := S4x4096) ![0, 16 * t] S1x16.size i0).set := h
        have h1 : 16 * t ≤ (j 1).val := ((Rect.mem_set_unit.mp h') (1 : Fin 2)).1
        omega
      exact absurd hp List.not_mem_nil
  · have h1 : 16 * t ≤ (j 1).val := by omega
    have h2 : (j 1).val < 16 * t + 16 := by omega
    refine (read_s4 _ j).symm.trans (View.read_writes_apply_of_pieces (Val := Elt F) (s4W).view fo (fun y => Cert.Spec.keep (fi y)) _ ?_ j ?_)
    · intro p hp x
      rcases List.mem_cons.mp hp with rfl | hp
      · exact hw3 x
      rcases List.mem_cons.mp hp with rfl | hp
      · exact hw2 x
      rcases List.mem_cons.mp hp with rfl | hp
      · exact hw1 x
      rcases List.mem_cons.mp hp with rfl | hp
      · exact hw0 x
      exact absurd hp List.not_mem_nil
    · rcases (show (j 0).val = 0 ∨ (j 0).val = 1 ∨ (j 0).val = 2 ∨ (j 0).val = 3 by omega) with h | h | h | h
      · refine ⟨⟨Rect.unit (s := S4x4096) ![0, 16 * t] S1x16.size i0, w0⟩, List.mem_cons_of_mem _ (List.mem_cons_of_mem _ (List.mem_cons_of_mem _ List.mem_cons_self)), ?_⟩
        show j ∈ (Rect.unit (s := S4x4096) ![0, 16 * t] S1x16.size i0).set
        refine Rect.mem_set_unit.mpr (Fin.forall_fin_two.mpr ?_)
        show (0 ≤ (j 0).val ∧ (j 0).val < 0 + 1) ∧ (16 * t ≤ (j 1).val ∧ (j 1).val < 16 * t + 16)
        omega
      · refine ⟨⟨Rect.unit (s := S4x4096) ![1, 16 * t] S1x16.size i1, w1⟩, List.mem_cons_of_mem _ (List.mem_cons_of_mem _ List.mem_cons_self), ?_⟩
        show j ∈ (Rect.unit (s := S4x4096) ![1, 16 * t] S1x16.size i1).set
        refine Rect.mem_set_unit.mpr (Fin.forall_fin_two.mpr ?_)
        show (1 ≤ (j 0).val ∧ (j 0).val < 1 + 1) ∧ (16 * t ≤ (j 1).val ∧ (j 1).val < 16 * t + 16)
        omega
      · refine ⟨⟨Rect.unit (s := S4x4096) ![2, 16 * t] S1x16.size i2, w2⟩, List.mem_cons_of_mem _ List.mem_cons_self, ?_⟩
        show j ∈ (Rect.unit (s := S4x4096) ![2, 16 * t] S1x16.size i2).set
        refine Rect.mem_set_unit.mpr (Fin.forall_fin_two.mpr ?_)
        show (2 ≤ (j 0).val ∧ (j 0).val < 2 + 1) ∧ (16 * t ≤ (j 1).val ∧ (j 1).val < 16 * t + 16)
        omega
      · refine ⟨⟨Rect.unit (s := S4x4096) ![3, 16 * t] S1x16.size i3, w3⟩, List.mem_cons_self, ?_⟩
        show j ∈ (Rect.unit (s := S4x4096) ![3, 16 * t] S1x16.size i3).set
        refine Rect.mem_set_unit.mpr (Fin.forall_fin_two.mpr ?_)
        show (3 ≤ (j 0).val ∧ (j 0).val < 3 + 1) ∧ (16 * t ≤ (j 1).val ∧ (j 1).val < 16 * t + 16)
        omega

/-- The input scratch after a chunk's copy has landed holds that chunk of the argument. -/
theorem in_ok1 (c0 : BitVec 32) (h : ∀ a, (k0_off1 L c0) a + S4x4096.size a ≤ S4096x4096.size a)
    (f0 : S4x4096.Idx → F .f32) (pay : S4x4096.Idx → F .f32) (hp : ∀ j, pay j = m (aLoc d) ((aCh L c0 h).view.emb j)) :
    InOK m d L c0 h (View.write (Elt F) (s1W).view f0 pay Finset.univ) := by
  intro j
  simp only [Memref.view_whole, View.write_whole_univ]
  exact hp j

/-- What a trip stores for one row: the sixteen lanes it loaded from the input scratch, each kept or zeroed. -/
theorem pay_at2 (o : Fin 2 → Nat) (i : ∀ a, o a + S1x16.size a ≤ S4x4096.size a) (fi : S4x4096.Idx → F .f32) (x : S1x16.Idx) :
    k0_pay1 (View.readAt (Elt F) (s2W).view (Rect.unit (s := S4x4096) o S1x16.size i).toLoadRect fi) x
      = Cert.Spec.keep (fi ((Rect.unit (s := S4x4096) o S1x16.size i).emb x)) := by
  rw [pay_eq]; rfl

/-- A trip writes columns 16 t … 16 t + 15 of the four rows: the columns done grow from 16 t to 16 (t + 1). -/
theorem out_step2 {fi fo : S4x4096.Idx → F .f32} {t : Nat}
    {o0 o1 o2 o3 : Fin 2 → Nat} {i0 : ∀ a, o0 a + S1x16.size a ≤ S4x4096.size a} {i1 : ∀ a, o1 a + S1x16.size a ≤ S4x4096.size a}
    {i2 : ∀ a, o2 a + S1x16.size a ≤ S4x4096.size a} {i3 : ∀ a, o3 a + S1x16.size a ≤ S4x4096.size a}
    {w0 w1 w2 w3 : S1x16.Idx → F .f32}
    (e0 : o0 = ![0, 16 * t]) (e1 : o1 = ![1, 16 * t]) (e2 : o2 = ![2, 16 * t]) (e3 : o3 = ![3, 16 * t])
    (hw0 : ∀ x, w0 x = Cert.Spec.keep (fi ((Rect.unit (s := S4x4096) o0 S1x16.size i0).emb x)))
    (hw1 : ∀ x, w1 x = Cert.Spec.keep (fi ((Rect.unit (s := S4x4096) o1 S1x16.size i1).emb x)))
    (hw2 : ∀ x, w2 x = Cert.Spec.keep (fi ((Rect.unit (s := S4x4096) o2 S1x16.size i2).emb x)))
    (hw3 : ∀ x, w3 x = Cert.Spec.keep (fi ((Rect.unit (s := S4x4096) o3 S1x16.size i3).emb x)))
    (hfo : OutOK fi fo t) :
    OutOK fi ((s5W).view.writes (Elt F) fo
      [⟨Rect.unit (s := S4x4096) o3 S1x16.size i3, w3⟩, ⟨Rect.unit (s := S4x4096) o2 S1x16.size i2, w2⟩,
       ⟨Rect.unit (s := S4x4096) o1 S1x16.size i1, w1⟩, ⟨Rect.unit (s := S4x4096) o0 S1x16.size i0, w0⟩]) (t + 1) := by
  subst e0 e1 e2 e3
  intro j hj
  have hrow : (j 0).val < 4 := (j 0).isLt
  by_cases hc : (j 1).val < 16 * t
  · refine (read_s5 _ j).symm.trans ((View.read_writes_apply_of_forall_not_mem (Val := Elt F) (s5W).view fo j _ ?_).trans (hfo j hc))
    · intro p hp
      rcases List.mem_cons.mp hp with rfl | hp
      · intro h
        have h' : j ∈ (Rect.unit (s := S4x4096) ![3, 16 * t] S1x16.size i3).set := h
        have h1 : 16 * t ≤ (j 1).val := ((Rect.mem_set_unit.mp h') (1 : Fin 2)).1
        omega
      rcases List.mem_cons.mp hp with rfl | hp
      · intro h
        have h' : j ∈ (Rect.unit (s := S4x4096) ![2, 16 * t] S1x16.size i2).set := h
        have h1 : 16 * t ≤ (j 1).val := ((Rect.mem_set_unit.mp h') (1 : Fin 2)).1
        omega
      rcases List.mem_cons.mp hp with rfl | hp
      · intro h
        have h' : j ∈ (Rect.unit (s := S4x4096) ![1, 16 * t] S1x16.size i1).set := h
        have h1 : 16 * t ≤ (j 1).val := ((Rect.mem_set_unit.mp h') (1 : Fin 2)).1
        omega
      rcases List.mem_cons.mp hp with rfl | hp
      · intro h
        have h' : j ∈ (Rect.unit (s := S4x4096) ![0, 16 * t] S1x16.size i0).set := h
        have h1 : 16 * t ≤ (j 1).val := ((Rect.mem_set_unit.mp h') (1 : Fin 2)).1
        omega
      exact absurd hp List.not_mem_nil
  · have h1 : 16 * t ≤ (j 1).val := by omega
    have h2 : (j 1).val < 16 * t + 16 := by omega
    refine (read_s5 _ j).symm.trans (View.read_writes_apply_of_pieces (Val := Elt F) (s5W).view fo (fun y => Cert.Spec.keep (fi y)) _ ?_ j ?_)
    · intro p hp x
      rcases List.mem_cons.mp hp with rfl | hp
      · exact hw3 x
      rcases List.mem_cons.mp hp with rfl | hp
      · exact hw2 x
      rcases List.mem_cons.mp hp with rfl | hp
      · exact hw1 x
      rcases List.mem_cons.mp hp with rfl | hp
      · exact hw0 x
      exact absurd hp List.not_mem_nil
    · rcases (show (j 0).val = 0 ∨ (j 0).val = 1 ∨ (j 0).val = 2 ∨ (j 0).val = 3 by omega) with h | h | h | h
      · refine ⟨⟨Rect.unit (s := S4x4096) ![0, 16 * t] S1x16.size i0, w0⟩, List.mem_cons_of_mem _ (List.mem_cons_of_mem _ (List.mem_cons_of_mem _ List.mem_cons_self)), ?_⟩
        show j ∈ (Rect.unit (s := S4x4096) ![0, 16 * t] S1x16.size i0).set
        refine Rect.mem_set_unit.mpr (Fin.forall_fin_two.mpr ?_)
        show (0 ≤ (j 0).val ∧ (j 0).val < 0 + 1) ∧ (16 * t ≤ (j 1).val ∧ (j 1).val < 16 * t + 16)
        omega
      · refine ⟨⟨Rect.unit (s := S4x4096) ![1, 16 * t] S1x16.size i1, w1⟩, List.mem_cons_of_mem _ (List.mem_cons_of_mem _ List.mem_cons_self), ?_⟩
        show j ∈ (Rect.unit (s := S4x4096) ![1, 16 * t] S1x16.size i1).set
        refine Rect.mem_set_unit.mpr (Fin.forall_fin_two.mpr ?_)
        show (1 ≤ (j 0).val ∧ (j 0).val < 1 + 1) ∧ (16 * t ≤ (j 1).val ∧ (j 1).val < 16 * t + 16)
        omega
      · refine ⟨⟨Rect.unit (s := S4x4096) ![2, 16 * t] S1x16.size i2, w2⟩, List.mem_cons_of_mem _ List.mem_cons_self, ?_⟩
        show j ∈ (Rect.unit (s := S4x4096) ![2, 16 * t] S1x16.size i2).set
        refine Rect.mem_set_unit.mpr (Fin.forall_fin_two.mpr ?_)
        show (2 ≤ (j 0).val ∧ (j 0).val < 2 + 1) ∧ (16 * t ≤ (j 1).val ∧ (j 1).val < 16 * t + 16)
        omega
      · refine ⟨⟨Rect.unit (s := S4x4096) ![3, 16 * t] S1x16.size i3, w3⟩, List.mem_cons_self, ?_⟩
        show j ∈ (Rect.unit (s := S4x4096) ![3, 16 * t] S1x16.size i3).set
        refine Rect.mem_set_unit.mpr (Fin.forall_fin_two.mpr ?_)
        show (3 ≤ (j 0).val ∧ (j 0).val < 3 + 1) ∧ (16 * t ≤ (j 1).val ∧ (j 1).val < 16 * t + 16)
        omega

/-- The input scratch after a chunk's copy has landed holds that chunk of the argument. -/
theorem in_ok2 (c0 : BitVec 32) (h : ∀ a, (k0_off1 L c0) a + S4x4096.size a ≤ S4096x4096.size a)
    (f0 : S4x4096.Idx → F .f32) (pay : S4x4096.Idx → F .f32) (hp : ∀ j, pay j = m (aLoc d) ((aCh L c0 h).view.emb j)) :
    InOK m d L c0 h (View.write (Elt F) (s2W).view f0 pay Finset.univ) := by
  intro j
  simp only [Memref.view_whole, View.write_whole_univ]
  exact hp j

/-- A chunk of the result after the copy-out has landed: the output scratch's rows, which are the argument's chunk kept or zeroed. -/
theorem out_piece (c0 : BitVec 32) (h : ∀ a, (k0_off1 L c0) a + S4x4096.size a ≤ S4096x4096.size a)
    (g : Buf (Elt F) (oLoc d)) (pay fi fo : S4x4096.Idx → F .f32) (T : Nat) (hT : 4096 ≤ 16 * T)
    (hp : ∀ j, pay j = fo j) (hfi : InOK m d L c0 h fi) (hfo : OutOK fi fo T) :
    ((oCh L c0 h).view.loc (V d (cV L) (jV L)) ↦[(oCh L c0 h).view.set]{fullShare} (oCh L c0 h).view.writes (Elt F) g [⟨Rect.whole S4x4096, pay⟩] : sProp 𝕄)
      = (oCh L c0 h).view.loc (V d (cV L) (jV L)) ↦[(oCh L c0 h).view.set]{fullShare} Gm m d := by
  refine pointsTo_congr fun i hi => ?_
  obtain ⟨j, -, rfl⟩ := Finset.mem_map.mp hi
  have hj : (j 1).val < 16 * T := lt_of_lt_of_le (j 1).isLt hT
  have e : (oCh L c0 h).view.emb j = ((oCh L c0 h).view.slice (Rect.whole S4x4096)).emb j := by
    show _ = (oCh L c0 h).view.emb ((Rect.whole S4x4096).emb j)
    rw [Rect.emb_whole_apply]
  show (((oCh L c0 h).view.slice (Rect.whole S4x4096)).write (Elt F) g pay Finset.univ) ((oCh L c0 h).view.emb j) = _
  rw [e, View.write_emb_of_mem _ _ (Finset.mem_univ j), cast_eq, hp j, hfo j hj, hfi j, ← e]
  rfl

end Tile

end Cert.Proof.KI

end
-- ==== Proof.TileI.lean ====
/-
  The whole task of one vector subcore, run from its 32 chunks of the two arrays, its six scratches and its six semaphores at
  zero: chunk after chunk the input copy is waited for, the loop fills the output scratch with the kept-or-zeroed entries
  (the invariant: the columns done so far), the copy-out is issued and the next input copy started. At the end every chunk
  of the result holds the argument's chunk, each entry kept if above one half and zero otherwise.
-/
import proofs.«207063_g69217692942512_cont_9to1_m_457_27_alg».proof.Proof.TileLemI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "aW" => (Memref.whole Cert.KernelIdeal.main_arg0_scv : Memref Cert.KernelIdeal.sig Kind.scVector Space.hbm Cert.KernelIdeal.S4096x4096 EltTy.f32)
local notation "oW" => (Memref.whole Cert.KernelIdeal.main_v0_scv : Memref Cert.KernelIdeal.sig Kind.scVector Space.hbm Cert.KernelIdeal.S4096x4096 EltTy.f32)
local notation "s0W" => (Memref.whole Cert.KernelIdeal.cc0_scratch0 : Memref Cert.KernelIdeal.sig Kind.scVector Space.vmem Cert.KernelIdeal.S4x4096 EltTy.f32)
local notation "s1W" => (Memref.whole Cert.KernelIdeal.cc0_scratch1 : Memref Cert.KernelIdeal.sig Kind.scVector Space.vmem Cert.KernelIdeal.S4x4096 EltTy.f32)
local notation "s2W" => (Memref.whole Cert.KernelIdeal.cc0_scratch2 : Memref Cert.KernelIdeal.sig Kind.scVector Space.vmem Cert.KernelIdeal.S4x4096 EltTy.f32)
local notation "s3W" => (Memref.whole Cert.KernelIdeal.cc0_scratch3 : Memref Cert.KernelIdeal.sig Kind.scVector Space.vmem Cert.KernelIdeal.S4x4096 EltTy.f32)
local notation "s4W" => (Memref.whole Cert.KernelIdeal.cc0_scratch4 : Memref Cert.KernelIdeal.sig Kind.scVector Space.vmem Cert.KernelIdeal.S4x4096 EltTy.f32)
local notation "s5W" => (Memref.whole Cert.KernelIdeal.cc0_scratch5 : Memref Cert.KernelIdeal.sig Kind.scVector Space.vmem Cert.KernelIdeal.S4x4096 EltTy.f32)

variable [FloatOps F]

section Tile

variable (d : Dev nD) (L : grid0.Coords)

set_option maxHeartbeats 16000000 in
/-- The task on vector subcore (L 0, L 1) of device `d`. -/
theorem tile_body (hF : (K (F := F)).Facts) (O : CellTallies nD τ sig (HIx 1)) (W : Waits sig (HIx 1)) (hO : ∀ g, O g none = 0) :
    iprop(levAts (K (F := F)).L (K (F := F)).lev ∗ emp
        ∗ (aPieces d L (m (aLoc d)) ∗ oPieces d L (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_mask L aW (Memref.isWhole_whole _) oW (Memref.isWhole_whole _)
            s0W (Memref.isWhole_whole _) s1W (Memref.isWhole_whole _) s2W (Memref.isWhole_whole _)
            s3W (Memref.isWhole_whole _) s4W (Memref.isWhole_whole _) s5W (Memref.isWhole_whole _)
            cc0_scratch6 cc0_scratch7 cc0_scratch8 cc0_scratch9 cc0_scratch10 cc0_scratch11)
          fun _ => iprop((aPieces d L (m (aLoc d)) ∗ oPieces d L (Gm m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_mask_eq_skeleton]; unfold cc0__sc_mask_skel
  rw [(K (F := F)).scopedBufs_V hF d (cV L) (jV L), SparseCore.Cfg.scopedSems0_V (Val := Elt F) d (cV L) (jV L), ownSems0_V, ownBufs_V]
  unfold aPieces oPieces
  iintro ⟨#Hlv, -, ⟨⟨Ha0, Ha1, Ha2, Ha3, Ha4, Ha5, Ha6, Ha7, Ha8, Ha9, Ha10, Ha11, Ha12, Ha13, Ha14, Ha15, Ha16, Ha17, Ha18, Ha19, Ha20, Ha21, Ha22, Ha23, Ha24, Ha25, Ha26, Ha27, Ha28, Ha29, Ha30, Ha31⟩, ⟨Ho0, Ho1, Ho2, Ho3, Ho4, Ho5, Ho6, Ho7, Ho8, Ho9, Ho10, Ho11, Ho12, Ho13, Ho14, Ho15, Ho16, Ho17, Ho18, Ho19, Ho20, Ho21, Ho22, Ho23, Ho24, Ho25, Ho26, Ho27, Ho28, Ho29, Ho30, Ho31⟩⟩,
    ⟨⟨%f0, Hs0⟩, ⟨%f1, Hs1⟩, ⟨%f2, Hs2⟩, ⟨%f3, Hs3⟩, ⟨%f4, Hs4⟩, ⟨%f5, Hs5⟩, Hbufs⟩, ⟨Hc6, Hc7, Hc8, Hc9, Hc10, Hc11, Hsems⟩, HO⟩
  ihave Hmw := ((K (F := F)).mayWaits_none (thr := (V d (cV L) (jV L))) hO) $$ Hlv
  ihave Hb0 := (Entails.of_eq (pts_s0 (F := F) d L _).symm) $$ Hs0
  ihave Hb1 := (Entails.of_eq (pts_s1 (F := F) d L _).symm) $$ Hs1
  ihave Hb2 := (Entails.of_eq (pts_s2 (F := F) d L _).symm) $$ Hs2
  ihave Hb3 := (Entails.of_eq (pts_s3 (F := F) d L _).symm) $$ Hs3
  ihave Hb4 := (Entails.of_eq (pts_s4 (F := F) d L _).symm) $$ Hs4
  ihave Hb5 := (Entails.of_eq (pts_s5 (F := F) d L _).symm) $$ Hs5
  -- chunk 0: its loop over the 256 column groups
  sl_exec_parts
  sl_for (linv0 m d L 0#32 (k0_off1_inb L 0)) $$ [Hb0 Hb3]
  case region =>
    intro t _
    unfold linv0
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step0 (i0 := k0_off2_inb t) (i1 := k0_off3_inb t) (i2 := k0_off4_inb t) (i3 := k0_off5_inb t)
        (k0_off2_eq t) (k0_off3_eq t) (k0_off4_eq t) (k0_off5_eq t)
        (fun x => pay_at0 _ (k0_off2_inb t) fi x) (fun x => pay_at0 _ (k0_off3_inb t) fi x)
        (fun x => pay_at0 _ (k0_off4_inb t) fi x) (fun x => pay_at0 _ (k0_off5_inb t) fi x) hfo
  · unfold linv0
    iexists _; isplitr
    rotate_left
    · isplitl [Hb0]
      · iexact Hb0
      iexists _; isplitr
      rotate_left
      · iexact Hb3
      · ipureintro; exact fun j hj => absurd hj (by omega)
    · ipureintro; exact in_ok0 m d L _ _ _ _ (fun j => rfl)
  iintro %_ HI
  unfold linv0
  icases HI with ⟨%fi0, %hfi0, Hb0, %fo0, %hfo0, Hb3⟩
  -- chunk 1: its loop over the 256 column groups
  sl_exec_parts
  sl_for (linv1 m d L 4#32 (k0_off1_inb L 1)) $$ [Hb1 Hb4]
  case region =>
    intro t _
    unfold linv1
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step1 (i0 := k0_off6_inb t) (i1 := k0_off7_inb t) (i2 := k0_off8_inb t) (i3 := k0_off9_inb t)
        (k0_off6_eq t) (k0_off7_eq t) (k0_off8_eq t) (k0_off9_eq t)
        (fun x => pay_at1 _ (k0_off6_inb t) fi x) (fun x => pay_at1 _ (k0_off7_inb t) fi x)
        (fun x => pay_at1 _ (k0_off8_inb t) fi x) (fun x => pay_at1 _ (k0_off9_inb t) fi x) hfo
  · unfold linv1
    iexists _; isplitr
    rotate_left
    · isplitl [Hb1]
      · iexact Hb1
      iexists _; isplitr
      rotate_left
      · iexact Hb4
      · ipureintro; exact fun j hj => absurd hj (by omega)
    · ipureintro; exact in_ok1 m d L _ _ _ _ (fun j => rfl)
  iintro %_ HI
  unfold linv1
  icases HI with ⟨%fi1, %hfi1, Hb1, %fo1, %hfo1, Hb4⟩
  -- chunk 2: its loop over the 256 column groups
  sl_exec_parts
  sl_for (linv2 m d L 8#32 (k0_off1_inb L 2)) $$ [Hb2 Hb5]
  case region =>
    intro t _
    unfold linv2
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step2 (i0 := k0_off10_inb t) (i1 := k0_off11_inb t) (i2 := k0_off12_inb t) (i3 := k0_off13_inb t)
        (k0_off10_eq t) (k0_off11_eq t) (k0_off12_eq t) (k0_off13_eq t)
        (fun x => pay_at2 _ (k0_off10_inb t) fi x) (fun x => pay_at2 _ (k0_off11_inb t) fi x)
        (fun x => pay_at2 _ (k0_off12_inb t) fi x) (fun x => pay_at2 _ (k0_off13_inb t) fi x) hfo
  · unfold linv2
    iexists _; isplitr
    rotate_left
    · isplitl [Hb2]
      · iexact Hb2
      iexists _; isplitr
      rotate_left
      · iexact Hb5
      · ipureintro; exact fun j hj => absurd hj (by omega)
    · ipureintro; exact in_ok2 m d L _ _ _ _ (fun j => rfl)
  iintro %_ HI
  unfold linv2
  icases HI with ⟨%fi2, %hfi2, Hb2, %fo2, %hfo2, Hb5⟩
  -- chunk 3: its loop over the 256 column groups
  sl_exec_parts
  sl_for (linv0 m d L 12#32 (k0_off1_inb L 3)) $$ [Hb0 Hb3]
  case region =>
    intro t _
    unfold linv0
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step0 (i0 := k0_off14_inb t) (i1 := k0_off15_inb t) (i2 := k0_off16_inb t) (i3 := k0_off17_inb t)
        (k0_off14_eq t) (k0_off15_eq t) (k0_off16_eq t) (k0_off17_eq t)
        (fun x => pay_at0 _ (k0_off14_inb t) fi x) (fun x => pay_at0 _ (k0_off15_inb t) fi x)
        (fun x => pay_at0 _ (k0_off16_inb t) fi x) (fun x => pay_at0 _ (k0_off17_inb t) fi x) hfo
  · unfold linv0
    iexists _; isplitr
    rotate_left
    · isplitl [Hb0]
      · iexact Hb0
      iexists _; isplitr
      rotate_left
      · iexact Hb3
      · ipureintro; exact fun j hj => absurd hj (by omega)
    · ipureintro; exact in_ok0 m d L _ _ _ _ (fun j => rfl)
  iintro %_ HI
  unfold linv0
  icases HI with ⟨%fi3, %hfi3, Hb0, %fo3, %hfo3, Hb3⟩
  -- chunk 4: its loop over the 256 column groups
  sl_exec_parts
  sl_for (linv1 m d L 16#32 (k0_off1_inb L 4)) $$ [Hb1 Hb4]
  case region =>
    intro t _
    unfold linv1
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step1 (i0 := k0_off18_inb t) (i1 := k0_off19_inb t) (i2 := k0_off20_inb t) (i3 := k0_off21_inb t)
        (k0_off18_eq t) (k0_off19_eq t) (k0_off20_eq t) (k0_off21_eq t)
        (fun x => pay_at1 _ (k0_off18_inb t) fi x) (fun x => pay_at1 _ (k0_off19_inb t) fi x)
        (fun x => pay_at1 _ (k0_off20_inb t) fi x) (fun x => pay_at1 _ (k0_off21_inb t) fi x) hfo
  · unfold linv1
    iexists _; isplitr
    rotate_left
    · isplitl [Hb1]
      · iexact Hb1
      iexists _; isplitr
      rotate_left
      · iexact Hb4
      · ipureintro; exact fun j hj => absurd hj (by omega)
    · ipureintro; exact in_ok1 m d L _ _ _ _ (fun j => rfl)
  iintro %_ HI
  unfold linv1
  icases HI with ⟨%fi4, %hfi4, Hb1, %fo4, %hfo4, Hb4⟩
  -- chunk 5: its loop over the 256 column groups
  sl_exec_parts
  sl_for (linv2 m d L 20#32 (k0_off1_inb L 5)) $$ [Hb2 Hb5]
  case region =>
    intro t _
    unfold linv2
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step2 (i0 := k0_off22_inb t) (i1 := k0_off23_inb t) (i2 := k0_off24_inb t) (i3 := k0_off25_inb t)
        (k0_off22_eq t) (k0_off23_eq t) (k0_off24_eq t) (k0_off25_eq t)
        (fun x => pay_at2 _ (k0_off22_inb t) fi x) (fun x => pay_at2 _ (k0_off23_inb t) fi x)
        (fun x => pay_at2 _ (k0_off24_inb t) fi x) (fun x => pay_at2 _ (k0_off25_inb t) fi x) hfo
  · unfold linv2
    iexists _; isplitr
    rotate_left
    · isplitl [Hb2]
      · iexact Hb2
      iexists _; isplitr
      rotate_left
      · iexact Hb5
      · ipureintro; exact fun j hj => absurd hj (by omega)
    · ipureintro; exact in_ok2 m d L _ _ _ _ (fun j => rfl)
  iintro %_ HI
  unfold linv2
  icases HI with ⟨%fi5, %hfi5, Hb2, %fo5, %hfo5, Hb5⟩
  -- chunk 6: its loop over the 256 column groups
  sl_exec_parts
  sl_for (linv0 m d L 24#32 (k0_off1_inb L 6)) $$ [Hb0 Hb3]
  case region =>
    intro t _
    unfold linv0
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step0 (i0 := k0_off26_inb t) (i1 := k0_off27_inb t) (i2 := k0_off28_inb t) (i3 := k0_off29_inb t)
        (k0_off26_eq t) (k0_off27_eq t) (k0_off28_eq t) (k0_off29_eq t)
        (fun x => pay_at0 _ (k0_off26_inb t) fi x) (fun x => pay_at0 _ (k0_off27_inb t) fi x)
        (fun x => pay_at0 _ (k0_off28_inb t) fi x) (fun x => pay_at0 _ (k0_off29_inb t) fi x) hfo
  · unfold linv0
    iexists _; isplitr
    rotate_left
    · isplitl [Hb0]
      · iexact Hb0
      iexists _; isplitr
      rotate_left
      · iexact Hb3
      · ipureintro; exact fun j hj => absurd hj (by omega)
    · ipureintro; exact in_ok0 m d L _ _ _ _ (fun j => rfl)
  iintro %_ HI
  unfold linv0
  icases HI with ⟨%fi6, %hfi6, Hb0, %fo6, %hfo6, Hb3⟩
  -- chunk 7: its loop over the 256 column groups
  sl_exec_parts
  sl_for (linv1 m d L 28#32 (k0_off1_inb L 7)) $$ [Hb1 Hb4]
  case region =>
    intro t _
    unfold linv1
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step1 (i0 := k0_off30_inb t) (i1 := k0_off31_inb t) (i2 := k0_off32_inb t) (i3 := k0_off33_inb t)
        (k0_off30_eq t) (k0_off31_eq t) (k0_off32_eq t) (k0_off33_eq t)
        (fun x => pay_at1 _ (k0_off30_inb t) fi x) (fun x => pay_at1 _ (k0_off31_inb t) fi x)
        (fun x => pay_at1 _ (k0_off32_inb t) fi x) (fun x => pay_at1 _ (k0_off33_inb t) fi x) hfo
  · unfold linv1
    iexists _; isplitr
    rotate_left
    · isplitl [Hb1]
      · iexact Hb1
      iexists _; isplitr
      rotate_left
      · iexact Hb4
      · ipureintro; exact fun j hj => absurd hj (by omega)
    · ipureintro; exact in_ok1 m d L _ _ _ _ (fun j => rfl)
  iintro %_ HI
  unfold linv1
  icases HI with ⟨%fi7, %hfi7, Hb1, %fo7, %hfo7, Hb4⟩
  -- chunk 8: its loop over the 256 column groups
  sl_exec_parts
  sl_for (linv2 m d L 32#32 (k0_off1_inb L 8)) $$ [Hb2 Hb5]
  case region =>
    intro t _
    unfold linv2
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step2 (i0 := k0_off34_inb t) (i1 := k0_off35_inb t) (i2 := k0_off36_inb t) (i3 := k0_off37_inb t)
        (k0_off34_eq t) (k0_off35_eq t) (k0_off36_eq t) (k0_off37_eq t)
        (fun x => pay_at2 _ (k0_off34_inb t) fi x) (fun x => pay_at2 _ (k0_off35_inb t) fi x)
        (fun x => pay_at2 _ (k0_off36_inb t) fi x) (fun x => pay_at2 _ (k0_off37_inb t) fi x) hfo
  · unfold linv2
    iexists _; isplitr
    rotate_left
    · isplitl [Hb2]
      · iexact Hb2
      iexists _; isplitr
      rotate_left
      · iexact Hb5
      · ipureintro; exact fun j hj => absurd hj (by omega)
    · ipureintro; exact in_ok2 m d L _ _ _ _ (fun j => rfl)
  iintro %_ HI
  unfold linv2
  icases HI with ⟨%fi8, %hfi8, Hb2, %fo8, %hfo8, Hb5⟩
  -- chunk 9: its loop over the 256 column groups
  sl_exec_parts
  sl_for (linv0 m d L 36#32 (k0_off1_inb L 9)) $$ [Hb0 Hb3]
  case region =>
    intro t _
    unfold linv0
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step0 (i0 := k0_off38_inb t) (i1 := k0_off39_inb t) (i2 := k0_off40_inb t) (i3 := k0_off41_inb t)
        (k0_off38_eq t) (k0_off39_eq t) (k0_off40_eq t) (k0_off41_eq t)
        (fun x => pay_at0 _ (k0_off38_inb t) fi x) (fun x => pay_at0 _ (k0_off39_inb t) fi x)
        (fun x => pay_at0 _ (k0_off40_inb t) fi x) (fun x => pay_at0 _ (k0_off41_inb t) fi x) hfo
  · unfold linv0
    iexists _; isplitr
    rotate_left
    · isplitl [Hb0]
      · iexact Hb0
      iexists _; isplitr
      rotate_left
      · iexact Hb3
      · ipureintro; exact fun j hj => absurd hj (by omega)
    · ipureintro; exact in_ok0 m d L _ _ _ _ (fun j => rfl)
  iintro %_ HI
  unfold linv0
  icases HI with ⟨%fi9, %hfi9, Hb0, %fo9, %hfo9, Hb3⟩
  -- chunk 10: its loop over the 256 column groups
  sl_exec_parts
  sl_for (linv1 m d L 40#32 (k0_off1_inb L 10)) $$ [Hb1 Hb4]
  case region =>
    intro t _
    unfold linv1
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step1 (i0 := k0_off42_inb t) (i1 := k0_off43_inb t) (i2 := k0_off44_inb t) (i3 := k0_off45_inb t)
        (k0_off42_eq t) (k0_off43_eq t) (k0_off44_eq t) (k0_off45_eq t)
        (fun x => pay_at1 _ (k0_off42_inb t) fi x) (fun x => pay_at1 _ (k0_off43_inb t) fi x)
        (fun x => pay_at1 _ (k0_off44_inb t) fi x) (fun x => pay_at1 _ (k0_off45_inb t) fi x) hfo
  · unfold linv1
    iexists _; isplitr
    rotate_left
    · isplitl [Hb1]
      · iexact Hb1
      iexists _; isplitr
      rotate_left
      · iexact Hb4
      · ipureintro; exact fun j hj => absurd hj (by omega)
    · ipureintro; exact in_ok1 m d L _ _ _ _ (fun j => rfl)
  iintro %_ HI
  unfold linv1
  icases HI with ⟨%fi10, %hfi10, Hb1, %fo10, %hfo10, Hb4⟩
  -- chunk 11: its loop over the 256 column groups
  sl_exec_parts
  sl_for (linv2 m d L 44#32 (k0_off1_inb L 11)) $$ [Hb2 Hb5]
  case region =>
    intro t _
    unfold linv2
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step2 (i0 := k0_off46_inb t) (i1 := k0_off47_inb t) (i2 := k0_off48_inb t) (i3 := k0_off49_inb t)
        (k0_off46_eq t) (k0_off47_eq t) (k0_off48_eq t) (k0_off49_eq t)
        (fun x => pay_at2 _ (k0_off46_inb t) fi x) (fun x => pay_at2 _ (k0_off47_inb t) fi x)
        (fun x => pay_at2 _ (k0_off48_inb t) fi x) (fun x => pay_at2 _ (k0_off49_inb t) fi x) hfo
  · unfold linv2
    iexists _; isplitr
    rotate_left
    · isplitl [Hb2]
      · iexact Hb2
      iexists _; isplitr
      rotate_left
      · iexact Hb5
      · ipureintro; exact fun j hj => absurd hj (by omega)
    · ipureintro; exact in_ok2 m d L _ _ _ _ (fun j => rfl)
  iintro %_ HI
  unfold linv2
  icases HI with ⟨%fi11, %hfi11, Hb2, %fo11, %hfo11, Hb5⟩
  -- chunk 12: its loop over the 256 column groups
  sl_exec_parts
  sl_for (linv0 m d L 48#32 (k0_off1_inb L 12)) $$ [Hb0 Hb3]
  case region =>
    intro t _
    unfold linv0
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step0 (i0 := k0_off50_inb t) (i1 := k0_off51_inb t) (i2 := k0_off52_inb t) (i3 := k0_off53_inb t)
        (k0_off50_eq t) (k0_off51_eq t) (k0_off52_eq t) (k0_off53_eq t)
        (fun x => pay_at0 _ (k0_off50_inb t) fi x) (fun x => pay_at0 _ (k0_off51_inb t) fi x)
        (fun x => pay_at0 _ (k0_off52_inb t) fi x) (fun x => pay_at0 _ (k0_off53_inb t) fi x) hfo
  · unfold linv0
    iexists _; isplitr
    rotate_left
    · isplitl [Hb0]
      · iexact Hb0
      iexists _; isplitr
      rotate_left
      · iexact Hb3
      · ipureintro; exact fun j hj => absurd hj (by omega)
    · ipureintro; exact in_ok0 m d L _ _ _ _ (fun j => rfl)
  iintro %_ HI
  unfold linv0
  icases HI with ⟨%fi12, %hfi12, Hb0, %fo12, %hfo12, Hb3⟩
  -- chunk 13: its loop over the 256 column groups
  sl_exec_parts
  sl_for (linv1 m d L 52#32 (k0_off1_inb L 13)) $$ [Hb1 Hb4]
  case region =>
    intro t _
    unfold linv1
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step1 (i0 := k0_off54_inb t) (i1 := k0_off55_inb t) (i2 := k0_off56_inb t) (i3 := k0_off57_inb t)
        (k0_off54_eq t) (k0_off55_eq t) (k0_off56_eq t) (k0_off57_eq t)
        (fun x => pay_at1 _ (k0_off54_inb t) fi x) (fun x => pay_at1 _ (k0_off55_inb t) fi x)
        (fun x => pay_at1 _ (k0_off56_inb t) fi x) (fun x => pay_at1 _ (k0_off57_inb t) fi x) hfo
  · unfold linv1
    iexists _; isplitr
    rotate_left
    · isplitl [Hb1]
      · iexact Hb1
      iexists _; isplitr
      rotate_left
      · iexact Hb4
      · ipureintro; exact fun j hj => absurd hj (by omega)
    · ipureintro; exact in_ok1 m d L _ _ _ _ (fun j => rfl)
  iintro %_ HI
  unfold linv1
  icases HI with ⟨%fi13, %hfi13, Hb1, %fo13, %hfo13, Hb4⟩
  -- chunk 14: its loop over the 256 column groups
  sl_exec_parts
  sl_for (linv2 m d L 56#32 (k0_off1_inb L 14)) $$ [Hb2 Hb5]
  case region =>
    intro t _
    unfold linv2
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step2 (i0 := k0_off58_inb t) (i1 := k0_off59_inb t) (i2 := k0_off60_inb t) (i3 := k0_off61_inb t)
        (k0_off58_eq t) (k0_off59_eq t) (k0_off60_eq t) (k0_off61_eq t)
        (fun x => pay_at2 _ (k0_off58_inb t) fi x) (fun x => pay_at2 _ (k0_off59_inb t) fi x)
        (fun x => pay_at2 _ (k0_off60_inb t) fi x) (fun x => pay_at2 _ (k0_off61_inb t) fi x) hfo
  · unfold linv2
    iexists _; isplitr
    rotate_left
    · isplitl [Hb2]
      · iexact Hb2
      iexists _; isplitr
      rotate_left
      · iexact Hb5
      · ipureintro; exact fun j hj => absurd hj (by omega)
    · ipureintro; exact in_ok2 m d L _ _ _ _ (fun j => rfl)
  iintro %_ HI
  unfold linv2
  icases HI with ⟨%fi14, %hfi14, Hb2, %fo14, %hfo14, Hb5⟩
  -- chunk 15: its loop over the 256 column groups
  sl_exec_parts
  sl_for (linv0 m d L 60#32 (k0_off1_inb L 15)) $$ [Hb0 Hb3]
  case region =>
    intro t _
    unfold linv0
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step0 (i0 := k0_off62_inb t) (i1 := k0_off63_inb t) (i2 := k0_off64_inb t) (i3 := k0_off65_inb t)
        (k0_off62_eq t) (k0_off63_eq t) (k0_off64_eq t) (k0_off65_eq t)
        (fun x => pay_at0 _ (k0_off62_inb t) fi x) (fun x => pay_at0 _ (k0_off63_inb t) fi x)
        (fun x => pay_at0 _ (k0_off64_inb t) fi x) (fun x => pay_at0 _ (k0_off65_inb t) fi x) hfo
  · unfold linv0
    iexists _; isplitr
    rotate_left
    · isplitl [Hb0]
      · iexact Hb0
      iexists _; isplitr
      rotate_left
      · iexact Hb3
      · ipureintro; exact fun j hj => absurd hj (by omega)
    · ipureintro; exact in_ok0 m d L _ _ _ _ (fun j => rfl)
  iintro %_ HI
  unfold linv0
  icases HI with ⟨%fi15, %hfi15, Hb0, %fo15, %hfo15, Hb3⟩
  -- chunk 16: its loop over the 256 column groups
  sl_exec_parts
  sl_for (linv1 m d L 64#32 (k0_off1_inb L 16)) $$ [Hb1 Hb4]
  case region =>
    intro t _
    unfold linv1
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step1 (i0 := k0_off66_inb t) (i1 := k0_off67_inb t) (i2 := k0_off68_inb t) (i3 := k0_off69_inb t)
        (k0_off66_eq t) (k0_off67_eq t) (k0_off68_eq t) (k0_off69_eq t)
        (fun x => pay_at1 _ (k0_off66_inb t) fi x) (fun x => pay_at1 _ (k0_off67_inb t) fi x)
        (fun x => pay_at1 _ (k0_off68_inb t) fi x) (fun x => pay_at1 _ (k0_off69_inb t) fi x) hfo
  · unfold linv1
    iexists _; isplitr
    rotate_left
    · isplitl [Hb1]
      · iexact Hb1
      iexists _; isplitr
      rotate_left
      · iexact Hb4
      · ipureintro; exact fun j hj => absurd hj (by omega)
    · ipureintro; exact in_ok1 m d L _ _ _ _ (fun j => rfl)
  iintro %_ HI
  unfold linv1
  icases HI with ⟨%fi16, %hfi16, Hb1, %fo16, %hfo16, Hb4⟩
  -- chunk 17: its loop over the 256 column groups
  sl_exec_parts
  sl_for (linv2 m d L 68#32 (k0_off1_inb L 17)) $$ [Hb2 Hb5]
  case region =>
    intro t _
    unfold linv2
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step2 (i0 := k0_off70_inb t) (i1 := k0_off71_inb t) (i2 := k0_off72_inb t) (i3 := k0_off73_inb t)
        (k0_off70_eq t) (k0_off71_eq t) (k0_off72_eq t) (k0_off73_eq t)
        (fun x => pay_at2 _ (k0_off70_inb t) fi x) (fun x => pay_at2 _ (k0_off71_inb t) fi x)
        (fun x => pay_at2 _ (k0_off72_inb t) fi x) (fun x => pay_at2 _ (k0_off73_inb t) fi x) hfo
  · unfold linv2
    iexists _; isplitr
    rotate_left
    · isplitl [Hb2]
      · iexact Hb2
      iexists _; isplitr
      rotate_left
      · iexact Hb5
      · ipureintro; exact fun j hj => absurd hj (by omega)
    · ipureintro; exact in_ok2 m d L _ _ _ _ (fun j => rfl)
  iintro %_ HI
  unfold linv2
  icases HI with ⟨%fi17, %hfi17, Hb2, %fo17, %hfo17, Hb5⟩
  -- chunk 18: its loop over the 256 column groups
  sl_exec_parts
  sl_for (linv0 m d L 72#32 (k0_off1_inb L 18)) $$ [Hb0 Hb3]
  case region =>
    intro t _
    unfold linv0
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step0 (i0 := k0_off74_inb t) (i1 := k0_off75_inb t) (i2 := k0_off76_inb t) (i3 := k0_off77_inb t)
        (k0_off74_eq t) (k0_off75_eq t) (k0_off76_eq t) (k0_off77_eq t)
        (fun x => pay_at0 _ (k0_off74_inb t) fi x) (fun x => pay_at0 _ (k0_off75_inb t) fi x)
        (fun x => pay_at0 _ (k0_off76_inb t) fi x) (fun x => pay_at0 _ (k0_off77_inb t) fi x) hfo
  · unfold linv0
    iexists _; isplitr
    rotate_left
    · isplitl [Hb0]
      · iexact Hb0
      iexists _; isplitr
      rotate_left
      · iexact Hb3
      · ipureintro; exact fun j hj => absurd hj (by omega)
    · ipureintro; exact in_ok0 m d L _ _ _ _ (fun j => rfl)
  iintro %_ HI
  unfold linv0
  icases HI with ⟨%fi18, %hfi18, Hb0, %fo18, %hfo18, Hb3⟩
  -- chunk 19: its loop over the 256 column groups
  sl_exec_parts
  sl_for (linv1 m d L 76#32 (k0_off1_inb L 19)) $$ [Hb1 Hb4]
  case region =>
    intro t _
    unfold linv1
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step1 (i0 := k0_off78_inb t) (i1 := k0_off79_inb t) (i2 := k0_off80_inb t) (i3 := k0_off81_inb t)
        (k0_off78_eq t) (k0_off79_eq t) (k0_off80_eq t) (k0_off81_eq t)
        (fun x => pay_at1 _ (k0_off78_inb t) fi x) (fun x => pay_at1 _ (k0_off79_inb t) fi x)
        (fun x => pay_at1 _ (k0_off80_inb t) fi x) (fun x => pay_at1 _ (k0_off81_inb t) fi x) hfo
  · unfold linv1
    iexists _; isplitr
    rotate_left
    · isplitl [Hb1]
      · iexact Hb1
      iexists _; isplitr
      rotate_left
      · iexact Hb4
      · ipureintro; exact fun j hj => absurd hj (by omega)
    · ipureintro; exact in_ok1 m d L _ _ _ _ (fun j => rfl)
  iintro %_ HI
  unfold linv1
  icases HI with ⟨%fi19, %hfi19, Hb1, %fo19, %hfo19, Hb4⟩
  -- chunk 20: its loop over the 256 column groups
  sl_exec_parts
  sl_for (linv2 m d L 80#32 (k0_off1_inb L 20)) $$ [Hb2 Hb5]
  case region =>
    intro t _
    unfold linv2
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step2 (i0 := k0_off82_inb t) (i1 := k0_off83_inb t) (i2 := k0_off84_inb t) (i3 := k0_off85_inb t)
        (k0_off82_eq t) (k0_off83_eq t) (k0_off84_eq t) (k0_off85_eq t)
        (fun x => pay_at2 _ (k0_off82_inb t) fi x) (fun x => pay_at2 _ (k0_off83_inb t) fi x)
        (fun x => pay_at2 _ (k0_off84_inb t) fi x) (fun x => pay_at2 _ (k0_off85_inb t) fi x) hfo
  · unfold linv2
    iexists _; isplitr
    rotate_left
    · isplitl [Hb2]
      · iexact Hb2
      iexists _; isplitr
      rotate_left
      · iexact Hb5
      · ipureintro; exact fun j hj => absurd hj (by omega)
    · ipureintro; exact in_ok2 m d L _ _ _ _ (fun j => rfl)
  iintro %_ HI
  unfold linv2
  icases HI with ⟨%fi20, %hfi20, Hb2, %fo20, %hfo20, Hb5⟩
  -- chunk 21: its loop over the 256 column groups
  sl_exec_parts
  sl_for (linv0 m d L 84#32 (k0_off1_inb L 21)) $$ [Hb0 Hb3]
  case region =>
    intro t _
    unfold linv0
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step0 (i0 := k0_off86_inb t) (i1 := k0_off87_inb t) (i2 := k0_off88_inb t) (i3 := k0_off89_inb t)
        (k0_off86_eq t) (k0_off87_eq t) (k0_off88_eq t) (k0_off89_eq t)
        (fun x => pay_at0 _ (k0_off86_inb t) fi x) (fun x => pay_at0 _ (k0_off87_inb t) fi x)
        (fun x => pay_at0 _ (k0_off88_inb t) fi x) (fun x => pay_at0 _ (k0_off89_inb t) fi x) hfo
  · unfold linv0
    iexists _; isplitr
    rotate_left
    · isplitl [Hb0]
      · iexact Hb0
      iexists _; isplitr
      rotate_left
      · iexact Hb3
      · ipureintro; exact fun j hj => absurd hj (by omega)
    · ipureintro; exact in_ok0 m d L _ _ _ _ (fun j => rfl)
  iintro %_ HI
  unfold linv0
  icases HI with ⟨%fi21, %hfi21, Hb0, %fo21, %hfo21, Hb3⟩
  -- chunk 22: its loop over the 256 column groups
  sl_exec_parts
  sl_for (linv1 m d L 88#32 (k0_off1_inb L 22)) $$ [Hb1 Hb4]
  case region =>
    intro t _
    unfold linv1
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step1 (i0 := k0_off90_inb t) (i1 := k0_off91_inb t) (i2 := k0_off92_inb t) (i3 := k0_off93_inb t)
        (k0_off90_eq t) (k0_off91_eq t) (k0_off92_eq t) (k0_off93_eq t)
        (fun x => pay_at1 _ (k0_off90_inb t) fi x) (fun x => pay_at1 _ (k0_off91_inb t) fi x)
        (fun x => pay_at1 _ (k0_off92_inb t) fi x) (fun x => pay_at1 _ (k0_off93_inb t) fi x) hfo
  · unfold linv1
    iexists _; isplitr
    rotate_left
    · isplitl [Hb1]
      · iexact Hb1
      iexists _; isplitr
      rotate_left
      · iexact Hb4
      · ipureintro; exact fun j hj => absurd hj (by omega)
    · ipureintro; exact in_ok1 m d L _ _ _ _ (fun j => rfl)
  iintro %_ HI
  unfold linv1
  icases HI with ⟨%fi22, %hfi22, Hb1, %fo22, %hfo22, Hb4⟩
  -- chunk 23: its loop over the 256 column groups
  sl_exec_parts
  sl_for (linv2 m d L 92#32 (k0_off1_inb L 23)) $$ [Hb2 Hb5]
  case region =>
    intro t _
    unfold linv2
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step2 (i0 := k0_off94_inb t) (i1 := k0_off95_inb t) (i2 := k0_off96_inb t) (i3 := k0_off97_inb t)
        (k0_off94_eq t) (k0_off95_eq t) (k0_off96_eq t) (k0_off97_eq t)
        (fun x => pay_at2 _ (k0_off94_inb t) fi x) (fun x => pay_at2 _ (k0_off95_inb t) fi x)
        (fun x => pay_at2 _ (k0_off96_inb t) fi x) (fun x => pay_at2 _ (k0_off97_inb t) fi x) hfo
  · unfold linv2
    iexists _; isplitr
    rotate_left
    · isplitl [Hb2]
      · iexact Hb2
      iexists _; isplitr
      rotate_left
      · iexact Hb5
      · ipureintro; exact fun j hj => absurd hj (by omega)
    · ipureintro; exact in_ok2 m d L _ _ _ _ (fun j => rfl)
  iintro %_ HI
  unfold linv2
  icases HI with ⟨%fi23, %hfi23, Hb2, %fo23, %hfo23, Hb5⟩
  -- chunk 24: its loop over the 256 column groups
  sl_exec_parts
  sl_for (linv0 m d L 96#32 (k0_off1_inb L 24)) $$ [Hb0 Hb3]
  case region =>
    intro t _
    unfold linv0
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step0 (i0 := k0_off98_inb t) (i1 := k0_off99_inb t) (i2 := k0_off100_inb t) (i3 := k0_off101_inb t)
        (k0_off98_eq t) (k0_off99_eq t) (k0_off100_eq t) (k0_off101_eq t)
        (fun x => pay_at0 _ (k0_off98_inb t) fi x) (fun x => pay_at0 _ (k0_off99_inb t) fi x)
        (fun x => pay_at0 _ (k0_off100_inb t) fi x) (fun x => pay_at0 _ (k0_off101_inb t) fi x) hfo
  · unfold linv0
    iexists _; isplitr
    rotate_left
    · isplitl [Hb0]
      · iexact Hb0
      iexists _; isplitr
      rotate_left
      · iexact Hb3
      · ipureintro; exact fun j hj => absurd hj (by omega)
    · ipureintro; exact in_ok0 m d L _ _ _ _ (fun j => rfl)
  iintro %_ HI
  unfold linv0
  icases HI with ⟨%fi24, %hfi24, Hb0, %fo24, %hfo24, Hb3⟩
  -- chunk 25: its loop over the 256 column groups
  sl_exec_parts
  sl_for (linv1 m d L 100#32 (k0_off1_inb L 25)) $$ [Hb1 Hb4]
  case region =>
    intro t _
    unfold linv1
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step1 (i0 := k0_off102_inb t) (i1 := k0_off103_inb t) (i2 := k0_off104_inb t) (i3 := k0_off105_inb t)
        (k0_off102_eq t) (k0_off103_eq t) (k0_off104_eq t) (k0_off105_eq t)
        (fun x => pay_at1 _ (k0_off102_inb t) fi x) (fun x => pay_at1 _ (k0_off103_inb t) fi x)
        (fun x => pay_at1 _ (k0_off104_inb t) fi x) (fun x => pay_at1 _ (k0_off105_inb t) fi x) hfo
  · unfold linv1
    iexists _; isplitr
    rotate_left
    · isplitl [Hb1]
      · iexact Hb1
      iexists _; isplitr
      rotate_left
      · iexact Hb4
      · ipureintro; exact fun j hj => absurd hj (by omega)
    · ipureintro; exact in_ok1 m d L _ _ _ _ (fun j => rfl)
  iintro %_ HI
  unfold linv1
  icases HI with ⟨%fi25, %hfi25, Hb1, %fo25, %hfo25, Hb4⟩
  -- chunk 26: its loop over the 256 column groups
  sl_exec_parts
  sl_for (linv2 m d L 104#32 (k0_off1_inb L 26)) $$ [Hb2 Hb5]
  case region =>
    intro t _
    unfold linv2
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step2 (i0 := k0_off106_inb t) (i1 := k0_off107_inb t) (i2 := k0_off108_inb t) (i3 := k0_off109_inb t)
        (k0_off106_eq t) (k0_off107_eq t) (k0_off108_eq t) (k0_off109_eq t)
        (fun x => pay_at2 _ (k0_off106_inb t) fi x) (fun x => pay_at2 _ (k0_off107_inb t) fi x)
        (fun x => pay_at2 _ (k0_off108_inb t) fi x) (fun x => pay_at2 _ (k0_off109_inb t) fi x) hfo
  · unfold linv2
    iexists _; isplitr
    rotate_left
    · isplitl [Hb2]
      · iexact Hb2
      iexists _; isplitr
      rotate_left
      · iexact Hb5
      · ipureintro; exact fun j hj => absurd hj (by omega)
    · ipureintro; exact in_ok2 m d L _ _ _ _ (fun j => rfl)
  iintro %_ HI
  unfold linv2
  icases HI with ⟨%fi26, %hfi26, Hb2, %fo26, %hfo26, Hb5⟩
  -- chunk 27: its loop over the 256 column groups
  sl_exec_parts
  sl_for (linv0 m d L 108#32 (k0_off1_inb L 27)) $$ [Hb0 Hb3]
  case region =>
    intro t _
    unfold linv0
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step0 (i0 := k0_off110_inb t) (i1 := k0_off111_inb t) (i2 := k0_off112_inb t) (i3 := k0_off113_inb t)
        (k0_off110_eq t) (k0_off111_eq t) (k0_off112_eq t) (k0_off113_eq t)
        (fun x => pay_at0 _ (k0_off110_inb t) fi x) (fun x => pay_at0 _ (k0_off111_inb t) fi x)
        (fun x => pay_at0 _ (k0_off112_inb t) fi x) (fun x => pay_at0 _ (k0_off113_inb t) fi x) hfo
  · unfold linv0
    iexists _; isplitr
    rotate_left
    · isplitl [Hb0]
      · iexact Hb0
      iexists _; isplitr
      rotate_left
      · iexact Hb3
      · ipureintro; exact fun j hj => absurd hj (by omega)
    · ipureintro; exact in_ok0 m d L _ _ _ _ (fun j => rfl)
  iintro %_ HI
  unfold linv0
  icases HI with ⟨%fi27, %hfi27, Hb0, %fo27, %hfo27, Hb3⟩
  -- chunk 28: its loop over the 256 column groups
  sl_exec_parts
  sl_for (linv1 m d L 112#32 (k0_off1_inb L 28)) $$ [Hb1 Hb4]
  case region =>
    intro t _
    unfold linv1
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step1 (i0 := k0_off114_inb t) (i1 := k0_off115_inb t) (i2 := k0_off116_inb t) (i3 := k0_off117_inb t)
        (k0_off114_eq t) (k0_off115_eq t) (k0_off116_eq t) (k0_off117_eq t)
        (fun x => pay_at1 _ (k0_off114_inb t) fi x) (fun x => pay_at1 _ (k0_off115_inb t) fi x)
        (fun x => pay_at1 _ (k0_off116_inb t) fi x) (fun x => pay_at1 _ (k0_off117_inb t) fi x) hfo
  · unfold linv1
    iexists _; isplitr
    rotate_left
    · isplitl [Hb1]
      · iexact Hb1
      iexists _; isplitr
      rotate_left
      · iexact Hb4
      · ipureintro; exact fun j hj => absurd hj (by omega)
    · ipureintro; exact in_ok1 m d L _ _ _ _ (fun j => rfl)
  iintro %_ HI
  unfold linv1
  icases HI with ⟨%fi28, %hfi28, Hb1, %fo28, %hfo28, Hb4⟩
  -- chunk 29: its loop over the 256 column groups
  sl_exec_parts
  sl_for (linv2 m d L 116#32 (k0_off1_inb L 29)) $$ [Hb2 Hb5]
  case region =>
    intro t _
    unfold linv2
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step2 (i0 := k0_off118_inb t) (i1 := k0_off119_inb t) (i2 := k0_off120_inb t) (i3 := k0_off121_inb t)
        (k0_off118_eq t) (k0_off119_eq t) (k0_off120_eq t) (k0_off121_eq t)
        (fun x => pay_at2 _ (k0_off118_inb t) fi x) (fun x => pay_at2 _ (k0_off119_inb t) fi x)
        (fun x => pay_at2 _ (k0_off120_inb t) fi x) (fun x => pay_at2 _ (k0_off121_inb t) fi x) hfo
  · unfold linv2
    iexists _; isplitr
    rotate_left
    · isplitl [Hb2]
      · iexact Hb2
      iexists _; isplitr
      rotate_left
      · iexact Hb5
      · ipureintro; exact fun j hj => absurd hj (by omega)
    · ipureintro; exact in_ok2 m d L _ _ _ _ (fun j => rfl)
  iintro %_ HI
  unfold linv2
  icases HI with ⟨%fi29, %hfi29, Hb2, %fo29, %hfo29, Hb5⟩
  -- chunk 30: its loop over the 256 column groups
  sl_exec_parts
  sl_for (linv0 m d L 120#32 (k0_off1_inb L 30)) $$ [Hb0 Hb3]
  case region =>
    intro t _
    unfold linv0
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step0 (i0 := k0_off122_inb t) (i1 := k0_off123_inb t) (i2 := k0_off124_inb t) (i3 := k0_off125_inb t)
        (k0_off122_eq t) (k0_off123_eq t) (k0_off124_eq t) (k0_off125_eq t)
        (fun x => pay_at0 _ (k0_off122_inb t) fi x) (fun x => pay_at0 _ (k0_off123_inb t) fi x)
        (fun x => pay_at0 _ (k0_off124_inb t) fi x) (fun x => pay_at0 _ (k0_off125_inb t) fi x) hfo
  · unfold linv0
    iexists _; isplitr
    rotate_left
    · isplitl [Hb0]
      · iexact Hb0
      iexists _; isplitr
      rotate_left
      · iexact Hb3
      · ipureintro; exact fun j hj => absurd hj (by omega)
    · ipureintro; exact in_ok0 m d L _ _ _ _ (fun j => rfl)
  iintro %_ HI
  unfold linv0
  icases HI with ⟨%fi30, %hfi30, Hb0, %fo30, %hfo30, Hb3⟩
  -- chunk 31: its loop over the 256 column groups
  sl_exec_parts
  sl_for (linv1 m d L 124#32 (k0_off1_inb L 31)) $$ [Hb1 Hb4]
  case region =>
    intro t _
    unfold linv1
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step1 (i0 := k0_off126_inb t) (i1 := k0_off127_inb t) (i2 := k0_off128_inb t) (i3 := k0_off129_inb t)
        (k0_off126_eq t) (k0_off127_eq t) (k0_off128_eq t) (k0_off129_eq t)
        (fun x => pay_at1 _ (k0_off126_inb t) fi x) (fun x => pay_at1 _ (k0_off127_inb t) fi x)
        (fun x => pay_at1 _ (k0_off128_inb t) fi x) (fun x => pay_at1 _ (k0_off129_inb t) fi x) hfo
  · unfold linv1
    iexists _; isplitr
    rotate_left
    · isplitl [Hb1]
      · iexact Hb1
      iexists _; isplitr
      rotate_left
      · iexact Hb4
      · ipureintro; exact fun j hj => absurd hj (by omega)
    · ipureintro; exact in_ok1 m d L _ _ _ _ (fun j => rfl)
  iintro %_ HI
  unfold linv1
  icases HI with ⟨%fi31, %hfi31, Hb1, %fo31, %hfo31, Hb4⟩
  -- the last waits, and what the task hands back
  sl_exec_parts
  sl_step
  isplitl [Ha0 Ha1 Ha2 Ha3 Ha4 Ha5 Ha6 Ha7 Ha8 Ha9 Ha10 Ha11 Ha12 Ha13 Ha14 Ha15 Ha16 Ha17 Ha18 Ha19 Ha20 Ha21 Ha22 Ha23 Ha24 Ha25 Ha26 Ha27 Ha28 Ha29 Ha30 Ha31 Ho0 Ho1 Ho2 Ho3 Ho4 Ho5 Ho6 Ho7 Ho8 Ho9 Ho10 Ho11 Ho12 Ho13 Ho14 Ho15 Ho16 Ho17 Ho18 Ho19 Ho20 Ho21 Ho22 Ho23 Ho24 Ho25 Ho26 Ho27 Ho28 Ho29 Ho30 Ho31]
  · isplitl [Ha0 Ha1 Ha2 Ha3 Ha4 Ha5 Ha6 Ha7 Ha8 Ha9 Ha10 Ha11 Ha12 Ha13 Ha14 Ha15 Ha16 Ha17 Ha18 Ha19 Ha20 Ha21 Ha22 Ha23 Ha24 Ha25 Ha26 Ha27 Ha28 Ha29 Ha30 Ha31]
    · skip
      isplitl [Ha0]
      · iexact Ha0
      isplitl [Ha1]
      · iexact Ha1
      isplitl [Ha2]
      · iexact Ha2
      isplitl [Ha3]
      · iexact Ha3
      isplitl [Ha4]
      · iexact Ha4
      isplitl [Ha5]
      · iexact Ha5
      isplitl [Ha6]
      · iexact Ha6
      isplitl [Ha7]
      · iexact Ha7
      isplitl [Ha8]
      · iexact Ha8
      isplitl [Ha9]
      · iexact Ha9
      isplitl [Ha10]
      · iexact Ha10
      isplitl [Ha11]
      · iexact Ha11
      isplitl [Ha12]
      · iexact Ha12
      isplitl [Ha13]
      · iexact Ha13
      isplitl [Ha14]
      · iexact Ha14
      isplitl [Ha15]
      · iexact Ha15
      isplitl [Ha16]
      · iexact Ha16
      isplitl [Ha17]
      · iexact Ha17
      isplitl [Ha18]
      · iexact Ha18
      isplitl [Ha19]
      · iexact Ha19
      isplitl [Ha20]
      · iexact Ha20
      isplitl [Ha21]
      · iexact Ha21
      isplitl [Ha22]
      · iexact Ha22
      isplitl [Ha23]
      · iexact Ha23
      isplitl [Ha24]
      · iexact Ha24
      isplitl [Ha25]
      · iexact Ha25
      isplitl [Ha26]
      · iexact Ha26
      isplitl [Ha27]
      · iexact Ha27
      isplitl [Ha28]
      · iexact Ha28
      isplitl [Ha29]
      · iexact Ha29
      isplitl [Ha30]
      · iexact Ha30
      iexact Ha31
    · skip
      isplitl [Ho0]
      · iapply (Entails.of_eq (out_piece m d L _ _ _ _ fi0 fo0 _ (by decide) (fun j => by first | rfl | exact read_s3 _ j) hfi0 hfo0)); iexact Ho0
      isplitl [Ho1]
      · iapply (Entails.of_eq (out_piece m d L _ _ _ _ fi1 fo1 _ (by decide) (fun j => by first | rfl | exact read_s4 _ j) hfi1 hfo1)); iexact Ho1
      isplitl [Ho2]
      · iapply (Entails.of_eq (out_piece m d L _ _ _ _ fi2 fo2 _ (by decide) (fun j => by first | rfl | exact read_s5 _ j) hfi2 hfo2)); iexact Ho2
      isplitl [Ho3]
      · iapply (Entails.of_eq (out_piece m d L _ _ _ _ fi3 fo3 _ (by decide) (fun j => by first | rfl | exact read_s3 _ j) hfi3 hfo3)); iexact Ho3
      isplitl [Ho4]
      · iapply (Entails.of_eq (out_piece m d L _ _ _ _ fi4 fo4 _ (by decide) (fun j => by first | rfl | exact read_s4 _ j) hfi4 hfo4)); iexact Ho4
      isplitl [Ho5]
      · iapply (Entails.of_eq (out_piece m d L _ _ _ _ fi5 fo5 _ (by decide) (fun j => by first | rfl | exact read_s5 _ j) hfi5 hfo5)); iexact Ho5
      isplitl [Ho6]
      · iapply (Entails.of_eq (out_piece m d L _ _ _ _ fi6 fo6 _ (by decide) (fun j => by first | rfl | exact read_s3 _ j) hfi6 hfo6)); iexact Ho6
      isplitl [Ho7]
      · iapply (Entails.of_eq (out_piece m d L _ _ _ _ fi7 fo7 _ (by decide) (fun j => by first | rfl | exact read_s4 _ j) hfi7 hfo7)); iexact Ho7
      isplitl [Ho8]
      · iapply (Entails.of_eq (out_piece m d L _ _ _ _ fi8 fo8 _ (by decide) (fun j => by first | rfl | exact read_s5 _ j) hfi8 hfo8)); iexact Ho8
      isplitl [Ho9]
      · iapply (Entails.of_eq (out_piece m d L _ _ _ _ fi9 fo9 _ (by decide) (fun j => by first | rfl | exact read_s3 _ j) hfi9 hfo9)); iexact Ho9
      isplitl [Ho10]
      · iapply (Entails.of_eq (out_piece m d L _ _ _ _ fi10 fo10 _ (by decide) (fun j => by first | rfl | exact read_s4 _ j) hfi10 hfo10)); iexact Ho10
      isplitl [Ho11]
      · iapply (Entails.of_eq (out_piece m d L _ _ _ _ fi11 fo11 _ (by decide) (fun j => by first | rfl | exact read_s5 _ j) hfi11 hfo11)); iexact Ho11
      isplitl [Ho12]
      · iapply (Entails.of_eq (out_piece m d L _ _ _ _ fi12 fo12 _ (by decide) (fun j => by first | rfl | exact read_s3 _ j) hfi12 hfo12)); iexact Ho12
      isplitl [Ho13]
      · iapply (Entails.of_eq (out_piece m d L _ _ _ _ fi13 fo13 _ (by decide) (fun j => by first | rfl | exact read_s4 _ j) hfi13 hfo13)); iexact Ho13
      isplitl [Ho14]
      · iapply (Entails.of_eq (out_piece m d L _ _ _ _ fi14 fo14 _ (by decide) (fun j => by first | rfl | exact read_s5 _ j) hfi14 hfo14)); iexact Ho14
      isplitl [Ho15]
      · iapply (Entails.of_eq (out_piece m d L _ _ _ _ fi15 fo15 _ (by decide) (fun j => by first | rfl | exact read_s3 _ j) hfi15 hfo15)); iexact Ho15
      isplitl [Ho16]
      · iapply (Entails.of_eq (out_piece m d L _ _ _ _ fi16 fo16 _ (by decide) (fun j => by first | rfl | exact read_s4 _ j) hfi16 hfo16)); iexact Ho16
      isplitl [Ho17]
      · iapply (Entails.of_eq (out_piece m d L _ _ _ _ fi17 fo17 _ (by decide) (fun j => by first | rfl | exact read_s5 _ j) hfi17 hfo17)); iexact Ho17
      isplitl [Ho18]
      · iapply (Entails.of_eq (out_piece m d L _ _ _ _ fi18 fo18 _ (by decide) (fun j => by first | rfl | exact read_s3 _ j) hfi18 hfo18)); iexact Ho18
      isplitl [Ho19]
      · iapply (Entails.of_eq (out_piece m d L _ _ _ _ fi19 fo19 _ (by decide) (fun j => by first | rfl | exact read_s4 _ j) hfi19 hfo19)); iexact Ho19
      isplitl [Ho20]
      · iapply (Entails.of_eq (out_piece m d L _ _ _ _ fi20 fo20 _ (by decide) (fun j => by first | rfl | exact read_s5 _ j) hfi20 hfo20)); iexact Ho20
      isplitl [Ho21]
      · iapply (Entails.of_eq (out_piece m d L _ _ _ _ fi21 fo21 _ (by decide) (fun j => by first | rfl | exact read_s3 _ j) hfi21 hfo21)); iexact Ho21
      isplitl [Ho22]
      · iapply (Entails.of_eq (out_piece m d L _ _ _ _ fi22 fo22 _ (by decide) (fun j => by first | rfl | exact read_s4 _ j) hfi22 hfo22)); iexact Ho22
      isplitl [Ho23]
      · iapply (Entails.of_eq (out_piece m d L _ _ _ _ fi23 fo23 _ (by decide) (fun j => by first | rfl | exact read_s5 _ j) hfi23 hfo23)); iexact Ho23
      isplitl [Ho24]
      · iapply (Entails.of_eq (out_piece m d L _ _ _ _ fi24 fo24 _ (by decide) (fun j => by first | rfl | exact read_s3 _ j) hfi24 hfo24)); iexact Ho24
      isplitl [Ho25]
      · iapply (Entails.of_eq (out_piece m d L _ _ _ _ fi25 fo25 _ (by decide) (fun j => by first | rfl | exact read_s4 _ j) hfi25 hfo25)); iexact Ho25
      isplitl [Ho26]
      · iapply (Entails.of_eq (out_piece m d L _ _ _ _ fi26 fo26 _ (by decide) (fun j => by first | rfl | exact read_s5 _ j) hfi26 hfo26)); iexact Ho26
      isplitl [Ho27]
      · iapply (Entails.of_eq (out_piece m d L _ _ _ _ fi27 fo27 _ (by decide) (fun j => by first | rfl | exact read_s3 _ j) hfi27 hfo27)); iexact Ho27
      isplitl [Ho28]
      · iapply (Entails.of_eq (out_piece m d L _ _ _ _ fi28 fo28 _ (by decide) (fun j => by first | rfl | exact read_s4 _ j) hfi28 hfo28)); iexact Ho28
      isplitl [Ho29]
      · iapply (Entails.of_eq (out_piece m d L _ _ _ _ fi29 fo29 _ (by decide) (fun j => by first | rfl | exact read_s5 _ j) hfi29 hfo29)); iexact Ho29
      isplitl [Ho30]
      · iapply (Entails.of_eq (out_piece m d L _ _ _ _ fi30 fo30 _ (by decide) (fun j => by first | rfl | exact read_s3 _ j) hfi30 hfo30)); iexact Ho30
      iapply (Entails.of_eq (out_piece m d L _ _ _ _ fi31 fo31 _ (by decide) (fun j => by first | rfl | exact read_s4 _ j) hfi31 hfo31)); iexact Ho31
  isplitl [Hb0 Hb1 Hb2 Hb3 Hb4 Hb5 Hbufs]
  · skip
    isplitl [Hb0]
    · iexists _; iexact Hb0
    isplitl [Hb1]
    · iexists _; iexact Hb1
    isplitl [Hb2]
    · iexists _; iexact Hb2
    isplitl [Hb3]
    · iexists _; iexact Hb3
    isplitl [Hb4]
    · iexists _; iexact Hb4
    isplitl [Hb5]
    · iexists _; iexact Hb5
    iexact Hbufs
  isplitl [Hc6 Hc7 Hc8 Hc9 Hc10 Hc11 Hsems]
  · skip
    isplitl [Hc6]
    · iexact Hc6
    isplitl [Hc7]
    · iexact Hc7
    isplitl [Hc8]
    · iexact Hc8
    isplitl [Hc9]
    · iexact Hc9
    isplitl [Hc10]
    · iexact Hc10
    isplitl [Hc11]
    · iexact Hc11
    iexact Hsems
  iexists _; isplitr
  rotate_left
  · iexact HO
  · ipureintro
    repeat' (first | exact okw_base W | refine okw_insert _ ?_)

end Tile

end Cert.Proof.KI

end
-- ==== Proof.LaunchI.lean ====
/-
  The launch: the TensorCore hands each SparseCore its subcores' rows of the argument and of the result, each subcore its 32
  chunks of four rows; the rows come back with the result's at the argument's entries kept or zeroed, and joined they are the
  whole result array. The rows of different subcores, and the chunks of one subcore, are disjoint and cover the array: chunk
  64 s + 32 c + k of the 1024 chunks is step k of subcore (c, s), and (c, s, k) ↦ 64 s + 32 c + k is a bijection.
-/
import proofs.«207063_g69217692942512_cont_9to1_m_457_27_alg».proof.Proof.TileI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "aW" => (Memref.whole Cert.KernelIdeal.main_arg0_scv : Memref Cert.KernelIdeal.sig Kind.scVector Space.hbm Cert.KernelIdeal.S4096x4096 EltTy.f32)
local notation "oW" => (Memref.whole Cert.KernelIdeal.main_v0_scv : Memref Cert.KernelIdeal.sig Kind.scVector Space.hbm Cert.KernelIdeal.S4096x4096 EltTy.f32)
local notation "s0W" => (Memref.whole Cert.KernelIdeal.cc0_scratch0 : Memref Cert.KernelIdeal.sig Kind.scVector Space.vmem Cert.KernelIdeal.S4x4096 EltTy.f32)
local notation "s1W" => (Memref.whole Cert.KernelIdeal.cc0_scratch1 : Memref Cert.KernelIdeal.sig Kind.scVector Space.vmem Cert.KernelIdeal.S4x4096 EltTy.f32)
local notation "s2W" => (Memref.whole Cert.KernelIdeal.cc0_scratch2 : Memref Cert.KernelIdeal.sig Kind.scVector Space.vmem Cert.KernelIdeal.S4x4096 EltTy.f32)
local notation "s3W" => (Memref.whole Cert.KernelIdeal.cc0_scratch3 : Memref Cert.KernelIdeal.sig Kind.scVector Space.vmem Cert.KernelIdeal.S4x4096 EltTy.f32)
local notation "s4W" => (Memref.whole Cert.KernelIdeal.cc0_scratch4 : Memref Cert.KernelIdeal.sig Kind.scVector Space.vmem Cert.KernelIdeal.S4x4096 EltTy.f32)
local notation "s5W" => (Memref.whole Cert.KernelIdeal.cc0_scratch5 : Memref Cert.KernelIdeal.sig Kind.scVector Space.vmem Cert.KernelIdeal.S4x4096 EltTy.f32)

variable [FloatOps F]

/-! ## A subcore's coordinates -/

def coordsV (c : Fin (grid0.bound 0)) (s : Fin (grid0.bound 1)) : grid0.Coords :=
  fun | 0 => c | 1 => s | ⟨_ + 2, h⟩ => absurd h (Nat.not_lt.2 (Nat.le_add_left _ _))

omit [FloatOps F] in
theorem bound_zero : grid0.bound 0 = 2 := rfl
omit [FloatOps F] in
theorem bound_one : grid0.bound 1 = 16 := rfl

/-- The coordinates of subcore `s` of SparseCore `c`. -/
def LL (c : Fin 2) (s : Fin 16) : grid0.Coords := coordsV (Fin.cast bound_zero.symm c) (Fin.cast bound_one.symm s)

/-! ## The chunks of an array under the task's memrefs are the chunks of the array -/

omit [FloatOps F] in
theorem chSet_eq (j : Fin 1024) : chSet j = (chRect j).set := by
  show ((View.whole (main_arg0_scv : Ref sig .scVector)).slice (chRect j)).set = _
  rw [View.set_slice]; exact Finset.map_refl

section Pieces
variable (d : Dev nD) (L : grid0.Coords)

omit [FloatOps F] in
theorem set_aCh (k : Fin 32) : (aCh L (BitVec.ofNat 32 (4 * k.val)) (k0_off1_inb L k)).view.set = chSet (chIx L k) := by
  show ((aW).view.slice (Rect.unit (s := S4096x4096) (k0_off1 L (BitVec.ofNat 32 (4 * k.val))) S4x4096.size (k0_off1_inb L k))).set
    = ((aW).view.slice (chRect (chIx L k))).set
  rw [unit_eq_chRect]
omit [FloatOps F] in
theorem set_oCh (k : Fin 32) : (oCh L (BitVec.ofNat 32 (4 * k.val)) (k0_off1_inb L k)).view.set = chSet (chIx L k) := by
  show ((oW).view.slice (Rect.unit (s := S4096x4096) (k0_off1 L (BitVec.ofNat 32 (4 * k.val))) S4x4096.size (k0_off1_inb L k))).set
    = ((aW).view.slice (chRect (chIx L k))).set
  rw [unit_eq_chRect]; rfl

omit [FloatOps F] in
theorem pts_aCh (k : Fin 32) (f : Buf (Elt F) (aLoc d)) :
    ((aCh L (BitVec.ofNat 32 (4 * k.val)) (k0_off1_inb L k)).view.loc (V d (cV L) (jV L)) ↦[(aCh L (BitVec.ofNat 32 (4 * k.val)) (k0_off1_inb L k)).view.set]{fullShare} f : sProp 𝕄)
      = aLoc d ↦[chSet (chIx L k)]{fullShare} f := by
  rw [set_aCh]
omit [FloatOps F] in
theorem pts_oCh (k : Fin 32) (f : Buf (Elt F) (oLoc d)) :
    ((oCh L (BitVec.ofNat 32 (4 * k.val)) (k0_off1_inb L k)).view.loc (V d (cV L) (jV L)) ↦[(oCh L (BitVec.ofNat 32 (4 * k.val)) (k0_off1_inb L k)).view.set]{fullShare} f : sProp 𝕄)
      = oLoc d ↦[chSet (chIx L k)]{fullShare} f := by
  rw [set_oCh]

omit [FloatOps F] in
theorem bigSep_fin32 (Φ : Fin 32 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) := by
  rw [show (Finset.univ : Finset (Fin 32)) = {0, 1, 2, 3, 4, 5, 6, 7, 8, 9, 10, 11, 12, 13, 14, 15, 16, 17, 18, 19, 20, 21, 22, 23, 24, 25, 26, 27, 28, 29, 30, 31} from by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide),
    bigSep_singleton]

omit [FloatOps F] in
theorem aPieces_eq (f : Buf (Elt F) (aLoc d)) :
    (aPieces d L f : sProp 𝕄) = bigSep Finset.univ fun k : Fin 32 => aLoc d ↦[chSet (chIx L k)]{fullShare} f := by
  rw [bigSep_fin32]; unfold aPieces
  exact congrArg₂ _ (pts_aCh d L 0 f) (congrArg₂ _ (pts_aCh d L 1 f) (congrArg₂ _ (pts_aCh d L 2 f) (congrArg₂ _ (pts_aCh d L 3 f) (congrArg₂ _ (pts_aCh d L 4 f) (congrArg₂ _ (pts_aCh d L 5 f) (congrArg₂ _ (pts_aCh d L 6 f) (congrArg₂ _ (pts_aCh d L 7 f) (congrArg₂ _ (pts_aCh d L 8 f) (congrArg₂ _ (pts_aCh d L 9 f) (congrArg₂ _ (pts_aCh d L 10 f) (congrArg₂ _ (pts_aCh d L 11 f) (congrArg₂ _ (pts_aCh d L 12 f) (congrArg₂ _ (pts_aCh d L 13 f) (congrArg₂ _ (pts_aCh d L 14 f) (congrArg₂ _ (pts_aCh d L 15 f) (congrArg₂ _ (pts_aCh d L 16 f) (congrArg₂ _ (pts_aCh d L 17 f) (congrArg₂ _ (pts_aCh d L 18 f) (congrArg₂ _ (pts_aCh d L 19 f) (congrArg₂ _ (pts_aCh d L 20 f) (congrArg₂ _ (pts_aCh d L 21 f) (congrArg₂ _ (pts_aCh d L 22 f) (congrArg₂ _ (pts_aCh d L 23 f) (congrArg₂ _ (pts_aCh d L 24 f) (congrArg₂ _ (pts_aCh d L 25 f) (congrArg₂ _ (pts_aCh d L 26 f) (congrArg₂ _ (pts_aCh d L 27 f) (congrArg₂ _ (pts_aCh d L 28 f) (congrArg₂ _ (pts_aCh d L 29 f) (congrArg₂ _ (pts_aCh d L 30 f) (pts_aCh d L 31 f)))))))))))))))))))))))))))))))
omit [FloatOps F] in
theorem oPieces_eq (f : Buf (Elt F) (oLoc d)) :
    (oPieces d L f : sProp 𝕄) = bigSep Finset.univ fun k : Fin 32 => oLoc d ↦[chSet (chIx L k)]{fullShare} f := by
  rw [bigSep_fin32]; unfold oPieces
  exact congrArg₂ _ (pts_oCh d L 0 f) (congrArg₂ _ (pts_oCh d L 1 f) (congrArg₂ _ (pts_oCh d L 2 f) (congrArg₂ _ (pts_oCh d L 3 f) (congrArg₂ _ (pts_oCh d L 4 f) (congrArg₂ _ (pts_oCh d L 5 f) (congrArg₂ _ (pts_oCh d L 6 f) (congrArg₂ _ (pts_oCh d L 7 f) (congrArg₂ _ (pts_oCh d L 8 f) (congrArg₂ _ (pts_oCh d L 9 f) (congrArg₂ _ (pts_oCh d L 10 f) (congrArg₂ _ (pts_oCh d L 11 f) (congrArg₂ _ (pts_oCh d L 12 f) (congrArg₂ _ (pts_oCh d L 13 f) (congrArg₂ _ (pts_oCh d L 14 f) (congrArg₂ _ (pts_oCh d L 15 f) (congrArg₂ _ (pts_oCh d L 16 f) (congrArg₂ _ (pts_oCh d L 17 f) (congrArg₂ _ (pts_oCh d L 18 f) (congrArg₂ _ (pts_oCh d L 19 f) (congrArg₂ _ (pts_oCh d L 20 f) (congrArg₂ _ (pts_oCh d L 21 f) (congrArg₂ _ (pts_oCh d L 22 f) (congrArg₂ _ (pts_oCh d L 23 f) (congrArg₂ _ (pts_oCh d L 24 f) (congrArg₂ _ (pts_oCh d L 25 f) (congrArg₂ _ (pts_oCh d L 26 f) (congrArg₂ _ (pts_oCh d L 27 f) (congrArg₂ _ (pts_oCh d L 28 f) (congrArg₂ _ (pts_oCh d L 29 f) (congrArg₂ _ (pts_oCh d L 30 f) (pts_oCh d L 31 f)))))))))))))))))))))))))))))))

instance aPieces_storable (f : Buf (Elt F) (aLoc d)) : BI.Storable (upEmb : UEmb _ 𝕄) (aPieces d L f) := by
  rw [aPieces_eq]; infer_instance
instance oPieces_storable (f : Buf (Elt F) (oLoc d)) : BI.Storable (upEmb : UEmb _ 𝕄) (oPieces d L f) := by
  rw [oPieces_eq]; infer_instance

end Pieces

/-! ## The 1024 chunks dealt to cores, subcores and steps -/

/-- Step `k` of subcore `s` of core `c` is chunk 64 s + 32 c + k. -/
def tix (t : Fin 2 × Fin 16 × Fin 32) : Fin 1024 := chIx (LL t.1 t.2.1) t.2.2

omit [FloatOps F] in
theorem tix_val (t : Fin 2 × Fin 16 × Fin 32) : (tix t).val = 64 * t.2.1.val + 32 * t.1.val + t.2.2.val := rfl

omit [FloatOps F] in
theorem tix_inj : Function.Injective tix := by
  intro t t' e
  have h := congrArg Fin.val e
  rw [tix_val, tix_val] at h
  obtain ⟨c, s, k⟩ := t; obtain ⟨c', s', k'⟩ := t'
  have := c.isLt; have := c'.isLt; have := s.isLt; have := s'.isLt; have := k.isLt; have := k'.isLt
  simp only at h
  have h1 : c.val = c'.val := by omega
  have h2 : s.val = s'.val := by omega
  have h3 : k.val = k'.val := by omega
  exact Prod.ext (Fin.ext h1) (Prod.ext (Fin.ext h2) (Fin.ext h3))

omit [FloatOps F] in
theorem tsets_disjoint : ∀ t ∈ (Finset.univ : Finset (Fin 2 × Fin 16 × Fin 32)), ∀ t' ∈ (Finset.univ : Finset (Fin 2 × Fin 16 × Fin 32)),
    t ≠ t' → Disjoint (chSet (tix t)) (chSet (tix t')) :=
  fun t _ t' _ h => by rw [chSet_eq, chSet_eq]; exact Rect.part_disjoint h1024 fun e => h (tix_inj e)

omit [FloatOps F] in
theorem tsets_cover : (Finset.univ : Finset (Fin 2 × Fin 16 × Fin 32)).biUnion (fun t => chSet (tix t)) = Finset.univ := by
  ext x
  simp only [Finset.mem_biUnion, Finset.mem_univ, true_and, iff_true]
  obtain ⟨j, hj⟩ := Rect.exists_mem_part h1024 x
  have hjlt := j.isLt
  refine ⟨(⟨(j.val / 32) % 2, by omega⟩, ⟨j.val / 64, by omega⟩, ⟨j.val % 32, by omega⟩), ?_⟩
  rw [chSet_eq]
  have e : tix (⟨(j.val / 32) % 2, by omega⟩, ⟨j.val / 64, by omega⟩, ⟨j.val % 32, by omega⟩) = j := by
    apply Fin.ext; rw [tix_val]; simp only; omega
  rw [e]; exact hj

omit [FloatOps F] in
theorem aWhole (d : Dev nD) (f : Buf (Elt F) (aLoc d)) :
    (aLoc d ↦{fullShare} f : sProp 𝕄)
      = bigSep Finset.univ fun c : Fin 2 => bigSep Finset.univ fun s : Fin 16 => bigSep Finset.univ fun k : Fin 32 => aLoc d ↦[chSet (chIx (LL c s) k)]{fullShare} f := by
  have h : (aLoc d ↦{fullShare} f : sProp 𝕄) = bigSep Finset.univ fun t : Fin 2 × Fin 16 × Fin 32 => aLoc d ↦[chSet (tix t)]{fullShare} f := by
    rw [← pointsTo_biUnion Finset.univ (ℓ := aLoc d) (fun t => chSet (tix t)) tsets_disjoint, tsets_cover]; try rfl
  rw [h, bigSep_univ_prod]
  refine bigSep_congr fun c _ => ?_
  rw [bigSep_univ_prod]
  rfl
omit [FloatOps F] in
theorem oWhole (d : Dev nD) (f : Buf (Elt F) (oLoc d)) :
    (oLoc d ↦{fullShare} f : sProp 𝕄)
      = bigSep Finset.univ fun c : Fin 2 => bigSep Finset.univ fun s : Fin 16 => bigSep Finset.univ fun k : Fin 32 => oLoc d ↦[chSet (chIx (LL c s) k)]{fullShare} f := by
  have h : (oLoc d ↦{fullShare} f : sProp 𝕄) = bigSep Finset.univ fun t : Fin 2 × Fin 16 × Fin 32 => oLoc d ↦[chSet (tix t)]{fullShare} f := by
    rw [← pointsTo_biUnion Finset.univ (ℓ := oLoc d) (fun t => chSet (tix t)) tsets_disjoint, tsets_cover]; try rfl
  rw [h, bigSep_univ_prod]
  refine bigSep_congr fun c _ => ?_
  rw [bigSep_univ_prod]
  rfl

/-! ## What the handshakes carry -/

/-- A subcore's rows of the two arrays: the argument's at the launch contents, the result's at `g`. -/
def rowsOf (d : Dev nD) (c : Fin 2) (s : Fin 16) (g : Buf (Elt F) (oLoc d)) : sProp 𝕄 :=
  iprop(aPieces d (LL c s) (m (aLoc d)) ∗ oPieces d (LL c s) g)

theorem rowsOf_eq (d : Dev nD) (c : Fin 2) (s : Fin 16) (g : Buf (Elt F) (oLoc d)) :
    rowsOf m d c s g = iprop(aPieces d (LL c s) (m (aLoc d)) ∗ oPieces d (LL c s) g) := rfl

instance rowsOf_storable (d : Dev nD) (c : Fin 2) (s : Fin 16) (g : Buf (Elt F) (oLoc d)) : BI.Storable (upEmb : UEmb _ 𝕄) (rowsOf m d c s g) := by
  rw [rowsOf_eq]; infer_instance

/-- A SparseCore's share: the rows of its sixteen subcores. -/
def coreRows (d : Dev nD) (c : Fin 2) (g : Buf (Elt F) (oLoc d)) : sProp 𝕄 :=
  bigSep Finset.univ fun s : Fin 16 => rowsOf m d c s g

theorem coreRows_eq (d : Dev nD) (c : Fin 2) (g : Buf (Elt F) (oLoc d)) :
    coreRows m d c g = bigSep Finset.univ fun s : Fin 16 => rowsOf m d c s g := rfl

instance coreRows_storable (d : Dev nD) (c : Fin 2) (g : Buf (Elt F) (oLoc d)) : BI.Storable (upEmb : UEmb _ 𝕄) (coreRows m d c g) := by
  rw [coreRows_eq]; infer_instance

omit [FloatOps F] in
theorem core_lt (q : Fin 1) (c : Fin ((K (F := F)).nCore q)) : c.val < 2 := match q, c with | 0, c => c.isLt
omit [FloatOps F] in
theorem sub_lt (q : Fin 1) (i : Fin ((K (F := F)).nSub q)) : i.val < 16 := match q, i with | 0, i => i.isLt
/-- A call's core and task numbers, as a core of the two and a subcore of the sixteen. -/
abbrev cF (q : Fin 1) (c : Fin ((K (F := F)).nCore q)) : Fin 2 := ⟨c.val, core_lt q c⟩
abbrev sF (q : Fin 1) (i : Fin ((K (F := F)).nSub q)) : Fin 16 := ⟨i.val, sub_lt q i⟩

/-- The one call takes the two arrays whole, cut by rows; each task takes its rows and brings them back, the result's at the
    argument's entries kept or zeroed. -/
def P : (K (F := F)).Pay (nD := nD) (Val := Elt F) (Name := ℕ) (U := UU) where
  st := fun q d c => coreRows m d (cF q c) (m (oLoc d))
  dn := fun q d c => coreRows m d (cF q c) (Gm m d)
  go := fun q d c i => rowsOf m d (cF q c) (sF q i) (m (oLoc d))
  td := fun q d c i => rowsOf m d (cF q c) (sF q i) (Gm m d)
  x := fun _ _ => iprop(emp)

theorem P_st (q : Fin 1) (d : Dev nD) (c : Fin ((K (F := F)).nCore q)) :
    (P m).st q d c = coreRows m d (cF q c) (m (oLoc d)) := rfl
theorem P_dn (q : Fin 1) (d : Dev nD) (c : Fin ((K (F := F)).nCore q)) :
    (P m).dn q d c = coreRows m d (cF q c) (Gm m d) := rfl
theorem P_go (q : Fin 1) (d : Dev nD) (c : Fin ((K (F := F)).nCore q)) (i : Fin ((K (F := F)).nSub q)) :
    (P m).go q d c i = rowsOf m d (cF q c) (sF q i) (m (oLoc d)) := rfl
theorem P_td (q : Fin 1) (d : Dev nD) (c : Fin ((K (F := F)).nCore q)) (i : Fin ((K (F := F)).nSub q)) :
    (P m).td q d c i = rowsOf m d (cF q c) (sF q i) (Gm m d) := rfl

instance P_storable : (P (F := F) m).IsStorable where
  st q d c := (inferInstance : BI.Storable (upEmb : UEmb _ 𝕄) (coreRows m d (cF q c) (m (oLoc d))))
  dn q d c := (inferInstance : BI.Storable (upEmb : UEmb _ 𝕄) (coreRows m d (cF q c) (Gm m d)))
  go q d c i := (inferInstance : BI.Storable (upEmb : UEmb _ 𝕄) (rowsOf m d (cF q c) (sF q i) (m (oLoc d))))
  td q d c i := (inferInstance : BI.Storable (upEmb : UEmb _ 𝕄) (rowsOf m d (cF q c) (sF q i) (Gm m d)))

omit [FloatOps F] in
/-- A family over the call's tasks is the family over the sixteen subcores. -/
theorem bigSep_tasks (Φ : Fin 16 → sProp 𝕄) :
    (bigSep Finset.univ fun i : Fin ((K (F := F)).nSub 0) => Φ (sF 0 i)) = bigSep Finset.univ Φ :=
  bigSep_congr fun _ _ => congrArg Φ (Fin.ext rfl)
omit [FloatOps F] in
/-- A family over the call's SparseCores is the family over the two cores. -/
theorem bigSep_cores (Φ : Fin 2 → sProp 𝕄) :
    (bigSep Finset.univ fun c : Fin ((K (F := F)).nCore 0) => Φ (cF 0 c)) = bigSep Finset.univ Φ :=
  bigSep_congr fun _ _ => congrArg Φ (Fin.ext rfl)

/-! ## The launch theorem's obligations -/

theorem defs₀_vector (c : Fin τ.nSC) (s : Fin τ.nSub) :
    defs₀ (F := F) (.scVector c s) 0 ()
      = SparseCore.onTile hcore0 hsub0 (fun c s => cc0__sc_mask (coordsV c s)
          aW (Memref.isWhole_whole _) oW (Memref.isWhole_whole _)
          s0W (Memref.isWhole_whole _) s1W (Memref.isWhole_whole _) s2W (Memref.isWhole_whole _)
          s3W (Memref.isWhole_whole _) s4W (Memref.isWhole_whole _) s5W (Memref.isWhole_whole _)
          cc0_scratch6 cc0_scratch7 cc0_scratch8 cc0_scratch9 cc0_scratch10 cc0_scratch11) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

theorem vecSplit : (K (F := F)).VecSplit' (P m) 0 := by
  intro d c
  show (P m).st 0 d c ⊢ |={Set.univ}=> iprop(
      (bigSep Finset.univ fun i : Fin ((K (F := F)).nSub 0) => (P m).go 0 d c i)
      ∗ ((bigSep Finset.univ fun i : Fin ((K (F := F)).nSub 0) => (P m).td 0 d c i) -∗ (P m).dn 0 d c))
  simp only [P_st, P_dn, P_go, P_td, coreRows_eq]
  rw [bigSep_tasks (F := F) (fun s => rowsOf m d (cF 0 c) s (m (oLoc d))),
    bigSep_tasks (F := F) (fun s => rowsOf m d (cF 0 c) s (Gm m d))]
  iintro H; imodintro
  isplitl [H]; · iexact H
  iintro H'; iexact H'

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- Both arrays whole are every subcore's rows of both. -/
theorem arrays_rows (d : Dev nD) (g : Buf (Elt F) (oLoc d)) :
    (bigSep Finset.univ fun c : Fin 2 => bigSep Finset.univ fun s : Fin 16 => rowsOf m d c s g)
      = iprop((aLoc d ↦{fullShare} m (aLoc d)) ∗ oLoc d ↦{fullShare} g) := by
  simp only [rowsOf_eq, aPieces_eq, oPieces_eq, bigSep_sep']
  rw [← aWhole, ← oWhole]

theorem st0_eq (d : Dev nD) : (bigSep Finset.univ fun c : Fin ((K (F := F)).nCore 0) => (P m).st 0 d c)
    = iprop((aLoc d ↦{fullShare} m (aLoc d)) ∗ oLoc d ↦{fullShare} m (oLoc d)) := by
  simp only [P_st]
  rw [bigSep_cores (F := F) (fun c => coreRows m d c (m (oLoc d)))]
  simp only [coreRows_eq]
  rw [arrays_rows]
theorem dn0_eq (d : Dev nD) : (bigSep Finset.univ fun c : Fin ((K (F := F)).nCore 0) => (P m).dn 0 d c)
    = iprop((aLoc d ↦{fullShare} m (aLoc d)) ∗ oLoc d ↦{fullShare} Gm m d) := by
  simp only [P_dn]
  rw [bigSep_cores (F := F) (fun c => coreRows m d c (Gm m d))]
  simp only [coreRows_eq]
  rw [arrays_rows]

/-- What @main leaves the claim: the argument at its launch contents, the result at the argument's entries kept or zeroed. -/
abbrev FIN (d : Dev nD) : sProp 𝕄 := iprop((aLoc d ↦{fullShare} m (aLoc d)) ∗ oLoc d ↦{fullShare} Gm m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Ho⟩, -, -⟩, -⟩
  iapply ((K (F := F)).wp_run (D (F := F)) 𝒱 (EH := EH) (P := P m) κ d 0) $$ [Hst Ha Ho]
  isplitr; · iexact Hctx
  isplitl [Hst]; · iexact Hst
  isplitl [Ha Ho]
  · rw [st0_eq]
    isplitl [Ha]; · iexact Ha
    iexact Ho
  iintro ⟨Hst, Hdn⟩
  ihave Hdn' := (Entails.of_eq (dn0_eq m d)) $$ Hdn
  icases Hdn' with ⟨Ha, Ho⟩
  imodintro
  isplitl [Hst]; · iexact Hst
  isplitl [Ha]; · iexact Ha
  iexact Ho

def fq (d : Dev nD) (s' : Phys nD τ sig (Elt F)) : Prop := s'.mem.mem (oLoc d) = Gm m d ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := oLoc d) (I := Finset.univ) (q := fullShare) (f := Gm m d)) $$ [HSI Ho]
  · isplitl [HSI] <;> iassumption
  icases H with %h2
  ipureintro; exact ⟨funext fun i => h2 i (Finset.mem_univ i), funext fun i => h1 i (Finset.mem_univ i)⟩

/-! ## The program's run -/

def QC : PUnit × MemSt nD τ sig (Elt F) → Prop := fun r => ∀ c : Dev nD, r.2.mem (oLoc c) = Gm m c ∧ r.2.mem (aLoc c) = m (aLoc c)

/-- Every weakly fair execution of the device's threads ends, nothing faulting, with the result array at the argument's
    entries kept or zeroed and the argument unchanged. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.TileLemB.lean ====
/-
  One vector subcore's task, at a symbolic place: the subcore with coordinates (c, s) owns the 128 rows from row
  128 · (2 s + c) on, cut into 32 chunks of four rows. Chunk k is copied into one of three input scratches (k mod 3), every
  entry of it above one half is copied and every other entry replaced by zero into the matching output scratch, sixteen
  lanes of the four rows per trip of a counted loop of 256 trips, and the output scratch is copied out to chunk k of the
  result. Each of the six copies' semaphores carries one copy at a time, and a scratch is touched only between the wait
  for the copy that filled it and the issue of the copy that empties it, so no copy races with a load or a store.
  What the task leaves: its rows of the argument unchanged, and its rows of the result equal to the argument's rows with
  every entry at most one half replaced by zero.
-/
import proofs.«207063_g69217692942512_cont_9to1_m_457_27_alg».proof.Defs
import Idealize.ShloMosaic.Lib.SparseCore.Launch
import Idealize.ShloMosaic.Lib.StableHlo.Run
import Idealize.ShloMosaic.Lib.Pipeline.Kit
import Idealize.ShloMosaic.Lib.Pipeline.Value
import Idealize.ShloMosaic.Lib.Tactic
import proofs.«207063_g69217692942512_cont_9to1_m_457_27_alg».proof.Proof.Gen.Kernel
import proofs.«207063_g69217692942512_cont_9to1_m_457_27_alg».proof.Proof.Gen.Kernel.Skeleton
import proofs.«207063_g69217692942512_cont_9to1_m_457_27_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch handshakes' rounds beside the copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

local notation "aW" => (Memref.whole Cert.Kernel.main_arg0_scv : Memref Cert.Kernel.sig Kind.scVector Space.hbm Cert.Kernel.S4096x4096 EltTy.f32)
local notation "oW" => (Memref.whole Cert.Kernel.main_v0_scv : Memref Cert.Kernel.sig Kind.scVector Space.hbm Cert.Kernel.S4096x4096 EltTy.f32)
local notation "s0W" => (Memref.whole Cert.Kernel.cc0_scratch0 : Memref Cert.Kernel.sig Kind.scVector Space.vmem Cert.Kernel.S4x4096 EltTy.f32)
local notation "s1W" => (Memref.whole Cert.Kernel.cc0_scratch1 : Memref Cert.Kernel.sig Kind.scVector Space.vmem Cert.Kernel.S4x4096 EltTy.f32)
local notation "s2W" => (Memref.whole Cert.Kernel.cc0_scratch2 : Memref Cert.Kernel.sig Kind.scVector Space.vmem Cert.Kernel.S4x4096 EltTy.f32)
local notation "s3W" => (Memref.whole Cert.Kernel.cc0_scratch3 : Memref Cert.Kernel.sig Kind.scVector Space.vmem Cert.Kernel.S4x4096 EltTy.f32)
local notation "s4W" => (Memref.whole Cert.Kernel.cc0_scratch4 : Memref Cert.Kernel.sig Kind.scVector Space.vmem Cert.Kernel.S4x4096 EltTy.f32)
local notation "s5W" => (Memref.whole Cert.Kernel.cc0_scratch5 : Memref Cert.Kernel.sig Kind.scVector Space.vmem Cert.Kernel.S4x4096 EltTy.f32)

/-- The argument and the result, as locations of device `d`. -/
abbrev aLoc (d : Dev nD) : Loc nD τ sig := (SparseCore.T d).loc main_arg0
abbrev oLoc (d : Dev nD) : Loc nD τ sig := (SparseCore.T d).loc main_v0

variable [FloatOps F]

/-- What the result array holds at the end: the argument with every entry at most one half replaced by zero. -/
def Gm (d : Dev nD) : Buf (Elt F) (oLoc d) := fun i => Cert.Spec.keep (m (aLoc d) i)

/-! ## The rows, cut into chunks of four -/

theorem h1024 : 1024 ∣ S4096x4096.size 0 := ⟨4, rfl⟩
/-- Chunk `j` of the 1024 chunks of four rows. -/
abbrev chRect (j : Fin 1024) : Rect S4096x4096 := Rect.part (s := S4096x4096) (a₀ := 0) h1024 j
abbrev chSet (j : Fin 1024) : Finset S4096x4096.Idx := ((aW).view.slice (chRect j)).set

/-- The chunk that subcore (c, s) handles at step k: the subcore's rows start at 128 · (2 s + c). -/
def chIx (L : grid0.Coords) (k : Fin 32) : Fin 1024 := ⟨64 * (L 1).val + 32 * (L 0).val + k.val, by
  have h0 : (L 0).val < 2 := (L 0).isLt
  have h1 : (L 1).val < 16 := (L 1).isLt
  have hk := k.isLt
  omega⟩

abbrev cV (L : grid0.Coords) : Fin τ.nSC := (L 0).castLE hcore0
abbrev jV (L : grid0.Coords) : Fin τ.nSub := (L 1).castLE hsub0

/-- A chunk of the argument and of the result as the task slices them. -/
abbrev aCh (L : grid0.Coords) (c0 : BitVec 32) (h : ∀ a, (k0_off1 L c0) a + S4x4096.size a ≤ S4096x4096.size a) : Memref sig .scVector .hbm S4x4096 .f32 :=
  (aW).slice (Rect.unit (s := S4096x4096) (k0_off1 L c0) S4x4096.size h) (fun _ => rfl)
abbrev oCh (L : grid0.Coords) (c0 : BitVec 32) (h : ∀ a, (k0_off1 L c0) a + S4x4096.size a ≤ S4096x4096.size a) : Memref sig .scVector .hbm S4x4096 .f32 :=
  (oW).slice (Rect.unit (s := S4096x4096) (k0_off1 L c0) S4x4096.size h) (fun _ => rfl)

omit [FloatOps F] in
/-- The rectangle the task slices at step `k` is chunk `chIx L k`. -/
theorem unit_eq_chRect (L : grid0.Coords) (k : Fin 32) :
    Rect.unit (s := S4096x4096) (k0_off1 L (BitVec.ofNat 32 (4 * k.val))) S4x4096.size (k0_off1_inb L k) = chRect (chIx L k) := by
  unfold chRect Rect.part Rect.block
  congr 1 <;> funext a
  · rw [k0_off1_eq]
    match a with
    | 0 => simp [Shape.partIx, Shape.partSize, chIx]; omega
    | 1 => simp [Shape.partIx, Shape.partSize]
  · match a with
    | 0 => simp [Shape.partSize]
    | 1 => simp [Shape.partSize]

/-! ## What a task holds of the two arrays: its 32 chunks, each under the memref the task slices it with -/

section Tile

variable (d : Dev nD) (L : grid0.Coords)

def aPieces (f : Buf (Elt F) (aLoc d)) : sProp 𝕄 :=
  iprop(((aCh L 0#32 (k0_off1_inb L 0)).view.loc (V d (cV L) (jV L)) ↦[(aCh L 0#32 (k0_off1_inb L 0)).view.set]{fullShare} f)
    ∗ ((aCh L 4#32 (k0_off1_inb L 1)).view.loc (V d (cV L) (jV L)) ↦[(aCh L 4#32 (k0_off1_inb L 1)).view.set]{fullShare} f)
    ∗ ((aCh L 8#32 (k0_off1_inb L 2)).view.loc (V d (cV L) (jV L)) ↦[(aCh L 8#32 (k0_off1_inb L 2)).view.set]{fullShare} f)
    ∗ ((aCh L 12#32 (k0_off1_inb L 3)).view.loc (V d (cV L) (jV L)) ↦[(aCh L 12#32 (k0_off1_inb L 3)).view.set]{fullShare} f)
    ∗ ((aCh L 16#32 (k0_off1_inb L 4)).view.loc (V d (cV L) (jV L)) ↦[(aCh L 16#32 (k0_off1_inb L 4)).view.set]{fullShare} f)
    ∗ ((aCh L 20#32 (k0_off1_inb L 5)).view.loc (V d (cV L) (jV L)) ↦[(aCh L 20#32 (k0_off1_inb L 5)).view.set]{fullShare} f)
    ∗ ((aCh L 24#32 (k0_off1_inb L 6)).view.loc (V d (cV L) (jV L)) ↦[(aCh L 24#32 (k0_off1_inb L 6)).view.set]{fullShare} f)
    ∗ ((aCh L 28#32 (k0_off1_inb L 7)).view.loc (V d (cV L) (jV L)) ↦[(aCh L 28#32 (k0_off1_inb L 7)).view.set]{fullShare} f)
    ∗ ((aCh L 32#32 (k0_off1_inb L 8)).view.loc (V d (cV L) (jV L)) ↦[(aCh L 32#32 (k0_off1_inb L 8)).view.set]{fullShare} f)
    ∗ ((aCh L 36#32 (k0_off1_inb L 9)).view.loc (V d (cV L) (jV L)) ↦[(aCh L 36#32 (k0_off1_inb L 9)).view.set]{fullShare} f)
    ∗ ((aCh L 40#32 (k0_off1_inb L 10)).view.loc (V d (cV L) (jV L)) ↦[(aCh L 40#32 (k0_off1_inb L 10)).view.set]{fullShare} f)
    ∗ ((aCh L 44#32 (k0_off1_inb L 11)).view.loc (V d (cV L) (jV L)) ↦[(aCh L 44#32 (k0_off1_inb L 11)).view.set]{fullShare} f)
    ∗ ((aCh L 48#32 (k0_off1_inb L 12)).view.loc (V d (cV L) (jV L)) ↦[(aCh L 48#32 (k0_off1_inb L 12)).view.set]{fullShare} f)
    ∗ ((aCh L 52#32 (k0_off1_inb L 13)).view.loc (V d (cV L) (jV L)) ↦[(aCh L 52#32 (k0_off1_inb L 13)).view.set]{fullShare} f)
    ∗ ((aCh L 56#32 (k0_off1_inb L 14)).view.loc (V d (cV L) (jV L)) ↦[(aCh L 56#32 (k0_off1_inb L 14)).view.set]{fullShare} f)
    ∗ ((aCh L 60#32 (k0_off1_inb L 15)).view.loc (V d (cV L) (jV L)) ↦[(aCh L 60#32 (k0_off1_inb L 15)).view.set]{fullShare} f)
    ∗ ((aCh L 64#32 (k0_off1_inb L 16)).view.loc (V d (cV L) (jV L)) ↦[(aCh L 64#32 (k0_off1_inb L 16)).view.set]{fullShare} f)
    ∗ ((aCh L 68#32 (k0_off1_inb L 17)).view.loc (V d (cV L) (jV L)) ↦[(aCh L 68#32 (k0_off1_inb L 17)).view.set]{fullShare} f)
    ∗ ((aCh L 72#32 (k0_off1_inb L 18)).view.loc (V d (cV L) (jV L)) ↦[(aCh L 72#32 (k0_off1_inb L 18)).view.set]{fullShare} f)
    ∗ ((aCh L 76#32 (k0_off1_inb L 19)).view.loc (V d (cV L) (jV L)) ↦[(aCh L 76#32 (k0_off1_inb L 19)).view.set]{fullShare} f)
    ∗ ((aCh L 80#32 (k0_off1_inb L 20)).view.loc (V d (cV L) (jV L)) ↦[(aCh L 80#32 (k0_off1_inb L 20)).view.set]{fullShare} f)
    ∗ ((aCh L 84#32 (k0_off1_inb L 21)).view.loc (V d (cV L) (jV L)) ↦[(aCh L 84#32 (k0_off1_inb L 21)).view.set]{fullShare} f)
    ∗ ((aCh L 88#32 (k0_off1_inb L 22)).view.loc (V d (cV L) (jV L)) ↦[(aCh L 88#32 (k0_off1_inb L 22)).view.set]{fullShare} f)
    ∗ ((aCh L 92#32 (k0_off1_inb L 23)).view.loc (V d (cV L) (jV L)) ↦[(aCh L 92#32 (k0_off1_inb L 23)).view.set]{fullShare} f)
    ∗ ((aCh L 96#32 (k0_off1_inb L 24)).view.loc (V d (cV L) (jV L)) ↦[(aCh L 96#32 (k0_off1_inb L 24)).view.set]{fullShare} f)
    ∗ ((aCh L 100#32 (k0_off1_inb L 25)).view.loc (V d (cV L) (jV L)) ↦[(aCh L 100#32 (k0_off1_inb L 25)).view.set]{fullShare} f)
    ∗ ((aCh L 104#32 (k0_off1_inb L 26)).view.loc (V d (cV L) (jV L)) ↦[(aCh L 104#32 (k0_off1_inb L 26)).view.set]{fullShare} f)
    ∗ ((aCh L 108#32 (k0_off1_inb L 27)).view.loc (V d (cV L) (jV L)) ↦[(aCh L 108#32 (k0_off1_inb L 27)).view.set]{fullShare} f)
    ∗ ((aCh L 112#32 (k0_off1_inb L 28)).view.loc (V d (cV L) (jV L)) ↦[(aCh L 112#32 (k0_off1_inb L 28)).view.set]{fullShare} f)
    ∗ ((aCh L 116#32 (k0_off1_inb L 29)).view.loc (V d (cV L) (jV L)) ↦[(aCh L 116#32 (k0_off1_inb L 29)).view.set]{fullShare} f)
    ∗ ((aCh L 120#32 (k0_off1_inb L 30)).view.loc (V d (cV L) (jV L)) ↦[(aCh L 120#32 (k0_off1_inb L 30)).view.set]{fullShare} f)
    ∗ ((aCh L 124#32 (k0_off1_inb L 31)).view.loc (V d (cV L) (jV L)) ↦[(aCh L 124#32 (k0_off1_inb L 31)).view.set]{fullShare} f))

def oPieces (f : Buf (Elt F) (oLoc d)) : sProp 𝕄 :=
  iprop(((oCh L 0#32 (k0_off1_inb L 0)).view.loc (V d (cV L) (jV L)) ↦[(oCh L 0#32 (k0_off1_inb L 0)).view.set]{fullShare} f)
    ∗ ((oCh L 4#32 (k0_off1_inb L 1)).view.loc (V d (cV L) (jV L)) ↦[(oCh L 4#32 (k0_off1_inb L 1)).view.set]{fullShare} f)
    ∗ ((oCh L 8#32 (k0_off1_inb L 2)).view.loc (V d (cV L) (jV L)) ↦[(oCh L 8#32 (k0_off1_inb L 2)).view.set]{fullShare} f)
    ∗ ((oCh L 12#32 (k0_off1_inb L 3)).view.loc (V d (cV L) (jV L)) ↦[(oCh L 12#32 (k0_off1_inb L 3)).view.set]{fullShare} f)
    ∗ ((oCh L 16#32 (k0_off1_inb L 4)).view.loc (V d (cV L) (jV L)) ↦[(oCh L 16#32 (k0_off1_inb L 4)).view.set]{fullShare} f)
    ∗ ((oCh L 20#32 (k0_off1_inb L 5)).view.loc (V d (cV L) (jV L)) ↦[(oCh L 20#32 (k0_off1_inb L 5)).view.set]{fullShare} f)
    ∗ ((oCh L 24#32 (k0_off1_inb L 6)).view.loc (V d (cV L) (jV L)) ↦[(oCh L 24#32 (k0_off1_inb L 6)).view.set]{fullShare} f)
    ∗ ((oCh L 28#32 (k0_off1_inb L 7)).view.loc (V d (cV L) (jV L)) ↦[(oCh L 28#32 (k0_off1_inb L 7)).view.set]{fullShare} f)
    ∗ ((oCh L 32#32 (k0_off1_inb L 8)).view.loc (V d (cV L) (jV L)) ↦[(oCh L 32#32 (k0_off1_inb L 8)).view.set]{fullShare} f)
    ∗ ((oCh L 36#32 (k0_off1_inb L 9)).view.loc (V d (cV L) (jV L)) ↦[(oCh L 36#32 (k0_off1_inb L 9)).view.set]{fullShare} f)
    ∗ ((oCh L 40#32 (k0_off1_inb L 10)).view.loc (V d (cV L) (jV L)) ↦[(oCh L 40#32 (k0_off1_inb L 10)).view.set]{fullShare} f)
    ∗ ((oCh L 44#32 (k0_off1_inb L 11)).view.loc (V d (cV L) (jV L)) ↦[(oCh L 44#32 (k0_off1_inb L 11)).view.set]{fullShare} f)
    ∗ ((oCh L 48#32 (k0_off1_inb L 12)).view.loc (V d (cV L) (jV L)) ↦[(oCh L 48#32 (k0_off1_inb L 12)).view.set]{fullShare} f)
    ∗ ((oCh L 52#32 (k0_off1_inb L 13)).view.loc (V d (cV L) (jV L)) ↦[(oCh L 52#32 (k0_off1_inb L 13)).view.set]{fullShare} f)
    ∗ ((oCh L 56#32 (k0_off1_inb L 14)).view.loc (V d (cV L) (jV L)) ↦[(oCh L 56#32 (k0_off1_inb L 14)).view.set]{fullShare} f)
    ∗ ((oCh L 60#32 (k0_off1_inb L 15)).view.loc (V d (cV L) (jV L)) ↦[(oCh L 60#32 (k0_off1_inb L 15)).view.set]{fullShare} f)
    ∗ ((oCh L 64#32 (k0_off1_inb L 16)).view.loc (V d (cV L) (jV L)) ↦[(oCh L 64#32 (k0_off1_inb L 16)).view.set]{fullShare} f)
    ∗ ((oCh L 68#32 (k0_off1_inb L 17)).view.loc (V d (cV L) (jV L)) ↦[(oCh L 68#32 (k0_off1_inb L 17)).view.set]{fullShare} f)
    ∗ ((oCh L 72#32 (k0_off1_inb L 18)).view.loc (V d (cV L) (jV L)) ↦[(oCh L 72#32 (k0_off1_inb L 18)).view.set]{fullShare} f)
    ∗ ((oCh L 76#32 (k0_off1_inb L 19)).view.loc (V d (cV L) (jV L)) ↦[(oCh L 76#32 (k0_off1_inb L 19)).view.set]{fullShare} f)
    ∗ ((oCh L 80#32 (k0_off1_inb L 20)).view.loc (V d (cV L) (jV L)) ↦[(oCh L 80#32 (k0_off1_inb L 20)).view.set]{fullShare} f)
    ∗ ((oCh L 84#32 (k0_off1_inb L 21)).view.loc (V d (cV L) (jV L)) ↦[(oCh L 84#32 (k0_off1_inb L 21)).view.set]{fullShare} f)
    ∗ ((oCh L 88#32 (k0_off1_inb L 22)).view.loc (V d (cV L) (jV L)) ↦[(oCh L 88#32 (k0_off1_inb L 22)).view.set]{fullShare} f)
    ∗ ((oCh L 92#32 (k0_off1_inb L 23)).view.loc (V d (cV L) (jV L)) ↦[(oCh L 92#32 (k0_off1_inb L 23)).view.set]{fullShare} f)
    ∗ ((oCh L 96#32 (k0_off1_inb L 24)).view.loc (V d (cV L) (jV L)) ↦[(oCh L 96#32 (k0_off1_inb L 24)).view.set]{fullShare} f)
    ∗ ((oCh L 100#32 (k0_off1_inb L 25)).view.loc (V d (cV L) (jV L)) ↦[(oCh L 100#32 (k0_off1_inb L 25)).view.set]{fullShare} f)
    ∗ ((oCh L 104#32 (k0_off1_inb L 26)).view.loc (V d (cV L) (jV L)) ↦[(oCh L 104#32 (k0_off1_inb L 26)).view.set]{fullShare} f)
    ∗ ((oCh L 108#32 (k0_off1_inb L 27)).view.loc (V d (cV L) (jV L)) ↦[(oCh L 108#32 (k0_off1_inb L 27)).view.set]{fullShare} f)
    ∗ ((oCh L 112#32 (k0_off1_inb L 28)).view.loc (V d (cV L) (jV L)) ↦[(oCh L 112#32 (k0_off1_inb L 28)).view.set]{fullShare} f)
    ∗ ((oCh L 116#32 (k0_off1_inb L 29)).view.loc (V d (cV L) (jV L)) ↦[(oCh L 116#32 (k0_off1_inb L 29)).view.set]{fullShare} f)
    ∗ ((oCh L 120#32 (k0_off1_inb L 30)).view.loc (V d (cV L) (jV L)) ↦[(oCh L 120#32 (k0_off1_inb L 30)).view.set]{fullShare} f)
    ∗ ((oCh L 124#32 (k0_off1_inb L 31)).view.loc (V d (cV L) (jV L)) ↦[(oCh L 124#32 (k0_off1_inb L 31)).view.set]{fullShare} f))

omit [FloatOps F] in
theorem cell_ne {a b : DmaSem sig} (h : a ≠ b) : (((V d (cV L) (jV L)), SemLoc.dma a) : GSem nD τ sig) ≠ ((V d (cV L) (jV L)), SemLoc.dma b) :=
  fun e => h (SemLoc.dma.inj (Prod.mk.inj e).2)

/-- The subcore's other semaphores, beside the six the copies use. -/
def restCells : Finset (GSem nD τ sig) := (((((((ownCells (V d (cV L) (jV L))).erase ((V d (cV L) (jV L)), SemLoc.dma cc0_scratch6.sem)).erase ((V d (cV L) (jV L)), SemLoc.dma cc0_scratch7.sem)).erase ((V d (cV L) (jV L)), SemLoc.dma cc0_scratch8.sem)).erase ((V d (cV L) (jV L)), SemLoc.dma cc0_scratch9.sem)).erase ((V d (cV L) (jV L)), SemLoc.dma cc0_scratch10.sem)).erase ((V d (cV L) (jV L)), SemLoc.dma cc0_scratch11.sem))

omit [FloatOps F] in
theorem ownSems0_V :
    (ownSems0 (V d (cV L) (jV L)) : sProp 𝕄)
      = iprop(semVal ((V d (cV L) (jV L)), SemLoc.dma cc0_scratch6.sem) 0 ∗ semVal ((V d (cV L) (jV L)), SemLoc.dma cc0_scratch7.sem) 0 ∗ semVal ((V d (cV L) (jV L)), SemLoc.dma cc0_scratch8.sem) 0 ∗ semVal ((V d (cV L) (jV L)), SemLoc.dma cc0_scratch9.sem) 0 ∗ semVal ((V d (cV L) (jV L)), SemLoc.dma cc0_scratch10.sem) 0 ∗ semVal ((V d (cV L) (jV L)), SemLoc.dma cc0_scratch11.sem) 0
          ∗ bigSep (restCells d L) fun g => semVal g 0) := by
  unfold SparseCore.Cfg.ownSems0 restCells
  rw [SparseCore.bigSep_erase' ((mem_ownCells (g := ((V d (cV L) (jV L)), SemLoc.dma cc0_scratch6.sem))).mpr ⟨rfl, by show (SemLoc.dma cc0_scratch6.sem : SemLoc sig).isScoped .scVector = true; decide⟩),
    SparseCore.bigSep_erase' (Finset.mem_erase.mpr ⟨cell_ne d L (by decide : (cc0_scratch7.sem : DmaSem sig) ≠ cc0_scratch6.sem), (mem_ownCells (g := ((V d (cV L) (jV L)), SemLoc.dma cc0_scratch7.sem))).mpr ⟨rfl, by show (SemLoc.dma cc0_scratch7.sem : SemLoc sig).isScoped .scVector = true; decide⟩⟩),
    SparseCore.bigSep_erase' (Finset.mem_erase.mpr ⟨cell_ne d L (by decide : (cc0_scratch8.sem : DmaSem sig) ≠ cc0_scratch7.sem), Finset.mem_erase.mpr ⟨cell_ne d L (by decide : (cc0_scratch8.sem : DmaSem sig) ≠ cc0_scratch6.sem), (mem_ownCells (g := ((V d (cV L) (jV L)), SemLoc.dma cc0_scratch8.sem))).mpr ⟨rfl, by show (SemLoc.dma cc0_scratch8.sem : SemLoc sig).isScoped .scVector = true; decide⟩⟩⟩),
    SparseCore.bigSep_erase' (Finset.mem_erase.mpr ⟨cell_ne d L (by decide : (cc0_scratch9.sem : DmaSem sig) ≠ cc0_scratch8.sem), Finset.mem_erase.mpr ⟨cell_ne d L (by decide : (cc0_scratch9.sem : DmaSem sig) ≠ cc0_scratch7.sem), Finset.mem_erase.mpr ⟨cell_ne d L (by decide : (cc0_scratch9.sem : DmaSem sig) ≠ cc0_scratch6.sem), (mem_ownCells (g := ((V d (cV L) (jV L)), SemLoc.dma cc0_scratch9.sem))).mpr ⟨rfl, by show (SemLoc.dma cc0_scratch9.sem : SemLoc sig).isScoped .scVector = true; decide⟩⟩⟩⟩),
    SparseCore.bigSep_erase' (Finset.mem_erase.mpr ⟨cell_ne d L (by decide : (cc0_scratch10.sem : DmaSem sig) ≠ cc0_scratch9.sem), Finset.mem_erase.mpr ⟨cell_ne d L (by decide : (cc0_scratch10.sem : DmaSem sig) ≠ cc0_scratch8.sem), Finset.mem_erase.mpr ⟨cell_ne d L (by decide : (cc0_scratch10.sem : DmaSem sig) ≠ cc0_scratch7.sem), Finset.mem_erase.mpr ⟨cell_ne d L (by decide : (cc0_scratch10.sem : DmaSem sig) ≠ cc0_scratch6.sem), (mem_ownCells (g := ((V d (cV L) (jV L)), SemLoc.dma cc0_scratch10.sem))).mpr ⟨rfl, by show (SemLoc.dma cc0_scratch10.sem : SemLoc sig).isScoped .scVector = true; decide⟩⟩⟩⟩⟩),
    SparseCore.bigSep_erase' (Finset.mem_erase.mpr ⟨cell_ne d L (by decide : (cc0_scratch11.sem : DmaSem sig) ≠ cc0_scratch10.sem), Finset.mem_erase.mpr ⟨cell_ne d L (by decide : (cc0_scratch11.sem : DmaSem sig) ≠ cc0_scratch9.sem), Finset.mem_erase.mpr ⟨cell_ne d L (by decide : (cc0_scratch11.sem : DmaSem sig) ≠ cc0_scratch8.sem), Finset.mem_erase.mpr ⟨cell_ne d L (by decide : (cc0_scratch11.sem : DmaSem sig) ≠ cc0_scratch7.sem), Finset.mem_erase.mpr ⟨cell_ne d L (by decide : (cc0_scratch11.sem : DmaSem sig) ≠ cc0_scratch6.sem), (mem_ownCells (g := ((V d (cV L) (jV L)), SemLoc.dma cc0_scratch11.sem))).mpr ⟨rfl, by show (SemLoc.dma cc0_scratch11.sem : SemLoc sig).isScoped .scVector = true; decide⟩⟩⟩⟩⟩⟩)]

/-- The subcore's other buffers, beside the six scratches. -/
def restRefs : Finset (DevRef τ sig) := (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f)
          ∗ bigSep (restRefs L) fun b => iprop(∃ f, ((d, b) : Loc nD τ sig) ↦{fullShare} f)) := by
  unfold SparseCore.Cfg.ownBufs restRefs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩)]

/-! ## The arithmetic of one store: sixteen lanes of a row, each kept or zeroed -/

/-- What a trip stores for a row is the loaded sixteen lanes, each kept if above one half and zeroed otherwise. -/
theorem pay_eq (v : Vec F S1x16 .f32) : k0_pay1 v = fun j => Cert.Spec.keep (v j) := by
  have h : k0_pay1 v = shapeCast S1x16 (shapeCast S16 (fun j => Cert.Spec.keep (v j)) shapeCasts_S1x16_S16) shapeCasts_S16_S1x16 := rfl
  rw [h, shapeCast_shapeCast]

/-! ## The recorded waits only grow by waits of the kernel's own -/

omit [FloatOps F] in
theorem okw_base (W : Waits sig (HIx 1)) : ∀ p ∈ W, p ∈ W ∨ p.2 = none := fun _ hp => .inl hp
omit [FloatOps F] in
theorem okw_insert {W W' : Waits sig (HIx 1)} (sm : SemLoc sig) (h : ∀ p ∈ W', p ∈ W ∨ p.2 = none) :
    ∀ p ∈ insert (sm, (none : HIx 1)) W', p ∈ W ∨ p.2 = none := fun p hp => by
  rcases Finset.mem_insert.mp hp with rfl | hp
  · exact .inr rfl
  · exact h p hp

omit [FloatOps F] in
theorem pts_s0 (f : Buf (Elt F) ((V d (cV L) (jV L)).loc cc0_scratch0)) :
    ((s0W).view.loc (V d (cV L) (jV L)) ↦{fullShare} f : sProp 𝕄) = (V d (cV L) (jV L)).loc cc0_scratch0 ↦{fullShare} f := rfl
omit [FloatOps F] in
theorem pts_s1 (f : Buf (Elt F) ((V d (cV L) (jV L)).loc cc0_scratch1)) :
    ((s1W).view.loc (V d (cV L) (jV L)) ↦{fullShare} f : sProp 𝕄) = (V d (cV L) (jV L)).loc cc0_scratch1 ↦{fullShare} f := rfl
omit [FloatOps F] in
theorem pts_s2 (f : Buf (Elt F) ((V d (cV L) (jV L)).loc cc0_scratch2)) :
    ((s2W).view.loc (V d (cV L) (jV L)) ↦{fullShare} f : sProp 𝕄) = (V d (cV L) (jV L)).loc cc0_scratch2 ↦{fullShare} f := rfl
omit [FloatOps F] in
theorem pts_s3 (f : Buf (Elt F) ((V d (cV L) (jV L)).loc cc0_scratch3)) :
    ((s3W).view.loc (V d (cV L) (jV L)) ↦{fullShare} f : sProp 𝕄) = (V d (cV L) (jV L)).loc cc0_scratch3 ↦{fullShare} f := rfl
omit [FloatOps F] in
theorem pts_s4 (f : Buf (Elt F) ((V d (cV L) (jV L)).loc cc0_scratch4)) :
    ((s4W).view.loc (V d (cV L) (jV L)) ↦{fullShare} f : sProp 𝕄) = (V d (cV L) (jV L)).loc cc0_scratch4 ↦{fullShare} f := rfl
omit [FloatOps F] in
theorem pts_s5 (f : Buf (Elt F) ((V d (cV L) (jV L)).loc cc0_scratch5)) :
    ((s5W).view.loc (V d (cV L) (jV L)) ↦{fullShare} f : sProp 𝕄) = (V d (cV L) (jV L)).loc cc0_scratch5 ↦{fullShare} f := rfl

/-! ## What the scratches hold around a chunk's loop -/

/-- The input scratch holds the chunk of the argument sliced at `(c0, h)`. -/
def InOK (c0 : BitVec 32) (h : ∀ a, (k0_off1 L c0) a + S4x4096.size a ≤ S4096x4096.size a) (fi : S4x4096.Idx → F .f32) : Prop :=
  ∀ j, fi j = m (aLoc d) ((aCh L c0 h).view.emb j)
/-- Before trip `t` the first 16·t columns of the output scratch are the input scratch's, each entry kept or zeroed. -/
def OutOK (fi fo : S4x4096.Idx → F .f32) (t : Nat) : Prop :=
  ∀ j : S4x4096.Idx, (j 1).val < 16 * t → fo j = Cert.Spec.keep (fi j)

def linv0 (c0 : BitVec 32) (h : ∀ a, (k0_off1 L c0) a + S4x4096.size a ≤ S4096x4096.size a) (t : Nat) (_ : PUnit) : sProp 𝕄 :=
  iprop(∃ fi, ⌜InOK m d L c0 h fi⌝ ∗ ((s0W).view.loc (V d (cV L) (jV L)) ↦{fullShare} fi)
    ∗ ∃ fo, ⌜OutOK fi fo t⌝ ∗ (s3W).view.loc (V d (cV L) (jV L)) ↦{fullShare} fo)
def linv1 (c0 : BitVec 32) (h : ∀ a, (k0_off1 L c0) a + S4x4096.size a ≤ S4096x4096.size a) (t : Nat) (_ : PUnit) : sProp 𝕄 :=
  iprop(∃ fi, ⌜InOK m d L c0 h fi⌝ ∗ ((s1W).view.loc (V d (cV L) (jV L)) ↦{fullShare} fi)
    ∗ ∃ fo, ⌜OutOK fi fo t⌝ ∗ (s4W).view.loc (V d (cV L) (jV L)) ↦{fullShare} fo)
def linv2 (c0 : BitVec 32) (h : ∀ a, (k0_off1 L c0) a + S4x4096.size a ≤ S4096x4096.size a) (t : Nat) (_ : PUnit) : sProp 𝕄 :=
  iprop(∃ fi, ⌜InOK m d L c0 h fi⌝ ∗ ((s2W).view.loc (V d (cV L) (jV L)) ↦{fullShare} fi)
    ∗ ∃ fo, ⌜OutOK fi fo t⌝ ∗ (s5W).view.loc (V d (cV L) (jV L)) ↦{fullShare} fo)

/-! ## One trip of a chunk's loop, and a chunk's entry and exit -/

omit [FloatOps F] in
/-- Reading the whole scratch through its own view is reading its contents. -/
theorem read_s3 (g : S4x4096.Idx → F .f32) (y : S4x4096.Idx) : (s3W).view.read (Elt F) g y = g y := by
  simp only [Memref.view_whole, View.read_whole]
omit [FloatOps F] in
/-- Reading the whole scratch through its own view is reading its contents. -/
theorem read_s4 (g : S4x4096.Idx → F .f32) (y : S4x4096.Idx) : (s4W).view.read (Elt F) g y = g y := by
  simp only [Memref.view_whole, View.read_whole]
omit [FloatOps F] in
/-- Reading the whole scratch through its own view is reading its contents. -/
theorem read_s5 (g : S4x4096.Idx → F .f32) (y : S4x4096.Idx) : (s5W).view.read (Elt F) g y = g y := by
  simp only [Memref.view_whole, View.read_whole]

omit [FloatOps F] in
theorem trips_eq : Scf.trips k0_t1_loop.lb k0_t1_loop.ub k0_t1_loop.st = 256 := by decide

/-- What a trip stores for one row: the sixteen lanes it loaded from the input scratch, each kept or zeroed. -/
theorem pay_at0 (o : Fin 2 → Nat) (i : ∀ a, o a + S1x16.size a ≤ S4x4096.size a) (fi : S4x4096.Idx → F .f32) (x : S1x16.Idx) :
    k0_pay1 (View.readAt (Elt F) (s0W).view (Rect.unit (s := S4x4096) o S1x16.size i).toLoadRect fi) x
      = Cert.Spec.keep (fi ((Rect.unit (s := S4x4096) o S1x16.size i).emb x)) := by
  rw [pay_eq]; rfl

/-- A trip writes columns 16 t … 16 t + 15 of the four rows: the columns done grow from 16 t to 16 (t + 1). -/
theorem out_step0 {fi fo : S4x4096.Idx → F .f32} {t : Nat}
    {o0 o1 o2 o3 : Fin 2 → Nat} {i0 : ∀ a, o0 a + S1x16.size a ≤ S4x4096.size a} {i1 : ∀ a, o1 a + S1x16.size a ≤ S4x4096.size a}
    {i2 : ∀ a, o2 a + S1x16.size a ≤ S4x4096.size a} {i3 : ∀ a, o3 a + S1x16.size a ≤ S4x4096.size a}
    {w0 w1 w2 w3 : S1x16.Idx → F .f32}
    (e0 : o0 = ![0, 16 * t]) (e1 : o1 = ![1, 16 * t]) (e2 : o2 = ![2, 16 * t]) (e3 : o3 = ![3, 16 * t])
    (hw0 : ∀ x, w0 x = Cert.Spec.keep (fi ((Rect.unit (s := S4x4096) o0 S1x16.size i0).emb x)))
    (hw1 : ∀ x, w1 x = Cert.Spec.keep (fi ((Rect.unit (s := S4x4096) o1 S1x16.size i1).emb x)))
    (hw2 : ∀ x, w2 x = Cert.Spec.keep (fi ((Rect.unit (s := S4x4096) o2 S1x16.size i2).emb x)))
    (hw3 : ∀ x, w3 x = Cert.Spec.keep (fi ((Rect.unit (s := S4x4096) o3 S1x16.size i3).emb x)))
    (hfo : OutOK fi fo t) :
    OutOK fi ((s3W).view.writes (Elt F) fo
      [⟨Rect.unit (s := S4x4096) o3 S1x16.size i3, w3⟩, ⟨Rect.unit (s := S4x4096) o2 S1x16.size i2, w2⟩,
       ⟨Rect.unit (s := S4x4096) o1 S1x16.size i1, w1⟩, ⟨Rect.unit (s := S4x4096) o0 S1x16.size i0, w0⟩]) (t + 1) := by
  subst e0 e1 e2 e3
  intro j hj
  have hrow : (j 0).val < 4 := (j 0).isLt
  by_cases hc : (j 1).val < 16 * t
  · refine (read_s3 _ j).symm.trans ((View.read_writes_apply_of_forall_not_mem (Val := Elt F) (s3W).view fo j _ ?_).trans (hfo j hc))
    · intro p hp
      rcases List.mem_cons.mp hp with rfl | hp
      · intro h
        have h' : j ∈ (Rect.unit (s := S4x4096) ![3, 16 * t] S1x16.size i3).set := h
        have h1 : 16 * t ≤ (j 1).val := ((Rect.mem_set_unit.mp h') (1 : Fin 2)).1
        omega
      rcases List.mem_cons.mp hp with rfl | hp
      · intro h
        have h' : j ∈ (Rect.unit (s := S4x4096) ![2, 16 * t] S1x16.size i2).set := h
        have h1 : 16 * t ≤ (j 1).val := ((Rect.mem_set_unit.mp h') (1 : Fin 2)).1
        omega
      rcases List.mem_cons.mp hp with rfl | hp
      · intro h
        have h' : j ∈ (Rect.unit (s := S4x4096) ![1, 16 * t] S1x16.size i1).set := h
        have h1 : 16 * t ≤ (j 1).val := ((Rect.mem_set_unit.mp h') (1 : Fin 2)).1
        omega
      rcases List.mem_cons.mp hp with rfl | hp
      · intro h
        have h' : j ∈ (Rect.unit (s := S4x4096) ![0, 16 * t] S1x16.size i0).set := h
        have h1 : 16 * t ≤ (j 1).val := ((Rect.mem_set_unit.mp h') (1 : Fin 2)).1
        omega
      exact absurd hp List.not_mem_nil
  · have h1 : 16 * t ≤ (j 1).val := by omega
    have h2 : (j 1).val < 16 * t + 16 := by omega
    refine (read_s3 _ j).symm.trans (View.read_writes_apply_of_pieces (Val := Elt F) (s3W).view fo (fun y => Cert.Spec.keep (fi y)) _ ?_ j ?_)
    · intro p hp x
      rcases List.mem_cons.mp hp with rfl | hp
      · exact hw3 x
      rcases List.mem_cons.mp hp with rfl | hp
      · exact hw2 x
      rcases List.mem_cons.mp hp with rfl | hp
      · exact hw1 x
      rcases List.mem_cons.mp hp with rfl | hp
      · exact hw0 x
      exact absurd hp List.not_mem_nil
    · rcases (show (j 0).val = 0 ∨ (j 0).val = 1 ∨ (j 0).val = 2 ∨ (j 0).val = 3 by omega) with h | h | h | h
      · refine ⟨⟨Rect.unit (s := S4x4096) ![0, 16 * t] S1x16.size i0, w0⟩, List.mem_cons_of_mem _ (List.mem_cons_of_mem _ (List.mem_cons_of_mem _ List.mem_cons_self)), ?_⟩
        show j ∈ (Rect.unit (s := S4x4096) ![0, 16 * t] S1x16.size i0).set
        refine Rect.mem_set_unit.mpr (Fin.forall_fin_two.mpr ?_)
        show (0 ≤ (j 0).val ∧ (j 0).val < 0 + 1) ∧ (16 * t ≤ (j 1).val ∧ (j 1).val < 16 * t + 16)
        omega
      · refine ⟨⟨Rect.unit (s := S4x4096) ![1, 16 * t] S1x16.size i1, w1⟩, List.mem_cons_of_mem _ (List.mem_cons_of_mem _ List.mem_cons_self), ?_⟩
        show j ∈ (Rect.unit (s := S4x4096) ![1, 16 * t] S1x16.size i1).set
        refine Rect.mem_set_unit.mpr (Fin.forall_fin_two.mpr ?_)
        show (1 ≤ (j 0).val ∧ (j 0).val < 1 + 1) ∧ (16 * t ≤ (j 1).val ∧ (j 1).val < 16 * t + 16)
        omega
      · refine ⟨⟨Rect.unit (s := S4x4096) ![2, 16 * t] S1x16.size i2, w2⟩, List.mem_cons_of_mem _ List.mem_cons_self, ?_⟩
        show j ∈ (Rect.unit (s := S4x4096) ![2, 16 * t] S1x16.size i2).set
        refine Rect.mem_set_unit.mpr (Fin.forall_fin_two.mpr ?_)
        show (2 ≤ (j 0).val ∧ (j 0).val < 2 + 1) ∧ (16 * t ≤ (j 1).val ∧ (j 1).val < 16 * t + 16)
        omega
      · refine ⟨⟨Rect.unit (s := S4x4096) ![3, 16 * t] S1x16.size i3, w3⟩, List.mem_cons_self, ?_⟩
        show j ∈ (Rect.unit (s := S4x4096) ![3, 16 * t] S1x16.size i3).set
        refine Rect.mem_set_unit.mpr (Fin.forall_fin_two.mpr ?_)
        show (3 ≤ (j 0).val ∧ (j 0).val < 3 + 1) ∧ (16 * t ≤ (j 1).val ∧ (j 1).val < 16 * t + 16)
        omega

/-- The input scratch after a chunk's copy has landed holds that chunk of the argument. -/
theorem in_ok0 (c0 : BitVec 32) (h : ∀ a, (k0_off1 L c0) a + S4x4096.size a ≤ S4096x4096.size a)
    (f0 : S4x4096.Idx → F .f32) (pay : S4x4096.Idx → F .f32) (hp : ∀ j, pay j = m (aLoc d) ((aCh L c0 h).view.emb j)) :
    InOK m d L c0 h (View.write (Elt F) (s0W).view f0 pay Finset.univ) := by
  intro j
  simp only [Memref.view_whole, View.write_whole_univ]
  exact hp j

/-- What a trip stores for one row: the sixteen lanes it loaded from the input scratch, each kept or zeroed. -/
theorem pay_at1 (o : Fin 2 → Nat) (i : ∀ a, o a + S1x16.size a ≤ S4x4096.size a) (fi : S4x4096.Idx → F .f32) (x : S1x16.Idx) :
    k0_pay1 (View.readAt (Elt F) (s1W).view (Rect.unit (s := S4x4096) o S1x16.size i).toLoadRect fi) x
      = Cert.Spec.keep (fi ((Rect.unit (s := S4x4096) o S1x16.size i).emb x)) := by
  rw [pay_eq]; rfl

/-- A trip writes columns 16 t … 16 t + 15 of the four rows: the columns done grow from 16 t to 16 (t + 1). -/
theorem out_step1 {fi fo : S4x4096.Idx → F .f32} {t : Nat}
    {o0 o1 o2 o3 : Fin 2 → Nat} {i0 : ∀ a, o0 a + S1x16.size a ≤ S4x4096.size a} {i1 : ∀ a, o1 a + S1x16.size a ≤ S4x4096.size a}
    {i2 : ∀ a, o2 a + S1x16.size a ≤ S4x4096.size a} {i3 : ∀ a, o3 a + S1x16.size a ≤ S4x4096.size a}
    {w0 w1 w2 w3 : S1x16.Idx → F .f32}
    (e0 : o0 = ![0, 16 * t]) (e1 : o1 = ![1, 16 * t]) (e2 : o2 = ![2, 16 * t]) (e3 : o3 = ![3, 16 * t])
    (hw0 : ∀ x, w0 x = Cert.Spec.keep (fi ((Rect.unit (s := S4x4096) o0 S1x16.size i0).emb x)))
    (hw1 : ∀ x, w1 x = Cert.Spec.keep (fi ((Rect.unit (s := S4x4096) o1 S1x16.size i1).emb x)))
    (hw2 : ∀ x, w2 x = Cert.Spec.keep (fi ((Rect.unit (s := S4x4096) o2 S1x16.size i2).emb x)))
    (hw3 : ∀ x, w3 x = Cert.Spec.keep (fi ((Rect.unit (s := S4x4096) o3 S1x16.size i3).emb x)))
    (hfo : OutOK fi fo t) :
    OutOK fi ((s4W).view.writes (Elt F) fo
      [⟨Rect.unit (s := S4x4096) o3 S1x16.size i3, w3⟩, ⟨Rect.unit (s := S4x4096) o2 S1x16.size i2, w2⟩,
       ⟨Rect.unit (s := S4x4096) o1 S1x16.size i1, w1⟩, ⟨Rect.unit (s := S4x4096) o0 S1x16.size i0, w0⟩]) (t + 1) := by
  subst e0 e1 e2 e3
  intro j hj
  have hrow : (j 0).val < 4 := (j 0).isLt
  by_cases hc : (j 1).val < 16 * t
  · refine (read_s4 _ j).symm.trans ((View.read_writes_apply_of_forall_not_mem (Val := Elt F) (s4W).view fo j _ ?_).trans (hfo j hc))
    · intro p hp
      rcases List.mem_cons.mp hp with rfl | hp
      · intro h
        have h' : j ∈ (Rect.unit (s := S4x4096) ![3, 16 * t] S1x16.size i3).set := h
        have h1 : 16 * t ≤ (j 1).val := ((Rect.mem_set_unit.mp h') (1 : Fin 2)).1
        omega
      rcases List.mem_cons.mp hp with rfl | hp
      · intro h
        have h' : j ∈ (Rect.unit (s := S4x4096) ![2, 16 * t] S1x16.size i2).set := h
        have h1 : 16 * t ≤ (j 1).val := ((Rect.mem_set_unit.mp h') (1 : Fin 2)).1
        omega
      rcases List.mem_cons.mp hp with rfl | hp
      · intro h
        have h' : j ∈ (Rect.unit (s := S4x4096) ![1, 16 * t] S1x16.size i1).set := h
        have h1 : 16 * t ≤ (j 1).val := ((Rect.mem_set_unit.mp h') (1 : Fin 2)).1
        omega
      rcases List.mem_cons.mp hp with rfl | hp
      · intro h
        have h' : j ∈ (Rect.unit (s := S4x4096) ![0, 16 * t] S1x16.size i0).set := h
        have h1 : 16 * t ≤ (j 1).val := ((Rect.mem_set_unit.mp h') (1 : Fin 2)).1
        omega
      exact absurd hp List.not_mem_nil
  · have h1 : 16 * t ≤ (j 1).val := by omega
    have h2 : (j 1).val < 16 * t + 16 := by omega
    refine (read_s4 _ j).symm.trans (View.read_writes_apply_of_pieces (Val := Elt F) (s4W).view fo (fun y => Cert.Spec.keep (fi y)) _ ?_ j ?_)
    · intro p hp x
      rcases List.mem_cons.mp hp with rfl | hp
      · exact hw3 x
      rcases List.mem_cons.mp hp with rfl | hp
      · exact hw2 x
      rcases List.mem_cons.mp hp with rfl | hp
      · exact hw1 x
      rcases List.mem_cons.mp hp with rfl | hp
      · exact hw0 x
      exact absurd hp List.not_mem_nil
    · rcases (show (j 0).val = 0 ∨ (j 0).val = 1 ∨ (j 0).val = 2 ∨ (j 0).val = 3 by omega) with h | h | h | h
      · refine ⟨⟨Rect.unit (s := S4x4096) ![0, 16 * t] S1x16.size i0, w0⟩, List.mem_cons_of_mem _ (List.mem_cons_of_mem _ (List.mem_cons_of_mem _ List.mem_cons_self)), ?_⟩
        show j ∈ (Rect.unit (s := S4x4096) ![0, 16 * t] S1x16.size i0).set
        refine Rect.mem_set_unit.mpr (Fin.forall_fin_two.mpr ?_)
        show (0 ≤ (j 0).val ∧ (j 0).val < 0 + 1) ∧ (16 * t ≤ (j 1).val ∧ (j 1).val < 16 * t + 16)
        omega
      · refine ⟨⟨Rect.unit (s := S4x4096) ![1, 16 * t] S1x16.size i1, w1⟩, List.mem_cons_of_mem _ (List.mem_cons_of_mem _ List.mem_cons_self), ?_⟩
        show j ∈ (Rect.unit (s := S4x4096) ![1, 16 * t] S1x16.size i1).set
        refine Rect.mem_set_unit.mpr (Fin.forall_fin_two.mpr ?_)
        show (1 ≤ (j 0).val ∧ (j 0).val < 1 + 1) ∧ (16 * t ≤ (j 1).val ∧ (j 1).val < 16 * t + 16)
        omega
      · refine ⟨⟨Rect.unit (s := S4x4096) ![2, 16 * t] S1x16.size i2, w2⟩, List.mem_cons_of_mem _ List.mem_cons_self, ?_⟩
        show j ∈ (Rect.unit (s := S4x4096) ![2, 16 * t] S1x16.size i2).set
        refine Rect.mem_set_unit.mpr (Fin.forall_fin_two.mpr ?_)
        show (2 ≤ (j 0).val ∧ (j 0).val < 2 + 1) ∧ (16 * t ≤ (j 1).val ∧ (j 1).val < 16 * t + 16)
        omega
      · refine ⟨⟨Rect.unit (s := S4x4096) ![3, 16 * t] S1x16.size i3, w3⟩, List.mem_cons_self, ?_⟩
        show j ∈ (Rect.unit (s := S4x4096) ![3, 16 * t] S1x16.size i3).set
        refine Rect.mem_set_unit.mpr (Fin.forall_fin_two.mpr ?_)
        show (3 ≤ (j 0).val ∧ (j 0).val < 3 + 1) ∧ (16 * t ≤ (j 1).val ∧ (j 1).val < 16 * t + 16)
        omega

/-- The input scratch after a chunk's copy has landed holds that chunk of the argument. -/
theorem in_ok1 (c0 : BitVec 32) (h : ∀ a, (k0_off1 L c0) a + S4x4096.size a ≤ S4096x4096.size a)
    (f0 : S4x4096.Idx → F .f32) (pay : S4x4096.Idx → F .f32) (hp : ∀ j, pay j = m (aLoc d) ((aCh L c0 h).view.emb j)) :
    InOK m d L c0 h (View.write (Elt F) (s1W).view f0 pay Finset.univ) := by
  intro j
  simp only [Memref.view_whole, View.write_whole_univ]
  exact hp j

/-- What a trip stores for one row: the sixteen lanes it loaded from the input scratch, each kept or zeroed. -/
theorem pay_at2 (o : Fin 2 → Nat) (i : ∀ a, o a + S1x16.size a ≤ S4x4096.size a) (fi : S4x4096.Idx → F .f32) (x : S1x16.Idx) :
    k0_pay1 (View.readAt (Elt F) (s2W).view (Rect.unit (s := S4x4096) o S1x16.size i).toLoadRect fi) x
      = Cert.Spec.keep (fi ((Rect.unit (s := S4x4096) o S1x16.size i).emb x)) := by
  rw [pay_eq]; rfl

/-- A trip writes columns 16 t … 16 t + 15 of the four rows: the columns done grow from 16 t to 16 (t + 1). -/
theorem out_step2 {fi fo : S4x4096.Idx → F .f32} {t : Nat}
    {o0 o1 o2 o3 : Fin 2 → Nat} {i0 : ∀ a, o0 a + S1x16.size a ≤ S4x4096.size a} {i1 : ∀ a, o1 a + S1x16.size a ≤ S4x4096.size a}
    {i2 : ∀ a, o2 a + S1x16.size a ≤ S4x4096.size a} {i3 : ∀ a, o3 a + S1x16.size a ≤ S4x4096.size a}
    {w0 w1 w2 w3 : S1x16.Idx → F .f32}
    (e0 : o0 = ![0, 16 * t]) (e1 : o1 = ![1, 16 * t]) (e2 : o2 = ![2, 16 * t]) (e3 : o3 = ![3, 16 * t])
    (hw0 : ∀ x, w0 x = Cert.Spec.keep (fi ((Rect.unit (s := S4x4096) o0 S1x16.size i0).emb x)))
    (hw1 : ∀ x, w1 x = Cert.Spec.keep (fi ((Rect.unit (s := S4x4096) o1 S1x16.size i1).emb x)))
    (hw2 : ∀ x, w2 x = Cert.Spec.keep (fi ((Rect.unit (s := S4x4096) o2 S1x16.size i2).emb x)))
    (hw3 : ∀ x, w3 x = Cert.Spec.keep (fi ((Rect.unit (s := S4x4096) o3 S1x16.size i3).emb x)))
    (hfo : OutOK fi fo t) :
    OutOK fi ((s5W).view.writes (Elt F) fo
      [⟨Rect.unit (s := S4x4096) o3 S1x16.size i3, w3⟩, ⟨Rect.unit (s := S4x4096) o2 S1x16.size i2, w2⟩,
       ⟨Rect.unit (s := S4x4096) o1 S1x16.size i1, w1⟩, ⟨Rect.unit (s := S4x4096) o0 S1x16.size i0, w0⟩]) (t + 1) := by
  subst e0 e1 e2 e3
  intro j hj
  have hrow : (j 0).val < 4 := (j 0).isLt
  by_cases hc : (j 1).val < 16 * t
  · refine (read_s5 _ j).symm.trans ((View.read_writes_apply_of_forall_not_mem (Val := Elt F) (s5W).view fo j _ ?_).trans (hfo j hc))
    · intro p hp
      rcases List.mem_cons.mp hp with rfl | hp
      · intro h
        have h' : j ∈ (Rect.unit (s := S4x4096) ![3, 16 * t] S1x16.size i3).set := h
        have h1 : 16 * t ≤ (j 1).val := ((Rect.mem_set_unit.mp h') (1 : Fin 2)).1
        omega
      rcases List.mem_cons.mp hp with rfl | hp
      · intro h
        have h' : j ∈ (Rect.unit (s := S4x4096) ![2, 16 * t] S1x16.size i2).set := h
        have h1 : 16 * t ≤ (j 1).val := ((Rect.mem_set_unit.mp h') (1 : Fin 2)).1
        omega
      rcases List.mem_cons.mp hp with rfl | hp
      · intro h
        have h' : j ∈ (Rect.unit (s := S4x4096) ![1, 16 * t] S1x16.size i1).set := h
        have h1 : 16 * t ≤ (j 1).val := ((Rect.mem_set_unit.mp h') (1 : Fin 2)).1
        omega
      rcases List.mem_cons.mp hp with rfl | hp
      · intro h
        have h' : j ∈ (Rect.unit (s := S4x4096) ![0, 16 * t] S1x16.size i0).set := h
        have h1 : 16 * t ≤ (j 1).val := ((Rect.mem_set_unit.mp h') (1 : Fin 2)).1
        omega
      exact absurd hp List.not_mem_nil
  · have h1 : 16 * t ≤ (j 1).val := by omega
    have h2 : (j 1).val < 16 * t + 16 := by omega
    refine (read_s5 _ j).symm.trans (View.read_writes_apply_of_pieces (Val := Elt F) (s5W).view fo (fun y => Cert.Spec.keep (fi y)) _ ?_ j ?_)
    · intro p hp x
      rcases List.mem_cons.mp hp with rfl | hp
      · exact hw3 x
      rcases List.mem_cons.mp hp with rfl | hp
      · exact hw2 x
      rcases List.mem_cons.mp hp with rfl | hp
      · exact hw1 x
      rcases List.mem_cons.mp hp with rfl | hp
      · exact hw0 x
      exact absurd hp List.not_mem_nil
    · rcases (show (j 0).val = 0 ∨ (j 0).val = 1 ∨ (j 0).val = 2 ∨ (j 0).val = 3 by omega) with h | h | h | h
      · refine ⟨⟨Rect.unit (s := S4x4096) ![0, 16 * t] S1x16.size i0, w0⟩, List.mem_cons_of_mem _ (List.mem_cons_of_mem _ (List.mem_cons_of_mem _ List.mem_cons_self)), ?_⟩
        show j ∈ (Rect.unit (s := S4x4096) ![0, 16 * t] S1x16.size i0).set
        refine Rect.mem_set_unit.mpr (Fin.forall_fin_two.mpr ?_)
        show (0 ≤ (j 0).val ∧ (j 0).val < 0 + 1) ∧ (16 * t ≤ (j 1).val ∧ (j 1).val < 16 * t + 16)
        omega
      · refine ⟨⟨Rect.unit (s := S4x4096) ![1, 16 * t] S1x16.size i1, w1⟩, List.mem_cons_of_mem _ (List.mem_cons_of_mem _ List.mem_cons_self), ?_⟩
        show j ∈ (Rect.unit (s := S4x4096) ![1, 16 * t] S1x16.size i1).set
        refine Rect.mem_set_unit.mpr (Fin.forall_fin_two.mpr ?_)
        show (1 ≤ (j 0).val ∧ (j 0).val < 1 + 1) ∧ (16 * t ≤ (j 1).val ∧ (j 1).val < 16 * t + 16)
        omega
      · refine ⟨⟨Rect.unit (s := S4x4096) ![2, 16 * t] S1x16.size i2, w2⟩, List.mem_cons_of_mem _ List.mem_cons_self, ?_⟩
        show j ∈ (Rect.unit (s := S4x4096) ![2, 16 * t] S1x16.size i2).set
        refine Rect.mem_set_unit.mpr (Fin.forall_fin_two.mpr ?_)
        show (2 ≤ (j 0).val ∧ (j 0).val < 2 + 1) ∧ (16 * t ≤ (j 1).val ∧ (j 1).val < 16 * t + 16)
        omega
      · refine ⟨⟨Rect.unit (s := S4x4096) ![3, 16 * t] S1x16.size i3, w3⟩, List.mem_cons_self, ?_⟩
        show j ∈ (Rect.unit (s := S4x4096) ![3, 16 * t] S1x16.size i3).set
        refine Rect.mem_set_unit.mpr (Fin.forall_fin_two.mpr ?_)
        show (3 ≤ (j 0).val ∧ (j 0).val < 3 + 1) ∧ (16 * t ≤ (j 1).val ∧ (j 1).val < 16 * t + 16)
        omega

/-- The input scratch after a chunk's copy has landed holds that chunk of the argument. -/
theorem in_ok2 (c0 : BitVec 32) (h : ∀ a, (k0_off1 L c0) a + S4x4096.size a ≤ S4096x4096.size a)
    (f0 : S4x4096.Idx → F .f32) (pay : S4x4096.Idx → F .f32) (hp : ∀ j, pay j = m (aLoc d) ((aCh L c0 h).view.emb j)) :
    InOK m d L c0 h (View.write (Elt F) (s2W).view f0 pay Finset.univ) := by
  intro j
  simp only [Memref.view_whole, View.write_whole_univ]
  exact hp j

/-- A chunk of the result after the copy-out has landed: the output scratch's rows, which are the argument's chunk kept or zeroed. -/
theorem out_piece (c0 : BitVec 32) (h : ∀ a, (k0_off1 L c0) a + S4x4096.size a ≤ S4096x4096.size a)
    (g : Buf (Elt F) (oLoc d)) (pay fi fo : S4x4096.Idx → F .f32) (T : Nat) (hT : 4096 ≤ 16 * T)
    (hp : ∀ j, pay j = fo j) (hfi : InOK m d L c0 h fi) (hfo : OutOK fi fo T) :
    ((oCh L c0 h).view.loc (V d (cV L) (jV L)) ↦[(oCh L c0 h).view.set]{fullShare} (oCh L c0 h).view.writes (Elt F) g [⟨Rect.whole S4x4096, pay⟩] : sProp 𝕄)
      = (oCh L c0 h).view.loc (V d (cV L) (jV L)) ↦[(oCh L c0 h).view.set]{fullShare} Gm m d := by
  refine pointsTo_congr fun i hi => ?_
  obtain ⟨j, -, rfl⟩ := Finset.mem_map.mp hi
  have hj : (j 1).val < 16 * T := lt_of_lt_of_le (j 1).isLt hT
  have e : (oCh L c0 h).view.emb j = ((oCh L c0 h).view.slice (Rect.whole S4x4096)).emb j := by
    show _ = (oCh L c0 h).view.emb ((Rect.whole S4x4096).emb j)
    rw [Rect.emb_whole_apply]
  show (((oCh L c0 h).view.slice (Rect.whole S4x4096)).write (Elt F) g pay Finset.univ) ((oCh L c0 h).view.emb j) = _
  rw [e, View.write_emb_of_mem _ _ (Finset.mem_univ j), cast_eq, hp j, hfo j hj, hfi j, ← e]
  rfl

end Tile

end Cert.Proof.KB

end
-- ==== Proof.TileB.lean ====
/-
  The whole task of one vector subcore, run from its 32 chunks of the two arrays, its six scratches and its six semaphores at
  zero: chunk after chunk the input copy is waited for, the loop fills the output scratch with the kept-or-zeroed entries
  (the invariant: the columns done so far), the copy-out is issued and the next input copy started. At the end every chunk
  of the result holds the argument's chunk, each entry kept if above one half and zero otherwise.
-/
import proofs.«207063_g69217692942512_cont_9to1_m_457_27_alg».proof.Proof.TileLemB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "aW" => (Memref.whole Cert.Kernel.main_arg0_scv : Memref Cert.Kernel.sig Kind.scVector Space.hbm Cert.Kernel.S4096x4096 EltTy.f32)
local notation "oW" => (Memref.whole Cert.Kernel.main_v0_scv : Memref Cert.Kernel.sig Kind.scVector Space.hbm Cert.Kernel.S4096x4096 EltTy.f32)
local notation "s0W" => (Memref.whole Cert.Kernel.cc0_scratch0 : Memref Cert.Kernel.sig Kind.scVector Space.vmem Cert.Kernel.S4x4096 EltTy.f32)
local notation "s1W" => (Memref.whole Cert.Kernel.cc0_scratch1 : Memref Cert.Kernel.sig Kind.scVector Space.vmem Cert.Kernel.S4x4096 EltTy.f32)
local notation "s2W" => (Memref.whole Cert.Kernel.cc0_scratch2 : Memref Cert.Kernel.sig Kind.scVector Space.vmem Cert.Kernel.S4x4096 EltTy.f32)
local notation "s3W" => (Memref.whole Cert.Kernel.cc0_scratch3 : Memref Cert.Kernel.sig Kind.scVector Space.vmem Cert.Kernel.S4x4096 EltTy.f32)
local notation "s4W" => (Memref.whole Cert.Kernel.cc0_scratch4 : Memref Cert.Kernel.sig Kind.scVector Space.vmem Cert.Kernel.S4x4096 EltTy.f32)
local notation "s5W" => (Memref.whole Cert.Kernel.cc0_scratch5 : Memref Cert.Kernel.sig Kind.scVector Space.vmem Cert.Kernel.S4x4096 EltTy.f32)

variable [FloatOps F]

section Tile

variable (d : Dev nD) (L : grid0.Coords)

set_option maxHeartbeats 16000000 in
/-- The task on vector subcore (L 0, L 1) of device `d`. -/
theorem tile_body (hF : (K (F := F)).Facts) (O : CellTallies nD τ sig (HIx 1)) (W : Waits sig (HIx 1)) (hO : ∀ g, O g none = 0) :
    iprop(levAts (K (F := F)).L (K (F := F)).lev ∗ emp
        ∗ (aPieces d L (m (aLoc d)) ∗ oPieces d L (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_mask L aW (Memref.isWhole_whole _) oW (Memref.isWhole_whole _)
            s0W (Memref.isWhole_whole _) s1W (Memref.isWhole_whole _) s2W (Memref.isWhole_whole _)
            s3W (Memref.isWhole_whole _) s4W (Memref.isWhole_whole _) s5W (Memref.isWhole_whole _)
            cc0_scratch6 cc0_scratch7 cc0_scratch8 cc0_scratch9 cc0_scratch10 cc0_scratch11)
          fun _ => iprop((aPieces d L (m (aLoc d)) ∗ oPieces d L (Gm m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_mask_eq_skeleton]; unfold cc0__sc_mask_skel
  rw [(K (F := F)).scopedBufs_V hF d (cV L) (jV L), SparseCore.Cfg.scopedSems0_V (Val := Elt F) d (cV L) (jV L), ownSems0_V, ownBufs_V]
  unfold aPieces oPieces
  iintro ⟨#Hlv, -, ⟨⟨Ha0, Ha1, Ha2, Ha3, Ha4, Ha5, Ha6, Ha7, Ha8, Ha9, Ha10, Ha11, Ha12, Ha13, Ha14, Ha15, Ha16, Ha17, Ha18, Ha19, Ha20, Ha21, Ha22, Ha23, Ha24, Ha25, Ha26, Ha27, Ha28, Ha29, Ha30, Ha31⟩, ⟨Ho0, Ho1, Ho2, Ho3, Ho4, Ho5, Ho6, Ho7, Ho8, Ho9, Ho10, Ho11, Ho12, Ho13, Ho14, Ho15, Ho16, Ho17, Ho18, Ho19, Ho20, Ho21, Ho22, Ho23, Ho24, Ho25, Ho26, Ho27, Ho28, Ho29, Ho30, Ho31⟩⟩,
    ⟨⟨%f0, Hs0⟩, ⟨%f1, Hs1⟩, ⟨%f2, Hs2⟩, ⟨%f3, Hs3⟩, ⟨%f4, Hs4⟩, ⟨%f5, Hs5⟩, Hbufs⟩, ⟨Hc6, Hc7, Hc8, Hc9, Hc10, Hc11, Hsems⟩, HO⟩
  ihave Hmw := ((K (F := F)).mayWaits_none (thr := (V d (cV L) (jV L))) hO) $$ Hlv
  ihave Hb0 := (Entails.of_eq (pts_s0 (F := F) d L _).symm) $$ Hs0
  ihave Hb1 := (Entails.of_eq (pts_s1 (F := F) d L _).symm) $$ Hs1
  ihave Hb2 := (Entails.of_eq (pts_s2 (F := F) d L _).symm) $$ Hs2
  ihave Hb3 := (Entails.of_eq (pts_s3 (F := F) d L _).symm) $$ Hs3
  ihave Hb4 := (Entails.of_eq (pts_s4 (F := F) d L _).symm) $$ Hs4
  ihave Hb5 := (Entails.of_eq (pts_s5 (F := F) d L _).symm) $$ Hs5
  -- chunk 0: its loop over the 256 column groups
  sl_exec_parts
  sl_for (linv0 m d L 0#32 (k0_off1_inb L 0)) $$ [Hb0 Hb3]
  case region =>
    intro t _
    unfold linv0
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step0 (i0 := k0_off2_inb t) (i1 := k0_off3_inb t) (i2 := k0_off4_inb t) (i3 := k0_off5_inb t)
        (k0_off2_eq t) (k0_off3_eq t) (k0_off4_eq t) (k0_off5_eq t)
        (fun x => pay_at0 _ (k0_off2_inb t) fi x) (fun x => pay_at0 _ (k0_off3_inb t) fi x)
        (fun x => pay_at0 _ (k0_off4_inb t) fi x) (fun x => pay_at0 _ (k0_off5_inb t) fi x) hfo
  · unfold linv0
    iexists _; isplitr
    rotate_left
    · isplitl [Hb0]
      · iexact Hb0
      iexists _; isplitr
      rotate_left
      · iexact Hb3
      · ipureintro; exact fun j hj => absurd hj (by omega)
    · ipureintro; exact in_ok0 m d L _ _ _ _ (fun j => rfl)
  iintro %_ HI
  unfold linv0
  icases HI with ⟨%fi0, %hfi0, Hb0, %fo0, %hfo0, Hb3⟩
  -- chunk 1: its loop over the 256 column groups
  sl_exec_parts
  sl_for (linv1 m d L 4#32 (k0_off1_inb L 1)) $$ [Hb1 Hb4]
  case region =>
    intro t _
    unfold linv1
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step1 (i0 := k0_off6_inb t) (i1 := k0_off7_inb t) (i2 := k0_off8_inb t) (i3 := k0_off9_inb t)
        (k0_off6_eq t) (k0_off7_eq t) (k0_off8_eq t) (k0_off9_eq t)
        (fun x => pay_at1 _ (k0_off6_inb t) fi x) (fun x => pay_at1 _ (k0_off7_inb t) fi x)
        (fun x => pay_at1 _ (k0_off8_inb t) fi x) (fun x => pay_at1 _ (k0_off9_inb t) fi x) hfo
  · unfold linv1
    iexists _; isplitr
    rotate_left
    · isplitl [Hb1]
      · iexact Hb1
      iexists _; isplitr
      rotate_left
      · iexact Hb4
      · ipureintro; exact fun j hj => absurd hj (by omega)
    · ipureintro; exact in_ok1 m d L _ _ _ _ (fun j => rfl)
  iintro %_ HI
  unfold linv1
  icases HI with ⟨%fi1, %hfi1, Hb1, %fo1, %hfo1, Hb4⟩
  -- chunk 2: its loop over the 256 column groups
  sl_exec_parts
  sl_for (linv2 m d L 8#32 (k0_off1_inb L 2)) $$ [Hb2 Hb5]
  case region =>
    intro t _
    unfold linv2
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step2 (i0 := k0_off10_inb t) (i1 := k0_off11_inb t) (i2 := k0_off12_inb t) (i3 := k0_off13_inb t)
        (k0_off10_eq t) (k0_off11_eq t) (k0_off12_eq t) (k0_off13_eq t)
        (fun x => pay_at2 _ (k0_off10_inb t) fi x) (fun x => pay_at2 _ (k0_off11_inb t) fi x)
        (fun x => pay_at2 _ (k0_off12_inb t) fi x) (fun x => pay_at2 _ (k0_off13_inb t) fi x) hfo
  · unfold linv2
    iexists _; isplitr
    rotate_left
    · isplitl [Hb2]
      · iexact Hb2
      iexists _; isplitr
      rotate_left
      · iexact Hb5
      · ipureintro; exact fun j hj => absurd hj (by omega)
    · ipureintro; exact in_ok2 m d L _ _ _ _ (fun j => rfl)
  iintro %_ HI
  unfold linv2
  icases HI with ⟨%fi2, %hfi2, Hb2, %fo2, %hfo2, Hb5⟩
  -- chunk 3: its loop over the 256 column groups
  sl_exec_parts
  sl_for (linv0 m d L 12#32 (k0_off1_inb L 3)) $$ [Hb0 Hb3]
  case region =>
    intro t _
    unfold linv0
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step0 (i0 := k0_off14_inb t) (i1 := k0_off15_inb t) (i2 := k0_off16_inb t) (i3 := k0_off17_inb t)
        (k0_off14_eq t) (k0_off15_eq t) (k0_off16_eq t) (k0_off17_eq t)
        (fun x => pay_at0 _ (k0_off14_inb t) fi x) (fun x => pay_at0 _ (k0_off15_inb t) fi x)
        (fun x => pay_at0 _ (k0_off16_inb t) fi x) (fun x => pay_at0 _ (k0_off17_inb t) fi x) hfo
  · unfold linv0
    iexists _; isplitr
    rotate_left
    · isplitl [Hb0]
      · iexact Hb0
      iexists _; isplitr
      rotate_left
      · iexact Hb3
      · ipureintro; exact fun j hj => absurd hj (by omega)
    · ipureintro; exact in_ok0 m d L _ _ _ _ (fun j => rfl)
  iintro %_ HI
  unfold linv0
  icases HI with ⟨%fi3, %hfi3, Hb0, %fo3, %hfo3, Hb3⟩
  -- chunk 4: its loop over the 256 column groups
  sl_exec_parts
  sl_for (linv1 m d L 16#32 (k0_off1_inb L 4)) $$ [Hb1 Hb4]
  case region =>
    intro t _
    unfold linv1
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step1 (i0 := k0_off18_inb t) (i1 := k0_off19_inb t) (i2 := k0_off20_inb t) (i3 := k0_off21_inb t)
        (k0_off18_eq t) (k0_off19_eq t) (k0_off20_eq t) (k0_off21_eq t)
        (fun x => pay_at1 _ (k0_off18_inb t) fi x) (fun x => pay_at1 _ (k0_off19_inb t) fi x)
        (fun x => pay_at1 _ (k0_off20_inb t) fi x) (fun x => pay_at1 _ (k0_off21_inb t) fi x) hfo
  · unfold linv1
    iexists _; isplitr
    rotate_left
    · isplitl [Hb1]
      · iexact Hb1
      iexists _; isplitr
      rotate_left
      · iexact Hb4
      · ipureintro; exact fun j hj => absurd hj (by omega)
    · ipureintro; exact in_ok1 m d L _ _ _ _ (fun j => rfl)
  iintro %_ HI
  unfold linv1
  icases HI with ⟨%fi4, %hfi4, Hb1, %fo4, %hfo4, Hb4⟩
  -- chunk 5: its loop over the 256 column groups
  sl_exec_parts
  sl_for (linv2 m d L 20#32 (k0_off1_inb L 5)) $$ [Hb2 Hb5]
  case region =>
    intro t _
    unfold linv2
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step2 (i0 := k0_off22_inb t) (i1 := k0_off23_inb t) (i2 := k0_off24_inb t) (i3 := k0_off25_inb t)
        (k0_off22_eq t) (k0_off23_eq t) (k0_off24_eq t) (k0_off25_eq t)
        (fun x => pay_at2 _ (k0_off22_inb t) fi x) (fun x => pay_at2 _ (k0_off23_inb t) fi x)
        (fun x => pay_at2 _ (k0_off24_inb t) fi x) (fun x => pay_at2 _ (k0_off25_inb t) fi x) hfo
  · unfold linv2
    iexists _; isplitr
    rotate_left
    · isplitl [Hb2]
      · iexact Hb2
      iexists _; isplitr
      rotate_left
      · iexact Hb5
      · ipureintro; exact fun j hj => absurd hj (by omega)
    · ipureintro; exact in_ok2 m d L _ _ _ _ (fun j => rfl)
  iintro %_ HI
  unfold linv2
  icases HI with ⟨%fi5, %hfi5, Hb2, %fo5, %hfo5, Hb5⟩
  -- chunk 6: its loop over the 256 column groups
  sl_exec_parts
  sl_for (linv0 m d L 24#32 (k0_off1_inb L 6)) $$ [Hb0 Hb3]
  case region =>
    intro t _
    unfold linv0
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step0 (i0 := k0_off26_inb t) (i1 := k0_off27_inb t) (i2 := k0_off28_inb t) (i3 := k0_off29_inb t)
        (k0_off26_eq t) (k0_off27_eq t) (k0_off28_eq t) (k0_off29_eq t)
        (fun x => pay_at0 _ (k0_off26_inb t) fi x) (fun x => pay_at0 _ (k0_off27_inb t) fi x)
        (fun x => pay_at0 _ (k0_off28_inb t) fi x) (fun x => pay_at0 _ (k0_off29_inb t) fi x) hfo
  · unfold linv0
    iexists _; isplitr
    rotate_left
    · isplitl [Hb0]
      · iexact Hb0
      iexists _; isplitr
      rotate_left
      · iexact Hb3
      · ipureintro; exact fun j hj => absurd hj (by omega)
    · ipureintro; exact in_ok0 m d L _ _ _ _ (fun j => rfl)
  iintro %_ HI
  unfold linv0
  icases HI with ⟨%fi6, %hfi6, Hb0, %fo6, %hfo6, Hb3⟩
  -- chunk 7: its loop over the 256 column groups
  sl_exec_parts
  sl_for (linv1 m d L 28#32 (k0_off1_inb L 7)) $$ [Hb1 Hb4]
  case region =>
    intro t _
    unfold linv1
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step1 (i0 := k0_off30_inb t) (i1 := k0_off31_inb t) (i2 := k0_off32_inb t) (i3 := k0_off33_inb t)
        (k0_off30_eq t) (k0_off31_eq t) (k0_off32_eq t) (k0_off33_eq t)
        (fun x => pay_at1 _ (k0_off30_inb t) fi x) (fun x => pay_at1 _ (k0_off31_inb t) fi x)
        (fun x => pay_at1 _ (k0_off32_inb t) fi x) (fun x => pay_at1 _ (k0_off33_inb t) fi x) hfo
  · unfold linv1
    iexists _; isplitr
    rotate_left
    · isplitl [Hb1]
      · iexact Hb1
      iexists _; isplitr
      rotate_left
      · iexact Hb4
      · ipureintro; exact fun j hj => absurd hj (by omega)
    · ipureintro; exact in_ok1 m d L _ _ _ _ (fun j => rfl)
  iintro %_ HI
  unfold linv1
  icases HI with ⟨%fi7, %hfi7, Hb1, %fo7, %hfo7, Hb4⟩
  -- chunk 8: its loop over the 256 column groups
  sl_exec_parts
  sl_for (linv2 m d L 32#32 (k0_off1_inb L 8)) $$ [Hb2 Hb5]
  case region =>
    intro t _
    unfold linv2
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step2 (i0 := k0_off34_inb t) (i1 := k0_off35_inb t) (i2 := k0_off36_inb t) (i3 := k0_off37_inb t)
        (k0_off34_eq t) (k0_off35_eq t) (k0_off36_eq t) (k0_off37_eq t)
        (fun x => pay_at2 _ (k0_off34_inb t) fi x) (fun x => pay_at2 _ (k0_off35_inb t) fi x)
        (fun x => pay_at2 _ (k0_off36_inb t) fi x) (fun x => pay_at2 _ (k0_off37_inb t) fi x) hfo
  · unfold linv2
    iexists _; isplitr
    rotate_left
    · isplitl [Hb2]
      · iexact Hb2
      iexists _; isplitr
      rotate_left
      · iexact Hb5
      · ipureintro; exact fun j hj => absurd hj (by omega)
    · ipureintro; exact in_ok2 m d L _ _ _ _ (fun j => rfl)
  iintro %_ HI
  unfold linv2
  icases HI with ⟨%fi8, %hfi8, Hb2, %fo8, %hfo8, Hb5⟩
  -- chunk 9: its loop over the 256 column groups
  sl_exec_parts
  sl_for (linv0 m d L 36#32 (k0_off1_inb L 9)) $$ [Hb0 Hb3]
  case region =>
    intro t _
    unfold linv0
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step0 (i0 := k0_off38_inb t) (i1 := k0_off39_inb t) (i2 := k0_off40_inb t) (i3 := k0_off41_inb t)
        (k0_off38_eq t) (k0_off39_eq t) (k0_off40_eq t) (k0_off41_eq t)
        (fun x => pay_at0 _ (k0_off38_inb t) fi x) (fun x => pay_at0 _ (k0_off39_inb t) fi x)
        (fun x => pay_at0 _ (k0_off40_inb t) fi x) (fun x => pay_at0 _ (k0_off41_inb t) fi x) hfo
  · unfold linv0
    iexists _; isplitr
    rotate_left
    · isplitl [Hb0]
      · iexact Hb0
      iexists _; isplitr
      rotate_left
      · iexact Hb3
      · ipureintro; exact fun j hj => absurd hj (by omega)
    · ipureintro; exact in_ok0 m d L _ _ _ _ (fun j => rfl)
  iintro %_ HI
  unfold linv0
  icases HI with ⟨%fi9, %hfi9, Hb0, %fo9, %hfo9, Hb3⟩
  -- chunk 10: its loop over the 256 column groups
  sl_exec_parts
  sl_for (linv1 m d L 40#32 (k0_off1_inb L 10)) $$ [Hb1 Hb4]
  case region =>
    intro t _
    unfold linv1
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step1 (i0 := k0_off42_inb t) (i1 := k0_off43_inb t) (i2 := k0_off44_inb t) (i3 := k0_off45_inb t)
        (k0_off42_eq t) (k0_off43_eq t) (k0_off44_eq t) (k0_off45_eq t)
        (fun x => pay_at1 _ (k0_off42_inb t) fi x) (fun x => pay_at1 _ (k0_off43_inb t) fi x)
        (fun x => pay_at1 _ (k0_off44_inb t) fi x) (fun x => pay_at1 _ (k0_off45_inb t) fi x) hfo
  · unfold linv1
    iexists _; isplitr
    rotate_left
    · isplitl [Hb1]
      · iexact Hb1
      iexists _; isplitr
      rotate_left
      · iexact Hb4
      · ipureintro; exact fun j hj => absurd hj (by omega)
    · ipureintro; exact in_ok1 m d L _ _ _ _ (fun j => rfl)
  iintro %_ HI
  unfold linv1
  icases HI with ⟨%fi10, %hfi10, Hb1, %fo10, %hfo10, Hb4⟩
  -- chunk 11: its loop over the 256 column groups
  sl_exec_parts
  sl_for (linv2 m d L 44#32 (k0_off1_inb L 11)) $$ [Hb2 Hb5]
  case region =>
    intro t _
    unfold linv2
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step2 (i0 := k0_off46_inb t) (i1 := k0_off47_inb t) (i2 := k0_off48_inb t) (i3 := k0_off49_inb t)
        (k0_off46_eq t) (k0_off47_eq t) (k0_off48_eq t) (k0_off49_eq t)
        (fun x => pay_at2 _ (k0_off46_inb t) fi x) (fun x => pay_at2 _ (k0_off47_inb t) fi x)
        (fun x => pay_at2 _ (k0_off48_inb t) fi x) (fun x => pay_at2 _ (k0_off49_inb t) fi x) hfo
  · unfold linv2
    iexists _; isplitr
    rotate_left
    · isplitl [Hb2]
      · iexact Hb2
      iexists _; isplitr
      rotate_left
      · iexact Hb5
      · ipureintro; exact fun j hj => absurd hj (by omega)
    · ipureintro; exact in_ok2 m d L _ _ _ _ (fun j => rfl)
  iintro %_ HI
  unfold linv2
  icases HI with ⟨%fi11, %hfi11, Hb2, %fo11, %hfo11, Hb5⟩
  -- chunk 12: its loop over the 256 column groups
  sl_exec_parts
  sl_for (linv0 m d L 48#32 (k0_off1_inb L 12)) $$ [Hb0 Hb3]
  case region =>
    intro t _
    unfold linv0
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step0 (i0 := k0_off50_inb t) (i1 := k0_off51_inb t) (i2 := k0_off52_inb t) (i3 := k0_off53_inb t)
        (k0_off50_eq t) (k0_off51_eq t) (k0_off52_eq t) (k0_off53_eq t)
        (fun x => pay_at0 _ (k0_off50_inb t) fi x) (fun x => pay_at0 _ (k0_off51_inb t) fi x)
        (fun x => pay_at0 _ (k0_off52_inb t) fi x) (fun x => pay_at0 _ (k0_off53_inb t) fi x) hfo
  · unfold linv0
    iexists _; isplitr
    rotate_left
    · isplitl [Hb0]
      · iexact Hb0
      iexists _; isplitr
      rotate_left
      · iexact Hb3
      · ipureintro; exact fun j hj => absurd hj (by omega)
    · ipureintro; exact in_ok0 m d L _ _ _ _ (fun j => rfl)
  iintro %_ HI
  unfold linv0
  icases HI with ⟨%fi12, %hfi12, Hb0, %fo12, %hfo12, Hb3⟩
  -- chunk 13: its loop over the 256 column groups
  sl_exec_parts
  sl_for (linv1 m d L 52#32 (k0_off1_inb L 13)) $$ [Hb1 Hb4]
  case region =>
    intro t _
    unfold linv1
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step1 (i0 := k0_off54_inb t) (i1 := k0_off55_inb t) (i2 := k0_off56_inb t) (i3 := k0_off57_inb t)
        (k0_off54_eq t) (k0_off55_eq t) (k0_off56_eq t) (k0_off57_eq t)
        (fun x => pay_at1 _ (k0_off54_inb t) fi x) (fun x => pay_at1 _ (k0_off55_inb t) fi x)
        (fun x => pay_at1 _ (k0_off56_inb t) fi x) (fun x => pay_at1 _ (k0_off57_inb t) fi x) hfo
  · unfold linv1
    iexists _; isplitr
    rotate_left
    · isplitl [Hb1]
      · iexact Hb1
      iexists _; isplitr
      rotate_left
      · iexact Hb4
      · ipureintro; exact fun j hj => absurd hj (by omega)
    · ipureintro; exact in_ok1 m d L _ _ _ _ (fun j => rfl)
  iintro %_ HI
  unfold linv1
  icases HI with ⟨%fi13, %hfi13, Hb1, %fo13, %hfo13, Hb4⟩
  -- chunk 14: its loop over the 256 column groups
  sl_exec_parts
  sl_for (linv2 m d L 56#32 (k0_off1_inb L 14)) $$ [Hb2 Hb5]
  case region =>
    intro t _
    unfold linv2
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step2 (i0 := k0_off58_inb t) (i1 := k0_off59_inb t) (i2 := k0_off60_inb t) (i3 := k0_off61_inb t)
        (k0_off58_eq t) (k0_off59_eq t) (k0_off60_eq t) (k0_off61_eq t)
        (fun x => pay_at2 _ (k0_off58_inb t) fi x) (fun x => pay_at2 _ (k0_off59_inb t) fi x)
        (fun x => pay_at2 _ (k0_off60_inb t) fi x) (fun x => pay_at2 _ (k0_off61_inb t) fi x) hfo
  · unfold linv2
    iexists _; isplitr
    rotate_left
    · isplitl [Hb2]
      · iexact Hb2
      iexists _; isplitr
      rotate_left
      · iexact Hb5
      · ipureintro; exact fun j hj => absurd hj (by omega)
    · ipureintro; exact in_ok2 m d L _ _ _ _ (fun j => rfl)
  iintro %_ HI
  unfold linv2
  icases HI with ⟨%fi14, %hfi14, Hb2, %fo14, %hfo14, Hb5⟩
  -- chunk 15: its loop over the 256 column groups
  sl_exec_parts
  sl_for (linv0 m d L 60#32 (k0_off1_inb L 15)) $$ [Hb0 Hb3]
  case region =>
    intro t _
    unfold linv0
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step0 (i0 := k0_off62_inb t) (i1 := k0_off63_inb t) (i2 := k0_off64_inb t) (i3 := k0_off65_inb t)
        (k0_off62_eq t) (k0_off63_eq t) (k0_off64_eq t) (k0_off65_eq t)
        (fun x => pay_at0 _ (k0_off62_inb t) fi x) (fun x => pay_at0 _ (k0_off63_inb t) fi x)
        (fun x => pay_at0 _ (k0_off64_inb t) fi x) (fun x => pay_at0 _ (k0_off65_inb t) fi x) hfo
  · unfold linv0
    iexists _; isplitr
    rotate_left
    · isplitl [Hb0]
      · iexact Hb0
      iexists _; isplitr
      rotate_left
      · iexact Hb3
      · ipureintro; exact fun j hj => absurd hj (by omega)
    · ipureintro; exact in_ok0 m d L _ _ _ _ (fun j => rfl)
  iintro %_ HI
  unfold linv0
  icases HI with ⟨%fi15, %hfi15, Hb0, %fo15, %hfo15, Hb3⟩
  -- chunk 16: its loop over the 256 column groups
  sl_exec_parts
  sl_for (linv1 m d L 64#32 (k0_off1_inb L 16)) $$ [Hb1 Hb4]
  case region =>
    intro t _
    unfold linv1
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step1 (i0 := k0_off66_inb t) (i1 := k0_off67_inb t) (i2 := k0_off68_inb t) (i3 := k0_off69_inb t)
        (k0_off66_eq t) (k0_off67_eq t) (k0_off68_eq t) (k0_off69_eq t)
        (fun x => pay_at1 _ (k0_off66_inb t) fi x) (fun x => pay_at1 _ (k0_off67_inb t) fi x)
        (fun x => pay_at1 _ (k0_off68_inb t) fi x) (fun x => pay_at1 _ (k0_off69_inb t) fi x) hfo
  · unfold linv1
    iexists _; isplitr
    rotate_left
    · isplitl [Hb1]
      · iexact Hb1
      iexists _; isplitr
      rotate_left
      · iexact Hb4
      · ipureintro; exact fun j hj => absurd hj (by omega)
    · ipureintro; exact in_ok1 m d L _ _ _ _ (fun j => rfl)
  iintro %_ HI
  unfold linv1
  icases HI with ⟨%fi16, %hfi16, Hb1, %fo16, %hfo16, Hb4⟩
  -- chunk 17: its loop over the 256 column groups
  sl_exec_parts
  sl_for (linv2 m d L 68#32 (k0_off1_inb L 17)) $$ [Hb2 Hb5]
  case region =>
    intro t _
    unfold linv2
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step2 (i0 := k0_off70_inb t) (i1 := k0_off71_inb t) (i2 := k0_off72_inb t) (i3 := k0_off73_inb t)
        (k0_off70_eq t) (k0_off71_eq t) (k0_off72_eq t) (k0_off73_eq t)
        (fun x => pay_at2 _ (k0_off70_inb t) fi x) (fun x => pay_at2 _ (k0_off71_inb t) fi x)
        (fun x => pay_at2 _ (k0_off72_inb t) fi x) (fun x => pay_at2 _ (k0_off73_inb t) fi x) hfo
  · unfold linv2
    iexists _; isplitr
    rotate_left
    · isplitl [Hb2]
      · iexact Hb2
      iexists _; isplitr
      rotate_left
      · iexact Hb5
      · ipureintro; exact fun j hj => absurd hj (by omega)
    · ipureintro; exact in_ok2 m d L _ _ _ _ (fun j => rfl)
  iintro %_ HI
  unfold linv2
  icases HI with ⟨%fi17, %hfi17, Hb2, %fo17, %hfo17, Hb5⟩
  -- chunk 18: its loop over the 256 column groups
  sl_exec_parts
  sl_for (linv0 m d L 72#32 (k0_off1_inb L 18)) $$ [Hb0 Hb3]
  case region =>
    intro t _
    unfold linv0
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step0 (i0 := k0_off74_inb t) (i1 := k0_off75_inb t) (i2 := k0_off76_inb t) (i3 := k0_off77_inb t)
        (k0_off74_eq t) (k0_off75_eq t) (k0_off76_eq t) (k0_off77_eq t)
        (fun x => pay_at0 _ (k0_off74_inb t) fi x) (fun x => pay_at0 _ (k0_off75_inb t) fi x)
        (fun x => pay_at0 _ (k0_off76_inb t) fi x) (fun x => pay_at0 _ (k0_off77_inb t) fi x) hfo
  · unfold linv0
    iexists _; isplitr
    rotate_left
    · isplitl [Hb0]
      · iexact Hb0
      iexists _; isplitr
      rotate_left
      · iexact Hb3
      · ipureintro; exact fun j hj => absurd hj (by omega)
    · ipureintro; exact in_ok0 m d L _ _ _ _ (fun j => rfl)
  iintro %_ HI
  unfold linv0
  icases HI with ⟨%fi18, %hfi18, Hb0, %fo18, %hfo18, Hb3⟩
  -- chunk 19: its loop over the 256 column groups
  sl_exec_parts
  sl_for (linv1 m d L 76#32 (k0_off1_inb L 19)) $$ [Hb1 Hb4]
  case region =>
    intro t _
    unfold linv1
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step1 (i0 := k0_off78_inb t) (i1 := k0_off79_inb t) (i2 := k0_off80_inb t) (i3 := k0_off81_inb t)
        (k0_off78_eq t) (k0_off79_eq t) (k0_off80_eq t) (k0_off81_eq t)
        (fun x => pay_at1 _ (k0_off78_inb t) fi x) (fun x => pay_at1 _ (k0_off79_inb t) fi x)
        (fun x => pay_at1 _ (k0_off80_inb t) fi x) (fun x => pay_at1 _ (k0_off81_inb t) fi x) hfo
  · unfold linv1
    iexists _; isplitr
    rotate_left
    · isplitl [Hb1]
      · iexact Hb1
      iexists _; isplitr
      rotate_left
      · iexact Hb4
      · ipureintro; exact fun j hj => absurd hj (by omega)
    · ipureintro; exact in_ok1 m d L _ _ _ _ (fun j => rfl)
  iintro %_ HI
  unfold linv1
  icases HI with ⟨%fi19, %hfi19, Hb1, %fo19, %hfo19, Hb4⟩
  -- chunk 20: its loop over the 256 column groups
  sl_exec_parts
  sl_for (linv2 m d L 80#32 (k0_off1_inb L 20)) $$ [Hb2 Hb5]
  case region =>
    intro t _
    unfold linv2
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step2 (i0 := k0_off82_inb t) (i1 := k0_off83_inb t) (i2 := k0_off84_inb t) (i3 := k0_off85_inb t)
        (k0_off82_eq t) (k0_off83_eq t) (k0_off84_eq t) (k0_off85_eq t)
        (fun x => pay_at2 _ (k0_off82_inb t) fi x) (fun x => pay_at2 _ (k0_off83_inb t) fi x)
        (fun x => pay_at2 _ (k0_off84_inb t) fi x) (fun x => pay_at2 _ (k0_off85_inb t) fi x) hfo
  · unfold linv2
    iexists _; isplitr
    rotate_left
    · isplitl [Hb2]
      · iexact Hb2
      iexists _; isplitr
      rotate_left
      · iexact Hb5
      · ipureintro; exact fun j hj => absurd hj (by omega)
    · ipureintro; exact in_ok2 m d L _ _ _ _ (fun j => rfl)
  iintro %_ HI
  unfold linv2
  icases HI with ⟨%fi20, %hfi20, Hb2, %fo20, %hfo20, Hb5⟩
  -- chunk 21: its loop over the 256 column groups
  sl_exec_parts
  sl_for (linv0 m d L 84#32 (k0_off1_inb L 21)) $$ [Hb0 Hb3]
  case region =>
    intro t _
    unfold linv0
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step0 (i0 := k0_off86_inb t) (i1 := k0_off87_inb t) (i2 := k0_off88_inb t) (i3 := k0_off89_inb t)
        (k0_off86_eq t) (k0_off87_eq t) (k0_off88_eq t) (k0_off89_eq t)
        (fun x => pay_at0 _ (k0_off86_inb t) fi x) (fun x => pay_at0 _ (k0_off87_inb t) fi x)
        (fun x => pay_at0 _ (k0_off88_inb t) fi x) (fun x => pay_at0 _ (k0_off89_inb t) fi x) hfo
  · unfold linv0
    iexists _; isplitr
    rotate_left
    · isplitl [Hb0]
      · iexact Hb0
      iexists _; isplitr
      rotate_left
      · iexact Hb3
      · ipureintro; exact fun j hj => absurd hj (by omega)
    · ipureintro; exact in_ok0 m d L _ _ _ _ (fun j => rfl)
  iintro %_ HI
  unfold linv0
  icases HI with ⟨%fi21, %hfi21, Hb0, %fo21, %hfo21, Hb3⟩
  -- chunk 22: its loop over the 256 column groups
  sl_exec_parts
  sl_for (linv1 m d L 88#32 (k0_off1_inb L 22)) $$ [Hb1 Hb4]
  case region =>
    intro t _
    unfold linv1
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step1 (i0 := k0_off90_inb t) (i1 := k0_off91_inb t) (i2 := k0_off92_inb t) (i3 := k0_off93_inb t)
        (k0_off90_eq t) (k0_off91_eq t) (k0_off92_eq t) (k0_off93_eq t)
        (fun x => pay_at1 _ (k0_off90_inb t) fi x) (fun x => pay_at1 _ (k0_off91_inb t) fi x)
        (fun x => pay_at1 _ (k0_off92_inb t) fi x) (fun x => pay_at1 _ (k0_off93_inb t) fi x) hfo
  · unfold linv1
    iexists _; isplitr
    rotate_left
    · isplitl [Hb1]
      · iexact Hb1
      iexists _; isplitr
      rotate_left
      · iexact Hb4
      · ipureintro; exact fun j hj => absurd hj (by omega)
    · ipureintro; exact in_ok1 m d L _ _ _ _ (fun j => rfl)
  iintro %_ HI
  unfold linv1
  icases HI with ⟨%fi22, %hfi22, Hb1, %fo22, %hfo22, Hb4⟩
  -- chunk 23: its loop over the 256 column groups
  sl_exec_parts
  sl_for (linv2 m d L 92#32 (k0_off1_inb L 23)) $$ [Hb2 Hb5]
  case region =>
    intro t _
    unfold linv2
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step2 (i0 := k0_off94_inb t) (i1 := k0_off95_inb t) (i2 := k0_off96_inb t) (i3 := k0_off97_inb t)
        (k0_off94_eq t) (k0_off95_eq t) (k0_off96_eq t) (k0_off97_eq t)
        (fun x => pay_at2 _ (k0_off94_inb t) fi x) (fun x => pay_at2 _ (k0_off95_inb t) fi x)
        (fun x => pay_at2 _ (k0_off96_inb t) fi x) (fun x => pay_at2 _ (k0_off97_inb t) fi x) hfo
  · unfold linv2
    iexists _; isplitr
    rotate_left
    · isplitl [Hb2]
      · iexact Hb2
      iexists _; isplitr
      rotate_left
      · iexact Hb5
      · ipureintro; exact fun j hj => absurd hj (by omega)
    · ipureintro; exact in_ok2 m d L _ _ _ _ (fun j => rfl)
  iintro %_ HI
  unfold linv2
  icases HI with ⟨%fi23, %hfi23, Hb2, %fo23, %hfo23, Hb5⟩
  -- chunk 24: its loop over the 256 column groups
  sl_exec_parts
  sl_for (linv0 m d L 96#32 (k0_off1_inb L 24)) $$ [Hb0 Hb3]
  case region =>
    intro t _
    unfold linv0
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step0 (i0 := k0_off98_inb t) (i1 := k0_off99_inb t) (i2 := k0_off100_inb t) (i3 := k0_off101_inb t)
        (k0_off98_eq t) (k0_off99_eq t) (k0_off100_eq t) (k0_off101_eq t)
        (fun x => pay_at0 _ (k0_off98_inb t) fi x) (fun x => pay_at0 _ (k0_off99_inb t) fi x)
        (fun x => pay_at0 _ (k0_off100_inb t) fi x) (fun x => pay_at0 _ (k0_off101_inb t) fi x) hfo
  · unfold linv0
    iexists _; isplitr
    rotate_left
    · isplitl [Hb0]
      · iexact Hb0
      iexists _; isplitr
      rotate_left
      · iexact Hb3
      · ipureintro; exact fun j hj => absurd hj (by omega)
    · ipureintro; exact in_ok0 m d L _ _ _ _ (fun j => rfl)
  iintro %_ HI
  unfold linv0
  icases HI with ⟨%fi24, %hfi24, Hb0, %fo24, %hfo24, Hb3⟩
  -- chunk 25: its loop over the 256 column groups
  sl_exec_parts
  sl_for (linv1 m d L 100#32 (k0_off1_inb L 25)) $$ [Hb1 Hb4]
  case region =>
    intro t _
    unfold linv1
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step1 (i0 := k0_off102_inb t) (i1 := k0_off103_inb t) (i2 := k0_off104_inb t) (i3 := k0_off105_inb t)
        (k0_off102_eq t) (k0_off103_eq t) (k0_off104_eq t) (k0_off105_eq t)
        (fun x => pay_at1 _ (k0_off102_inb t) fi x) (fun x => pay_at1 _ (k0_off103_inb t) fi x)
        (fun x => pay_at1 _ (k0_off104_inb t) fi x) (fun x => pay_at1 _ (k0_off105_inb t) fi x) hfo
  · unfold linv1
    iexists _; isplitr
    rotate_left
    · isplitl [Hb1]
      · iexact Hb1
      iexists _; isplitr
      rotate_left
      · iexact Hb4
      · ipureintro; exact fun j hj => absurd hj (by omega)
    · ipureintro; exact in_ok1 m d L _ _ _ _ (fun j => rfl)
  iintro %_ HI
  unfold linv1
  icases HI with ⟨%fi25, %hfi25, Hb1, %fo25, %hfo25, Hb4⟩
  -- chunk 26: its loop over the 256 column groups
  sl_exec_parts
  sl_for (linv2 m d L 104#32 (k0_off1_inb L 26)) $$ [Hb2 Hb5]
  case region =>
    intro t _
    unfold linv2
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step2 (i0 := k0_off106_inb t) (i1 := k0_off107_inb t) (i2 := k0_off108_inb t) (i3 := k0_off109_inb t)
        (k0_off106_eq t) (k0_off107_eq t) (k0_off108_eq t) (k0_off109_eq t)
        (fun x => pay_at2 _ (k0_off106_inb t) fi x) (fun x => pay_at2 _ (k0_off107_inb t) fi x)
        (fun x => pay_at2 _ (k0_off108_inb t) fi x) (fun x => pay_at2 _ (k0_off109_inb t) fi x) hfo
  · unfold linv2
    iexists _; isplitr
    rotate_left
    · isplitl [Hb2]
      · iexact Hb2
      iexists _; isplitr
      rotate_left
      · iexact Hb5
      · ipureintro; exact fun j hj => absurd hj (by omega)
    · ipureintro; exact in_ok2 m d L _ _ _ _ (fun j => rfl)
  iintro %_ HI
  unfold linv2
  icases HI with ⟨%fi26, %hfi26, Hb2, %fo26, %hfo26, Hb5⟩
  -- chunk 27: its loop over the 256 column groups
  sl_exec_parts
  sl_for (linv0 m d L 108#32 (k0_off1_inb L 27)) $$ [Hb0 Hb3]
  case region =>
    intro t _
    unfold linv0
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step0 (i0 := k0_off110_inb t) (i1 := k0_off111_inb t) (i2 := k0_off112_inb t) (i3 := k0_off113_inb t)
        (k0_off110_eq t) (k0_off111_eq t) (k0_off112_eq t) (k0_off113_eq t)
        (fun x => pay_at0 _ (k0_off110_inb t) fi x) (fun x => pay_at0 _ (k0_off111_inb t) fi x)
        (fun x => pay_at0 _ (k0_off112_inb t) fi x) (fun x => pay_at0 _ (k0_off113_inb t) fi x) hfo
  · unfold linv0
    iexists _; isplitr
    rotate_left
    · isplitl [Hb0]
      · iexact Hb0
      iexists _; isplitr
      rotate_left
      · iexact Hb3
      · ipureintro; exact fun j hj => absurd hj (by omega)
    · ipureintro; exact in_ok0 m d L _ _ _ _ (fun j => rfl)
  iintro %_ HI
  unfold linv0
  icases HI with ⟨%fi27, %hfi27, Hb0, %fo27, %hfo27, Hb3⟩
  -- chunk 28: its loop over the 256 column groups
  sl_exec_parts
  sl_for (linv1 m d L 112#32 (k0_off1_inb L 28)) $$ [Hb1 Hb4]
  case region =>
    intro t _
    unfold linv1
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step1 (i0 := k0_off114_inb t) (i1 := k0_off115_inb t) (i2 := k0_off116_inb t) (i3 := k0_off117_inb t)
        (k0_off114_eq t) (k0_off115_eq t) (k0_off116_eq t) (k0_off117_eq t)
        (fun x => pay_at1 _ (k0_off114_inb t) fi x) (fun x => pay_at1 _ (k0_off115_inb t) fi x)
        (fun x => pay_at1 _ (k0_off116_inb t) fi x) (fun x => pay_at1 _ (k0_off117_inb t) fi x) hfo
  · unfold linv1
    iexists _; isplitr
    rotate_left
    · isplitl [Hb1]
      · iexact Hb1
      iexists _; isplitr
      rotate_left
      · iexact Hb4
      · ipureintro; exact fun j hj => absurd hj (by omega)
    · ipureintro; exact in_ok1 m d L _ _ _ _ (fun j => rfl)
  iintro %_ HI
  unfold linv1
  icases HI with ⟨%fi28, %hfi28, Hb1, %fo28, %hfo28, Hb4⟩
  -- chunk 29: its loop over the 256 column groups
  sl_exec_parts
  sl_for (linv2 m d L 116#32 (k0_off1_inb L 29)) $$ [Hb2 Hb5]
  case region =>
    intro t _
    unfold linv2
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step2 (i0 := k0_off118_inb t) (i1 := k0_off119_inb t) (i2 := k0_off120_inb t) (i3 := k0_off121_inb t)
        (k0_off118_eq t) (k0_off119_eq t) (k0_off120_eq t) (k0_off121_eq t)
        (fun x => pay_at2 _ (k0_off118_inb t) fi x) (fun x => pay_at2 _ (k0_off119_inb t) fi x)
        (fun x => pay_at2 _ (k0_off120_inb t) fi x) (fun x => pay_at2 _ (k0_off121_inb t) fi x) hfo
  · unfold linv2
    iexists _; isplitr
    rotate_left
    · isplitl [Hb2]
      · iexact Hb2
      iexists _; isplitr
      rotate_left
      · iexact Hb5
      · ipureintro; exact fun j hj => absurd hj (by omega)
    · ipureintro; exact in_ok2 m d L _ _ _ _ (fun j => rfl)
  iintro %_ HI
  unfold linv2
  icases HI with ⟨%fi29, %hfi29, Hb2, %fo29, %hfo29, Hb5⟩
  -- chunk 30: its loop over the 256 column groups
  sl_exec_parts
  sl_for (linv0 m d L 120#32 (k0_off1_inb L 30)) $$ [Hb0 Hb3]
  case region =>
    intro t _
    unfold linv0
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step0 (i0 := k0_off122_inb t) (i1 := k0_off123_inb t) (i2 := k0_off124_inb t) (i3 := k0_off125_inb t)
        (k0_off122_eq t) (k0_off123_eq t) (k0_off124_eq t) (k0_off125_eq t)
        (fun x => pay_at0 _ (k0_off122_inb t) fi x) (fun x => pay_at0 _ (k0_off123_inb t) fi x)
        (fun x => pay_at0 _ (k0_off124_inb t) fi x) (fun x => pay_at0 _ (k0_off125_inb t) fi x) hfo
  · unfold linv0
    iexists _; isplitr
    rotate_left
    · isplitl [Hb0]
      · iexact Hb0
      iexists _; isplitr
      rotate_left
      · iexact Hb3
      · ipureintro; exact fun j hj => absurd hj (by omega)
    · ipureintro; exact in_ok0 m d L _ _ _ _ (fun j => rfl)
  iintro %_ HI
  unfold linv0
  icases HI with ⟨%fi30, %hfi30, Hb0, %fo30, %hfo30, Hb3⟩
  -- chunk 31: its loop over the 256 column groups
  sl_exec_parts
  sl_for (linv1 m d L 124#32 (k0_off1_inb L 31)) $$ [Hb1 Hb4]
  case region =>
    intro t _
    unfold linv1
    iintro ⟨%fi, %hfi, Hi, %fo, %hfo, Ho⟩
    sl_exec
    sl_step
    iexists fi; isplitr
    · ipureintro; exact hfi
    isplitl [Hi]
    · iexact Hi
    iexists _; isplitr
    rotate_left
    · iexact Ho
    · ipureintro
      exact out_step1 (i0 := k0_off126_inb t) (i1 := k0_off127_inb t) (i2 := k0_off128_inb t) (i3 := k0_off129_inb t)
        (k0_off126_eq t) (k0_off127_eq t) (k0_off128_eq t) (k0_off129_eq t)
        (fun x => pay_at1 _ (k0_off126_inb t) fi x) (fun x => pay_at1 _ (k0_off127_inb t) fi x)
        (fun x => pay_at1 _ (k0_off128_inb t) fi x) (fun x => pay_at1 _ (k0_off129_inb t) fi x) hfo
  · unfold linv1
    iexists _; isplitr
    rotate_left
    · isplitl [Hb1]
      · iexact Hb1
      iexists _; isplitr
      rotate_left
      · iexact Hb4
      · ipureintro; exact fun j hj => absurd hj (by omega)
    · ipureintro; exact in_ok1 m d L _ _ _ _ (fun j => rfl)
  iintro %_ HI
  unfold linv1
  icases HI with ⟨%fi31, %hfi31, Hb1, %fo31, %hfo31, Hb4⟩
  -- the last waits, and what the task hands back
  sl_exec_parts
  sl_step
  isplitl [Ha0 Ha1 Ha2 Ha3 Ha4 Ha5 Ha6 Ha7 Ha8 Ha9 Ha10 Ha11 Ha12 Ha13 Ha14 Ha15 Ha16 Ha17 Ha18 Ha19 Ha20 Ha21 Ha22 Ha23 Ha24 Ha25 Ha26 Ha27 Ha28 Ha29 Ha30 Ha31 Ho0 Ho1 Ho2 Ho3 Ho4 Ho5 Ho6 Ho7 Ho8 Ho9 Ho10 Ho11 Ho12 Ho13 Ho14 Ho15 Ho16 Ho17 Ho18 Ho19 Ho20 Ho21 Ho22 Ho23 Ho24 Ho25 Ho26 Ho27 Ho28 Ho29 Ho30 Ho31]
  · isplitl [Ha0 Ha1 Ha2 Ha3 Ha4 Ha5 Ha6 Ha7 Ha8 Ha9 Ha10 Ha11 Ha12 Ha13 Ha14 Ha15 Ha16 Ha17 Ha18 Ha19 Ha20 Ha21 Ha22 Ha23 Ha24 Ha25 Ha26 Ha27 Ha28 Ha29 Ha30 Ha31]
    · skip
      isplitl [Ha0]
      · iexact Ha0
      isplitl [Ha1]
      · iexact Ha1
      isplitl [Ha2]
      · iexact Ha2
      isplitl [Ha3]
      · iexact Ha3
      isplitl [Ha4]
      · iexact Ha4
      isplitl [Ha5]
      · iexact Ha5
      isplitl [Ha6]
      · iexact Ha6
      isplitl [Ha7]
      · iexact Ha7
      isplitl [Ha8]
      · iexact Ha8
      isplitl [Ha9]
      · iexact Ha9
      isplitl [Ha10]
      · iexact Ha10
      isplitl [Ha11]
      · iexact Ha11
      isplitl [Ha12]
      · iexact Ha12
      isplitl [Ha13]
      · iexact Ha13
      isplitl [Ha14]
      · iexact Ha14
      isplitl [Ha15]
      · iexact Ha15
      isplitl [Ha16]
      · iexact Ha16
      isplitl [Ha17]
      · iexact Ha17
      isplitl [Ha18]
      · iexact Ha18
      isplitl [Ha19]
      · iexact Ha19
      isplitl [Ha20]
      · iexact Ha20
      isplitl [Ha21]
      · iexact Ha21
      isplitl [Ha22]
      · iexact Ha22
      isplitl [Ha23]
      · iexact Ha23
      isplitl [Ha24]
      · iexact Ha24
      isplitl [Ha25]
      · iexact Ha25
      isplitl [Ha26]
      · iexact Ha26
      isplitl [Ha27]
      · iexact Ha27
      isplitl [Ha28]
      · iexact Ha28
      isplitl [Ha29]
      · iexact Ha29
      isplitl [Ha30]
      · iexact Ha30
      iexact Ha31
    · skip
      isplitl [Ho0]
      · iapply (Entails.of_eq (out_piece m d L _ _ _ _ fi0 fo0 _ (by decide) (fun j => by first | rfl | exact read_s3 _ j) hfi0 hfo0)); iexact Ho0
      isplitl [Ho1]
      · iapply (Entails.of_eq (out_piece m d L _ _ _ _ fi1 fo1 _ (by decide) (fun j => by first | rfl | exact read_s4 _ j) hfi1 hfo1)); iexact Ho1
      isplitl [Ho2]
      · iapply (Entails.of_eq (out_piece m d L _ _ _ _ fi2 fo2 _ (by decide) (fun j => by first | rfl | exact read_s5 _ j) hfi2 hfo2)); iexact Ho2
      isplitl [Ho3]
      · iapply (Entails.of_eq (out_piece m d L _ _ _ _ fi3 fo3 _ (by decide) (fun j => by first | rfl | exact read_s3 _ j) hfi3 hfo3)); iexact Ho3
      isplitl [Ho4]
      · iapply (Entails.of_eq (out_piece m d L _ _ _ _ fi4 fo4 _ (by decide) (fun j => by first | rfl | exact read_s4 _ j) hfi4 hfo4)); iexact Ho4
      isplitl [Ho5]
      · iapply (Entails.of_eq (out_piece m d L _ _ _ _ fi5 fo5 _ (by decide) (fun j => by first | rfl | exact read_s5 _ j) hfi5 hfo5)); iexact Ho5
      isplitl [Ho6]
      · iapply (Entails.of_eq (out_piece m d L _ _ _ _ fi6 fo6 _ (by decide) (fun j => by first | rfl | exact read_s3 _ j) hfi6 hfo6)); iexact Ho6
      isplitl [Ho7]
      · iapply (Entails.of_eq (out_piece m d L _ _ _ _ fi7 fo7 _ (by decide) (fun j => by first | rfl | exact read_s4 _ j) hfi7 hfo7)); iexact Ho7
      isplitl [Ho8]
      · iapply (Entails.of_eq (out_piece m d L _ _ _ _ fi8 fo8 _ (by decide) (fun j => by first | rfl | exact read_s5 _ j) hfi8 hfo8)); iexact Ho8
      isplitl [Ho9]
      · iapply (Entails.of_eq (out_piece m d L _ _ _ _ fi9 fo9 _ (by decide) (fun j => by first | rfl | exact read_s3 _ j) hfi9 hfo9)); iexact Ho9
      isplitl [Ho10]
      · iapply (Entails.of_eq (out_piece m d L _ _ _ _ fi10 fo10 _ (by decide) (fun j => by first | rfl | exact read_s4 _ j) hfi10 hfo10)); iexact Ho10
      isplitl [Ho11]
      · iapply (Entails.of_eq (out_piece m d L _ _ _ _ fi11 fo11 _ (by decide) (fun j => by first | rfl | exact read_s5 _ j) hfi11 hfo11)); iexact Ho11
      isplitl [Ho12]
      · iapply (Entails.of_eq (out_piece m d L _ _ _ _ fi12 fo12 _ (by decide) (fun j => by first | rfl | exact read_s3 _ j) hfi12 hfo12)); iexact Ho12
      isplitl [Ho13]
      · iapply (Entails.of_eq (out_piece m d L _ _ _ _ fi13 fo13 _ (by decide) (fun j => by first | rfl | exact read_s4 _ j) hfi13 hfo13)); iexact Ho13
      isplitl [Ho14]
      · iapply (Entails.of_eq (out_piece m d L _ _ _ _ fi14 fo14 _ (by decide) (fun j => by first | rfl | exact read_s5 _ j) hfi14 hfo14)); iexact Ho14
      isplitl [Ho15]
      · iapply (Entails.of_eq (out_piece m d L _ _ _ _ fi15 fo15 _ (by decide) (fun j => by first | rfl | exact read_s3 _ j) hfi15 hfo15)); iexact Ho15
      isplitl [Ho16]
      · iapply (Entails.of_eq (out_piece m d L _ _ _ _ fi16 fo16 _ (by decide) (fun j => by first | rfl | exact read_s4 _ j) hfi16 hfo16)); iexact Ho16
      isplitl [Ho17]
      · iapply (Entails.of_eq (out_piece m d L _ _ _ _ fi17 fo17 _ (by decide) (fun j => by first | rfl | exact read_s5 _ j) hfi17 hfo17)); iexact Ho17
      isplitl [Ho18]
      · iapply (Entails.of_eq (out_piece m d L _ _ _ _ fi18 fo18 _ (by decide) (fun j => by first | rfl | exact read_s3 _ j) hfi18 hfo18)); iexact Ho18
      isplitl [Ho19]
      · iapply (Entails.of_eq (out_piece m d L _ _ _ _ fi19 fo19 _ (by decide) (fun j => by first | rfl | exact read_s4 _ j) hfi19 hfo19)); iexact Ho19
      isplitl [Ho20]
      · iapply (Entails.of_eq (out_piece m d L _ _ _ _ fi20 fo20 _ (by decide) (fun j => by first | rfl | exact read_s5 _ j) hfi20 hfo20)); iexact Ho20
      isplitl [Ho21]
      · iapply (Entails.of_eq (out_piece m d L _ _ _ _ fi21 fo21 _ (by decide) (fun j => by first | rfl | exact read_s3 _ j) hfi21 hfo21)); iexact Ho21
      isplitl [Ho22]
      · iapply (Entails.of_eq (out_piece m d L _ _ _ _ fi22 fo22 _ (by decide) (fun j => by first | rfl | exact read_s4 _ j) hfi22 hfo22)); iexact Ho22
      isplitl [Ho23]
      · iapply (Entails.of_eq (out_piece m d L _ _ _ _ fi23 fo23 _ (by decide) (fun j => by first | rfl | exact read_s5 _ j) hfi23 hfo23)); iexact Ho23
      isplitl [Ho24]
      · iapply (Entails.of_eq (out_piece m d L _ _ _ _ fi24 fo24 _ (by decide) (fun j => by first | rfl | exact read_s3 _ j) hfi24 hfo24)); iexact Ho24
      isplitl [Ho25]
      · iapply (Entails.of_eq (out_piece m d L _ _ _ _ fi25 fo25 _ (by decide) (fun j => by first | rfl | exact read_s4 _ j) hfi25 hfo25)); iexact Ho25
      isplitl [Ho26]
      · iapply (Entails.of_eq (out_piece m d L _ _ _ _ fi26 fo26 _ (by decide) (fun j => by first | rfl | exact read_s5 _ j) hfi26 hfo26)); iexact Ho26
      isplitl [Ho27]
      · iapply (Entails.of_eq (out_piece m d L _ _ _ _ fi27 fo27 _ (by decide) (fun j => by first | rfl | exact read_s3 _ j) hfi27 hfo27)); iexact Ho27
      isplitl [Ho28]
      · iapply (Entails.of_eq (out_piece m d L _ _ _ _ fi28 fo28 _ (by decide) (fun j => by first | rfl | exact read_s4 _ j) hfi28 hfo28)); iexact Ho28
      isplitl [Ho29]
      · iapply (Entails.of_eq (out_piece m d L _ _ _ _ fi29 fo29 _ (by decide) (fun j => by first | rfl | exact read_s5 _ j) hfi29 hfo29)); iexact Ho29
      isplitl [Ho30]
      · iapply (Entails.of_eq (out_piece m d L _ _ _ _ fi30 fo30 _ (by decide) (fun j => by first | rfl | exact read_s3 _ j) hfi30 hfo30)); iexact Ho30
      iapply (Entails.of_eq (out_piece m d L _ _ _ _ fi31 fo31 _ (by decide) (fun j => by first | rfl | exact read_s4 _ j) hfi31 hfo31)); iexact Ho31
  isplitl [Hb0 Hb1 Hb2 Hb3 Hb4 Hb5 Hbufs]
  · skip
    isplitl [Hb0]
    · iexists _; iexact Hb0
    isplitl [Hb1]
    · iexists _; iexact Hb1
    isplitl [Hb2]
    · iexists _; iexact Hb2
    isplitl [Hb3]
    · iexists _; iexact Hb3
    isplitl [Hb4]
    · iexists _; iexact Hb4
    isplitl [Hb5]
    · iexists _; iexact Hb5
    iexact Hbufs
  isplitl [Hc6 Hc7 Hc8 Hc9 Hc10 Hc11 Hsems]
  · skip
    isplitl [Hc6]
    · iexact Hc6
    isplitl [Hc7]
    · iexact Hc7
    isplitl [Hc8]
    · iexact Hc8
    isplitl [Hc9]
    · iexact Hc9
    isplitl [Hc10]
    · iexact Hc10
    isplitl [Hc11]
    · iexact Hc11
    iexact Hsems
  iexists _; isplitr
  rotate_left
  · iexact HO
  · ipureintro
    repeat' (first | exact okw_base W | refine okw_insert _ ?_)

end Tile

end Cert.Proof.KB

end
-- ==== Proof.LaunchB.lean ====
/-
  The launch: the TensorCore hands each SparseCore its subcores' rows of the argument and of the result, each subcore its 32
  chunks of four rows; the rows come back with the result's at the argument's entries kept or zeroed, and joined they are the
  whole result array. The rows of different subcores, and the chunks of one subcore, are disjoint and cover the array: chunk
  64 s + 32 c + k of the 1024 chunks is step k of subcore (c, s), and (c, s, k) ↦ 64 s + 32 c + k is a bijection.
-/
import proofs.«207063_g69217692942512_cont_9to1_m_457_27_alg».proof.Proof.TileB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "aW" => (Memref.whole Cert.Kernel.main_arg0_scv : Memref Cert.Kernel.sig Kind.scVector Space.hbm Cert.Kernel.S4096x4096 EltTy.f32)
local notation "oW" => (Memref.whole Cert.Kernel.main_v0_scv : Memref Cert.Kernel.sig Kind.scVector Space.hbm Cert.Kernel.S4096x4096 EltTy.f32)
local notation "s0W" => (Memref.whole Cert.Kernel.cc0_scratch0 : Memref Cert.Kernel.sig Kind.scVector Space.vmem Cert.Kernel.S4x4096 EltTy.f32)
local notation "s1W" => (Memref.whole Cert.Kernel.cc0_scratch1 : Memref Cert.Kernel.sig Kind.scVector Space.vmem Cert.Kernel.S4x4096 EltTy.f32)
local notation "s2W" => (Memref.whole Cert.Kernel.cc0_scratch2 : Memref Cert.Kernel.sig Kind.scVector Space.vmem Cert.Kernel.S4x4096 EltTy.f32)
local notation "s3W" => (Memref.whole Cert.Kernel.cc0_scratch3 : Memref Cert.Kernel.sig Kind.scVector Space.vmem Cert.Kernel.S4x4096 EltTy.f32)
local notation "s4W" => (Memref.whole Cert.Kernel.cc0_scratch4 : Memref Cert.Kernel.sig Kind.scVector Space.vmem Cert.Kernel.S4x4096 EltTy.f32)
local notation "s5W" => (Memref.whole Cert.Kernel.cc0_scratch5 : Memref Cert.Kernel.sig Kind.scVector Space.vmem Cert.Kernel.S4x4096 EltTy.f32)

variable [FloatOps F]

/-! ## A subcore's coordinates -/

def coordsV (c : Fin (grid0.bound 0)) (s : Fin (grid0.bound 1)) : grid0.Coords :=
  fun | 0 => c | 1 => s | ⟨_ + 2, h⟩ => absurd h (Nat.not_lt.2 (Nat.le_add_left _ _))

omit [FloatOps F] in
theorem bound_zero : grid0.bound 0 = 2 := rfl
omit [FloatOps F] in
theorem bound_one : grid0.bound 1 = 16 := rfl

/-- The coordinates of subcore `s` of SparseCore `c`. -/
def LL (c : Fin 2) (s : Fin 16) : grid0.Coords := coordsV (Fin.cast bound_zero.symm c) (Fin.cast bound_one.symm s)

/-! ## The chunks of an array under the task's memrefs are the chunks of the array -/

omit [FloatOps F] in
theorem chSet_eq (j : Fin 1024) : chSet j = (chRect j).set := by
  show ((View.whole (main_arg0_scv : Ref sig .scVector)).slice (chRect j)).set = _
  rw [View.set_slice]; exact Finset.map_refl

section Pieces
variable (d : Dev nD) (L : grid0.Coords)

omit [FloatOps F] in
theorem set_aCh (k : Fin 32) : (aCh L (BitVec.ofNat 32 (4 * k.val)) (k0_off1_inb L k)).view.set = chSet (chIx L k) := by
  show ((aW).view.slice (Rect.unit (s := S4096x4096) (k0_off1 L (BitVec.ofNat 32 (4 * k.val))) S4x4096.size (k0_off1_inb L k))).set
    = ((aW).view.slice (chRect (chIx L k))).set
  rw [unit_eq_chRect]
omit [FloatOps F] in
theorem set_oCh (k : Fin 32) : (oCh L (BitVec.ofNat 32 (4 * k.val)) (k0_off1_inb L k)).view.set = chSet (chIx L k) := by
  show ((oW).view.slice (Rect.unit (s := S4096x4096) (k0_off1 L (BitVec.ofNat 32 (4 * k.val))) S4x4096.size (k0_off1_inb L k))).set
    = ((aW).view.slice (chRect (chIx L k))).set
  rw [unit_eq_chRect]; rfl

omit [FloatOps F] in
theorem pts_aCh (k : Fin 32) (f : Buf (Elt F) (aLoc d)) :
    ((aCh L (BitVec.ofNat 32 (4 * k.val)) (k0_off1_inb L k)).view.loc (V d (cV L) (jV L)) ↦[(aCh L (BitVec.ofNat 32 (4 * k.val)) (k0_off1_inb L k)).view.set]{fullShare} f : sProp 𝕄)
      = aLoc d ↦[chSet (chIx L k)]{fullShare} f := by
  rw [set_aCh]
omit [FloatOps F] in
theorem pts_oCh (k : Fin 32) (f : Buf (Elt F) (oLoc d)) :
    ((oCh L (BitVec.ofNat 32 (4 * k.val)) (k0_off1_inb L k)).view.loc (V d (cV L) (jV L)) ↦[(oCh L (BitVec.ofNat 32 (4 * k.val)) (k0_off1_inb L k)).view.set]{fullShare} f : sProp 𝕄)
      = oLoc d ↦[chSet (chIx L k)]{fullShare} f := by
  rw [set_oCh]

omit [FloatOps F] in
theorem bigSep_fin32 (Φ : Fin 32 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) := by
  rw [show (Finset.univ : Finset (Fin 32)) = {0, 1, 2, 3, 4, 5, 6, 7, 8, 9, 10, 11, 12, 13, 14, 15, 16, 17, 18, 19, 20, 21, 22, 23, 24, 25, 26, 27, 28, 29, 30, 31} from by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide),
    bigSep_singleton]

omit [FloatOps F] in
theorem aPieces_eq (f : Buf (Elt F) (aLoc d)) :
    (aPieces d L f : sProp 𝕄) = bigSep Finset.univ fun k : Fin 32 => aLoc d ↦[chSet (chIx L k)]{fullShare} f := by
  rw [bigSep_fin32]; unfold aPieces
  exact congrArg₂ _ (pts_aCh d L 0 f) (congrArg₂ _ (pts_aCh d L 1 f) (congrArg₂ _ (pts_aCh d L 2 f) (congrArg₂ _ (pts_aCh d L 3 f) (congrArg₂ _ (pts_aCh d L 4 f) (congrArg₂ _ (pts_aCh d L 5 f) (congrArg₂ _ (pts_aCh d L 6 f) (congrArg₂ _ (pts_aCh d L 7 f) (congrArg₂ _ (pts_aCh d L 8 f) (congrArg₂ _ (pts_aCh d L 9 f) (congrArg₂ _ (pts_aCh d L 10 f) (congrArg₂ _ (pts_aCh d L 11 f) (congrArg₂ _ (pts_aCh d L 12 f) (congrArg₂ _ (pts_aCh d L 13 f) (congrArg₂ _ (pts_aCh d L 14 f) (congrArg₂ _ (pts_aCh d L 15 f) (congrArg₂ _ (pts_aCh d L 16 f) (congrArg₂ _ (pts_aCh d L 17 f) (congrArg₂ _ (pts_aCh d L 18 f) (congrArg₂ _ (pts_aCh d L 19 f) (congrArg₂ _ (pts_aCh d L 20 f) (congrArg₂ _ (pts_aCh d L 21 f) (congrArg₂ _ (pts_aCh d L 22 f) (congrArg₂ _ (pts_aCh d L 23 f) (congrArg₂ _ (pts_aCh d L 24 f) (congrArg₂ _ (pts_aCh d L 25 f) (congrArg₂ _ (pts_aCh d L 26 f) (congrArg₂ _ (pts_aCh d L 27 f) (congrArg₂ _ (pts_aCh d L 28 f) (congrArg₂ _ (pts_aCh d L 29 f) (congrArg₂ _ (pts_aCh d L 30 f) (pts_aCh d L 31 f)))))))))))))))))))))))))))))))
omit [FloatOps F] in
theorem oPieces_eq (f : Buf (Elt F) (oLoc d)) :
    (oPieces d L f : sProp 𝕄) = bigSep Finset.univ fun k : Fin 32 => oLoc d ↦[chSet (chIx L k)]{fullShare} f := by
  rw [bigSep_fin32]; unfold oPieces
  exact congrArg₂ _ (pts_oCh d L 0 f) (congrArg₂ _ (pts_oCh d L 1 f) (congrArg₂ _ (pts_oCh d L 2 f) (congrArg₂ _ (pts_oCh d L 3 f) (congrArg₂ _ (pts_oCh d L 4 f) (congrArg₂ _ (pts_oCh d L 5 f) (congrArg₂ _ (pts_oCh d L 6 f) (congrArg₂ _ (pts_oCh d L 7 f) (congrArg₂ _ (pts_oCh d L 8 f) (congrArg₂ _ (pts_oCh d L 9 f) (congrArg₂ _ (pts_oCh d L 10 f) (congrArg₂ _ (pts_oCh d L 11 f) (congrArg₂ _ (pts_oCh d L 12 f) (congrArg₂ _ (pts_oCh d L 13 f) (congrArg₂ _ (pts_oCh d L 14 f) (congrArg₂ _ (pts_oCh d L 15 f) (congrArg₂ _ (pts_oCh d L 16 f) (congrArg₂ _ (pts_oCh d L 17 f) (congrArg₂ _ (pts_oCh d L 18 f) (congrArg₂ _ (pts_oCh d L 19 f) (congrArg₂ _ (pts_oCh d L 20 f) (congrArg₂ _ (pts_oCh d L 21 f) (congrArg₂ _ (pts_oCh d L 22 f) (congrArg₂ _ (pts_oCh d L 23 f) (congrArg₂ _ (pts_oCh d L 24 f) (congrArg₂ _ (pts_oCh d L 25 f) (congrArg₂ _ (pts_oCh d L 26 f) (congrArg₂ _ (pts_oCh d L 27 f) (congrArg₂ _ (pts_oCh d L 28 f) (congrArg₂ _ (pts_oCh d L 29 f) (congrArg₂ _ (pts_oCh d L 30 f) (pts_oCh d L 31 f)))))))))))))))))))))))))))))))

instance aPieces_storable (f : Buf (Elt F) (aLoc d)) : BI.Storable (upEmb : UEmb _ 𝕄) (aPieces d L f) := by
  rw [aPieces_eq]; infer_instance
instance oPieces_storable (f : Buf (Elt F) (oLoc d)) : BI.Storable (upEmb : UEmb _ 𝕄) (oPieces d L f) := by
  rw [oPieces_eq]; infer_instance

end Pieces

/-! ## The 1024 chunks dealt to cores, subcores and steps -/

/-- Step `k` of subcore `s` of core `c` is chunk 64 s + 32 c + k. -/
def tix (t : Fin 2 × Fin 16 × Fin 32) : Fin 1024 := chIx (LL t.1 t.2.1) t.2.2

omit [FloatOps F] in
theorem tix_val (t : Fin 2 × Fin 16 × Fin 32) : (tix t).val = 64 * t.2.1.val + 32 * t.1.val + t.2.2.val := rfl

omit [FloatOps F] in
theorem tix_inj : Function.Injective tix := by
  intro t t' e
  have h := congrArg Fin.val e
  rw [tix_val, tix_val] at h
  obtain ⟨c, s, k⟩ := t; obtain ⟨c', s', k'⟩ := t'
  have := c.isLt; have := c'.isLt; have := s.isLt; have := s'.isLt; have := k.isLt; have := k'.isLt
  simp only at h
  have h1 : c.val = c'.val := by omega
  have h2 : s.val = s'.val := by omega
  have h3 : k.val = k'.val := by omega
  exact Prod.ext (Fin.ext h1) (Prod.ext (Fin.ext h2) (Fin.ext h3))

omit [FloatOps F] in
theorem tsets_disjoint : ∀ t ∈ (Finset.univ : Finset (Fin 2 × Fin 16 × Fin 32)), ∀ t' ∈ (Finset.univ : Finset (Fin 2 × Fin 16 × Fin 32)),
    t ≠ t' → Disjoint (chSet (tix t)) (chSet (tix t')) :=
  fun t _ t' _ h => by rw [chSet_eq, chSet_eq]; exact Rect.part_disjoint h1024 fun e => h (tix_inj e)

omit [FloatOps F] in
theorem tsets_cover : (Finset.univ : Finset (Fin 2 × Fin 16 × Fin 32)).biUnion (fun t => chSet (tix t)) = Finset.univ := by
  ext x
  simp only [Finset.mem_biUnion, Finset.mem_univ, true_and, iff_true]
  obtain ⟨j, hj⟩ := Rect.exists_mem_part h1024 x
  have hjlt := j.isLt
  refine ⟨(⟨(j.val / 32) % 2, by omega⟩, ⟨j.val / 64, by omega⟩, ⟨j.val % 32, by omega⟩), ?_⟩
  rw [chSet_eq]
  have e : tix (⟨(j.val / 32) % 2, by omega⟩, ⟨j.val / 64, by omega⟩, ⟨j.val % 32, by omega⟩) = j := by
    apply Fin.ext; rw [tix_val]; simp only; omega
  rw [e]; exact hj

omit [FloatOps F] in
theorem aWhole (d : Dev nD) (f : Buf (Elt F) (aLoc d)) :
    (aLoc d ↦{fullShare} f : sProp 𝕄)
      = bigSep Finset.univ fun c : Fin 2 => bigSep Finset.univ fun s : Fin 16 => bigSep Finset.univ fun k : Fin 32 => aLoc d ↦[chSet (chIx (LL c s) k)]{fullShare} f := by
  have h : (aLoc d ↦{fullShare} f : sProp 𝕄) = bigSep Finset.univ fun t : Fin 2 × Fin 16 × Fin 32 => aLoc d ↦[chSet (tix t)]{fullShare} f := by
    rw [← pointsTo_biUnion Finset.univ (ℓ := aLoc d) (fun t => chSet (tix t)) tsets_disjoint, tsets_cover]; try rfl
  rw [h, bigSep_univ_prod]
  refine bigSep_congr fun c _ => ?_
  rw [bigSep_univ_prod]
  rfl
omit [FloatOps F] in
theorem oWhole (d : Dev nD) (f : Buf (Elt F) (oLoc d)) :
    (oLoc d ↦{fullShare} f : sProp 𝕄)
      = bigSep Finset.univ fun c : Fin 2 => bigSep Finset.univ fun s : Fin 16 => bigSep Finset.univ fun k : Fin 32 => oLoc d ↦[chSet (chIx (LL c s) k)]{fullShare} f := by
  have h : (oLoc d ↦{fullShare} f : sProp 𝕄) = bigSep Finset.univ fun t : Fin 2 × Fin 16 × Fin 32 => oLoc d ↦[chSet (tix t)]{fullShare} f := by
    rw [← pointsTo_biUnion Finset.univ (ℓ := oLoc d) (fun t => chSet (tix t)) tsets_disjoint, tsets_cover]; try rfl
  rw [h, bigSep_univ_prod]
  refine bigSep_congr fun c _ => ?_
  rw [bigSep_univ_prod]
  rfl

/-! ## What the handshakes carry -/

/-- A subcore's rows of the two arrays: the argument's at the launch contents, the result's at `g`. -/
def rowsOf (d : Dev nD) (c : Fin 2) (s : Fin 16) (g : Buf (Elt F) (oLoc d)) : sProp 𝕄 :=
  iprop(aPieces d (LL c s) (m (aLoc d)) ∗ oPieces d (LL c s) g)

theorem rowsOf_eq (d : Dev nD) (c : Fin 2) (s : Fin 16) (g : Buf (Elt F) (oLoc d)) :
    rowsOf m d c s g = iprop(aPieces d (LL c s) (m (aLoc d)) ∗ oPieces d (LL c s) g) := rfl

instance rowsOf_storable (d : Dev nD) (c : Fin 2) (s : Fin 16) (g : Buf (Elt F) (oLoc d)) : BI.Storable (upEmb : UEmb _ 𝕄) (rowsOf m d c s g) := by
  rw [rowsOf_eq]; infer_instance

/-- A SparseCore's share: the rows of its sixteen subcores. -/
def coreRows (d : Dev nD) (c : Fin 2) (g : Buf (Elt F) (oLoc d)) : sProp 𝕄 :=
  bigSep Finset.univ fun s : Fin 16 => rowsOf m d c s g

theorem coreRows_eq (d : Dev nD) (c : Fin 2) (g : Buf (Elt F) (oLoc d)) :
    coreRows m d c g = bigSep Finset.univ fun s : Fin 16 => rowsOf m d c s g := rfl

instance coreRows_storable (d : Dev nD) (c : Fin 2) (g : Buf (Elt F) (oLoc d)) : BI.Storable (upEmb : UEmb _ 𝕄) (coreRows m d c g) := by
  rw [coreRows_eq]; infer_instance

omit [FloatOps F] in
theorem core_lt (q : Fin 1) (c : Fin ((K (F := F)).nCore q)) : c.val < 2 := match q, c with | 0, c => c.isLt
omit [FloatOps F] in
theorem sub_lt (q : Fin 1) (i : Fin ((K (F := F)).nSub q)) : i.val < 16 := match q, i with | 0, i => i.isLt
/-- A call's core and task numbers, as a core of the two and a subcore of the sixteen. -/
abbrev cF (q : Fin 1) (c : Fin ((K (F := F)).nCore q)) : Fin 2 := ⟨c.val, core_lt q c⟩
abbrev sF (q : Fin 1) (i : Fin ((K (F := F)).nSub q)) : Fin 16 := ⟨i.val, sub_lt q i⟩

/-- The one call takes the two arrays whole, cut by rows; each task takes its rows and brings them back, the result's at the
    argument's entries kept or zeroed. -/
def P : (K (F := F)).Pay (nD := nD) (Val := Elt F) (Name := ℕ) (U := UU) where
  st := fun q d c => coreRows m d (cF q c) (m (oLoc d))
  dn := fun q d c => coreRows m d (cF q c) (Gm m d)
  go := fun q d c i => rowsOf m d (cF q c) (sF q i) (m (oLoc d))
  td := fun q d c i => rowsOf m d (cF q c) (sF q i) (Gm m d)
  x := fun _ _ => iprop(emp)

theorem P_st (q : Fin 1) (d : Dev nD) (c : Fin ((K (F := F)).nCore q)) :
    (P m).st q d c = coreRows m d (cF q c) (m (oLoc d)) := rfl
theorem P_dn (q : Fin 1) (d : Dev nD) (c : Fin ((K (F := F)).nCore q)) :
    (P m).dn q d c = coreRows m d (cF q c) (Gm m d) := rfl
theorem P_go (q : Fin 1) (d : Dev nD) (c : Fin ((K (F := F)).nCore q)) (i : Fin ((K (F := F)).nSub q)) :
    (P m).go q d c i = rowsOf m d (cF q c) (sF q i) (m (oLoc d)) := rfl
theorem P_td (q : Fin 1) (d : Dev nD) (c : Fin ((K (F := F)).nCore q)) (i : Fin ((K (F := F)).nSub q)) :
    (P m).td q d c i = rowsOf m d (cF q c) (sF q i) (Gm m d) := rfl

instance P_storable : (P (F := F) m).IsStorable where
  st q d c := (inferInstance : BI.Storable (upEmb : UEmb _ 𝕄) (coreRows m d (cF q c) (m (oLoc d))))
  dn q d c := (inferInstance : BI.Storable (upEmb : UEmb _ 𝕄) (coreRows m d (cF q c) (Gm m d)))
  go q d c i := (inferInstance : BI.Storable (upEmb : UEmb _ 𝕄) (rowsOf m d (cF q c) (sF q i) (m (oLoc d))))
  td q d c i := (inferInstance : BI.Storable (upEmb : UEmb _ 𝕄) (rowsOf m d (cF q c) (sF q i) (Gm m d)))

omit [FloatOps F] in
/-- A family over the call's tasks is the family over the sixteen subcores. -/
theorem bigSep_tasks (Φ : Fin 16 → sProp 𝕄) :
    (bigSep Finset.univ fun i : Fin ((K (F := F)).nSub 0) => Φ (sF 0 i)) = bigSep Finset.univ Φ :=
  bigSep_congr fun _ _ => congrArg Φ (Fin.ext rfl)
omit [FloatOps F] in
/-- A family over the call's SparseCores is the family over the two cores. -/
theorem bigSep_cores (Φ : Fin 2 → sProp 𝕄) :
    (bigSep Finset.univ fun c : Fin ((K (F := F)).nCore 0) => Φ (cF 0 c)) = bigSep Finset.univ Φ :=
  bigSep_congr fun _ _ => congrArg Φ (Fin.ext rfl)

/-! ## The launch theorem's obligations -/

theorem defs₀_vector (c : Fin τ.nSC) (s : Fin τ.nSub) :
    defs₀ (F := F) (.scVector c s) 0 ()
      = SparseCore.onTile hcore0 hsub0 (fun c s => cc0__sc_mask (coordsV c s)
          aW (Memref.isWhole_whole _) oW (Memref.isWhole_whole _)
          s0W (Memref.isWhole_whole _) s1W (Memref.isWhole_whole _) s2W (Memref.isWhole_whole _)
          s3W (Memref.isWhole_whole _) s4W (Memref.isWhole_whole _) s5W (Memref.isWhole_whole _)
          cc0_scratch6 cc0_scratch7 cc0_scratch8 cc0_scratch9 cc0_scratch10 cc0_scratch11) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

theorem vecSplit : (K (F := F)).VecSplit' (P m) 0 := by
  intro d c
  show (P m).st 0 d c ⊢ |={Set.univ}=> iprop(
      (bigSep Finset.univ fun i : Fin ((K (F := F)).nSub 0) => (P m).go 0 d c i)
      ∗ ((bigSep Finset.univ fun i : Fin ((K (F := F)).nSub 0) => (P m).td 0 d c i) -∗ (P m).dn 0 d c))
  simp only [P_st, P_dn, P_go, P_td, coreRows_eq]
  rw [bigSep_tasks (F := F) (fun s => rowsOf m d (cF 0 c) s (m (oLoc d))),
    bigSep_tasks (F := F) (fun s => rowsOf m d (cF 0 c) s (Gm m d))]
  iintro H; imodintro
  isplitl [H]; · iexact H
  iintro H'; iexact H'

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- Both arrays whole are every subcore's rows of both. -/
theorem arrays_rows (d : Dev nD) (g : Buf (Elt F) (oLoc d)) :
    (bigSep Finset.univ fun c : Fin 2 => bigSep Finset.univ fun s : Fin 16 => rowsOf m d c s g)
      = iprop((aLoc d ↦{fullShare} m (aLoc d)) ∗ oLoc d ↦{fullShare} g) := by
  simp only [rowsOf_eq, aPieces_eq, oPieces_eq, bigSep_sep']
  rw [← aWhole, ← oWhole]

theorem st0_eq (d : Dev nD) : (bigSep Finset.univ fun c : Fin ((K (F := F)).nCore 0) => (P m).st 0 d c)
    = iprop((aLoc d ↦{fullShare} m (aLoc d)) ∗ oLoc d ↦{fullShare} m (oLoc d)) := by
  simp only [P_st]
  rw [bigSep_cores (F := F) (fun c => coreRows m d c (m (oLoc d)))]
  simp only [coreRows_eq]
  rw [arrays_rows]
theorem dn0_eq (d : Dev nD) : (bigSep Finset.univ fun c : Fin ((K (F := F)).nCore 0) => (P m).dn 0 d c)
    = iprop((aLoc d ↦{fullShare} m (aLoc d)) ∗ oLoc d ↦{fullShare} Gm m d) := by
  simp only [P_dn]
  rw [bigSep_cores (F := F) (fun c => coreRows m d c (Gm m d))]
  simp only [coreRows_eq]
  rw [arrays_rows]

/-- What @main leaves the claim: the argument at its launch contents, the result at the argument's entries kept or zeroed. -/
abbrev FIN (d : Dev nD) : sProp 𝕄 := iprop((aLoc d ↦{fullShare} m (aLoc d)) ∗ oLoc d ↦{fullShare} Gm m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Ho⟩, -, -⟩, -⟩
  iapply ((K (F := F)).wp_run (D (F := F)) 𝒱 (EH := EH) (P := P m) κ d 0) $$ [Hst Ha Ho]
  isplitr; · iexact Hctx
  isplitl [Hst]; · iexact Hst
  isplitl [Ha Ho]
  · rw [st0_eq]
    isplitl [Ha]; · iexact Ha
    iexact Ho
  iintro ⟨Hst, Hdn⟩
  ihave Hdn' := (Entails.of_eq (dn0_eq m d)) $$ Hdn
  icases Hdn' with ⟨Ha, Ho⟩
  imodintro
  isplitl [Hst]; · iexact Hst
  isplitl [Ha]; · iexact Ha
  iexact Ho

def fq (d : Dev nD) (s' : Phys nD τ sig (Elt F)) : Prop := s'.mem.mem (oLoc d) = Gm m d ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := oLoc d) (I := Finset.univ) (q := fullShare) (f := Gm m d)) $$ [HSI Ho]
  · isplitl [HSI] <;> iassumption
  icases H with %h2
  ipureintro; exact ⟨funext fun i => h2 i (Finset.mem_univ i), funext fun i => h1 i (Finset.mem_univ i)⟩

/-! ## The program's run -/

def QC : PUnit × MemSt nD τ sig (Elt F) → Prop := fun r => ∀ c : Dev nD, r.2.mem (oLoc c) = Gm m c ∧ r.2.mem (aLoc c) = m (aLoc c)

/-- Every weakly fair execution of the device's threads ends, nothing faulting, with the result array at the argument's
    entries kept or zeroed and the argument unchanged. -/
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.RefValue.lean ====
/-
  The reference program's result at the extended reals: the argument times the bit of the comparison with one half, entry by
  entry, which is the argument with every entry at most one half replaced by zero (the product with a bit that is one
  exactly above one half: x · 1 = x, x · 0 = 0).
-/
import proofs.«207063_g69217692942512_cont_9to1_m_457_27_alg».proof.Defs
import proofs.«207063_g69217692942512_cont_9to1_m_457_27_alg».proof.Proof.Gen.ReferenceIdeal.Read
import proofs.«207063_g69217692942512_cont_9to1_m_457_27_alg».proof.Proof.Spec

noncomputable section

namespace Cert.ReferenceIdeal.RefValue

open Cert.ReferenceIdeal Cert.ReferenceIdeal.Gen Idealize.ShloMosaic Idealize.ShloMosaic.TcCoe Idealize.SL.Sem

/-- The reference run's result term is, entry by entry, the argument's entry kept if above one half and zero otherwise. -/
theorem result_eq (x : FVec Ideal S4096x4096 .f32) :
    mulf x (uitofp (F := Ideal) .f32 (cmpf .ogt x (broadcastInDim S4096x4096 ![] bcast_S_S4096x4096 (constant (F := Ideal) S_ .f32 0x3F000000#32))))
      = fun i => Cert.Spec.keep (F := Ideal) (x i) := by
  rw [Cert.ReferenceIdeal.Read.val_main_v3_eq]
  funext i
  rw [Cert.ReferenceIdeal.Read.val_main_v3_apply, Cert.ReferenceIdeal.Read.val_main_v2_apply, Cert.ReferenceIdeal.Read.val_main_v1_apply,
    Cert.ReferenceIdeal.Read.val_main_v0_apply, Cert.ReferenceIdeal.Read.val_main_cst_apply]
  exact Cert.Spec.keepMul_eq_keep (x i)

end Cert.ReferenceIdeal.RefValue

end
-- ==== Proof.lean ====
/-
  The claim: a SparseCore kernel that copies the 4096 × 4096 argument to the result four rows at a time, replacing every entry
  at most one half by zero on the way, against the reference that multiplies the argument by the bit of its comparison with
  one half. Each of the 32 vector subcores handles 128 rows; the rows are disjoint, so the subcores' results join to the
  whole array. The two kernel programs (the printed one and its idealization) run to the end, fault nowhere, leave the
  argument unchanged and the result at the argument's entries kept or zeroed; the reference's run is its operations' term;
  the ideal pass rewrote nothing; and at the extended reals the two results are one function of the argument, entry by entry.
-/
import proofs.«207063_g69217692942512_cont_9to1_m_457_27_alg».proof.Defs
import proofs.«207063_g69217692942512_cont_9to1_m_457_27_alg».proof.Proof.Gen.Kernel
import proofs.«207063_g69217692942512_cont_9to1_m_457_27_alg».proof.Proof.Gen.Kernel.Skeleton
import proofs.«207063_g69217692942512_cont_9to1_m_457_27_alg».proof.Proof.Gen.KernelIdeal
import proofs.«207063_g69217692942512_cont_9to1_m_457_27_alg».proof.Proof.Gen.KernelIdeal.Skeleton
import proofs.«207063_g69217692942512_cont_9to1_m_457_27_alg».proof.Proof.Gen.ReferenceIdeal
import proofs.«207063_g69217692942512_cont_9to1_m_457_27_alg».proof.Proof.Gen.ReferenceIdeal.Run
import proofs.«207063_g69217692942512_cont_9to1_m_457_27_alg».proof.Proof.Gen.Pre_finite_inputs
import proofs.«207063_g69217692942512_cont_9to1_m_457_27_alg».proof.Proof.LaunchI
import proofs.«207063_g69217692942512_cont_9to1_m_457_27_alg».proof.Proof.LaunchB
import proofs.«207063_g69217692942512_cont_9to1_m_457_27_alg».proof.Proof.RefValue
import Idealize.ShloMosaic.Adequacy
import Idealize.ShloMosaic.Init

noncomputable section

namespace Cert.Proof

open Idealize.ShloMosaic Idealize.SL.Sem

namespace Claims

variable [Cert.Kernel.Facts] [Cert.KernelIdeal.Facts] [Cert.ReferenceIdeal.Facts] [Cert.Pre_finite_inputs.Facts]

/-- The printed kernel runs and leaves its argument unchanged: its run with the result's value dropped. -/
theorem frame_p : Cert.frame_Kernel (hKernel := Cert.Kernel.Gen.facts) (hPre_finite_inputs := Cert.Pre_finite_inputs.Gen.facts) := fun m ρ _ =>
  (θ_run Cert.Kernel.defs _ _).mono (fun _ h c => (h c).2) (Cert.Proof.KB.run_main (F := Bits) m ρ)

/-- The idealized kernel, likewise. -/
theorem frame_pi : Cert.frame_KernelIdeal (hKernelIdeal := Cert.KernelIdeal.Gen.facts) (hPre_finite_inputs := Cert.Pre_finite_inputs.Gen.facts) := fun m ρ _ =>
  (θ_run Cert.KernelIdeal.defs _ _).mono (fun _ h c => (h c).2) (Cert.Proof.KI.run_main (F := Ideal) m ρ)

/-- The reference runs and leaves its argument unchanged: its run with the result dropped. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the argument both idealized programs end with the argument's entries kept or zeroed. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.Proof.KI.Gm m c, Cert.Proof.KI.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]
  exact Cert.ReferenceIdeal.RefValue.result_eq _

end Claims

theorem claim : Cert.Claim := ⟨Cert.Kernel.Gen.facts, Cert.KernelIdeal.Gen.facts, Cert.ReferenceIdeal.Gen.facts, Cert.Pre_finite_inputs.Gen.facts,
  Claims.frame_p, Claims.frame_pi, Claims.frame_ri, Claims.preserves, Claims.algebraic⟩

end Cert.Proof

end
